-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v700)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v700) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v745) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512x2 : Shape := ⟨4, ![4, 512, 512, 2]⟩
abbrev S4x512x512 : Shape := ⟨3, ![4, 512, 512]⟩
abbrev S16x1024x1024 : Shape := ⟨3, ![16, 1024, 1024]⟩
abbrev S16x512x512 : Shape := ⟨3, ![16, 512, 512]⟩
abbrev S16x256x256 : Shape := ⟨3, ![16, 256, 256]⟩
abbrev S16x128x128 : Shape := ⟨3, ![16, 128, 128]⟩
abbrev S_ : Shape := ⟨0, ![]⟩

class Facts : Prop where
  bcast_S_S4x512x512x2 : S_.BroadcastsInDim S4x512x512x2 (![] : Fin 0 → Fin S4x512x512x2.rank)
  reducesTo_S4x512x512x2_S_d0_1_2_3 : S4x512x512x2.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x512x512 : S_.BroadcastsInDim S16x512x512 (![] : Fin 0 → Fin S16x512x512.rank)
  reducesTo_S16x512x512_S_d0_1_2 : S16x512x512.ReducesTo [0, 1, 2] S_
  bcast_S_S16x256x256 : S_.BroadcastsInDim S16x256x256 (![] : Fin 0 → Fin S16x256x256.rank)
  reducesTo_S16x256x256_S_d0_1_2 : S16x256x256.ReducesTo [0, 1, 2] S_
  bcast_S_S16x128x128 : S_.BroadcastsInDim S16x128x128 (![] : Fin 0 → Fin S16x128x128.rank)
  reducesTo_S16x128x128_S_d0_1_2 : S16x128x128.ReducesTo [0, 1, 2] S_

variable [Facts]

def fn_part1 {F : FTy → Type} [FloatOps F] (main_arg4 : FVec F S16x256x256 .f32) (main_arg5 : FVec F S16x128x128 .f32) (main_v13 : IVec S_ 1) (main_v16 : IVec S16x512x512 1) : IVec S_ 1 :=
  let main_c_5 : IVec S_ 1 := constantI S_ 1 1#1
  let main_v17 : IVec S_ 1 := (fun x v => Host.reduce IntOp.andi x v reducesTo_S16x512x512_S_d0_1_2 h_S_) main_v16 main_c_5
  let main_v18 : IVec S_ 1 := andi main_v13 main_v17
  let main_v19 : FVec F S16x256x256 .f32 := Host.absf main_arg4
  let main_cst_6 : FVec F S_ .f32 := constant S_ .f32 0x7F800000#32
  let main_v20 : FVec F S16x256x256 .f32 := broadcastInDim S16x256x256 ![] bcast_S_S16x256x256 main_cst_6
  let main_v21 : IVec S16x256x256 1 := cmpf .olt main_v19 main_v20
  let main_c_7 : IVec S_ 1 := constantI S_ 1 1#1
  let main_v22 : IVec S_ 1 := (fun x v => Host.reduce IntOp.andi x v reducesTo_S16x256x256_S_d0_1_2 h_S_) main_v21 main_c_7
  let main_v23 : IVec S_ 1 := andi main_v18 main_v22
  let main_v24 : FVec F S16x128x128 .f32 := Host.absf main_arg5
  let main_cst_8 : FVec F S_ .f32 := constant S_ .f32 0x7F800000#32
  let main_v25 : FVec F S16x128x128 .f32 := broadcastInDim S16x128x128 ![] bcast_S_S16x128x128 main_cst_8
  let main_v26 : IVec S16x128x128 1 := cmpf .olt main_v24 main_v25
  let main_c_9 : IVec S_ 1 := constantI S_ 1 1#1
  let main_v27 : IVec S_ 1 := (fun x v => Host.reduce IntOp.andi x v reducesTo_S16x128x128_S_d0_1_2 h_S_) main_v26 main_c_9
  let main_v28 : IVec S_ 1 := andi main_v23 main_v27
  main_v28

def fn {F : FTy → Type} [FloatOps F] (main_arg0 : FVec F S4x512x512x2 .f32) (main_arg1 : FVec F S4x512x512 .f32) (main_arg2 : FVec F S16x1024x1024 .f32) (main_arg3 : FVec F S16x512x512 .f32) (main_arg4 : FVec F S16x256x256 .f32) (main_arg5 : FVec F S16x128x128 .f32) : IVec S_ 1 :=
  let main_v0 : FVec F S4x512x512x2 .f32 := Host.absf main_arg0
  let main_cst : FVec F S_ .f32 := constant S_ .f32 0x7F800000#32
  let main_v1 : FVec F S4x512x512x2 .f32 := broadcastInDim S4x512x512x2 ![] bcast_S_S4x512x512x2 main_cst
  let main_v2 : IVec S4x512x512x2 1 := cmpf .olt main_v0 main_v1
  let main_c : IVec S_ 1 := constantI S_ 1 1#1
  let main_v3 : IVec S_ 1 := (fun x v => Host.reduce IntOp.andi x v reducesTo_S4x512x512x2_S_d0_1_2_3 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x512x512 .f32 := Host.absf main_arg3
  let main_cst_4 : FVec F S_ .f32 := constant S_ .f32 0x7F800000#32
  let main_v15 : FVec F S16x512x512 .f32 := broadcastInDim S16x512x512 ![] bcast_S_S16x512x512 main_cst_4
  let main_v16 : IVec S16x512x512 1 := cmpf .olt main_v14 main_v15
  fn_part1 (F := F) main_arg4 main_arg5 main_v13 main_v16
-- ==== Kernel.lean ====
abbrev S4x512x512x2 : Shape := ⟨4, ![4, 512, 512, 2]⟩
abbrev S4x512x512 : Shape := ⟨3, ![4, 512, 512]⟩
abbrev S16x1024x1024 : Shape := ⟨3, ![16, 1024, 1024]⟩
abbrev S16x512x512 : Shape := ⟨3, ![16, 512, 512]⟩
abbrev S16x256x256 : Shape := ⟨3, ![16, 256, 256]⟩
abbrev S16x128x128 : Shape := ⟨3, ![16, 128, 128]⟩
abbrev S_ : Shape := ⟨0, ![]⟩
abbrev S4x512x512x1 : Shape := ⟨4, ![4, 512, 512, 1]⟩
abbrev S1024x1024x16 : Shape := ⟨3, ![1024, 1024, 16]⟩
abbrev S4x512x512x16 : Shape := ⟨4, ![4, 512, 512, 16]⟩
abbrev S4x16x512x512 : Shape := ⟨4, ![4, 16, 512, 512]⟩
abbrev S512x512x16 : Shape := ⟨3, ![512, 512, 16]⟩
abbrev S256x256x16 : Shape := ⟨3, ![256, 256, 16]⟩
abbrev S128x128x16 : Shape := ⟨3, ![128, 128, 16]⟩
abbrev S4x16x16x512 : Shape := ⟨4, ![4, 16, 16, 512]⟩
abbrev S4x16x512 : Shape := ⟨3, ![4, 16, 512]⟩
abbrev S4x1x16x512 : Shape := ⟨4, ![4, 1, 16, 512]⟩

abbrev nBuf : Space → Nat
  | .hbm => 1109
  | .vmem => 12
  | .smem => 0
  | _ => 0

abbrev hbmTy0_0 (i : Nat) : BufTy := match i % 128 with
  | 0 => ⟨S4x512x512x2, .f32⟩
  | 1 => ⟨S4x512x512, .f32⟩
  | 2 => ⟨S16x1024x1024, .f32⟩
  | 3 => ⟨S16x512x512, .f32⟩
  | 4 => ⟨S16x256x256, .f32⟩
  | 5 => ⟨S16x128x128, .f32⟩
  | 6 => ⟨S_, .f32⟩
  | 7 => ⟨S4x512x512x2, .f32⟩
  | 8 => ⟨S4x512x512x2, .f32⟩
  | 9 => ⟨S_, .f32⟩
  | 10 => ⟨S4x512x512x2, .f32⟩
  | 11 => ⟨S4x512x512x2, .f32⟩
  | 12 => ⟨S4x512x512x1, .f32⟩
  | 13 => ⟨S4x512x512, .f32⟩
  | 14 => ⟨S4x512x512x1, .f32⟩
  | 15 => ⟨S4x512x512, .f32⟩
  | 16 => ⟨S1024x1024x16, .f32⟩
  | 17 => ⟨S_, .f32⟩
  | 18 => ⟨S4x512x512, .f32⟩
  | 19 => ⟨S4x512x512, .f32⟩
  | 20 => ⟨S_, .f32⟩
  | 21 => ⟨S4x512x512, .f32⟩
  | 22 => ⟨S4x512x512, .f32⟩
  | 23 => ⟨S_, .f32⟩
  | 24 => ⟨S4x512x512, .f32⟩
  | 25 => ⟨S4x512x512, .f32⟩
  | 26 => ⟨S_, .f32⟩
  | 27 => ⟨S4x512x512, .f32⟩
  | 28 => ⟨S4x512x512, .f32⟩
  | 29 => ⟨S_, .f32⟩
  | 30 => ⟨S4x512x512, .f32⟩
  | 31 => ⟨S4x512x512, .f32⟩
  | 32 => ⟨S_, .f32⟩
  | 33 => ⟨S4x512x512, .f32⟩
  | 34 => ⟨S4x512x512, .f32⟩
  | 35 => ⟨S4x512x512, .f32⟩
  | 36 => ⟨S4x512x512, .f32⟩
  | 37 => ⟨S4x512x512, .f32⟩
  | 38 => ⟨S4x512x512, .f32⟩
  | 39 => ⟨S_, .f32⟩
  | 40 => ⟨S4x512x512, .f32⟩
  | 41 => ⟨S4x512x512, .f32⟩
  | 42 => ⟨S_, .f32⟩
  | 43 => ⟨S4x512x512, .f32⟩
  | 44 => ⟨S4x512x512, .f32⟩
  | 45 => ⟨S4x512x512, .f32⟩
  | 46 => ⟨S_, .f32⟩
  | 47 => ⟨S4x512x512, .f32⟩
  | 48 => ⟨S4x512x512, .i1⟩
  | 49 => ⟨S_, .f32⟩
  | 50 => ⟨S4x512x512, .f32⟩
  | 51 => ⟨S4x512x512, .i1⟩
  | 52 => ⟨S4x512x512, .i1⟩
  | 53 => ⟨S_, .f32⟩
  | 54 => ⟨S4x512x512, .f32⟩
  | 55 => ⟨S4x512x512, .i1⟩
  | 56 => ⟨S4x512x512, .i1⟩
  | 57 => ⟨S_, .f32⟩
  | 58 => ⟨S4x512x512, .f32⟩
  | 59 => ⟨S4x512x512, .i1⟩
  | 60 => ⟨S4x512x512, .i1⟩
  | 61 => ⟨S_, .i32⟩
  | 62 => ⟨S_, .i32⟩
  | 63 => ⟨S_, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S4x512x512, .i32⟩
  | 70 => ⟨S_, .i32⟩
  | 71 => ⟨S_, .i32⟩
  | 72 => ⟨S_, .f32⟩
  | 73 => ⟨S4x512x512, .f32⟩
  | 74 => ⟨S4x512x512, .f32⟩
  | 75 => ⟨S_, .f32⟩
  | 76 => ⟨S4x512x512, .f32⟩
  | 77 => ⟨S4x512x512, .f32⟩
  | 78 => ⟨S4x512x512, .i32⟩
  | 79 => ⟨S_, .i32⟩
  | 80 => ⟨S4x512x512, .i32⟩
  | 81 => ⟨S4x512x512, .i1⟩
  | 82 => ⟨S_, .i32⟩
  | 83 => ⟨S4x512x512, .i32⟩
  | 84 => ⟨S4x512x512, .i32⟩
  | 85 => ⟨S4x512x512, .i32⟩
  | 86 => ⟨S_, .i32⟩
  | 87 => ⟨S4x512x512, .i32⟩
  | 88 => ⟨S4x512x512, .i1⟩
  | 89 => ⟨S_, .i32⟩
  | 90 => ⟨S4x512x512, .i32⟩
  | 91 => ⟨S4x512x512, .i32⟩
  | 92 => ⟨S4x512x512, .i32⟩
  | 93 => ⟨S4x512x512x1, .i32⟩
  | 94 => ⟨S4x512x512x1, .i32⟩
  | 95 => ⟨S4x512x512x2, .i32⟩
  | 96 => ⟨S4x512x512x16, .f32⟩
  | 97 => ⟨S4x512x512, .f32⟩
  | 98 => ⟨S4x512x512, .f32⟩
  | 99 => ⟨S4x512x512x1, .f32⟩
  | 100 => ⟨S4x512x512x16, .f32⟩
  | 101 => ⟨S4x512x512x16, .f32⟩
  | 102 => ⟨S_, .f32⟩
  | 103 => ⟨S4x512x512, .f32⟩
  | 104 => ⟨S4x512x512, .f32⟩
  | 105 => ⟨S4x512x512, .f32⟩
  | 106 => ⟨S_, .f32⟩
  | 107 => ⟨S4x512x512, .f32⟩
  | 108 => ⟨S4x512x512, .i1⟩
  | 109 => ⟨S_, .f32⟩
  | 110 => ⟨S4x512x512, .f32⟩
  | 111 => ⟨S4x512x512, .i1⟩
  | 112 => ⟨S4x512x512, .i1⟩
  | 113 => ⟨S_, .f32⟩
  | 114 => ⟨S4x512x512, .f32⟩
  | 115 => ⟨S4x512x512, .i1⟩
  | 116 => ⟨S4x512x512, .i1⟩
  | 117 => ⟨S_, .f32⟩
  | 118 => ⟨S4x512x512, .f32⟩
  | 119 => ⟨S4x512x512, .i1⟩
  | 120 => ⟨S4x512x512, .i1⟩
  | 121 => ⟨S_, .i32⟩
  | 122 => ⟨S_, .i32⟩
  | 123 => ⟨S_, .f32⟩
  | 124 => ⟨S4x512x512, .f32⟩
  | 125 => ⟨S4x512x512, .f32⟩
  | 126 => ⟨S_, .f32⟩
  | 127 => ⟨S4x512x512, .f32⟩
  | _ => ⟨S4x512x512x2, .f32⟩

abbrev hbmTy0_1 (i : Nat) : BufTy := match i % 128 with
  | 0 => ⟨S4x512x512, .f32⟩
  | 1 => ⟨S4x512x512, .i32⟩
  | 2 => ⟨S_, .i32⟩
  | 3 => ⟨S_, .i32⟩
  | 4 => ⟨S_, .f32⟩
  | 5 => ⟨S4x512x512, .f32⟩
  | 6 => ⟨S4x512x512, .f32⟩
  | 7 => ⟨S_, .f32⟩
  | 8 => ⟨S4x512x512, .f32⟩
  | 9 => ⟨S4x512x512, .f32⟩
  | 10 => ⟨S4x512x512, .i32⟩
  | 11 => ⟨S_, .i32⟩
  | 12 => ⟨S4x512x512, .i32⟩
  | 13 => ⟨S4x512x512, .i1⟩
  | 14 => ⟨S_, .i32⟩
  | 15 => ⟨S4x512x512, .i32⟩
  | 16 => ⟨S4x512x512, .i32⟩
  | 17 => ⟨S4x512x512, .i32⟩
  | 18 => ⟨S_, .i32⟩
  | 19 => ⟨S4x512x512, .i32⟩
  | 20 => ⟨S4x512x512, .i1⟩
  | 21 => ⟨S_, .i32⟩
  | 22 => ⟨S4x512x512, .i32⟩
  | 23 => ⟨S4x512x512, .i32⟩
  | 24 => ⟨S4x512x512, .i32⟩
  | 25 => ⟨S4x512x512x1, .i32⟩
  | 26 => ⟨S4x512x512x1, .i32⟩
  | 27 => ⟨S4x512x512x2, .i32⟩
  | 28 => ⟨S4x512x512x16, .f32⟩
  | 29 => ⟨S4x512x512, .f32⟩
  | 30 => ⟨S4x512x512, .f32⟩
  | 31 => ⟨S4x512x512x1, .f32⟩
  | 32 => ⟨S4x512x512x16, .f32⟩
  | 33 => ⟨S4x512x512x16, .f32⟩
  | 34 => ⟨S4x512x512x16, .f32⟩
  | 35 => ⟨S_, .f32⟩
  | 36 => ⟨S4x512x512, .f32⟩
  | 37 => ⟨S4x512x512, .f32⟩
  | 38 => ⟨S4x512x512, .f32⟩
  | 39 => ⟨S_, .f32⟩
  | 40 => ⟨S4x512x512, .f32⟩
  | 41 => ⟨S4x512x512, .i1⟩
  | 42 => ⟨S_, .f32⟩
  | 43 => ⟨S4x512x512, .f32⟩
  | 44 => ⟨S4x512x512, .i1⟩
  | 45 => ⟨S4x512x512, .i1⟩
  | 46 => ⟨S_, .f32⟩
  | 47 => ⟨S4x512x512, .f32⟩
  | 48 => ⟨S4x512x512, .i1⟩
  | 49 => ⟨S4x512x512, .i1⟩
  | 50 => ⟨S_, .f32⟩
  | 51 => ⟨S4x512x512, .f32⟩
  | 52 => ⟨S4x512x512, .i1⟩
  | 53 => ⟨S4x512x512, .i1⟩
  | 54 => ⟨S_, .i32⟩
  | 55 => ⟨S_, .i32⟩
  | 56 => ⟨S_, .f32⟩
  | 57 => ⟨S4x512x512, .f32⟩
  | 58 => ⟨S4x512x512, .f32⟩
  | 59 => ⟨S_, .f32⟩
  | 60 => ⟨S4x512x512, .f32⟩
  | 61 => ⟨S4x512x512, .f32⟩
  | 62 => ⟨S4x512x512, .i32⟩
  | 63 => ⟨S_, .i32⟩
  | 64 => ⟨S_, .i32⟩
  | 65 => ⟨S_, .f32⟩
  | 66 => ⟨S4x512x512, .f32⟩
  | 67 => ⟨S4x512x512, .f32⟩
  | 68 => ⟨S_, .f32⟩
  | 69 => ⟨S4x512x512, .f32⟩
  | 70 => ⟨S4x512x512, .f32⟩
  | 71 => ⟨S4x512x512, .i32⟩
  | 72 => ⟨S_, .i32⟩
  | 73 => ⟨S4x512x512, .i32⟩
  | 74 => ⟨S4x512x512, .i1⟩
  | 75 => ⟨S_, .i32⟩
  | 76 => ⟨S4x512x512, .i32⟩
  | 77 => ⟨S4x512x512, .i32⟩
  | 78 => ⟨S4x512x512, .i32⟩
  | 79 => ⟨S_, .i32⟩
  | 80 => ⟨S4x512x512, .i32⟩
  | 81 => ⟨S4x512x512, .i1⟩
  | 82 => ⟨S_, .i32⟩
  | 83 => ⟨S4x512x512, .i32⟩
  | 84 => ⟨S4x512x512, .i32⟩
  | 85 => ⟨S4x512x512, .i32⟩
  | 86 => ⟨S4x512x512x1, .i32⟩
  | 87 => ⟨S4x512x512x1, .i32⟩
  | 88 => ⟨S4x512x512x2, .i32⟩
  | 89 => ⟨S4x512x512x16, .f32⟩
  | 90 => ⟨S4x512x512, .f32⟩
  | 91 => ⟨S4x512x512, .f32⟩
  | 92 => ⟨S4x512x512x1, .f32⟩
  | 93 => ⟨S4x512x512x16, .f32⟩
  | 94 => ⟨S4x512x512x16, .f32⟩
  | 95 => ⟨S4x512x512x16, .f32⟩
  | 96 => ⟨S_, .f32⟩
  | 97 => ⟨S4x512x512, .f32⟩
  | 98 => ⟨S4x512x512, .f32⟩
  | 99 => ⟨S_, .f32⟩
  | 100 => ⟨S4x512x512, .f32⟩
  | 101 => ⟨S4x512x512, .f32⟩
  | 102 => ⟨S4x512x512, .f32⟩
  | 103 => ⟨S_, .f32⟩
  | 104 => ⟨S4x512x512, .f32⟩
  | 105 => ⟨S4x512x512, .i1⟩
  | 106 => ⟨S_, .f32⟩
  | 107 => ⟨S4x512x512, .f32⟩
  | 108 => ⟨S4x512x512, .i1⟩
  | 109 => ⟨S4x512x512, .i1⟩
  | 110 => ⟨S_, .f32⟩
  | 111 => ⟨S4x512x512, .f32⟩
  | 112 => ⟨S4x512x512, .i1⟩
  | 113 => ⟨S4x512x512, .i1⟩
  | 114 => ⟨S_, .f32⟩
  | 115 => ⟨S4x512x512, .f32⟩
  | 116 => ⟨S4x512x512, .i1⟩
  | 117 => ⟨S4x512x512, .i1⟩
  | 118 => ⟨S_, .i32⟩
  | 119 => ⟨S_, .i32⟩
  | 120 => ⟨S_, .f32⟩
  | 121 => ⟨S4x512x512, .f32⟩
  | 122 => ⟨S4x512x512, .f32⟩
  | 123 => ⟨S_, .f32⟩
  | 124 => ⟨S4x512x512, .f32⟩
  | 125 => ⟨S4x512x512, .f32⟩
  | 126 => ⟨S4x512x512, .i32⟩
  | 127 => ⟨S_, .i32⟩
  | _ => ⟨S4x512x512x2, .f32⟩

abbrev hbmTy0_2 (i : Nat) : BufTy := match i % 128 with
  | 0 => ⟨S_, .i32⟩
  | 1 => ⟨S_, .f32⟩
  | 2 => ⟨S4x512x512, .f32⟩
  | 3 => ⟨S4x512x512, .f32⟩
  | 4 => ⟨S_, .f32⟩
  | 5 => ⟨S4x512x512, .f32⟩
  | 6 => ⟨S4x512x512, .f32⟩
  | 7 => ⟨S4x512x512, .i32⟩
  | 8 => ⟨S_, .i32⟩
  | 9 => ⟨S4x512x512, .i32⟩
  | 10 => ⟨S4x512x512, .i1⟩
  | 11 => ⟨S_, .i32⟩
  | 12 => ⟨S4x512x512, .i32⟩
  | 13 => ⟨S4x512x512, .i32⟩
  | 14 => ⟨S4x512x512, .i32⟩
  | 15 => ⟨S_, .i32⟩
  | 16 => ⟨S4x512x512, .i32⟩
  | 17 => ⟨S4x512x512, .i1⟩
  | 18 => ⟨S_, .i32⟩
  | 19 => ⟨S4x512x512, .i32⟩
  | 20 => ⟨S4x512x512, .i32⟩
  | 21 => ⟨S4x512x512, .i32⟩
  | 22 => ⟨S4x512x512x1, .i32⟩
  | 23 => ⟨S4x512x512x1, .i32⟩
  | 24 => ⟨S4x512x512x2, .i32⟩
  | 25 => ⟨S4x512x512x16, .f32⟩
  | 26 => ⟨S4x512x512, .f32⟩
  | 27 => ⟨S4x512x512, .f32⟩
  | 28 => ⟨S4x512x512x1, .f32⟩
  | 29 => ⟨S4x512x512x16, .f32⟩
  | 30 => ⟨S4x512x512x16, .f32⟩
  | 31 => ⟨S4x512x512x16, .f32⟩
  | 32 => ⟨S4x16x512x512, .f32⟩
  | 33 => ⟨S512x512x16, .f32⟩
  | 34 => ⟨S_, .f32⟩
  | 35 => ⟨S4x512x512, .f32⟩
  | 36 => ⟨S4x512x512, .f32⟩
  | 37 => ⟨S_, .f32⟩
  | 38 => ⟨S4x512x512, .f32⟩
  | 39 => ⟨S4x512x512, .f32⟩
  | 40 => ⟨S_, .f32⟩
  | 41 => ⟨S4x512x512, .f32⟩
  | 42 => ⟨S4x512x512, .f32⟩
  | 43 => ⟨S_, .f32⟩
  | 44 => ⟨S4x512x512, .f32⟩
  | 45 => ⟨S4x512x512, .f32⟩
  | 46 => ⟨S_, .f32⟩
  | 47 => ⟨S4x512x512, .f32⟩
  | 48 => ⟨S4x512x512, .f32⟩
  | 49 => ⟨S_, .f32⟩
  | 50 => ⟨S4x512x512, .f32⟩
  | 51 => ⟨S4x512x512, .f32⟩
  | 52 => ⟨S4x512x512, .f32⟩
  | 53 => ⟨S4x512x512, .f32⟩
  | 54 => ⟨S4x512x512, .f32⟩
  | 55 => ⟨S4x512x512, .f32⟩
  | 56 => ⟨S_, .f32⟩
  | 57 => ⟨S4x512x512, .f32⟩
  | 58 => ⟨S4x512x512, .f32⟩
  | 59 => ⟨S_, .f32⟩
  | 60 => ⟨S4x512x512, .f32⟩
  | 61 => ⟨S4x512x512, .f32⟩
  | 62 => ⟨S4x512x512, .f32⟩
  | 63 => ⟨S_, .f32⟩
  | 64 => ⟨S4x512x512, .f32⟩
  | 65 => ⟨S4x512x512, .i1⟩
  | 66 => ⟨S_, .f32⟩
  | 67 => ⟨S4x512x512, .f32⟩
  | 68 => ⟨S4x512x512, .i1⟩
  | 69 => ⟨S4x512x512, .i1⟩
  | 70 => ⟨S_, .f32⟩
  | 71 => ⟨S4x512x512, .f32⟩
  | 72 => ⟨S4x512x512, .i1⟩
  | 73 => ⟨S4x512x512, .i1⟩
  | 74 => ⟨S_, .f32⟩
  | 75 => ⟨S4x512x512, .f32⟩
  | 76 => ⟨S4x512x512, .i1⟩
  | 77 => ⟨S4x512x512, .i1⟩
  | 78 => ⟨S_, .i32⟩
  | 79 => ⟨S_, .i32⟩
  | 80 => ⟨S_, .f32⟩
  | 81 => ⟨S4x512x512, .f32⟩
  | 82 => ⟨S4x512x512, .f32⟩
  | 83 => ⟨S_, .f32⟩
  | 84 => ⟨S4x512x512, .f32⟩
  | 85 => ⟨S4x512x512, .f32⟩
  | 86 => ⟨S4x512x512, .i32⟩
  | 87 => ⟨S_, .i32⟩
  | 88 => ⟨S_, .i32⟩
  | 89 => ⟨S_, .f32⟩
  | 90 => ⟨S4x512x512, .f32⟩
  | 91 => ⟨S4x512x512, .f32⟩
  | 92 => ⟨S_, .f32⟩
  | 93 => ⟨S4x512x512, .f32⟩
  | 94 => ⟨S4x512x512, .f32⟩
  | 95 => ⟨S4x512x512, .i32⟩
  | 96 => ⟨S_, .i32⟩
  | 97 => ⟨S4x512x512, .i32⟩
  | 98 => ⟨S4x512x512, .i1⟩
  | 99 => ⟨S_, .i32⟩
  | 100 => ⟨S4x512x512, .i32⟩
  | 101 => ⟨S4x512x512, .i32⟩
  | 102 => ⟨S4x512x512, .i32⟩
  | 103 => ⟨S_, .i32⟩
  | 104 => ⟨S4x512x512, .i32⟩
  | 105 => ⟨S4x512x512, .i1⟩
  | 106 => ⟨S_, .i32⟩
  | 107 => ⟨S4x512x512, .i32⟩
  | 108 => ⟨S4x512x512, .i32⟩
  | 109 => ⟨S4x512x512, .i32⟩
  | 110 => ⟨S4x512x512x1, .i32⟩
  | 111 => ⟨S4x512x512x1, .i32⟩
  | 112 => ⟨S4x512x512x2, .i32⟩
  | 113 => ⟨S4x512x512x16, .f32⟩
  | 114 => ⟨S4x512x512, .f32⟩
  | 115 => ⟨S4x512x512, .f32⟩
  | 116 => ⟨S4x512x512x1, .f32⟩
  | 117 => ⟨S4x512x512x16, .f32⟩
  | 118 => ⟨S4x512x512x16, .f32⟩
  | 119 => ⟨S_, .f32⟩
  | 120 => ⟨S4x512x512, .f32⟩
  | 121 => ⟨S4x512x512, .f32⟩
  | 122 => ⟨S4x512x512, .f32⟩
  | 123 => ⟨S_, .f32⟩
  | 124 => ⟨S4x512x512, .f32⟩
  | 125 => ⟨S4x512x512, .i1⟩
  | 126 => ⟨S_, .f32⟩
  | 127 => ⟨S4x512x512, .f32⟩
  | _ => ⟨S4x512x512x2, .f32⟩

abbrev hbmTy0_3 (i : Nat) : BufTy := match i % 128 with
  | 0 => ⟨S4x512x512, .i1⟩
  | 1 => ⟨S4x512x512, .i1⟩
  | 2 => ⟨S_, .f32⟩
  | 3 => ⟨S4x512x512, .f32⟩
  | 4 => ⟨S4x512x512, .i1⟩
  | 5 => ⟨S4x512x512, .i1⟩
  | 6 => ⟨S_, .f32⟩
  | 7 => ⟨S4x512x512, .f32⟩
  | 8 => ⟨S4x512x512, .i1⟩
  | 9 => ⟨S4x512x512, .i1⟩
  | 10 => ⟨S_, .i32⟩
  | 11 => ⟨S_, .i32⟩
  | 12 => ⟨S_, .f32⟩
  | 13 => ⟨S4x512x512, .f32⟩
  | 14 => ⟨S4x512x512, .f32⟩
  | 15 => ⟨S_, .f32⟩
  | 16 => ⟨S4x512x512, .f32⟩
  | 17 => ⟨S4x512x512, .f32⟩
  | 18 => ⟨S4x512x512, .i32⟩
  | 19 => ⟨S_, .i32⟩
  | 20 => ⟨S_, .i32⟩
  | 21 => ⟨S_, .f32⟩
  | 22 => ⟨S4x512x512, .f32⟩
  | 23 => ⟨S4x512x512, .f32⟩
  | 24 => ⟨S_, .f32⟩
  | 25 => ⟨S4x512x512, .f32⟩
  | 26 => ⟨S4x512x512, .f32⟩
  | 27 => ⟨S4x512x512, .i32⟩
  | 28 => ⟨S_, .i32⟩
  | 29 => ⟨S4x512x512, .i32⟩
  | 30 => ⟨S4x512x512, .i1⟩
  | 31 => ⟨S_, .i32⟩
  | 32 => ⟨S4x512x512, .i32⟩
  | 33 => ⟨S4x512x512, .i32⟩
  | 34 => ⟨S4x512x512, .i32⟩
  | 35 => ⟨S_, .i32⟩
  | 36 => ⟨S4x512x512, .i32⟩
  | 37 => ⟨S4x512x512, .i1⟩
  | 38 => ⟨S_, .i32⟩
  | 39 => ⟨S4x512x512, .i32⟩
  | 40 => ⟨S4x512x512, .i32⟩
  | 41 => ⟨S4x512x512, .i32⟩
  | 42 => ⟨S4x512x512x1, .i32⟩
  | 43 => ⟨S4x512x512x1, .i32⟩
  | 44 => ⟨S4x512x512x2, .i32⟩
  | 45 => ⟨S4x512x512x16, .f32⟩
  | 46 => ⟨S4x512x512, .f32⟩
  | 47 => ⟨S4x512x512, .f32⟩
  | 48 => ⟨S4x512x512x1, .f32⟩
  | 49 => ⟨S4x512x512x16, .f32⟩
  | 50 => ⟨S4x512x512x16, .f32⟩
  | 51 => ⟨S4x512x512x16, .f32⟩
  | 52 => ⟨S_, .f32⟩
  | 53 => ⟨S4x512x512, .f32⟩
  | 54 => ⟨S4x512x512, .f32⟩
  | 55 => ⟨S4x512x512, .f32⟩
  | 56 => ⟨S_, .f32⟩
  | 57 => ⟨S4x512x512, .f32⟩
  | 58 => ⟨S4x512x512, .i1⟩
  | 59 => ⟨S_, .f32⟩
  | 60 => ⟨S4x512x512, .f32⟩
  | 61 => ⟨S4x512x512, .i1⟩
  | 62 => ⟨S4x512x512, .i1⟩
  | 63 => ⟨S_, .f32⟩
  | 64 => ⟨S4x512x512, .f32⟩
  | 65 => ⟨S4x512x512, .i1⟩
  | 66 => ⟨S4x512x512, .i1⟩
  | 67 => ⟨S_, .f32⟩
  | 68 => ⟨S4x512x512, .f32⟩
  | 69 => ⟨S4x512x512, .i1⟩
  | 70 => ⟨S4x512x512, .i1⟩
  | 71 => ⟨S_, .i32⟩
  | 72 => ⟨S_, .i32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S4x512x512, .i32⟩
  | 80 => ⟨S_, .i32⟩
  | 81 => ⟨S_, .i32⟩
  | 82 => ⟨S_, .f32⟩
  | 83 => ⟨S4x512x512, .f32⟩
  | 84 => ⟨S4x512x512, .f32⟩
  | 85 => ⟨S_, .f32⟩
  | 86 => ⟨S4x512x512, .f32⟩
  | 87 => ⟨S4x512x512, .f32⟩
  | 88 => ⟨S4x512x512, .i32⟩
  | 89 => ⟨S_, .i32⟩
  | 90 => ⟨S4x512x512, .i32⟩
  | 91 => ⟨S4x512x512, .i1⟩
  | 92 => ⟨S_, .i32⟩
  | 93 => ⟨S4x512x512, .i32⟩
  | 94 => ⟨S4x512x512, .i32⟩
  | 95 => ⟨S4x512x512, .i32⟩
  | 96 => ⟨S_, .i32⟩
  | 97 => ⟨S4x512x512, .i32⟩
  | 98 => ⟨S4x512x512, .i1⟩
  | 99 => ⟨S_, .i32⟩
  | 100 => ⟨S4x512x512, .i32⟩
  | 101 => ⟨S4x512x512, .i32⟩
  | 102 => ⟨S4x512x512, .i32⟩
  | 103 => ⟨S4x512x512x1, .i32⟩
  | 104 => ⟨S4x512x512x1, .i32⟩
  | 105 => ⟨S4x512x512x2, .i32⟩
  | 106 => ⟨S4x512x512x16, .f32⟩
  | 107 => ⟨S4x512x512, .f32⟩
  | 108 => ⟨S4x512x512, .f32⟩
  | 109 => ⟨S4x512x512x1, .f32⟩
  | 110 => ⟨S4x512x512x16, .f32⟩
  | 111 => ⟨S4x512x512x16, .f32⟩
  | 112 => ⟨S4x512x512x16, .f32⟩
  | 113 => ⟨S_, .f32⟩
  | 114 => ⟨S4x512x512, .f32⟩
  | 115 => ⟨S4x512x512, .f32⟩
  | 116 => ⟨S_, .f32⟩
  | 117 => ⟨S4x512x512, .f32⟩
  | 118 => ⟨S4x512x512, .f32⟩
  | 119 => ⟨S4x512x512, .f32⟩
  | 120 => ⟨S_, .f32⟩
  | 121 => ⟨S4x512x512, .f32⟩
  | 122 => ⟨S4x512x512, .i1⟩
  | 123 => ⟨S_, .f32⟩
  | 124 => ⟨S4x512x512, .f32⟩
  | 125 => ⟨S4x512x512, .i1⟩
  | 126 => ⟨S4x512x512, .i1⟩
  | 127 => ⟨S_, .f32⟩
  | _ => ⟨S4x512x512x2, .f32⟩

abbrev hbmTy0_4 (i : Nat) : BufTy := match i % 128 with
  | 0 => ⟨S4x512x512, .f32⟩
  | 1 => ⟨S4x512x512, .i1⟩
  | 2 => ⟨S4x512x512, .i1⟩
  | 3 => ⟨S_, .f32⟩
  | 4 => ⟨S4x512x512, .f32⟩
  | 5 => ⟨S4x512x512, .i1⟩
  | 6 => ⟨S4x512x512, .i1⟩
  | 7 => ⟨S_, .i32⟩
  | 8 => ⟨S_, .i32⟩
  | 9 => ⟨S_, .f32⟩
  | 10 => ⟨S4x512x512, .f32⟩
  | 11 => ⟨S4x512x512, .f32⟩
  | 12 => ⟨S_, .f32⟩
  | 13 => ⟨S4x512x512, .f32⟩
  | 14 => ⟨S4x512x512, .f32⟩
  | 15 => ⟨S4x512x512, .i32⟩
  | 16 => ⟨S_, .i32⟩
  | 17 => ⟨S_, .i32⟩
  | 18 => ⟨S_, .f32⟩
  | 19 => ⟨S4x512x512, .f32⟩
  | 20 => ⟨S4x512x512, .f32⟩
  | 21 => ⟨S_, .f32⟩
  | 22 => ⟨S4x512x512, .f32⟩
  | 23 => ⟨S4x512x512, .f32⟩
  | 24 => ⟨S4x512x512, .i32⟩
  | 25 => ⟨S_, .i32⟩
  | 26 => ⟨S4x512x512, .i32⟩
  | 27 => ⟨S4x512x512, .i1⟩
  | 28 => ⟨S_, .i32⟩
  | 29 => ⟨S4x512x512, .i32⟩
  | 30 => ⟨S4x512x512, .i32⟩
  | 31 => ⟨S4x512x512, .i32⟩
  | 32 => ⟨S_, .i32⟩
  | 33 => ⟨S4x512x512, .i32⟩
  | 34 => ⟨S4x512x512, .i1⟩
  | 35 => ⟨S_, .i32⟩
  | 36 => ⟨S4x512x512, .i32⟩
  | 37 => ⟨S4x512x512, .i32⟩
  | 38 => ⟨S4x512x512, .i32⟩
  | 39 => ⟨S4x512x512x1, .i32⟩
  | 40 => ⟨S4x512x512x1, .i32⟩
  | 41 => ⟨S4x512x512x2, .i32⟩
  | 42 => ⟨S4x512x512x16, .f32⟩
  | 43 => ⟨S4x512x512, .f32⟩
  | 44 => ⟨S4x512x512, .f32⟩
  | 45 => ⟨S4x512x512x1, .f32⟩
  | 46 => ⟨S4x512x512x16, .f32⟩
  | 47 => ⟨S4x512x512x16, .f32⟩
  | 48 => ⟨S4x512x512x16, .f32⟩
  | 49 => ⟨S4x16x512x512, .f32⟩
  | 50 => ⟨S256x256x16, .f32⟩
  | 51 => ⟨S_, .f32⟩
  | 52 => ⟨S4x512x512, .f32⟩
  | 53 => ⟨S4x512x512, .f32⟩
  | 54 => ⟨S_, .f32⟩
  | 55 => ⟨S4x512x512, .f32⟩
  | 56 => ⟨S4x512x512, .f32⟩
  | 57 => ⟨S_, .f32⟩
  | 58 => ⟨S4x512x512, .f32⟩
  | 59 => ⟨S4x512x512, .f32⟩
  | 60 => ⟨S_, .f32⟩
  | 61 => ⟨S4x512x512, .f32⟩
  | 62 => ⟨S4x512x512, .f32⟩
  | 63 => ⟨S_, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S4x512x512, .f32⟩
  | 70 => ⟨S4x512x512, .f32⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S4x512x512, .f32⟩
  | 80 => ⟨S_, .f32⟩
  | 81 => ⟨S4x512x512, .f32⟩
  | 82 => ⟨S4x512x512, .i1⟩
  | 83 => ⟨S_, .f32⟩
  | 84 => ⟨S4x512x512, .f32⟩
  | 85 => ⟨S4x512x512, .i1⟩
  | 86 => ⟨S4x512x512, .i1⟩
  | 87 => ⟨S_, .f32⟩
  | 88 => ⟨S4x512x512, .f32⟩
  | 89 => ⟨S4x512x512, .i1⟩
  | 90 => ⟨S4x512x512, .i1⟩
  | 91 => ⟨S_, .f32⟩
  | 92 => ⟨S4x512x512, .f32⟩
  | 93 => ⟨S4x512x512, .i1⟩
  | 94 => ⟨S4x512x512, .i1⟩
  | 95 => ⟨S_, .i32⟩
  | 96 => ⟨S_, .i32⟩
  | 97 => ⟨S_, .f32⟩
  | 98 => ⟨S4x512x512, .f32⟩
  | 99 => ⟨S4x512x512, .f32⟩
  | 100 => ⟨S_, .f32⟩
  | 101 => ⟨S4x512x512, .f32⟩
  | 102 => ⟨S4x512x512, .f32⟩
  | 103 => ⟨S4x512x512, .i32⟩
  | 104 => ⟨S_, .i32⟩
  | 105 => ⟨S_, .i32⟩
  | 106 => ⟨S_, .f32⟩
  | 107 => ⟨S4x512x512, .f32⟩
  | 108 => ⟨S4x512x512, .f32⟩
  | 109 => ⟨S_, .f32⟩
  | 110 => ⟨S4x512x512, .f32⟩
  | 111 => ⟨S4x512x512, .f32⟩
  | 112 => ⟨S4x512x512, .i32⟩
  | 113 => ⟨S_, .i32⟩
  | 114 => ⟨S4x512x512, .i32⟩
  | 115 => ⟨S4x512x512, .i1⟩
  | 116 => ⟨S_, .i32⟩
  | 117 => ⟨S4x512x512, .i32⟩
  | 118 => ⟨S4x512x512, .i32⟩
  | 119 => ⟨S4x512x512, .i32⟩
  | 120 => ⟨S_, .i32⟩
  | 121 => ⟨S4x512x512, .i32⟩
  | 122 => ⟨S4x512x512, .i1⟩
  | 123 => ⟨S_, .i32⟩
  | 124 => ⟨S4x512x512, .i32⟩
  | 125 => ⟨S4x512x512, .i32⟩
  | 126 => ⟨S4x512x512, .i32⟩
  | 127 => ⟨S4x512x512x1, .i32⟩
  | _ => ⟨S4x512x512x2, .f32⟩

abbrev hbmTy0_5 (i : Nat) : BufTy := match i % 128 with
  | 0 => ⟨S4x512x512x1, .i32⟩
  | 1 => ⟨S4x512x512x2, .i32⟩
  | 2 => ⟨S4x512x512x16, .f32⟩
  | 3 => ⟨S4x512x512, .f32⟩
  | 4 => ⟨S4x512x512, .f32⟩
  | 5 => ⟨S4x512x512x1, .f32⟩
  | 6 => ⟨S4x512x512x16, .f32⟩
  | 7 => ⟨S4x512x512x16, .f32⟩
  | 8 => ⟨S_, .f32⟩
  | 9 => ⟨S4x512x512, .f32⟩
  | 10 => ⟨S4x512x512, .f32⟩
  | 11 => ⟨S4x512x512, .f32⟩
  | 12 => ⟨S_, .f32⟩
  | 13 => ⟨S4x512x512, .f32⟩
  | 14 => ⟨S4x512x512, .i1⟩
  | 15 => ⟨S_, .f32⟩
  | 16 => ⟨S4x512x512, .f32⟩
  | 17 => ⟨S4x512x512, .i1⟩
  | 18 => ⟨S4x512x512, .i1⟩
  | 19 => ⟨S_, .f32⟩
  | 20 => ⟨S4x512x512, .f32⟩
  | 21 => ⟨S4x512x512, .i1⟩
  | 22 => ⟨S4x512x512, .i1⟩
  | 23 => ⟨S_, .f32⟩
  | 24 => ⟨S4x512x512, .f32⟩
  | 25 => ⟨S4x512x512, .i1⟩
  | 26 => ⟨S4x512x512, .i1⟩
  | 27 => ⟨S_, .i32⟩
  | 28 => ⟨S_, .i32⟩
  | 29 => ⟨S_, .f32⟩
  | 30 => ⟨S4x512x512, .f32⟩
  | 31 => ⟨S4x512x512, .f32⟩
  | 32 => ⟨S_, .f32⟩
  | 33 => ⟨S4x512x512, .f32⟩
  | 34 => ⟨S4x512x512, .f32⟩
  | 35 => ⟨S4x512x512, .i32⟩
  | 36 => ⟨S_, .i32⟩
  | 37 => ⟨S_, .i32⟩
  | 38 => ⟨S_, .f32⟩
  | 39 => ⟨S4x512x512, .f32⟩
  | 40 => ⟨S4x512x512, .f32⟩
  | 41 => ⟨S_, .f32⟩
  | 42 => ⟨S4x512x512, .f32⟩
  | 43 => ⟨S4x512x512, .f32⟩
  | 44 => ⟨S4x512x512, .i32⟩
  | 45 => ⟨S_, .i32⟩
  | 46 => ⟨S4x512x512, .i32⟩
  | 47 => ⟨S4x512x512, .i1⟩
  | 48 => ⟨S_, .i32⟩
  | 49 => ⟨S4x512x512, .i32⟩
  | 50 => ⟨S4x512x512, .i32⟩
  | 51 => ⟨S4x512x512, .i32⟩
  | 52 => ⟨S_, .i32⟩
  | 53 => ⟨S4x512x512, .i32⟩
  | 54 => ⟨S4x512x512, .i1⟩
  | 55 => ⟨S_, .i32⟩
  | 56 => ⟨S4x512x512, .i32⟩
  | 57 => ⟨S4x512x512, .i32⟩
  | 58 => ⟨S4x512x512, .i32⟩
  | 59 => ⟨S4x512x512x1, .i32⟩
  | 60 => ⟨S4x512x512x1, .i32⟩
  | 61 => ⟨S4x512x512x2, .i32⟩
  | 62 => ⟨S4x512x512x16, .f32⟩
  | 63 => ⟨S4x512x512, .f32⟩
  | 64 => ⟨S4x512x512, .f32⟩
  | 65 => ⟨S4x512x512x1, .f32⟩
  | 66 => ⟨S4x512x512x16, .f32⟩
  | 67 => ⟨S4x512x512x16, .f32⟩
  | 68 => ⟨S4x512x512x16, .f32⟩
  | 69 => ⟨S_, .f32⟩
  | 70 => ⟨S4x512x512, .f32⟩
  | 71 => ⟨S4x512x512, .f32⟩
  | 72 => ⟨S4x512x512, .f32⟩
  | 73 => ⟨S_, .f32⟩
  | 74 => ⟨S4x512x512, .f32⟩
  | 75 => ⟨S4x512x512, .i1⟩
  | 76 => ⟨S_, .f32⟩
  | 77 => ⟨S4x512x512, .f32⟩
  | 78 => ⟨S4x512x512, .i1⟩
  | 79 => ⟨S4x512x512, .i1⟩
  | 80 => ⟨S_, .f32⟩
  | 81 => ⟨S4x512x512, .f32⟩
  | 82 => ⟨S4x512x512, .i1⟩
  | 83 => ⟨S4x512x512, .i1⟩
  | 84 => ⟨S_, .f32⟩
  | 85 => ⟨S4x512x512, .f32⟩
  | 86 => ⟨S4x512x512, .i1⟩
  | 87 => ⟨S4x512x512, .i1⟩
  | 88 => ⟨S_, .i32⟩
  | 89 => ⟨S_, .i32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S4x512x512, .i32⟩
  | 97 => ⟨S_, .i32⟩
  | 98 => ⟨S_, .i32⟩
  | 99 => ⟨S_, .f32⟩
  | 100 => ⟨S4x512x512, .f32⟩
  | 101 => ⟨S4x512x512, .f32⟩
  | 102 => ⟨S_, .f32⟩
  | 103 => ⟨S4x512x512, .f32⟩
  | 104 => ⟨S4x512x512, .f32⟩
  | 105 => ⟨S4x512x512, .i32⟩
  | 106 => ⟨S_, .i32⟩
  | 107 => ⟨S4x512x512, .i32⟩
  | 108 => ⟨S4x512x512, .i1⟩
  | 109 => ⟨S_, .i32⟩
  | 110 => ⟨S4x512x512, .i32⟩
  | 111 => ⟨S4x512x512, .i32⟩
  | 112 => ⟨S4x512x512, .i32⟩
  | 113 => ⟨S_, .i32⟩
  | 114 => ⟨S4x512x512, .i32⟩
  | 115 => ⟨S4x512x512, .i1⟩
  | 116 => ⟨S_, .i32⟩
  | 117 => ⟨S4x512x512, .i32⟩
  | 118 => ⟨S4x512x512, .i32⟩
  | 119 => ⟨S4x512x512, .i32⟩
  | 120 => ⟨S4x512x512x1, .i32⟩
  | 121 => ⟨S4x512x512x1, .i32⟩
  | 122 => ⟨S4x512x512x2, .i32⟩
  | 123 => ⟨S4x512x512x16, .f32⟩
  | 124 => ⟨S4x512x512, .f32⟩
  | 125 => ⟨S4x512x512, .f32⟩
  | 126 => ⟨S4x512x512x1, .f32⟩
  | 127 => ⟨S4x512x512x16, .f32⟩
  | _ => ⟨S4x512x512x2, .f32⟩

abbrev hbmTy0_6 (i : Nat) : BufTy := match i % 128 with
  | 0 => ⟨S4x512x512x16, .f32⟩
  | 1 => ⟨S4x512x512x16, .f32⟩
  | 2 => ⟨S_, .f32⟩
  | 3 => ⟨S4x512x512, .f32⟩
  | 4 => ⟨S4x512x512, .f32⟩
  | 5 => ⟨S_, .f32⟩
  | 6 => ⟨S4x512x512, .f32⟩
  | 7 => ⟨S4x512x512, .f32⟩
  | 8 => ⟨S4x512x512, .f32⟩
  | 9 => ⟨S_, .f32⟩
  | 10 => ⟨S4x512x512, .f32⟩
  | 11 => ⟨S4x512x512, .i1⟩
  | 12 => ⟨S_, .f32⟩
  | 13 => ⟨S4x512x512, .f32⟩
  | 14 => ⟨S4x512x512, .i1⟩
  | 15 => ⟨S4x512x512, .i1⟩
  | 16 => ⟨S_, .f32⟩
  | 17 => ⟨S4x512x512, .f32⟩
  | 18 => ⟨S4x512x512, .i1⟩
  | 19 => ⟨S4x512x512, .i1⟩
  | 20 => ⟨S_, .f32⟩
  | 21 => ⟨S4x512x512, .f32⟩
  | 22 => ⟨S4x512x512, .i1⟩
  | 23 => ⟨S4x512x512, .i1⟩
  | 24 => ⟨S_, .i32⟩
  | 25 => ⟨S_, .i32⟩
  | 26 => ⟨S_, .f32⟩
  | 27 => ⟨S4x512x512, .f32⟩
  | 28 => ⟨S4x512x512, .f32⟩
  | 29 => ⟨S_, .f32⟩
  | 30 => ⟨S4x512x512, .f32⟩
  | 31 => ⟨S4x512x512, .f32⟩
  | 32 => ⟨S4x512x512, .i32⟩
  | 33 => ⟨S_, .i32⟩
  | 34 => ⟨S_, .i32⟩
  | 35 => ⟨S_, .f32⟩
  | 36 => ⟨S4x512x512, .f32⟩
  | 37 => ⟨S4x512x512, .f32⟩
  | 38 => ⟨S_, .f32⟩
  | 39 => ⟨S4x512x512, .f32⟩
  | 40 => ⟨S4x512x512, .f32⟩
  | 41 => ⟨S4x512x512, .i32⟩
  | 42 => ⟨S_, .i32⟩
  | 43 => ⟨S4x512x512, .i32⟩
  | 44 => ⟨S4x512x512, .i1⟩
  | 45 => ⟨S_, .i32⟩
  | 46 => ⟨S4x512x512, .i32⟩
  | 47 => ⟨S4x512x512, .i32⟩
  | 48 => ⟨S4x512x512, .i32⟩
  | 49 => ⟨S_, .i32⟩
  | 50 => ⟨S4x512x512, .i32⟩
  | 51 => ⟨S4x512x512, .i1⟩
  | 52 => ⟨S_, .i32⟩
  | 53 => ⟨S4x512x512, .i32⟩
  | 54 => ⟨S4x512x512, .i32⟩
  | 55 => ⟨S4x512x512, .i32⟩
  | 56 => ⟨S4x512x512x1, .i32⟩
  | 57 => ⟨S4x512x512x1, .i32⟩
  | 58 => ⟨S4x512x512x2, .i32⟩
  | 59 => ⟨S4x512x512x16, .f32⟩
  | 60 => ⟨S4x512x512, .f32⟩
  | 61 => ⟨S4x512x512, .f32⟩
  | 62 => ⟨S4x512x512x1, .f32⟩
  | 63 => ⟨S4x512x512x16, .f32⟩
  | 64 => ⟨S4x512x512x16, .f32⟩
  | 65 => ⟨S4x512x512x16, .f32⟩
  | 66 => ⟨S4x16x512x512, .f32⟩
  | 67 => ⟨S128x128x16, .f32⟩
  | 68 => ⟨S_, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S_, .f32⟩
  | 78 => ⟨S4x512x512, .f32⟩
  | 79 => ⟨S4x512x512, .f32⟩
  | 80 => ⟨S_, .f32⟩
  | 81 => ⟨S4x512x512, .f32⟩
  | 82 => ⟨S4x512x512, .f32⟩
  | 83 => ⟨S_, .f32⟩
  | 84 => ⟨S4x512x512, .f32⟩
  | 85 => ⟨S4x512x512, .f32⟩
  | 86 => ⟨S4x512x512, .f32⟩
  | 87 => ⟨S4x512x512, .f32⟩
  | 88 => ⟨S4x512x512, .f32⟩
  | 89 => ⟨S4x512x512, .f32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S4x512x512, .f32⟩
  | 97 => ⟨S_, .f32⟩
  | 98 => ⟨S4x512x512, .f32⟩
  | 99 => ⟨S4x512x512, .i1⟩
  | 100 => ⟨S_, .f32⟩
  | 101 => ⟨S4x512x512, .f32⟩
  | 102 => ⟨S4x512x512, .i1⟩
  | 103 => ⟨S4x512x512, .i1⟩
  | 104 => ⟨S_, .f32⟩
  | 105 => ⟨S4x512x512, .f32⟩
  | 106 => ⟨S4x512x512, .i1⟩
  | 107 => ⟨S4x512x512, .i1⟩
  | 108 => ⟨S_, .f32⟩
  | 109 => ⟨S4x512x512, .f32⟩
  | 110 => ⟨S4x512x512, .i1⟩
  | 111 => ⟨S4x512x512, .i1⟩
  | 112 => ⟨S_, .i32⟩
  | 113 => ⟨S_, .i32⟩
  | 114 => ⟨S_, .f32⟩
  | 115 => ⟨S4x512x512, .f32⟩
  | 116 => ⟨S4x512x512, .f32⟩
  | 117 => ⟨S_, .f32⟩
  | 118 => ⟨S4x512x512, .f32⟩
  | 119 => ⟨S4x512x512, .f32⟩
  | 120 => ⟨S4x512x512, .i32⟩
  | 121 => ⟨S_, .i32⟩
  | 122 => ⟨S_, .i32⟩
  | 123 => ⟨S_, .f32⟩
  | 124 => ⟨S4x512x512, .f32⟩
  | 125 => ⟨S4x512x512, .f32⟩
  | 126 => ⟨S_, .f32⟩
  | 127 => ⟨S4x512x512, .f32⟩
  | _ => ⟨S4x512x512x2, .f32⟩

abbrev hbmTy0_7 (i : Nat) : BufTy := match i % 128 with
  | 0 => ⟨S4x512x512, .f32⟩
  | 1 => ⟨S4x512x512, .i32⟩
  | 2 => ⟨S_, .i32⟩
  | 3 => ⟨S4x512x512, .i32⟩
  | 4 => ⟨S4x512x512, .i1⟩
  | 5 => ⟨S_, .i32⟩
  | 6 => ⟨S4x512x512, .i32⟩
  | 7 => ⟨S4x512x512, .i32⟩
  | 8 => ⟨S4x512x512, .i32⟩
  | 9 => ⟨S_, .i32⟩
  | 10 => ⟨S4x512x512, .i32⟩
  | 11 => ⟨S4x512x512, .i1⟩
  | 12 => ⟨S_, .i32⟩
  | 13 => ⟨S4x512x512, .i32⟩
  | 14 => ⟨S4x512x512, .i32⟩
  | 15 => ⟨S4x512x512, .i32⟩
  | 16 => ⟨S4x512x512x1, .i32⟩
  | 17 => ⟨S4x512x512x1, .i32⟩
  | 18 => ⟨S4x512x512x2, .i32⟩
  | 19 => ⟨S4x512x512x16, .f32⟩
  | 20 => ⟨S4x512x512, .f32⟩
  | 21 => ⟨S4x512x512, .f32⟩
  | 22 => ⟨S4x512x512x1, .f32⟩
  | 23 => ⟨S4x512x512x16, .f32⟩
  | 24 => ⟨S4x512x512x16, .f32⟩
  | 25 => ⟨S_, .f32⟩
  | 26 => ⟨S4x512x512, .f32⟩
  | 27 => ⟨S4x512x512, .f32⟩
  | 28 => ⟨S4x512x512, .f32⟩
  | 29 => ⟨S_, .f32⟩
  | 30 => ⟨S4x512x512, .f32⟩
  | 31 => ⟨S4x512x512, .i1⟩
  | 32 => ⟨S_, .f32⟩
  | 33 => ⟨S4x512x512, .f32⟩
  | 34 => ⟨S4x512x512, .i1⟩
  | 35 => ⟨S4x512x512, .i1⟩
  | 36 => ⟨S_, .f32⟩
  | 37 => ⟨S4x512x512, .f32⟩
  | 38 => ⟨S4x512x512, .i1⟩
  | 39 => ⟨S4x512x512, .i1⟩
  | 40 => ⟨S_, .f32⟩
  | 41 => ⟨S4x512x512, .f32⟩
  | 42 => ⟨S4x512x512, .i1⟩
  | 43 => ⟨S4x512x512, .i1⟩
  | 44 => ⟨S_, .i32⟩
  | 45 => ⟨S_, .i32⟩
  | 46 => ⟨S_, .f32⟩
  | 47 => ⟨S4x512x512, .f32⟩
  | 48 => ⟨S4x512x512, .f32⟩
  | 49 => ⟨S_, .f32⟩
  | 50 => ⟨S4x512x512, .f32⟩
  | 51 => ⟨S4x512x512, .f32⟩
  | 52 => ⟨S4x512x512, .i32⟩
  | 53 => ⟨S_, .i32⟩
  | 54 => ⟨S_, .i32⟩
  | 55 => ⟨S_, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S4x512x512, .i32⟩
  | 62 => ⟨S_, .i32⟩
  | 63 => ⟨S4x512x512, .i32⟩
  | 64 => ⟨S4x512x512, .i1⟩
  | 65 => ⟨S_, .i32⟩
  | 66 => ⟨S4x512x512, .i32⟩
  | 67 => ⟨S4x512x512, .i32⟩
  | 68 => ⟨S4x512x512, .i32⟩
  | 69 => ⟨S_, .i32⟩
  | 70 => ⟨S4x512x512, .i32⟩
  | 71 => ⟨S4x512x512, .i1⟩
  | 72 => ⟨S_, .i32⟩
  | 73 => ⟨S4x512x512, .i32⟩
  | 74 => ⟨S4x512x512, .i32⟩
  | 75 => ⟨S4x512x512, .i32⟩
  | 76 => ⟨S4x512x512x1, .i32⟩
  | 77 => ⟨S4x512x512x1, .i32⟩
  | 78 => ⟨S4x512x512x2, .i32⟩
  | 79 => ⟨S4x512x512x16, .f32⟩
  | 80 => ⟨S4x512x512, .f32⟩
  | 81 => ⟨S4x512x512, .f32⟩
  | 82 => ⟨S4x512x512x1, .f32⟩
  | 83 => ⟨S4x512x512x16, .f32⟩
  | 84 => ⟨S4x512x512x16, .f32⟩
  | 85 => ⟨S4x512x512x16, .f32⟩
  | 86 => ⟨S_, .f32⟩
  | 87 => ⟨S4x512x512, .f32⟩
  | 88 => ⟨S4x512x512, .f32⟩
  | 89 => ⟨S4x512x512, .f32⟩
  | 90 => ⟨S_, .f32⟩
  | 91 => ⟨S4x512x512, .f32⟩
  | 92 => ⟨S4x512x512, .i1⟩
  | 93 => ⟨S_, .f32⟩
  | 94 => ⟨S4x512x512, .f32⟩
  | 95 => ⟨S4x512x512, .i1⟩
  | 96 => ⟨S4x512x512, .i1⟩
  | 97 => ⟨S_, .f32⟩
  | 98 => ⟨S4x512x512, .f32⟩
  | 99 => ⟨S4x512x512, .i1⟩
  | 100 => ⟨S4x512x512, .i1⟩
  | 101 => ⟨S_, .f32⟩
  | 102 => ⟨S4x512x512, .f32⟩
  | 103 => ⟨S4x512x512, .i1⟩
  | 104 => ⟨S4x512x512, .i1⟩
  | 105 => ⟨S_, .i32⟩
  | 106 => ⟨S_, .i32⟩
  | 107 => ⟨S_, .f32⟩
  | 108 => ⟨S4x512x512, .f32⟩
  | 109 => ⟨S4x512x512, .f32⟩
  | 110 => ⟨S_, .f32⟩
  | 111 => ⟨S4x512x512, .f32⟩
  | 112 => ⟨S4x512x512, .f32⟩
  | 113 => ⟨S4x512x512, .i32⟩
  | 114 => ⟨S_, .i32⟩
  | 115 => ⟨S_, .i32⟩
  | 116 => ⟨S_, .f32⟩
  | 117 => ⟨S4x512x512, .f32⟩
  | 118 => ⟨S4x512x512, .f32⟩
  | 119 => ⟨S_, .f32⟩
  | 120 => ⟨S4x512x512, .f32⟩
  | 121 => ⟨S4x512x512, .f32⟩
  | 122 => ⟨S4x512x512, .i32⟩
  | 123 => ⟨S_, .i32⟩
  | 124 => ⟨S4x512x512, .i32⟩
  | 125 => ⟨S4x512x512, .i1⟩
  | 126 => ⟨S_, .i32⟩
  | 127 => ⟨S4x512x512, .i32⟩
  | _ => ⟨S4x512x512x2, .f32⟩

abbrev hbmTy0_8 (i : Nat) : BufTy := match i % 128 with
  | 0 => ⟨S4x512x512, .i32⟩
  | 1 => ⟨S4x512x512, .i32⟩
  | 2 => ⟨S_, .i32⟩
  | 3 => ⟨S4x512x512, .i32⟩
  | 4 => ⟨S4x512x512, .i1⟩
  | 5 => ⟨S_, .i32⟩
  | 6 => ⟨S4x512x512, .i32⟩
  | 7 => ⟨S4x512x512, .i32⟩
  | 8 => ⟨S4x512x512, .i32⟩
  | 9 => ⟨S4x512x512x1, .i32⟩
  | 10 => ⟨S4x512x512x1, .i32⟩
  | 11 => ⟨S4x512x512x2, .i32⟩
  | 12 => ⟨S4x512x512x16, .f32⟩
  | 13 => ⟨S4x512x512, .f32⟩
  | 14 => ⟨S4x512x512, .f32⟩
  | 15 => ⟨S4x512x512x1, .f32⟩
  | 16 => ⟨S4x512x512x16, .f32⟩
  | 17 => ⟨S4x512x512x16, .f32⟩
  | 18 => ⟨S4x512x512x16, .f32⟩
  | 19 => ⟨S_, .f32⟩
  | 20 => ⟨S4x512x512, .f32⟩
  | 21 => ⟨S4x512x512, .f32⟩
  | 22 => ⟨S_, .f32⟩
  | 23 => ⟨S4x512x512, .f32⟩
  | 24 => ⟨S4x512x512, .f32⟩
  | 25 => ⟨S4x512x512, .f32⟩
  | 26 => ⟨S_, .f32⟩
  | 27 => ⟨S4x512x512, .f32⟩
  | 28 => ⟨S4x512x512, .i1⟩
  | 29 => ⟨S_, .f32⟩
  | 30 => ⟨S4x512x512, .f32⟩
  | 31 => ⟨S4x512x512, .i1⟩
  | 32 => ⟨S4x512x512, .i1⟩
  | 33 => ⟨S_, .f32⟩
  | 34 => ⟨S4x512x512, .f32⟩
  | 35 => ⟨S4x512x512, .i1⟩
  | 36 => ⟨S4x512x512, .i1⟩
  | 37 => ⟨S_, .f32⟩
  | 38 => ⟨S4x512x512, .f32⟩
  | 39 => ⟨S4x512x512, .i1⟩
  | 40 => ⟨S4x512x512, .i1⟩
  | 41 => ⟨S_, .i32⟩
  | 42 => ⟨S_, .i32⟩
  | 43 => ⟨S_, .f32⟩
  | 44 => ⟨S4x512x512, .f32⟩
  | 45 => ⟨S4x512x512, .f32⟩
  | 46 => ⟨S_, .f32⟩
  | 47 => ⟨S4x512x512, .f32⟩
  | 48 => ⟨S4x512x512, .f32⟩
  | 49 => ⟨S4x512x512, .i32⟩
  | 50 => ⟨S_, .i32⟩
  | 51 => ⟨S_, .i32⟩
  | 52 => ⟨S_, .f32⟩
  | 53 => ⟨S4x512x512, .f32⟩
  | 54 => ⟨S4x512x512, .f32⟩
  | 55 => ⟨S_, .f32⟩
  | 56 => ⟨S4x512x512, .f32⟩
  | 57 => ⟨S4x512x512, .f32⟩
  | 58 => ⟨S4x512x512, .i32⟩
  | 59 => ⟨S_, .i32⟩
  | 60 => ⟨S4x512x512, .i32⟩
  | 61 => ⟨S4x512x512, .i1⟩
  | 62 => ⟨S_, .i32⟩
  | 63 => ⟨S4x512x512, .i32⟩
  | 64 => ⟨S4x512x512, .i32⟩
  | 65 => ⟨S4x512x512, .i32⟩
  | 66 => ⟨S_, .i32⟩
  | 67 => ⟨S4x512x512, .i32⟩
  | 68 => ⟨S4x512x512, .i1⟩
  | 69 => ⟨S_, .i32⟩
  | 70 => ⟨S4x512x512, .i32⟩
  | 71 => ⟨S4x512x512, .i32⟩
  | 72 => ⟨S4x512x512, .i32⟩
  | 73 => ⟨S4x512x512x1, .i32⟩
  | 74 => ⟨S4x512x512x1, .i32⟩
  | 75 => ⟨S4x512x512x2, .i32⟩
  | 76 => ⟨S4x512x512x16, .f32⟩
  | 77 => ⟨S4x512x512, .f32⟩
  | 78 => ⟨S4x512x512, .f32⟩
  | 79 => ⟨S4x512x512x1, .f32⟩
  | 80 => ⟨S4x512x512x16, .f32⟩
  | 81 => ⟨S4x512x512x16, .f32⟩
  | 82 => ⟨S4x512x512x16, .f32⟩
  | 83 => ⟨S4x16x512x512, .f32⟩
  | 84 => ⟨S4x16x512x512, .f32⟩
  | _ => ⟨S4x512x512x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x512x512x2, .f32⟩

abbrev bufTy : (tb : Table) → Fin (tcTables nBuf tb) → BufTy
  | .hbm, ⟨i, _⟩ => hbmTy i
  | .local _ .vmem, ⟨0, _⟩ => ⟨S4x16x16x512, .f32⟩
  | .local _ .vmem, ⟨1, _⟩ => ⟨S4x16x16x512, .f32⟩
  | .local _ .vmem, ⟨2, _⟩ => ⟨S4x16x16x512, .f32⟩
  | .local _ .vmem, ⟨3, _⟩ => ⟨S4x16x16x512, .f32⟩
  | .local _ .vmem, ⟨4, _⟩ => ⟨S4x16x16x512, .f32⟩
  | .local _ .vmem, ⟨5, _⟩ => ⟨S4x16x16x512, .f32⟩
  | .local _ .vmem, ⟨6, _⟩ => ⟨S4x16x16x512, .f32⟩
  | .local _ .vmem, ⟨7, _⟩ => ⟨S4x16x16x512, .f32⟩
  | .local _ .vmem, ⟨8, _⟩ => ⟨S4x16x512, .f32⟩
  | .local _ .vmem, ⟨9, _⟩ => ⟨S4x16x512, .f32⟩
  | .local _ .vmem, ⟨10, _⟩ => ⟨S4x16x16x512, .f32⟩
  | .local _ .vmem, ⟨11, _⟩ => ⟨S4x16x16x512, .f32⟩
  | _, _ => ⟨S4x512x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_c_13 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_c_15 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v43 : Ref sig .tc := ⟨.hbm, 77, rfl⟩
abbrev main_v44 : Ref sig .tc := ⟨.hbm, 78, rfl⟩
abbrev main_c_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_18 : Ref sig .tc := ⟨.hbm, 86, rfl⟩
abbrev main_v50 : Ref sig .tc := ⟨.hbm, 87, rfl⟩
abbrev main_v51 : Ref sig .tc := ⟨.hbm, 88, rfl⟩
abbrev main_c_19 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_20 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_21 : Ref sig .tc := ⟨.hbm, 106, rfl⟩
abbrev main_v67 : Ref sig .tc := ⟨.hbm, 107, rfl⟩
abbrev main_v68 : Ref sig .tc := ⟨.hbm, 108, rfl⟩
abbrev main_cst_22 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_23 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_24 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_25 : Ref sig .tc := ⟨.hbm, 121, rfl⟩
abbrev main_c_26 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v78 : Ref sig .tc := ⟨.hbm, 128, rfl⟩
abbrev main_v79 : Ref sig .tc := ⟨.hbm, 129, rfl⟩
abbrev main_c_27 : Ref sig .tc := ⟨.hbm, 130, rfl⟩
abbrev main_c_28 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v80 : Ref sig .tc := ⟨.hbm, 137, rfl⟩
abbrev main_v81 : Ref sig .tc := ⟨.hbm, 138, rfl⟩
abbrev main_c_29 : Ref sig .tc := ⟨.hbm, 139, rfl⟩
abbrev main_v82 : Ref sig .tc := ⟨.hbm, 140, rfl⟩
abbrev main_v83 : Ref sig .tc := ⟨.hbm, 141, rfl⟩
abbrev main_c_30 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_31 : Ref sig .tc := ⟨.hbm, 146, rfl⟩
abbrev main_v87 : Ref sig .tc := ⟨.hbm, 147, rfl⟩
abbrev main_v88 : Ref sig .tc := ⟨.hbm, 148, rfl⟩
abbrev main_c_32 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_33 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_34 : Ref sig .tc := ⟨.hbm, 167, rfl⟩
abbrev main_v105 : Ref sig .tc := ⟨.hbm, 168, rfl⟩
abbrev main_v106 : Ref sig .tc := ⟨.hbm, 169, rfl⟩
abbrev main_cst_35 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_36 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_37 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_c_38 : Ref sig .tc := ⟨.hbm, 182, rfl⟩
abbrev main_c_39 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_v116 : Ref sig .tc := ⟨.hbm, 189, rfl⟩
abbrev main_v117 : Ref sig .tc := ⟨.hbm, 190, rfl⟩
abbrev main_c_40 : Ref sig .tc := ⟨.hbm, 191, rfl⟩
abbrev main_c_41 : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_v118 : Ref sig .tc := ⟨.hbm, 198, rfl⟩
abbrev main_v119 : Ref sig .tc := ⟨.hbm, 199, rfl⟩
abbrev main_c_42 : Ref sig .tc := ⟨.hbm, 200, rfl⟩
abbrev main_v120 : Ref sig .tc := ⟨.hbm, 201, rfl⟩
abbrev main_v121 : Ref sig .tc := ⟨.hbm, 202, rfl⟩
abbrev main_c_43 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_c_44 : Ref sig .tc := ⟨.hbm, 207, rfl⟩
abbrev main_v125 : Ref sig .tc := ⟨.hbm, 208, rfl⟩
abbrev main_v126 : Ref sig .tc := ⟨.hbm, 209, rfl⟩
abbrev main_c_45 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_46 : Ref sig .tc := ⟨.hbm, 224, rfl⟩
abbrev main_v140 : Ref sig .tc := ⟨.hbm, 225, rfl⟩
abbrev main_v141 : Ref sig .tc := ⟨.hbm, 226, rfl⟩
abbrev main_cst_47 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_cst_48 : Ref sig .tc := ⟨.hbm, 231, rfl⟩
abbrev main_v145 : Ref sig .tc := ⟨.hbm, 232, rfl⟩
abbrev main_v146 : Ref sig .tc := ⟨.hbm, 233, rfl⟩
abbrev main_cst_49 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_cst_50 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_51 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_c_52 : Ref sig .tc := ⟨.hbm, 246, rfl⟩
abbrev main_c_53 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v156 : Ref sig .tc := ⟨.hbm, 253, rfl⟩
abbrev main_v157 : Ref sig .tc := ⟨.hbm, 254, rfl⟩
abbrev main_c_54 : Ref sig .tc := ⟨.hbm, 255, rfl⟩
abbrev main_c_55 : Ref sig .tc := ⟨.hbm, 256, rfl⟩
abbrev main_call7_v0 : Ref sig .tc := ⟨.hbm, 257, rfl⟩
abbrev main_call7_v1 : Ref sig .tc := ⟨.hbm, 258, rfl⟩
abbrev main_call7_v2 : Ref sig .tc := ⟨.hbm, 259, rfl⟩
abbrev main_call7_v3 : Ref sig .tc := ⟨.hbm, 260, rfl⟩
abbrev main_call7_v4 : Ref sig .tc := ⟨.hbm, 261, rfl⟩
abbrev main_v158 : Ref sig .tc := ⟨.hbm, 262, rfl⟩
abbrev main_v159 : Ref sig .tc := ⟨.hbm, 263, rfl⟩
abbrev main_c_56 : Ref sig .tc := ⟨.hbm, 264, rfl⟩
abbrev main_v160 : Ref sig .tc := ⟨.hbm, 265, rfl⟩
abbrev main_v161 : Ref sig .tc := ⟨.hbm, 266, rfl⟩
abbrev main_c_57 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_c_58 : Ref sig .tc := ⟨.hbm, 271, rfl⟩
abbrev main_v165 : Ref sig .tc := ⟨.hbm, 272, rfl⟩
abbrev main_v166 : Ref sig .tc := ⟨.hbm, 273, rfl⟩
abbrev main_c_59 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_cst_60 : Ref sig .tc := ⟨.hbm, 290, rfl⟩
abbrev main_v182 : Ref sig .tc := ⟨.hbm, 291, rfl⟩
abbrev main_v183 : Ref sig .tc := ⟨.hbm, 292, rfl⟩
abbrev main_cst_61 : Ref sig .tc := ⟨.hbm, 293, rfl⟩
abbrev main_v184 : Ref sig .tc := ⟨.hbm, 294, rfl⟩
abbrev main_v185 : Ref sig .tc := ⟨.hbm, 295, rfl⟩
abbrev main_cst_62 : Ref sig .tc := ⟨.hbm, 296, rfl⟩
abbrev main_v186 : Ref sig .tc := ⟨.hbm, 297, rfl⟩
abbrev main_v187 : Ref sig .tc := ⟨.hbm, 298, rfl⟩
abbrev main_cst_63 : Ref sig .tc := ⟨.hbm, 299, rfl⟩
abbrev main_v188 : Ref sig .tc := ⟨.hbm, 300, rfl⟩
abbrev main_v189 : Ref sig .tc := ⟨.hbm, 301, rfl⟩
abbrev main_cst_64 : Ref sig .tc := ⟨.hbm, 302, rfl⟩
abbrev main_v190 : Ref sig .tc := ⟨.hbm, 303, rfl⟩
abbrev main_v191 : Ref sig .tc := ⟨.hbm, 304, rfl⟩
abbrev main_cst_65 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_cst_66 : Ref sig .tc := ⟨.hbm, 312, rfl⟩
abbrev main_v198 : Ref sig .tc := ⟨.hbm, 313, rfl⟩
abbrev main_v199 : Ref sig .tc := ⟨.hbm, 314, rfl⟩
abbrev main_cst_67 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_68 : Ref sig .tc := ⟨.hbm, 319, rfl⟩
abbrev main_v203 : Ref sig .tc := ⟨.hbm, 320, rfl⟩
abbrev main_v204 : Ref sig .tc := ⟨.hbm, 321, rfl⟩
abbrev main_cst_69 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_70 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_71 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_c_72 : Ref sig .tc := ⟨.hbm, 334, rfl⟩
abbrev main_c_73 : Ref sig .tc := ⟨.hbm, 335, rfl⟩
abbrev main_call8_v0 : Ref sig .tc := ⟨.hbm, 336, rfl⟩
abbrev main_call8_v1 : Ref sig .tc := ⟨.hbm, 337, rfl⟩
abbrev main_call8_v2 : Ref sig .tc := ⟨.hbm, 338, rfl⟩
abbrev main_call8_v3 : Ref sig .tc := ⟨.hbm, 339, rfl⟩
abbrev main_call8_v4 : Ref sig .tc := ⟨.hbm, 340, rfl⟩
abbrev main_v214 : Ref sig .tc := ⟨.hbm, 341, rfl⟩
abbrev main_v215 : Ref sig .tc := ⟨.hbm, 342, rfl⟩
abbrev main_c_74 : Ref sig .tc := ⟨.hbm, 343, rfl⟩
abbrev main_c_75 : Ref sig .tc := ⟨.hbm, 344, rfl⟩
abbrev main_call9_v0 : Ref sig .tc := ⟨.hbm, 345, rfl⟩
abbrev main_call9_v1 : Ref sig .tc := ⟨.hbm, 346, rfl⟩
abbrev main_call9_v2 : Ref sig .tc := ⟨.hbm, 347, rfl⟩
abbrev main_call9_v3 : Ref sig .tc := ⟨.hbm, 348, rfl⟩
abbrev main_call9_v4 : Ref sig .tc := ⟨.hbm, 349, rfl⟩
abbrev main_v216 : Ref sig .tc := ⟨.hbm, 350, rfl⟩
abbrev main_v217 : Ref sig .tc := ⟨.hbm, 351, rfl⟩
abbrev main_c_76 : Ref sig .tc := ⟨.hbm, 352, rfl⟩
abbrev main_v218 : Ref sig .tc := ⟨.hbm, 353, rfl⟩
abbrev main_v219 : Ref sig .tc := ⟨.hbm, 354, rfl⟩
abbrev main_c_77 : Ref sig .tc := ⟨.hbm, 355, rfl⟩
abbrev main_v220 : Ref sig .tc := ⟨.hbm, 356, rfl⟩
abbrev main_v221 : Ref sig .tc := ⟨.hbm, 357, rfl⟩
abbrev main_v222 : Ref sig .tc := ⟨.hbm, 358, rfl⟩
abbrev main_c_78 : Ref sig .tc := ⟨.hbm, 359, rfl⟩
abbrev main_v223 : Ref sig .tc := ⟨.hbm, 360, rfl⟩
abbrev main_v224 : Ref sig .tc := ⟨.hbm, 361, rfl⟩
abbrev main_c_79 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_cst_80 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_cst_81 : Ref sig .tc := ⟨.hbm, 379, rfl⟩
abbrev main_v240 : Ref sig .tc := ⟨.hbm, 380, rfl⟩
abbrev main_v241 : Ref sig .tc := ⟨.hbm, 381, rfl⟩
abbrev main_cst_82 : Ref sig .tc := ⟨.hbm, 382, rfl⟩
abbrev main_v242 : Ref sig .tc := ⟨.hbm, 383, rfl⟩
abbrev main_v243 : Ref sig .tc := ⟨.hbm, 384, rfl⟩
abbrev main_v244 : Ref sig .tc := ⟨.hbm, 385, rfl⟩
abbrev main_cst_83 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_cst_84 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_c_85 : Ref sig .tc := ⟨.hbm, 394, rfl⟩
abbrev main_c_86 : Ref sig .tc := ⟨.hbm, 395, rfl⟩
abbrev main_call10_v0 : Ref sig .tc := ⟨.hbm, 396, rfl⟩
abbrev main_call10_v1 : Ref sig .tc := ⟨.hbm, 397, rfl⟩
abbrev main_call10_v2 : Ref sig .tc := ⟨.hbm, 398, rfl⟩
abbrev main_call10_v3 : Ref sig .tc := ⟨.hbm, 399, rfl⟩
abbrev main_call10_v4 : Ref sig .tc := ⟨.hbm, 400, rfl⟩
abbrev main_v251 : Ref sig .tc := ⟨.hbm, 401, rfl⟩
abbrev main_v252 : Ref sig .tc := ⟨.hbm, 402, rfl⟩
abbrev main_c_87 : Ref sig .tc := ⟨.hbm, 403, rfl⟩
abbrev main_c_88 : Ref sig .tc := ⟨.hbm, 404, rfl⟩
abbrev main_call11_v0 : Ref sig .tc := ⟨.hbm, 405, rfl⟩
abbrev main_call11_v1 : Ref sig .tc := ⟨.hbm, 406, rfl⟩
abbrev main_call11_v2 : Ref sig .tc := ⟨.hbm, 407, rfl⟩
abbrev main_call11_v3 : Ref sig .tc := ⟨.hbm, 408, rfl⟩
abbrev main_call11_v4 : Ref sig .tc := ⟨.hbm, 409, rfl⟩
abbrev main_v253 : Ref sig .tc := ⟨.hbm, 410, rfl⟩
abbrev main_v254 : Ref sig .tc := ⟨.hbm, 411, rfl⟩
abbrev main_c_89 : Ref sig .tc := ⟨.hbm, 412, rfl⟩
abbrev main_v255 : Ref sig .tc := ⟨.hbm, 413, rfl⟩
abbrev main_v256 : Ref sig .tc := ⟨.hbm, 414, rfl⟩
abbrev main_c_90 : Ref sig .tc := ⟨.hbm, 415, rfl⟩
abbrev main_v257 : Ref sig .tc := ⟨.hbm, 416, rfl⟩
abbrev main_v258 : Ref sig .tc := ⟨.hbm, 417, rfl⟩
abbrev main_v259 : Ref sig .tc := ⟨.hbm, 418, rfl⟩
abbrev main_c_91 : Ref sig .tc := ⟨.hbm, 419, rfl⟩
abbrev main_v260 : Ref sig .tc := ⟨.hbm, 420, rfl⟩
abbrev main_v261 : Ref sig .tc := ⟨.hbm, 421, rfl⟩
abbrev main_c_92 : Ref sig .tc := ⟨.hbm, 422, rfl⟩
abbrev main_v262 : Ref sig .tc := ⟨.hbm, 423, rfl⟩
abbrev main_v263 : Ref sig .tc := ⟨.hbm, 424, rfl⟩
abbrev main_v264 : Ref sig .tc := ⟨.hbm, 425, rfl⟩
abbrev main_v265 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_v273 : Ref sig .tc := ⟨.hbm, 434, rfl⟩
abbrev main_v274 : Ref sig .tc := ⟨.hbm, 435, rfl⟩
abbrev main_cst_93 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_cst_94 : Ref sig .tc := ⟨.hbm, 440, rfl⟩
abbrev main_v278 : Ref sig .tc := ⟨.hbm, 441, rfl⟩
abbrev main_v279 : Ref sig .tc := ⟨.hbm, 442, rfl⟩
abbrev main_cst_95 : Ref sig .tc := ⟨.hbm, 443, rfl⟩
abbrev main_v280 : Ref sig .tc := ⟨.hbm, 444, rfl⟩
abbrev main_v281 : Ref sig .tc := ⟨.hbm, 445, rfl⟩
abbrev main_v282 : Ref sig .tc := ⟨.hbm, 446, rfl⟩
abbrev main_cst_96 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_cst_97 : Ref sig .tc := ⟨.hbm, 451, rfl⟩
abbrev main_v286 : Ref sig .tc := ⟨.hbm, 452, rfl⟩
abbrev main_v287 : Ref sig .tc := ⟨.hbm, 453, rfl⟩
abbrev main_v288 : Ref sig .tc := ⟨.hbm, 454, rfl⟩
abbrev main_c_98 : Ref sig .tc := ⟨.hbm, 455, rfl⟩
abbrev main_c_99 : Ref sig .tc := ⟨.hbm, 456, rfl⟩
abbrev main_call12_v0 : Ref sig .tc := ⟨.hbm, 457, rfl⟩
abbrev main_call12_v1 : Ref sig .tc := ⟨.hbm, 458, rfl⟩
abbrev main_call12_v2 : Ref sig .tc := ⟨.hbm, 459, rfl⟩
abbrev main_call12_v3 : Ref sig .tc := ⟨.hbm, 460, rfl⟩
abbrev main_call12_v4 : Ref sig .tc := ⟨.hbm, 461, rfl⟩
abbrev main_v289 : Ref sig .tc := ⟨.hbm, 462, rfl⟩
abbrev main_v290 : Ref sig .tc := ⟨.hbm, 463, rfl⟩
abbrev main_c_100 : Ref sig .tc := ⟨.hbm, 464, rfl⟩
abbrev main_c_101 : Ref sig .tc := ⟨.hbm, 465, rfl⟩
abbrev main_call13_v0 : Ref sig .tc := ⟨.hbm, 466, rfl⟩
abbrev main_call13_v1 : Ref sig .tc := ⟨.hbm, 467, rfl⟩
abbrev main_call13_v2 : Ref sig .tc := ⟨.hbm, 468, rfl⟩
abbrev main_call13_v3 : Ref sig .tc := ⟨.hbm, 469, rfl⟩
abbrev main_call13_v4 : Ref sig .tc := ⟨.hbm, 470, rfl⟩
abbrev main_v291 : Ref sig .tc := ⟨.hbm, 471, rfl⟩
abbrev main_v292 : Ref sig .tc := ⟨.hbm, 472, rfl⟩
abbrev main_c_102 : Ref sig .tc := ⟨.hbm, 473, rfl⟩
abbrev main_v293 : Ref sig .tc := ⟨.hbm, 474, rfl⟩
abbrev main_v294 : Ref sig .tc := ⟨.hbm, 475, rfl⟩
abbrev main_c_103 : Ref sig .tc := ⟨.hbm, 476, rfl⟩
abbrev main_v295 : Ref sig .tc := ⟨.hbm, 477, rfl⟩
abbrev main_v296 : Ref sig .tc := ⟨.hbm, 478, rfl⟩
abbrev main_v297 : Ref sig .tc := ⟨.hbm, 479, rfl⟩
abbrev main_c_104 : Ref sig .tc := ⟨.hbm, 480, rfl⟩
abbrev main_v298 : Ref sig .tc := ⟨.hbm, 481, rfl⟩
abbrev main_v299 : Ref sig .tc := ⟨.hbm, 482, rfl⟩
abbrev main_c_105 : Ref sig .tc := ⟨.hbm, 483, rfl⟩
abbrev main_v300 : Ref sig .tc := ⟨.hbm, 484, rfl⟩
abbrev main_v301 : Ref sig .tc := ⟨.hbm, 485, rfl⟩
abbrev main_v302 : Ref sig .tc := ⟨.hbm, 486, rfl⟩
abbrev main_v303 : Ref sig .tc := ⟨.hbm, 487, rfl⟩
abbrev main_v304 : Ref sig .tc := ⟨.hbm, 488, rfl⟩
abbrev main_v305 : Ref sig .tc := ⟨.hbm, 489, rfl⟩
abbrev main_v306 : Ref sig .tc := ⟨.hbm, 490, rfl⟩
abbrev main_v307 : Ref sig .tc := ⟨.hbm, 491, rfl⟩
abbrev main_v308 : Ref sig .tc := ⟨.hbm, 492, rfl⟩
abbrev main_v309 : Ref sig .tc := ⟨.hbm, 493, rfl⟩
abbrev main_v310 : Ref sig .tc := ⟨.hbm, 494, rfl⟩
abbrev main_v311 : Ref sig .tc := ⟨.hbm, 495, rfl⟩
abbrev main_v312 : Ref sig .tc := ⟨.hbm, 496, rfl⟩
abbrev main_cst_106 : Ref sig .tc := ⟨.hbm, 497, rfl⟩
abbrev main_v313 : Ref sig .tc := ⟨.hbm, 498, rfl⟩
abbrev main_v314 : Ref sig .tc := ⟨.hbm, 499, rfl⟩
abbrev main_cst_107 : Ref sig .tc := ⟨.hbm, 500, rfl⟩
abbrev main_v315 : Ref sig .tc := ⟨.hbm, 501, rfl⟩
abbrev main_v316 : Ref sig .tc := ⟨.hbm, 502, rfl⟩
abbrev main_v317 : Ref sig .tc := ⟨.hbm, 503, rfl⟩
abbrev main_cst_108 : Ref sig .tc := ⟨.hbm, 504, rfl⟩
abbrev main_v318 : Ref sig .tc := ⟨.hbm, 505, rfl⟩
abbrev main_v319 : Ref sig .tc := ⟨.hbm, 506, rfl⟩
abbrev main_cst_109 : Ref sig .tc := ⟨.hbm, 507, rfl⟩
abbrev main_v320 : Ref sig .tc := ⟨.hbm, 508, rfl⟩
abbrev main_v321 : Ref sig .tc := ⟨.hbm, 509, rfl⟩
abbrev main_v322 : Ref sig .tc := ⟨.hbm, 510, rfl⟩
abbrev main_cst_110 : Ref sig .tc := ⟨.hbm, 511, rfl⟩
abbrev main_v323 : Ref sig .tc := ⟨.hbm, 512, rfl⟩
abbrev main_v324 : Ref sig .tc := ⟨.hbm, 513, rfl⟩
abbrev main_v325 : Ref sig .tc := ⟨.hbm, 514, rfl⟩
abbrev main_cst_111 : Ref sig .tc := ⟨.hbm, 515, rfl⟩
abbrev main_v326 : Ref sig .tc := ⟨.hbm, 516, rfl⟩
abbrev main_v327 : Ref sig .tc := ⟨.hbm, 517, rfl⟩
abbrev main_v328 : Ref sig .tc := ⟨.hbm, 518, rfl⟩
abbrev main_c_112 : Ref sig .tc := ⟨.hbm, 519, rfl⟩
abbrev main_c_113 : Ref sig .tc := ⟨.hbm, 520, rfl⟩
abbrev main_call14_v0 : Ref sig .tc := ⟨.hbm, 521, rfl⟩
abbrev main_call14_v1 : Ref sig .tc := ⟨.hbm, 522, rfl⟩
abbrev main_call14_v2 : Ref sig .tc := ⟨.hbm, 523, rfl⟩
abbrev main_call14_v3 : Ref sig .tc := ⟨.hbm, 524, rfl⟩
abbrev main_call14_v4 : Ref sig .tc := ⟨.hbm, 525, rfl⟩
abbrev main_v329 : Ref sig .tc := ⟨.hbm, 526, rfl⟩
abbrev main_v330 : Ref sig .tc := ⟨.hbm, 527, rfl⟩
abbrev main_c_114 : Ref sig .tc := ⟨.hbm, 528, rfl⟩
abbrev main_c_115 : Ref sig .tc := ⟨.hbm, 529, rfl⟩
abbrev main_call15_v0 : Ref sig .tc := ⟨.hbm, 530, rfl⟩
abbrev main_call15_v1 : Ref sig .tc := ⟨.hbm, 531, rfl⟩
abbrev main_call15_v2 : Ref sig .tc := ⟨.hbm, 532, rfl⟩
abbrev main_call15_v3 : Ref sig .tc := ⟨.hbm, 533, rfl⟩
abbrev main_call15_v4 : Ref sig .tc := ⟨.hbm, 534, rfl⟩
abbrev main_v331 : Ref sig .tc := ⟨.hbm, 535, rfl⟩
abbrev main_v332 : Ref sig .tc := ⟨.hbm, 536, rfl⟩
abbrev main_c_116 : Ref sig .tc := ⟨.hbm, 537, rfl⟩
abbrev main_v333 : Ref sig .tc := ⟨.hbm, 538, rfl⟩
abbrev main_v334 : Ref sig .tc := ⟨.hbm, 539, rfl⟩
abbrev main_c_117 : Ref sig .tc := ⟨.hbm, 540, rfl⟩
abbrev main_v335 : Ref sig .tc := ⟨.hbm, 541, rfl⟩
abbrev main_v336 : Ref sig .tc := ⟨.hbm, 542, rfl⟩
abbrev main_v337 : Ref sig .tc := ⟨.hbm, 543, rfl⟩
abbrev main_c_118 : Ref sig .tc := ⟨.hbm, 544, rfl⟩
abbrev main_v338 : Ref sig .tc := ⟨.hbm, 545, rfl⟩
abbrev main_v339 : Ref sig .tc := ⟨.hbm, 546, rfl⟩
abbrev main_c_119 : Ref sig .tc := ⟨.hbm, 547, rfl⟩
abbrev main_v340 : Ref sig .tc := ⟨.hbm, 548, rfl⟩
abbrev main_v341 : Ref sig .tc := ⟨.hbm, 549, rfl⟩
abbrev main_v342 : Ref sig .tc := ⟨.hbm, 550, rfl⟩
abbrev main_v343 : Ref sig .tc := ⟨.hbm, 551, rfl⟩
abbrev main_v344 : Ref sig .tc := ⟨.hbm, 552, rfl⟩
abbrev main_v345 : Ref sig .tc := ⟨.hbm, 553, rfl⟩
abbrev main_v346 : Ref sig .tc := ⟨.hbm, 554, rfl⟩
abbrev main_v347 : Ref sig .tc := ⟨.hbm, 555, rfl⟩
abbrev main_v348 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_v352 : Ref sig .tc := ⟨.hbm, 560, rfl⟩
abbrev main_v353 : Ref sig .tc := ⟨.hbm, 561, rfl⟩
abbrev main_v354 : Ref sig .tc := ⟨.hbm, 562, rfl⟩
abbrev main_cst_120 : Ref sig .tc := ⟨.hbm, 563, rfl⟩
abbrev main_v355 : Ref sig .tc := ⟨.hbm, 564, rfl⟩
abbrev main_v356 : Ref sig .tc := ⟨.hbm, 565, rfl⟩
abbrev main_cst_121 : Ref sig .tc := ⟨.hbm, 566, rfl⟩
abbrev main_v357 : Ref sig .tc := ⟨.hbm, 567, rfl⟩
abbrev main_v358 : Ref sig .tc := ⟨.hbm, 568, rfl⟩
abbrev main_cst_122 : Ref sig .tc := ⟨.hbm, 569, rfl⟩
abbrev main_v359 : Ref sig .tc := ⟨.hbm, 570, rfl⟩
abbrev main_v360 : Ref sig .tc := ⟨.hbm, 571, rfl⟩
abbrev main_cst_123 : Ref sig .tc := ⟨.hbm, 572, rfl⟩
abbrev main_v361 : Ref sig .tc := ⟨.hbm, 573, rfl⟩
abbrev main_v362 : Ref sig .tc := ⟨.hbm, 574, rfl⟩
abbrev main_cst_124 : Ref sig .tc := ⟨.hbm, 575, rfl⟩
abbrev main_v363 : Ref sig .tc := ⟨.hbm, 576, rfl⟩
abbrev main_v364 : Ref sig .tc := ⟨.hbm, 577, rfl⟩
abbrev main_cst_125 : Ref sig .tc := ⟨.hbm, 578, rfl⟩
abbrev main_v365 : Ref sig .tc := ⟨.hbm, 579, rfl⟩
abbrev main_v366 : Ref sig .tc := ⟨.hbm, 580, rfl⟩
abbrev main_v367 : Ref sig .tc := ⟨.hbm, 581, rfl⟩
abbrev main_v368 : Ref sig .tc := ⟨.hbm, 582, rfl⟩
abbrev main_v369 : Ref sig .tc := ⟨.hbm, 583, rfl⟩
abbrev main_v370 : Ref sig .tc := ⟨.hbm, 584, rfl⟩
abbrev main_cst_126 : Ref sig .tc := ⟨.hbm, 585, rfl⟩
abbrev main_v371 : Ref sig .tc := ⟨.hbm, 586, rfl⟩
abbrev main_v372 : Ref sig .tc := ⟨.hbm, 587, rfl⟩
abbrev main_cst_127 : Ref sig .tc := ⟨.hbm, 588, rfl⟩
abbrev main_v373 : Ref sig .tc := ⟨.hbm, 589, rfl⟩
abbrev main_v374 : Ref sig .tc := ⟨.hbm, 590, rfl⟩
abbrev main_v375 : Ref sig .tc := ⟨.hbm, 591, rfl⟩
abbrev main_cst_128 : Ref sig .tc := ⟨.hbm, 592, rfl⟩
abbrev main_v376 : Ref sig .tc := ⟨.hbm, 593, rfl⟩
abbrev main_v377 : Ref sig .tc := ⟨.hbm, 594, rfl⟩
abbrev main_cst_129 : Ref sig .tc := ⟨.hbm, 595, rfl⟩
abbrev main_v378 : Ref sig .tc := ⟨.hbm, 596, rfl⟩
abbrev main_v379 : Ref sig .tc := ⟨.hbm, 597, rfl⟩
abbrev main_v380 : Ref sig .tc := ⟨.hbm, 598, rfl⟩
abbrev main_cst_130 : Ref sig .tc := ⟨.hbm, 599, rfl⟩
abbrev main_v381 : Ref sig .tc := ⟨.hbm, 600, rfl⟩
abbrev main_v382 : Ref sig .tc := ⟨.hbm, 601, rfl⟩
abbrev main_v383 : Ref sig .tc := ⟨.hbm, 602, rfl⟩
abbrev main_cst_131 : Ref sig .tc := ⟨.hbm, 603, rfl⟩
abbrev main_v384 : Ref sig .tc := ⟨.hbm, 604, rfl⟩
abbrev main_v385 : Ref sig .tc := ⟨.hbm, 605, rfl⟩
abbrev main_v386 : Ref sig .tc := ⟨.hbm, 606, rfl⟩
abbrev main_c_132 : Ref sig .tc := ⟨.hbm, 607, rfl⟩
abbrev main_c_133 : Ref sig .tc := ⟨.hbm, 608, rfl⟩
abbrev main_call16_v0 : Ref sig .tc := ⟨.hbm, 609, rfl⟩
abbrev main_call16_v1 : Ref sig .tc := ⟨.hbm, 610, rfl⟩
abbrev main_call16_v2 : Ref sig .tc := ⟨.hbm, 611, rfl⟩
abbrev main_call16_v3 : Ref sig .tc := ⟨.hbm, 612, rfl⟩
abbrev main_call16_v4 : Ref sig .tc := ⟨.hbm, 613, rfl⟩
abbrev main_v387 : Ref sig .tc := ⟨.hbm, 614, rfl⟩
abbrev main_v388 : Ref sig .tc := ⟨.hbm, 615, rfl⟩
abbrev main_c_134 : Ref sig .tc := ⟨.hbm, 616, rfl⟩
abbrev main_c_135 : Ref sig .tc := ⟨.hbm, 617, rfl⟩
abbrev main_call17_v0 : Ref sig .tc := ⟨.hbm, 618, rfl⟩
abbrev main_call17_v1 : Ref sig .tc := ⟨.hbm, 619, rfl⟩
abbrev main_call17_v2 : Ref sig .tc := ⟨.hbm, 620, rfl⟩
abbrev main_call17_v3 : Ref sig .tc := ⟨.hbm, 621, rfl⟩
abbrev main_call17_v4 : Ref sig .tc := ⟨.hbm, 622, rfl⟩
abbrev main_v389 : Ref sig .tc := ⟨.hbm, 623, rfl⟩
abbrev main_v390 : Ref sig .tc := ⟨.hbm, 624, rfl⟩
abbrev main_c_136 : Ref sig .tc := ⟨.hbm, 625, rfl⟩
abbrev main_v391 : Ref sig .tc := ⟨.hbm, 626, rfl⟩
abbrev main_v392 : Ref sig .tc := ⟨.hbm, 627, rfl⟩
abbrev main_c_137 : Ref sig .tc := ⟨.hbm, 628, rfl⟩
abbrev main_v393 : Ref sig .tc := ⟨.hbm, 629, rfl⟩
abbrev main_v394 : Ref sig .tc := ⟨.hbm, 630, rfl⟩
abbrev main_v395 : Ref sig .tc := ⟨.hbm, 631, rfl⟩
abbrev main_c_138 : Ref sig .tc := ⟨.hbm, 632, rfl⟩
abbrev main_v396 : Ref sig .tc := ⟨.hbm, 633, rfl⟩
abbrev main_v397 : Ref sig .tc := ⟨.hbm, 634, rfl⟩
abbrev main_c_139 : Ref sig .tc := ⟨.hbm, 635, rfl⟩
abbrev main_v398 : Ref sig .tc := ⟨.hbm, 636, rfl⟩
abbrev main_v399 : Ref sig .tc := ⟨.hbm, 637, rfl⟩
abbrev main_v400 : Ref sig .tc := ⟨.hbm, 638, rfl⟩
abbrev main_v401 : Ref sig .tc := ⟨.hbm, 639, rfl⟩
abbrev main_v402 : Ref sig .tc := ⟨.hbm, 640, rfl⟩
abbrev main_v403 : Ref sig .tc := ⟨.hbm, 641, rfl⟩
abbrev main_v404 : Ref sig .tc := ⟨.hbm, 642, rfl⟩
abbrev main_v405 : Ref sig .tc := ⟨.hbm, 643, rfl⟩
abbrev main_v406 : Ref sig .tc := ⟨.hbm, 644, rfl⟩
abbrev main_v407 : Ref sig .tc := ⟨.hbm, 645, rfl⟩
abbrev main_v408 : Ref sig .tc := ⟨.hbm, 646, rfl⟩
abbrev main_v409 : Ref sig .tc := ⟨.hbm, 647, rfl⟩
abbrev main_cst_140 : Ref sig .tc := ⟨.hbm, 648, rfl⟩
abbrev main_v410 : Ref sig .tc := ⟨.hbm, 649, rfl⟩
abbrev main_v411 : Ref sig .tc := ⟨.hbm, 650, rfl⟩
abbrev main_v412 : Ref sig .tc := ⟨.hbm, 651, rfl⟩
abbrev main_cst_141 : Ref sig .tc := ⟨.hbm, 652, rfl⟩
abbrev main_v413 : Ref sig .tc := ⟨.hbm, 653, rfl⟩
abbrev main_v414 : Ref sig .tc := ⟨.hbm, 654, rfl⟩
abbrev main_cst_142 : Ref sig .tc := ⟨.hbm, 655, rfl⟩
abbrev main_v415 : Ref sig .tc := ⟨.hbm, 656, rfl⟩
abbrev main_v416 : Ref sig .tc := ⟨.hbm, 657, rfl⟩
abbrev main_v417 : Ref sig .tc := ⟨.hbm, 658, rfl⟩
abbrev main_cst_143 : Ref sig .tc := ⟨.hbm, 659, rfl⟩
abbrev main_v418 : Ref sig .tc := ⟨.hbm, 660, rfl⟩
abbrev main_v419 : Ref sig .tc := ⟨.hbm, 661, rfl⟩
abbrev main_v420 : Ref sig .tc := ⟨.hbm, 662, rfl⟩
abbrev main_cst_144 : Ref sig .tc := ⟨.hbm, 663, rfl⟩
abbrev main_v421 : Ref sig .tc := ⟨.hbm, 664, rfl⟩
abbrev main_v422 : Ref sig .tc := ⟨.hbm, 665, rfl⟩
abbrev main_v423 : Ref sig .tc := ⟨.hbm, 666, rfl⟩
abbrev main_c_145 : Ref sig .tc := ⟨.hbm, 667, rfl⟩
abbrev main_c_146 : Ref sig .tc := ⟨.hbm, 668, rfl⟩
abbrev main_call18_v0 : Ref sig .tc := ⟨.hbm, 669, rfl⟩
abbrev main_call18_v1 : Ref sig .tc := ⟨.hbm, 670, rfl⟩
abbrev main_call18_v2 : Ref sig .tc := ⟨.hbm, 671, rfl⟩
abbrev main_call18_v3 : Ref sig .tc := ⟨.hbm, 672, rfl⟩
abbrev main_call18_v4 : Ref sig .tc := ⟨.hbm, 673, rfl⟩
abbrev main_v424 : Ref sig .tc := ⟨.hbm, 674, rfl⟩
abbrev main_v425 : Ref sig .tc := ⟨.hbm, 675, rfl⟩
abbrev main_c_147 : Ref sig .tc := ⟨.hbm, 676, rfl⟩
abbrev main_c_148 : Ref sig .tc := ⟨.hbm, 677, rfl⟩
abbrev main_call19_v0 : Ref sig .tc := ⟨.hbm, 678, rfl⟩
abbrev main_call19_v1 : Ref sig .tc := ⟨.hbm, 679, rfl⟩
abbrev main_call19_v2 : Ref sig .tc := ⟨.hbm, 680, rfl⟩
abbrev main_call19_v3 : Ref sig .tc := ⟨.hbm, 681, rfl⟩
abbrev main_call19_v4 : Ref sig .tc := ⟨.hbm, 682, rfl⟩
abbrev main_v426 : Ref sig .tc := ⟨.hbm, 683, rfl⟩
abbrev main_v427 : Ref sig .tc := ⟨.hbm, 684, rfl⟩
abbrev main_c_149 : Ref sig .tc := ⟨.hbm, 685, rfl⟩
abbrev main_v428 : Ref sig .tc := ⟨.hbm, 686, rfl⟩
abbrev main_v429 : Ref sig .tc := ⟨.hbm, 687, rfl⟩
abbrev main_c_150 : Ref sig .tc := ⟨.hbm, 688, rfl⟩
abbrev main_v430 : Ref sig .tc := ⟨.hbm, 689, rfl⟩
abbrev main_v431 : Ref sig .tc := ⟨.hbm, 690, rfl⟩
abbrev main_v432 : Ref sig .tc := ⟨.hbm, 691, rfl⟩
abbrev main_c_151 : Ref sig .tc := ⟨.hbm, 692, rfl⟩
abbrev main_v433 : Ref sig .tc := ⟨.hbm, 693, rfl⟩
abbrev main_v434 : Ref sig .tc := ⟨.hbm, 694, rfl⟩
abbrev main_c_152 : Ref sig .tc := ⟨.hbm, 695, rfl⟩
abbrev main_v435 : Ref sig .tc := ⟨.hbm, 696, rfl⟩
abbrev main_v436 : Ref sig .tc := ⟨.hbm, 697, rfl⟩
abbrev main_v437 : Ref sig .tc := ⟨.hbm, 698, rfl⟩
abbrev main_v438 : Ref sig .tc := ⟨.hbm, 699, rfl⟩
abbrev main_v439 : Ref sig .tc := ⟨.hbm, 700, rfl⟩
abbrev main_v440 : Ref sig .tc := ⟨.hbm, 701, rfl⟩
abbrev main_v441 : Ref sig .tc := ⟨.hbm, 702, rfl⟩
abbrev main_v442 : Ref sig .tc := ⟨.hbm, 703, rfl⟩
abbrev main_v443 : Ref sig .tc := ⟨.hbm, 704, rfl⟩
abbrev main_v444 : Ref sig .tc := ⟨.hbm, 705, rfl⟩
abbrev main_v445 : Ref sig .tc := ⟨.hbm, 706, rfl⟩
abbrev main_v446 : Ref sig .tc := ⟨.hbm, 707, rfl⟩
abbrev main_v447 : Ref sig .tc := ⟨.hbm, 708, rfl⟩
abbrev main_cst_153 : Ref sig .tc := ⟨.hbm, 709, rfl⟩
abbrev main_v448 : Ref sig .tc := ⟨.hbm, 710, rfl⟩
abbrev main_v449 : Ref sig .tc := ⟨.hbm, 711, rfl⟩
abbrev main_v450 : Ref sig .tc := ⟨.hbm, 712, rfl⟩
abbrev main_cst_154 : Ref sig .tc := ⟨.hbm, 713, rfl⟩
abbrev main_v451 : Ref sig .tc := ⟨.hbm, 714, rfl⟩
abbrev main_v452 : Ref sig .tc := ⟨.hbm, 715, rfl⟩
abbrev main_cst_155 : Ref sig .tc := ⟨.hbm, 716, rfl⟩
abbrev main_v453 : Ref sig .tc := ⟨.hbm, 717, rfl⟩
abbrev main_v454 : Ref sig .tc := ⟨.hbm, 718, rfl⟩
abbrev main_v455 : Ref sig .tc := ⟨.hbm, 719, rfl⟩
abbrev main_cst_156 : Ref sig .tc := ⟨.hbm, 720, rfl⟩
abbrev main_v456 : Ref sig .tc := ⟨.hbm, 721, rfl⟩
abbrev main_v457 : Ref sig .tc := ⟨.hbm, 722, rfl⟩
abbrev main_v458 : Ref sig .tc := ⟨.hbm, 723, rfl⟩
abbrev main_cst_157 : Ref sig .tc := ⟨.hbm, 724, rfl⟩
abbrev main_v459 : Ref sig .tc := ⟨.hbm, 725, rfl⟩
abbrev main_v460 : Ref sig .tc := ⟨.hbm, 726, rfl⟩
abbrev main_v461 : Ref sig .tc := ⟨.hbm, 727, rfl⟩
abbrev main_c_158 : Ref sig .tc := ⟨.hbm, 728, rfl⟩
abbrev main_c_159 : Ref sig .tc := ⟨.hbm, 729, rfl⟩
abbrev main_call20_v0 : Ref sig .tc := ⟨.hbm, 730, rfl⟩
abbrev main_call20_v1 : Ref sig .tc := ⟨.hbm, 731, rfl⟩
abbrev main_call20_v2 : Ref sig .tc := ⟨.hbm, 732, rfl⟩
abbrev main_call20_v3 : Ref sig .tc := ⟨.hbm, 733, rfl⟩
abbrev main_call20_v4 : Ref sig .tc := ⟨.hbm, 734, rfl⟩
abbrev main_v462 : Ref sig .tc := ⟨.hbm, 735, rfl⟩
abbrev main_v463 : Ref sig .tc := ⟨.hbm, 736, rfl⟩
abbrev main_c_160 : Ref sig .tc := ⟨.hbm, 737, rfl⟩
abbrev main_c_161 : Ref sig .tc := ⟨.hbm, 738, rfl⟩
abbrev main_call21_v0 : Ref sig .tc := ⟨.hbm, 739, rfl⟩
abbrev main_call21_v1 : Ref sig .tc := ⟨.hbm, 740, rfl⟩
abbrev main_call21_v2 : Ref sig .tc := ⟨.hbm, 741, rfl⟩
abbrev main_call21_v3 : Ref sig .tc := ⟨.hbm, 742, rfl⟩
abbrev main_call21_v4 : Ref sig .tc := ⟨.hbm, 743, rfl⟩
abbrev main_v464 : Ref sig .tc := ⟨.hbm, 744, rfl⟩
abbrev main_v465 : Ref sig .tc := ⟨.hbm, 745, rfl⟩
abbrev main_c_162 : Ref sig .tc := ⟨.hbm, 746, rfl⟩
abbrev main_v466 : Ref sig .tc := ⟨.hbm, 747, rfl⟩
abbrev main_v467 : Ref sig .tc := ⟨.hbm, 748, rfl⟩
abbrev main_c_163 : Ref sig .tc := ⟨.hbm, 749, rfl⟩
abbrev main_v468 : Ref sig .tc := ⟨.hbm, 750, rfl⟩
abbrev main_v469 : Ref sig .tc := ⟨.hbm, 751, rfl⟩
abbrev main_v470 : Ref sig .tc := ⟨.hbm, 752, rfl⟩
abbrev main_c_164 : Ref sig .tc := ⟨.hbm, 753, rfl⟩
abbrev main_v471 : Ref sig .tc := ⟨.hbm, 754, rfl⟩
abbrev main_v472 : Ref sig .tc := ⟨.hbm, 755, rfl⟩
abbrev main_c_165 : Ref sig .tc := ⟨.hbm, 756, rfl⟩
abbrev main_v473 : Ref sig .tc := ⟨.hbm, 757, rfl⟩
abbrev main_v474 : Ref sig .tc := ⟨.hbm, 758, rfl⟩
abbrev main_v475 : Ref sig .tc := ⟨.hbm, 759, rfl⟩
abbrev main_v476 : Ref sig .tc := ⟨.hbm, 760, rfl⟩
abbrev main_v477 : Ref sig .tc := ⟨.hbm, 761, rfl⟩
abbrev main_v478 : Ref sig .tc := ⟨.hbm, 762, rfl⟩
abbrev main_v479 : Ref sig .tc := ⟨.hbm, 763, rfl⟩
abbrev main_v480 : Ref sig .tc := ⟨.hbm, 764, rfl⟩
abbrev main_v481 : Ref sig .tc := ⟨.hbm, 765, rfl⟩
abbrev main_v482 : Ref sig .tc := ⟨.hbm, 766, rfl⟩
abbrev main_v483 : Ref sig .tc := ⟨.hbm, 767, rfl⟩
abbrev main_v484 : Ref sig .tc := ⟨.hbm, 768, rfl⟩
abbrev main_v485 : Ref sig .tc := ⟨.hbm, 769, rfl⟩
abbrev main_cst_166 : Ref sig .tc := ⟨.hbm, 770, rfl⟩
abbrev main_v486 : Ref sig .tc := ⟨.hbm, 771, rfl⟩
abbrev main_v487 : Ref sig .tc := ⟨.hbm, 772, rfl⟩
abbrev main_cst_167 : Ref sig .tc := ⟨.hbm, 773, rfl⟩
abbrev main_v488 : Ref sig .tc := ⟨.hbm, 774, rfl⟩
abbrev main_v489 : Ref sig .tc := ⟨.hbm, 775, rfl⟩
abbrev main_v490 : Ref sig .tc := ⟨.hbm, 776, rfl⟩
abbrev main_cst_168 : Ref sig .tc := ⟨.hbm, 777, rfl⟩
abbrev main_v491 : Ref sig .tc := ⟨.hbm, 778, rfl⟩
abbrev main_v492 : Ref sig .tc := ⟨.hbm, 779, rfl⟩
abbrev main_cst_169 : Ref sig .tc := ⟨.hbm, 780, rfl⟩
abbrev main_v493 : Ref sig .tc := ⟨.hbm, 781, rfl⟩
abbrev main_v494 : Ref sig .tc := ⟨.hbm, 782, rfl⟩
abbrev main_v495 : Ref sig .tc := ⟨.hbm, 783, rfl⟩
abbrev main_cst_170 : Ref sig .tc := ⟨.hbm, 784, rfl⟩
abbrev main_v496 : Ref sig .tc := ⟨.hbm, 785, rfl⟩
abbrev main_v497 : Ref sig .tc := ⟨.hbm, 786, rfl⟩
abbrev main_v498 : Ref sig .tc := ⟨.hbm, 787, rfl⟩
abbrev main_cst_171 : Ref sig .tc := ⟨.hbm, 788, rfl⟩
abbrev main_v499 : Ref sig .tc := ⟨.hbm, 789, rfl⟩
abbrev main_v500 : Ref sig .tc := ⟨.hbm, 790, rfl⟩
abbrev main_v501 : Ref sig .tc := ⟨.hbm, 791, rfl⟩
abbrev main_c_172 : Ref sig .tc := ⟨.hbm, 792, rfl⟩
abbrev main_c_173 : Ref sig .tc := ⟨.hbm, 793, rfl⟩
abbrev main_call22_v0 : Ref sig .tc := ⟨.hbm, 794, rfl⟩
abbrev main_call22_v1 : Ref sig .tc := ⟨.hbm, 795, rfl⟩
abbrev main_call22_v2 : Ref sig .tc := ⟨.hbm, 796, rfl⟩
abbrev main_call22_v3 : Ref sig .tc := ⟨.hbm, 797, rfl⟩
abbrev main_call22_v4 : Ref sig .tc := ⟨.hbm, 798, rfl⟩
abbrev main_v502 : Ref sig .tc := ⟨.hbm, 799, rfl⟩
abbrev main_v503 : Ref sig .tc := ⟨.hbm, 800, rfl⟩
abbrev main_c_174 : Ref sig .tc := ⟨.hbm, 801, rfl⟩
abbrev main_c_175 : Ref sig .tc := ⟨.hbm, 802, rfl⟩
abbrev main_call23_v0 : Ref sig .tc := ⟨.hbm, 803, rfl⟩
abbrev main_call23_v1 : Ref sig .tc := ⟨.hbm, 804, rfl⟩
abbrev main_call23_v2 : Ref sig .tc := ⟨.hbm, 805, rfl⟩
abbrev main_call23_v3 : Ref sig .tc := ⟨.hbm, 806, rfl⟩
abbrev main_call23_v4 : Ref sig .tc := ⟨.hbm, 807, rfl⟩
abbrev main_v504 : Ref sig .tc := ⟨.hbm, 808, rfl⟩
abbrev main_v505 : Ref sig .tc := ⟨.hbm, 809, rfl⟩
abbrev main_c_176 : Ref sig .tc := ⟨.hbm, 810, rfl⟩
abbrev main_v506 : Ref sig .tc := ⟨.hbm, 811, rfl⟩
abbrev main_v507 : Ref sig .tc := ⟨.hbm, 812, rfl⟩
abbrev main_c_177 : Ref sig .tc := ⟨.hbm, 813, rfl⟩
abbrev main_v508 : Ref sig .tc := ⟨.hbm, 814, rfl⟩
abbrev main_v509 : Ref sig .tc := ⟨.hbm, 815, rfl⟩
abbrev main_v510 : Ref sig .tc := ⟨.hbm, 816, rfl⟩
abbrev main_c_178 : Ref sig .tc := ⟨.hbm, 817, rfl⟩
abbrev main_v511 : Ref sig .tc := ⟨.hbm, 818, rfl⟩
abbrev main_v512 : Ref sig .tc := ⟨.hbm, 819, rfl⟩
abbrev main_c_179 : Ref sig .tc := ⟨.hbm, 820, rfl⟩
abbrev main_v513 : Ref sig .tc := ⟨.hbm, 821, rfl⟩
abbrev main_v514 : Ref sig .tc := ⟨.hbm, 822, rfl⟩
abbrev main_v515 : Ref sig .tc := ⟨.hbm, 823, rfl⟩
abbrev main_v516 : Ref sig .tc := ⟨.hbm, 824, rfl⟩
abbrev main_v517 : Ref sig .tc := ⟨.hbm, 825, rfl⟩
abbrev main_v518 : Ref sig .tc := ⟨.hbm, 826, rfl⟩
abbrev main_v519 : Ref sig .tc := ⟨.hbm, 827, rfl⟩
abbrev main_v520 : Ref sig .tc := ⟨.hbm, 828, rfl⟩
abbrev main_v521 : Ref sig .tc := ⟨.hbm, 829, rfl⟩
abbrev main_v522 : Ref sig .tc := ⟨.hbm, 830, rfl⟩
abbrev main_v523 : Ref sig .tc := ⟨.hbm, 831, rfl⟩
abbrev main_v524 : Ref sig .tc := ⟨.hbm, 832, rfl⟩
abbrev main_v525 : Ref sig .tc := ⟨.hbm, 833, rfl⟩
abbrev main_v526 : Ref sig .tc := ⟨.hbm, 834, rfl⟩
abbrev main_v527 : Ref sig .tc := ⟨.hbm, 835, rfl⟩
abbrev main_cst_180 : Ref sig .tc := ⟨.hbm, 836, rfl⟩
abbrev main_v528 : Ref sig .tc := ⟨.hbm, 837, rfl⟩
abbrev main_v529 : Ref sig .tc := ⟨.hbm, 838, rfl⟩
abbrev main_cst_181 : Ref sig .tc := ⟨.hbm, 839, rfl⟩
abbrev main_v530 : Ref sig .tc := ⟨.hbm, 840, rfl⟩
abbrev main_v531 : Ref sig .tc := ⟨.hbm, 841, rfl⟩
abbrev main_cst_182 : Ref sig .tc := ⟨.hbm, 842, rfl⟩
abbrev main_v532 : Ref sig .tc := ⟨.hbm, 843, rfl⟩
abbrev main_v533 : Ref sig .tc := ⟨.hbm, 844, rfl⟩
abbrev main_cst_183 : Ref sig .tc := ⟨.hbm, 845, rfl⟩
abbrev main_v534 : Ref sig .tc := ⟨.hbm, 846, rfl⟩
abbrev main_v535 : Ref sig .tc := ⟨.hbm, 847, rfl⟩
abbrev main_cst_184 : Ref sig .tc := ⟨.hbm, 848, rfl⟩
abbrev main_v536 : Ref sig .tc := ⟨.hbm, 849, rfl⟩
abbrev main_v537 : Ref sig .tc := ⟨.hbm, 850, rfl⟩
abbrev main_cst_185 : Ref sig .tc := ⟨.hbm, 851, rfl⟩
abbrev main_v538 : Ref sig .tc := ⟨.hbm, 852, rfl⟩
abbrev main_v539 : Ref sig .tc := ⟨.hbm, 853, rfl⟩
abbrev main_v540 : Ref sig .tc := ⟨.hbm, 854, rfl⟩
abbrev main_v541 : Ref sig .tc := ⟨.hbm, 855, rfl⟩
abbrev main_v542 : Ref sig .tc := ⟨.hbm, 856, rfl⟩
abbrev main_v543 : Ref sig .tc := ⟨.hbm, 857, rfl⟩
abbrev main_cst_186 : Ref sig .tc := ⟨.hbm, 858, rfl⟩
abbrev main_v544 : Ref sig .tc := ⟨.hbm, 859, rfl⟩
abbrev main_v545 : Ref sig .tc := ⟨.hbm, 860, rfl⟩
abbrev main_cst_187 : Ref sig .tc := ⟨.hbm, 861, rfl⟩
abbrev main_v546 : Ref sig .tc := ⟨.hbm, 862, rfl⟩
abbrev main_v547 : Ref sig .tc := ⟨.hbm, 863, rfl⟩
abbrev main_v548 : Ref sig .tc := ⟨.hbm, 864, rfl⟩
abbrev main_cst_188 : Ref sig .tc := ⟨.hbm, 865, rfl⟩
abbrev main_v549 : Ref sig .tc := ⟨.hbm, 866, rfl⟩
abbrev main_v550 : Ref sig .tc := ⟨.hbm, 867, rfl⟩
abbrev main_cst_189 : Ref sig .tc := ⟨.hbm, 868, rfl⟩
abbrev main_v551 : Ref sig .tc := ⟨.hbm, 869, rfl⟩
abbrev main_v552 : Ref sig .tc := ⟨.hbm, 870, rfl⟩
abbrev main_v553 : Ref sig .tc := ⟨.hbm, 871, rfl⟩
abbrev main_cst_190 : Ref sig .tc := ⟨.hbm, 872, rfl⟩
abbrev main_v554 : Ref sig .tc := ⟨.hbm, 873, rfl⟩
abbrev main_v555 : Ref sig .tc := ⟨.hbm, 874, rfl⟩
abbrev main_v556 : Ref sig .tc := ⟨.hbm, 875, rfl⟩
abbrev main_cst_191 : Ref sig .tc := ⟨.hbm, 876, rfl⟩
abbrev main_v557 : Ref sig .tc := ⟨.hbm, 877, rfl⟩
abbrev main_v558 : Ref sig .tc := ⟨.hbm, 878, rfl⟩
abbrev main_v559 : Ref sig .tc := ⟨.hbm, 879, rfl⟩
abbrev main_c_192 : Ref sig .tc := ⟨.hbm, 880, rfl⟩
abbrev main_c_193 : Ref sig .tc := ⟨.hbm, 881, rfl⟩
abbrev main_call24_v0 : Ref sig .tc := ⟨.hbm, 882, rfl⟩
abbrev main_call24_v1 : Ref sig .tc := ⟨.hbm, 883, rfl⟩
abbrev main_call24_v2 : Ref sig .tc := ⟨.hbm, 884, rfl⟩
abbrev main_call24_v3 : Ref sig .tc := ⟨.hbm, 885, rfl⟩
abbrev main_call24_v4 : Ref sig .tc := ⟨.hbm, 886, rfl⟩
abbrev main_v560 : Ref sig .tc := ⟨.hbm, 887, rfl⟩
abbrev main_v561 : Ref sig .tc := ⟨.hbm, 888, rfl⟩
abbrev main_c_194 : Ref sig .tc := ⟨.hbm, 889, rfl⟩
abbrev main_c_195 : Ref sig .tc := ⟨.hbm, 890, rfl⟩
abbrev main_call25_v0 : Ref sig .tc := ⟨.hbm, 891, rfl⟩
abbrev main_call25_v1 : Ref sig .tc := ⟨.hbm, 892, rfl⟩
abbrev main_call25_v2 : Ref sig .tc := ⟨.hbm, 893, rfl⟩
abbrev main_call25_v3 : Ref sig .tc := ⟨.hbm, 894, rfl⟩
abbrev main_call25_v4 : Ref sig .tc := ⟨.hbm, 895, rfl⟩
abbrev main_v562 : Ref sig .tc := ⟨.hbm, 896, rfl⟩
abbrev main_v563 : Ref sig .tc := ⟨.hbm, 897, rfl⟩
abbrev main_c_196 : Ref sig .tc := ⟨.hbm, 898, rfl⟩
abbrev main_v564 : Ref sig .tc := ⟨.hbm, 899, rfl⟩
abbrev main_v565 : Ref sig .tc := ⟨.hbm, 900, rfl⟩
abbrev main_c_197 : Ref sig .tc := ⟨.hbm, 901, rfl⟩
abbrev main_v566 : Ref sig .tc := ⟨.hbm, 902, rfl⟩
abbrev main_v567 : Ref sig .tc := ⟨.hbm, 903, rfl⟩
abbrev main_v568 : Ref sig .tc := ⟨.hbm, 904, rfl⟩
abbrev main_c_198 : Ref sig .tc := ⟨.hbm, 905, rfl⟩
abbrev main_v569 : Ref sig .tc := ⟨.hbm, 906, rfl⟩
abbrev main_v570 : Ref sig .tc := ⟨.hbm, 907, rfl⟩
abbrev main_c_199 : Ref sig .tc := ⟨.hbm, 908, rfl⟩
abbrev main_v571 : Ref sig .tc := ⟨.hbm, 909, rfl⟩
abbrev main_v572 : Ref sig .tc := ⟨.hbm, 910, rfl⟩
abbrev main_v573 : Ref sig .tc := ⟨.hbm, 911, rfl⟩
abbrev main_v574 : Ref sig .tc := ⟨.hbm, 912, rfl⟩
abbrev main_v575 : Ref sig .tc := ⟨.hbm, 913, rfl⟩
abbrev main_v576 : Ref sig .tc := ⟨.hbm, 914, rfl⟩
abbrev main_v577 : Ref sig .tc := ⟨.hbm, 915, rfl⟩
abbrev main_v578 : Ref sig .tc := ⟨.hbm, 916, rfl⟩
abbrev main_v579 : Ref sig .tc := ⟨.hbm, 917, rfl⟩
abbrev main_v580 : Ref sig .tc := ⟨.hbm, 918, rfl⟩
abbrev main_v581 : Ref sig .tc := ⟨.hbm, 919, rfl⟩
abbrev main_v582 : Ref sig .tc := ⟨.hbm, 920, rfl⟩
abbrev main_cst_200 : Ref sig .tc := ⟨.hbm, 921, rfl⟩
abbrev main_v583 : Ref sig .tc := ⟨.hbm, 922, rfl⟩
abbrev main_v584 : Ref sig .tc := ⟨.hbm, 923, rfl⟩
abbrev main_v585 : Ref sig .tc := ⟨.hbm, 924, rfl⟩
abbrev main_cst_201 : Ref sig .tc := ⟨.hbm, 925, rfl⟩
abbrev main_v586 : Ref sig .tc := ⟨.hbm, 926, rfl⟩
abbrev main_v587 : Ref sig .tc := ⟨.hbm, 927, rfl⟩
abbrev main_cst_202 : Ref sig .tc := ⟨.hbm, 928, rfl⟩
abbrev main_v588 : Ref sig .tc := ⟨.hbm, 929, rfl⟩
abbrev main_v589 : Ref sig .tc := ⟨.hbm, 930, rfl⟩
abbrev main_v590 : Ref sig .tc := ⟨.hbm, 931, rfl⟩
abbrev main_cst_203 : Ref sig .tc := ⟨.hbm, 932, rfl⟩
abbrev main_v591 : Ref sig .tc := ⟨.hbm, 933, rfl⟩
abbrev main_v592 : Ref sig .tc := ⟨.hbm, 934, rfl⟩
abbrev main_v593 : Ref sig .tc := ⟨.hbm, 935, rfl⟩
abbrev main_cst_204 : Ref sig .tc := ⟨.hbm, 936, rfl⟩
abbrev main_v594 : Ref sig .tc := ⟨.hbm, 937, rfl⟩
abbrev main_v595 : Ref sig .tc := ⟨.hbm, 938, rfl⟩
abbrev main_v596 : Ref sig .tc := ⟨.hbm, 939, rfl⟩
abbrev main_c_205 : Ref sig .tc := ⟨.hbm, 940, rfl⟩
abbrev main_c_206 : Ref sig .tc := ⟨.hbm, 941, rfl⟩
abbrev main_call26_v0 : Ref sig .tc := ⟨.hbm, 942, rfl⟩
abbrev main_call26_v1 : Ref sig .tc := ⟨.hbm, 943, rfl⟩
abbrev main_call26_v2 : Ref sig .tc := ⟨.hbm, 944, rfl⟩
abbrev main_call26_v3 : Ref sig .tc := ⟨.hbm, 945, rfl⟩
abbrev main_call26_v4 : Ref sig .tc := ⟨.hbm, 946, rfl⟩
abbrev main_v597 : Ref sig .tc := ⟨.hbm, 947, rfl⟩
abbrev main_v598 : Ref sig .tc := ⟨.hbm, 948, rfl⟩
abbrev main_c_207 : Ref sig .tc := ⟨.hbm, 949, rfl⟩
abbrev main_c_208 : Ref sig .tc := ⟨.hbm, 950, rfl⟩
abbrev main_call27_v0 : Ref sig .tc := ⟨.hbm, 951, rfl⟩
abbrev main_call27_v1 : Ref sig .tc := ⟨.hbm, 952, rfl⟩
abbrev main_call27_v2 : Ref sig .tc := ⟨.hbm, 953, rfl⟩
abbrev main_call27_v3 : Ref sig .tc := ⟨.hbm, 954, rfl⟩
abbrev main_call27_v4 : Ref sig .tc := ⟨.hbm, 955, rfl⟩
abbrev main_v599 : Ref sig .tc := ⟨.hbm, 956, rfl⟩
abbrev main_v600 : Ref sig .tc := ⟨.hbm, 957, rfl⟩
abbrev main_c_209 : Ref sig .tc := ⟨.hbm, 958, rfl⟩
abbrev main_v601 : Ref sig .tc := ⟨.hbm, 959, rfl⟩
abbrev main_v602 : Ref sig .tc := ⟨.hbm, 960, rfl⟩
abbrev main_c_210 : Ref sig .tc := ⟨.hbm, 961, rfl⟩
abbrev main_v603 : Ref sig .tc := ⟨.hbm, 962, rfl⟩
abbrev main_v604 : Ref sig .tc := ⟨.hbm, 963, rfl⟩
abbrev main_v605 : Ref sig .tc := ⟨.hbm, 964, rfl⟩
abbrev main_c_211 : Ref sig .tc := ⟨.hbm, 965, rfl⟩
abbrev main_v606 : Ref sig .tc := ⟨.hbm, 966, rfl⟩
abbrev main_v607 : Ref sig .tc := ⟨.hbm, 967, rfl⟩
abbrev main_c_212 : Ref sig .tc := ⟨.hbm, 968, rfl⟩
abbrev main_v608 : Ref sig .tc := ⟨.hbm, 969, rfl⟩
abbrev main_v609 : Ref sig .tc := ⟨.hbm, 970, rfl⟩
abbrev main_v610 : Ref sig .tc := ⟨.hbm, 971, rfl⟩
abbrev main_v611 : Ref sig .tc := ⟨.hbm, 972, rfl⟩
abbrev main_v612 : Ref sig .tc := ⟨.hbm, 973, rfl⟩
abbrev main_v613 : Ref sig .tc := ⟨.hbm, 974, rfl⟩
abbrev main_v614 : Ref sig .tc := ⟨.hbm, 975, rfl⟩
abbrev main_v615 : Ref sig .tc := ⟨.hbm, 976, rfl⟩
abbrev main_v616 : Ref sig .tc := ⟨.hbm, 977, rfl⟩
abbrev main_v617 : Ref sig .tc := ⟨.hbm, 978, rfl⟩
abbrev main_v618 : Ref sig .tc := ⟨.hbm, 979, rfl⟩
abbrev main_v619 : Ref sig .tc := ⟨.hbm, 980, rfl⟩
abbrev main_v620 : Ref sig .tc := ⟨.hbm, 981, rfl⟩
abbrev main_cst_213 : Ref sig .tc := ⟨.hbm, 982, rfl⟩
abbrev main_v621 : Ref sig .tc := ⟨.hbm, 983, rfl⟩
abbrev main_v622 : Ref sig .tc := ⟨.hbm, 984, rfl⟩
abbrev main_v623 : Ref sig .tc := ⟨.hbm, 985, rfl⟩
abbrev main_cst_214 : Ref sig .tc := ⟨.hbm, 986, rfl⟩
abbrev main_v624 : Ref sig .tc := ⟨.hbm, 987, rfl⟩
abbrev main_v625 : Ref sig .tc := ⟨.hbm, 988, rfl⟩
abbrev main_cst_215 : Ref sig .tc := ⟨.hbm, 989, rfl⟩
abbrev main_v626 : Ref sig .tc := ⟨.hbm, 990, rfl⟩
abbrev main_v627 : Ref sig .tc := ⟨.hbm, 991, rfl⟩
abbrev main_v628 : Ref sig .tc := ⟨.hbm, 992, rfl⟩
abbrev main_cst_216 : Ref sig .tc := ⟨.hbm, 993, rfl⟩
abbrev main_v629 : Ref sig .tc := ⟨.hbm, 994, rfl⟩
abbrev main_v630 : Ref sig .tc := ⟨.hbm, 995, rfl⟩
abbrev main_v631 : Ref sig .tc := ⟨.hbm, 996, rfl⟩
abbrev main_cst_217 : Ref sig .tc := ⟨.hbm, 997, rfl⟩
abbrev main_v632 : Ref sig .tc := ⟨.hbm, 998, rfl⟩
abbrev main_v633 : Ref sig .tc := ⟨.hbm, 999, rfl⟩
abbrev main_v634 : Ref sig .tc := ⟨.hbm, 1000, rfl⟩
abbrev main_c_218 : Ref sig .tc := ⟨.hbm, 1001, rfl⟩
abbrev main_c_219 : Ref sig .tc := ⟨.hbm, 1002, rfl⟩
abbrev main_call28_v0 : Ref sig .tc := ⟨.hbm, 1003, rfl⟩
abbrev main_call28_v1 : Ref sig .tc := ⟨.hbm, 1004, rfl⟩
abbrev main_call28_v2 : Ref sig .tc := ⟨.hbm, 1005, rfl⟩
abbrev main_call28_v3 : Ref sig .tc := ⟨.hbm, 1006, rfl⟩
abbrev main_call28_v4 : Ref sig .tc := ⟨.hbm, 1007, rfl⟩
abbrev main_v635 : Ref sig .tc := ⟨.hbm, 1008, rfl⟩
abbrev main_v636 : Ref sig .tc := ⟨.hbm, 1009, rfl⟩
abbrev main_c_220 : Ref sig .tc := ⟨.hbm, 1010, rfl⟩
abbrev main_c_221 : Ref sig .tc := ⟨.hbm, 1011, rfl⟩
abbrev main_call29_v0 : Ref sig .tc := ⟨.hbm, 1012, rfl⟩
abbrev main_call29_v1 : Ref sig .tc := ⟨.hbm, 1013, rfl⟩
abbrev main_call29_v2 : Ref sig .tc := ⟨.hbm, 1014, rfl⟩
abbrev main_call29_v3 : Ref sig .tc := ⟨.hbm, 1015, rfl⟩
abbrev main_call29_v4 : Ref sig .tc := ⟨.hbm, 1016, rfl⟩
abbrev main_v637 : Ref sig .tc := ⟨.hbm, 1017, rfl⟩
abbrev main_v638 : Ref sig .tc := ⟨.hbm, 1018, rfl⟩
abbrev main_c_222 : Ref sig .tc := ⟨.hbm, 1019, rfl⟩
abbrev main_v639 : Ref sig .tc := ⟨.hbm, 1020, rfl⟩
abbrev main_v640 : Ref sig .tc := ⟨.hbm, 1021, rfl⟩
abbrev main_c_223 : Ref sig .tc := ⟨.hbm, 1022, rfl⟩
abbrev main_v641 : Ref sig .tc := ⟨.hbm, 1023, rfl⟩
abbrev main_v642 : Ref sig .tc := ⟨.hbm, 1024, rfl⟩
abbrev main_v643 : Ref sig .tc := ⟨.hbm, 1025, rfl⟩
abbrev main_c_224 : Ref sig .tc := ⟨.hbm, 1026, rfl⟩
abbrev main_v644 : Ref sig .tc := ⟨.hbm, 1027, rfl⟩
abbrev main_v645 : Ref sig .tc := ⟨.hbm, 1028, rfl⟩
abbrev main_c_225 : Ref sig .tc := ⟨.hbm, 1029, rfl⟩
abbrev main_v646 : Ref sig .tc := ⟨.hbm, 1030, rfl⟩
abbrev main_v647 : Ref sig .tc := ⟨.hbm, 1031, rfl⟩
abbrev main_v648 : Ref sig .tc := ⟨.hbm, 1032, rfl⟩
abbrev main_v649 : Ref sig .tc := ⟨.hbm, 1033, rfl⟩
abbrev main_v650 : Ref sig .tc := ⟨.hbm, 1034, rfl⟩
abbrev main_v651 : Ref sig .tc := ⟨.hbm, 1035, rfl⟩
abbrev main_v652 : Ref sig .tc := ⟨.hbm, 1036, rfl⟩
abbrev main_v653 : Ref sig .tc := ⟨.hbm, 1037, rfl⟩
abbrev main_v654 : Ref sig .tc := ⟨.hbm, 1038, rfl⟩
abbrev main_v655 : Ref sig .tc := ⟨.hbm, 1039, rfl⟩
abbrev main_v656 : Ref sig .tc := ⟨.hbm, 1040, rfl⟩
abbrev main_v657 : Ref sig .tc := ⟨.hbm, 1041, rfl⟩
abbrev main_v658 : Ref sig .tc := ⟨.hbm, 1042, rfl⟩
abbrev main_cst_226 : Ref sig .tc := ⟨.hbm, 1043, rfl⟩
abbrev main_v659 : Ref sig .tc := ⟨.hbm, 1044, rfl⟩
abbrev main_v660 : Ref sig .tc := ⟨.hbm, 1045, rfl⟩
abbrev main_cst_227 : Ref sig .tc := ⟨.hbm, 1046, rfl⟩
abbrev main_v661 : Ref sig .tc := ⟨.hbm, 1047, rfl⟩
abbrev main_v662 : Ref sig .tc := ⟨.hbm, 1048, rfl⟩
abbrev main_v663 : Ref sig .tc := ⟨.hbm, 1049, rfl⟩
abbrev main_cst_228 : Ref sig .tc := ⟨.hbm, 1050, rfl⟩
abbrev main_v664 : Ref sig .tc := ⟨.hbm, 1051, rfl⟩
abbrev main_v665 : Ref sig .tc := ⟨.hbm, 1052, rfl⟩
abbrev main_cst_229 : Ref sig .tc := ⟨.hbm, 1053, rfl⟩
abbrev main_v666 : Ref sig .tc := ⟨.hbm, 1054, rfl⟩
abbrev main_v667 : Ref sig .tc := ⟨.hbm, 1055, rfl⟩
abbrev main_v668 : Ref sig .tc := ⟨.hbm, 1056, rfl⟩
abbrev main_cst_230 : Ref sig .tc := ⟨.hbm, 1057, rfl⟩
abbrev main_v669 : Ref sig .tc := ⟨.hbm, 1058, rfl⟩
abbrev main_v670 : Ref sig .tc := ⟨.hbm, 1059, rfl⟩
abbrev main_v671 : Ref sig .tc := ⟨.hbm, 1060, rfl⟩
abbrev main_cst_231 : Ref sig .tc := ⟨.hbm, 1061, rfl⟩
abbrev main_v672 : Ref sig .tc := ⟨.hbm, 1062, rfl⟩
abbrev main_v673 : Ref sig .tc := ⟨.hbm, 1063, rfl⟩
abbrev main_v674 : Ref sig .tc := ⟨.hbm, 1064, rfl⟩
abbrev main_c_232 : Ref sig .tc := ⟨.hbm, 1065, rfl⟩
abbrev main_c_233 : Ref sig .tc := ⟨.hbm, 1066, rfl⟩
abbrev main_call30_v0 : Ref sig .tc := ⟨.hbm, 1067, rfl⟩
abbrev main_call30_v1 : Ref sig .tc := ⟨.hbm, 1068, rfl⟩
abbrev main_call30_v2 : Ref sig .tc := ⟨.hbm, 1069, rfl⟩
abbrev main_call30_v3 : Ref sig .tc := ⟨.hbm, 1070, rfl⟩
abbrev main_call30_v4 : Ref sig .tc := ⟨.hbm, 1071, rfl⟩
abbrev main_v675 : Ref sig .tc := ⟨.hbm, 1072, rfl⟩
abbrev main_v676 : Ref sig .tc := ⟨.hbm, 1073, rfl⟩
abbrev main_c_234 : Ref sig .tc := ⟨.hbm, 1074, rfl⟩
abbrev main_c_235 : Ref sig .tc := ⟨.hbm, 1075, rfl⟩
abbrev main_call31_v0 : Ref sig .tc := ⟨.hbm, 1076, rfl⟩
abbrev main_call31_v1 : Ref sig .tc := ⟨.hbm, 1077, rfl⟩
abbrev main_call31_v2 : Ref sig .tc := ⟨.hbm, 1078, rfl⟩
abbrev main_call31_v3 : Ref sig .tc := ⟨.hbm, 1079, rfl⟩
abbrev main_call31_v4 : Ref sig .tc := ⟨.hbm, 1080, rfl⟩
abbrev main_v677 : Ref sig .tc := ⟨.hbm, 1081, rfl⟩
abbrev main_v678 : Ref sig .tc := ⟨.hbm, 1082, rfl⟩
abbrev main_c_236 : Ref sig .tc := ⟨.hbm, 1083, rfl⟩
abbrev main_v679 : Ref sig .tc := ⟨.hbm, 1084, rfl⟩
abbrev main_v680 : Ref sig .tc := ⟨.hbm, 1085, rfl⟩
abbrev main_c_237 : Ref sig .tc := ⟨.hbm, 1086, rfl⟩
abbrev main_v681 : Ref sig .tc := ⟨.hbm, 1087, rfl⟩
abbrev main_v682 : Ref sig .tc := ⟨.hbm, 1088, rfl⟩
abbrev main_v683 : Ref sig .tc := ⟨.hbm, 1089, rfl⟩
abbrev main_c_238 : Ref sig .tc := ⟨.hbm, 1090, rfl⟩
abbrev main_v684 : Ref sig .tc := ⟨.hbm, 1091, rfl⟩
abbrev main_v685 : Ref sig .tc := ⟨.hbm, 1092, rfl⟩
abbrev main_c_239 : Ref sig .tc := ⟨.hbm, 1093, rfl⟩
abbrev main_v686 : Ref sig .tc := ⟨.hbm, 1094, rfl⟩
abbrev main_v687 : Ref sig .tc := ⟨.hbm, 1095, rfl⟩
abbrev main_v688 : Ref sig .tc := ⟨.hbm, 1096, rfl⟩
abbrev main_v689 : Ref sig .tc := ⟨.hbm, 1097, rfl⟩
abbrev main_v690 : Ref sig .tc := ⟨.hbm, 1098, rfl⟩
abbrev main_v691 : Ref sig .tc := ⟨.hbm, 1099, rfl⟩
abbrev main_v692 : Ref sig .tc := ⟨.hbm, 1100, rfl⟩
abbrev main_v693 : Ref sig .tc := ⟨.hbm, 1101, rfl⟩
abbrev main_v694 : Ref sig .tc := ⟨.hbm, 1102, rfl⟩
abbrev main_v695 : Ref sig .tc := ⟨.hbm, 1103, rfl⟩
abbrev main_v696 : Ref sig .tc := ⟨.hbm, 1104, rfl⟩
abbrev main_v697 : Ref sig .tc := ⟨.hbm, 1105, rfl⟩
abbrev main_v698 : Ref sig .tc := ⟨.hbm, 1106, rfl⟩
abbrev main_v699 : Ref sig .tc := ⟨.hbm, 1107, rfl⟩
abbrev main_v700 : Ref sig .tc := ⟨.hbm, 1108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S4x16x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4x512x512x2 : S_.BroadcastsInDim S4x512x512x2 (![] : Fin 0 → Fin S4x512x512x2.rank)
  slices_S4x512x512x2_S4x512x512x1_0_0_0_0 : S4x512x512x2.Slices ![0, 0, 0, 0] S4x512x512x1
  shapeCasts_S4x512x512x1_S4x512x512 : S4x512x512x1.ShapeCasts S4x512x512
  slices_S4x512x512x2_S4x512x512x1_0_0_0_1 : S4x512x512x2.Slices ![0, 0, 0, 1] S4x512x512x1
  transposes_S16x1024x1024_S1024x1024x16_1_2_0 : S16x1024x1024.Transposes [1, 2, 0] S1024x1024x16
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x2_d3 : Shape.Concatenates [S4x512x512x1, S4x512x512x1] S4x512x512x2 3
  bcast_S4x512x512x1_S4x512x512x16_0_1_2_3 : S4x512x512x1.BroadcastsInDim S4x512x512x16 (![0, 1, 2, 3] : Fin 4 → Fin S4x512x512x16.rank)
  transposes_S4x512x512x16_S4x16x512x512_0_3_1_2 : S4x512x512x16.Transposes [0, 3, 1, 2] S4x16x512x512
  transposes_S16x512x512_S512x512x16_1_2_0 : S16x512x512.Transposes [1, 2, 0] S512x512x16
  transposes_S16x256x256_S256x256x16_1_2_0 : S16x256x256.Transposes [1, 2, 0] S256x256x16
  transposes_S16x128x128_S128x128x16_1_2_0 : S16x128x128.Transposes [1, 2, 0] S128x128x16
  inb_S4x16x16x512_S4x16x16x512_0_0_0_0 : ∀ a, (![0, 0, 0, 0] : Fin 4 → Nat) a + S4x16x16x512.size a ≤ S4x16x16x512.size a
  h_S4x16x16x512 : 0 < S4x16x16x512.numel
  shapeCasts_S4x16x16x512_S4x16x16x512 : S4x16x16x512.ShapeCasts S4x16x16x512
  inb_S4x16x512_S4x16x512_0_0_0 : ∀ a, (![0, 0, 0] : Fin 3 → Nat) a + S4x16x512.size a ≤ S4x16x512.size a
  h_S4x16x512 : 0 < S4x16x512.numel
  shapeCasts_S4x16x512_S4x1x16x512 : S4x16x512.ShapeCasts S4x1x16x512
  broadcasts_S4x1x16x512_S4x16x16x512 : S4x1x16x512.Broadcasts S4x16x16x512
  gather_S1024x1024x16_S4x512x512x2_S4x512x512x16_3_01_n_n_01_3_1116_wf : GatherDims.WF S1024x1024x16 S4x512x512x2 S4x512x512x16 [3] [0, 1] [] [0, 1] [] 3 ![1, 1, 16]
  gather_S512x512x16_S4x512x512x2_S4x512x512x16_3_01_n_n_01_3_1116_wf : GatherDims.WF S512x512x16 S4x512x512x2 S4x512x512x16 [3] [0, 1] [] [0, 1] [] 3 ![1, 1, 16]
  gather_S256x256x16_S4x512x512x2_S4x512x512x16_3_01_n_n_01_3_1116_wf : GatherDims.WF S256x256x16 S4x512x512x2 S4x512x512x16 [3] [0, 1] [] [0, 1] [] 3 ![1, 1, 16]
  gather_S128x128x16_S4x512x512x2_S4x512x512x16_3_01_n_n_01_3_1116_wf : GatherDims.WF S128x128x16 S4x512x512x2 S4x512x512x16 [3] [0, 1] [] [0, 1] [] 3 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16x16x512.size a ≤ S4x16x512x512.size a
  hwx0_0 : ∀ i : grid0.Coords, EltTy.bits .f32 = 32 ∨ (Rect.block (s := S4x16x512x512) S4x16x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x16x512.size a ≤ S4x16x512x512.size a
  hwx0_1 : ∀ i : grid0.Coords, EltTy.bits .f32 = 32 ∨ (Rect.block (s := S4x16x512x512) S4x16x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x16x512.size a ≤ S4x16x512x512.size a
  hwx0_2 : ∀ i : grid0.Coords, EltTy.bits .f32 = 32 ∨ (Rect.block (s := S4x16x512x512) S4x16x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x16x512.size a ≤ S4x16x512x512.size a
  hwx0_3 : ∀ i : grid0.Coords, EltTy.bits .f32 = 32 ∨ (Rect.block (s := S4x16x512x512) S4x16x16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x16x512.size a ≤ S4x512x512.size a
  hwx0_4 : ∀ i : grid0.Coords, EltTy.bits .f32 = 32 ∨ (Rect.block (s := S4x512x512) S4x16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x16x16x512.size a ≤ S4x16x512x512.size a
  hwx0_5 : ∀ i : grid0.Coords, EltTy.bits .f32 = 32 ∨ (Rect.block (s := S4x16x512x512) S4x16x16x512.size (cc0_transform_5 i) (hinb0_5 i)).WholeWords (EltTy.packing .f32)

variable [Facts₀]

def gather_S1024x1024x16_S4x512x512x2_S4x512x512x16_3_01_n_n_01_3_1116 : GatherDims S1024x1024x16 S4x512x512x2 S4x512x512x16 where
  offsetDims := [3]
  collapsedSliceDims := [0, 1]
  operandBatchingDims := []
  startIndicesBatchingDims := []
  startIndexMap := [0, 1]
  indexVectorDim := 3
  sliceSizes := ![1, 1, 16]
  wf := gather_S1024x1024x16_S4x512x512x2_S4x512x512x16_3_01_n_n_01_3_1116_wf
def gather_S512x512x16_S4x512x512x2_S4x512x512x16_3_01_n_n_01_3_1116 : GatherDims S512x512x16 S4x512x512x2 S4x512x512x16 where
  offsetDims := [3]
  collapsedSliceDims := [0, 1]
  operandBatchingDims := []
  startIndicesBatchingDims := []
  startIndexMap := [0, 1]
  indexVectorDim := 3
  sliceSizes := ![1, 1, 16]
  wf := gather_S512x512x16_S4x512x512x2_S4x512x512x16_3_01_n_n_01_3_1116_wf
def gather_S256x256x16_S4x512x512x2_S4x512x512x16_3_01_n_n_01_3_1116 : GatherDims S256x256x16 S4x512x512x2 S4x512x512x16 where
  offsetDims := [3]
  collapsedSliceDims := [0, 1]
  operandBatchingDims := []
  startIndicesBatchingDims := []
  startIndexMap := [0, 1]
  indexVectorDim := 3
  sliceSizes := ![1, 1, 16]
  wf := gather_S256x256x16_S4x512x512x2_S4x512x512x16_3_01_n_n_01_3_1116_wf
def gather_S128x128x16_S4x512x512x2_S4x512x512x16_3_01_n_n_01_3_1116 : GatherDims S128x128x16 S4x512x512x2 S4x512x512x16 where
  offsetDims := [3]
  collapsedSliceDims := [0, 1]
  operandBatchingDims := []
  startIndicesBatchingDims := []
  startIndexMap := [0, 1]
  indexVectorDim := 3
  sliceSizes := ![1, 1, 16]
  wf := gather_S128x128x16_S4x512x512x2_S4x512x512x16_3_01_n_n_01_3_1116_wf

abbrev win0_0 : Pipeline.Window sig grid0 :=
  Pipeline.Window.ofSpec (Memref.whole main_v180) S4x16x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v353) S4x16x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v526) S4x16x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v699) S4x16x16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4x16x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v700) S4x16x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x512x512x2 : Shape := ⟨4, ![4, 512, 512, 2]⟩
abbrev S4x512x512 : Shape := ⟨3, ![4, 512, 512]⟩
abbrev S16x1024x1024 : Shape := ⟨3, ![16, 1024, 1024]⟩
abbrev S16x512x512 : Shape := ⟨3, ![16, 512, 512]⟩
abbrev S16x256x256 : Shape := ⟨3, ![16, 256, 256]⟩
abbrev S16x128x128 : Shape := ⟨3, ![16, 128, 128]⟩
abbrev S_ : Shape := ⟨0, ![]⟩
abbrev S4x512x512x1 : Shape := ⟨4, ![4, 512, 512, 1]⟩
abbrev S16x4x512x512 : Shape := ⟨4, ![16, 4, 512, 512]⟩
abbrev S1x4x512x512 : Shape := ⟨4, ![1, 4, 512, 512]⟩
abbrev S4x16x512x512 : Shape := ⟨4, ![4, 16, 512, 512]⟩
abbrev S4x1x512x512 : Shape := ⟨4, ![4, 1, 512, 512]⟩

abbrev nBuf : Space → Nat
  | .hbm => 1154
  | .vmem => 0
  | .smem => 0
  | _ => 0

abbrev hbmTy0_0 (i : Nat) : BufTy := match i % 128 with
  | 0 => ⟨S4x512x512x2, .f32⟩
  | 1 => ⟨S4x512x512, .f32⟩
  | 2 => ⟨S16x1024x1024, .f32⟩
  | 3 => ⟨S16x512x512, .f32⟩
  | 4 => ⟨S16x256x256, .f32⟩
  | 5 => ⟨S16x128x128, .f32⟩
  | 6 => ⟨S_, .f32⟩
  | 7 => ⟨S4x512x512x2, .f32⟩
  | 8 => ⟨S4x512x512x2, .f32⟩
  | 9 => ⟨S_, .f32⟩
  | 10 => ⟨S4x512x512x2, .f32⟩
  | 11 => ⟨S4x512x512x2, .f32⟩
  | 12 => ⟨S4x512x512x1, .f32⟩
  | 13 => ⟨S4x512x512, .f32⟩
  | 14 => ⟨S4x512x512x1, .f32⟩
  | 15 => ⟨S4x512x512, .f32⟩
  | 16 => ⟨S_, .f32⟩
  | 17 => ⟨S4x512x512, .f32⟩
  | 18 => ⟨S4x512x512, .f32⟩
  | 19 => ⟨S_, .f32⟩
  | 20 => ⟨S4x512x512, .f32⟩
  | 21 => ⟨S4x512x512, .f32⟩
  | 22 => ⟨S_, .f32⟩
  | 23 => ⟨S4x512x512, .f32⟩
  | 24 => ⟨S4x512x512, .f32⟩
  | 25 => ⟨S_, .f32⟩
  | 26 => ⟨S4x512x512, .f32⟩
  | 27 => ⟨S4x512x512, .f32⟩
  | 28 => ⟨S_, .f32⟩
  | 29 => ⟨S4x512x512, .f32⟩
  | 30 => ⟨S4x512x512, .f32⟩
  | 31 => ⟨S_, .f32⟩
  | 32 => ⟨S4x512x512, .f32⟩
  | 33 => ⟨S4x512x512, .f32⟩
  | 34 => ⟨S4x512x512, .f32⟩
  | 35 => ⟨S4x512x512, .f32⟩
  | 36 => ⟨S4x512x512, .f32⟩
  | 37 => ⟨S4x512x512, .f32⟩
  | 38 => ⟨S_, .f32⟩
  | 39 => ⟨S4x512x512, .f32⟩
  | 40 => ⟨S4x512x512, .f32⟩
  | 41 => ⟨S_, .f32⟩
  | 42 => ⟨S4x512x512, .f32⟩
  | 43 => ⟨S4x512x512, .f32⟩
  | 44 => ⟨S_, .f32⟩
  | 45 => ⟨S4x512x512, .f32⟩
  | 46 => ⟨S4x512x512, .i1⟩
  | 47 => ⟨S_, .f32⟩
  | 48 => ⟨S4x512x512, .f32⟩
  | 49 => ⟨S4x512x512, .i1⟩
  | 50 => ⟨S4x512x512, .i1⟩
  | 51 => ⟨S_, .f32⟩
  | 52 => ⟨S4x512x512, .f32⟩
  | 53 => ⟨S4x512x512, .i1⟩
  | 54 => ⟨S4x512x512, .i1⟩
  | 55 => ⟨S_, .f32⟩
  | 56 => ⟨S4x512x512, .f32⟩
  | 57 => ⟨S4x512x512, .i1⟩
  | 58 => ⟨S4x512x512, .i1⟩
  | 59 => ⟨S_, .i32⟩
  | 60 => ⟨S_, .i32⟩
  | 61 => ⟨S_, .f32⟩
  | 62 => ⟨S4x512x512, .f32⟩
  | 63 => ⟨S4x512x512, .f32⟩
  | 64 => ⟨S_, .f32⟩
  | 65 => ⟨S4x512x512, .f32⟩
  | 66 => ⟨S4x512x512, .f32⟩
  | 67 => ⟨S4x512x512, .i32⟩
  | 68 => ⟨S_, .i32⟩
  | 69 => ⟨S_, .i32⟩
  | 70 => ⟨S_, .f32⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S4x512x512, .i32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S4x512x512x1, .i32⟩
  | 92 => ⟨S4x512x512x1, .i32⟩
  | 93 => ⟨S4x512x512x2, .i32⟩
  | 94 => ⟨S16x4x512x512, .f32⟩
  | 95 => ⟨S4x512x512, .f32⟩
  | 96 => ⟨S1x4x512x512, .f32⟩
  | 97 => ⟨S16x4x512x512, .f32⟩
  | 98 => ⟨S16x4x512x512, .f32⟩
  | 99 => ⟨S4x512x512, .f32⟩
  | 100 => ⟨S1x4x512x512, .f32⟩
  | 101 => ⟨S16x4x512x512, .f32⟩
  | 102 => ⟨S16x4x512x512, .f32⟩
  | 103 => ⟨S_, .f32⟩
  | 104 => ⟨S4x512x512, .f32⟩
  | 105 => ⟨S4x512x512, .f32⟩
  | 106 => ⟨S_, .f32⟩
  | 107 => ⟨S4x512x512, .f32⟩
  | 108 => ⟨S4x512x512, .i1⟩
  | 109 => ⟨S_, .f32⟩
  | 110 => ⟨S4x512x512, .f32⟩
  | 111 => ⟨S4x512x512, .i1⟩
  | 112 => ⟨S4x512x512, .i1⟩
  | 113 => ⟨S_, .f32⟩
  | 114 => ⟨S4x512x512, .f32⟩
  | 115 => ⟨S4x512x512, .i1⟩
  | 116 => ⟨S4x512x512, .i1⟩
  | 117 => ⟨S_, .f32⟩
  | 118 => ⟨S4x512x512, .f32⟩
  | 119 => ⟨S4x512x512, .i1⟩
  | 120 => ⟨S4x512x512, .i1⟩
  | 121 => ⟨S_, .i32⟩
  | 122 => ⟨S_, .i32⟩
  | 123 => ⟨S_, .f32⟩
  | 124 => ⟨S4x512x512, .f32⟩
  | 125 => ⟨S4x512x512, .f32⟩
  | 126 => ⟨S_, .f32⟩
  | 127 => ⟨S4x512x512, .f32⟩
  | _ => ⟨S4x512x512x2, .f32⟩

abbrev hbmTy0_1 (i : Nat) : BufTy := match i % 128 with
  | 0 => ⟨S4x512x512, .f32⟩
  | 1 => ⟨S4x512x512, .i32⟩
  | 2 => ⟨S_, .i32⟩
  | 3 => ⟨S_, .i32⟩
  | 4 => ⟨S_, .f32⟩
  | 5 => ⟨S4x512x512, .f32⟩
  | 6 => ⟨S4x512x512, .f32⟩
  | 7 => ⟨S_, .f32⟩
  | 8 => ⟨S4x512x512, .f32⟩
  | 9 => ⟨S4x512x512, .f32⟩
  | 10 => ⟨S4x512x512, .i32⟩
  | 11 => ⟨S_, .i32⟩
  | 12 => ⟨S4x512x512, .i32⟩
  | 13 => ⟨S4x512x512, .i1⟩
  | 14 => ⟨S_, .i32⟩
  | 15 => ⟨S4x512x512, .i32⟩
  | 16 => ⟨S4x512x512, .i32⟩
  | 17 => ⟨S4x512x512, .i32⟩
  | 18 => ⟨S_, .i32⟩
  | 19 => ⟨S4x512x512, .i32⟩
  | 20 => ⟨S4x512x512, .i1⟩
  | 21 => ⟨S_, .i32⟩
  | 22 => ⟨S4x512x512, .i32⟩
  | 23 => ⟨S4x512x512, .i32⟩
  | 24 => ⟨S4x512x512, .i32⟩
  | 25 => ⟨S4x512x512x1, .i32⟩
  | 26 => ⟨S4x512x512x1, .i32⟩
  | 27 => ⟨S4x512x512x2, .i32⟩
  | 28 => ⟨S16x4x512x512, .f32⟩
  | 29 => ⟨S4x512x512, .f32⟩
  | 30 => ⟨S1x4x512x512, .f32⟩
  | 31 => ⟨S16x4x512x512, .f32⟩
  | 32 => ⟨S16x4x512x512, .f32⟩
  | 33 => ⟨S4x512x512, .f32⟩
  | 34 => ⟨S1x4x512x512, .f32⟩
  | 35 => ⟨S16x4x512x512, .f32⟩
  | 36 => ⟨S16x4x512x512, .f32⟩
  | 37 => ⟨S16x4x512x512, .f32⟩
  | 38 => ⟨S_, .f32⟩
  | 39 => ⟨S4x512x512, .f32⟩
  | 40 => ⟨S4x512x512, .f32⟩
  | 41 => ⟨S_, .f32⟩
  | 42 => ⟨S4x512x512, .f32⟩
  | 43 => ⟨S4x512x512, .i1⟩
  | 44 => ⟨S_, .f32⟩
  | 45 => ⟨S4x512x512, .f32⟩
  | 46 => ⟨S4x512x512, .i1⟩
  | 47 => ⟨S4x512x512, .i1⟩
  | 48 => ⟨S_, .f32⟩
  | 49 => ⟨S4x512x512, .f32⟩
  | 50 => ⟨S4x512x512, .i1⟩
  | 51 => ⟨S4x512x512, .i1⟩
  | 52 => ⟨S_, .f32⟩
  | 53 => ⟨S4x512x512, .f32⟩
  | 54 => ⟨S4x512x512, .i1⟩
  | 55 => ⟨S4x512x512, .i1⟩
  | 56 => ⟨S_, .i32⟩
  | 57 => ⟨S_, .i32⟩
  | 58 => ⟨S_, .f32⟩
  | 59 => ⟨S4x512x512, .f32⟩
  | 60 => ⟨S4x512x512, .f32⟩
  | 61 => ⟨S_, .f32⟩
  | 62 => ⟨S4x512x512, .f32⟩
  | 63 => ⟨S4x512x512, .f32⟩
  | 64 => ⟨S4x512x512, .i32⟩
  | 65 => ⟨S_, .i32⟩
  | 66 => ⟨S_, .i32⟩
  | 67 => ⟨S_, .f32⟩
  | 68 => ⟨S4x512x512, .f32⟩
  | 69 => ⟨S4x512x512, .f32⟩
  | 70 => ⟨S_, .f32⟩
  | 71 => ⟨S4x512x512, .f32⟩
  | 72 => ⟨S4x512x512, .f32⟩
  | 73 => ⟨S4x512x512, .i32⟩
  | 74 => ⟨S_, .i32⟩
  | 75 => ⟨S4x512x512, .i32⟩
  | 76 => ⟨S4x512x512, .i1⟩
  | 77 => ⟨S_, .i32⟩
  | 78 => ⟨S4x512x512, .i32⟩
  | 79 => ⟨S4x512x512, .i32⟩
  | 80 => ⟨S4x512x512, .i32⟩
  | 81 => ⟨S_, .i32⟩
  | 82 => ⟨S4x512x512, .i32⟩
  | 83 => ⟨S4x512x512, .i1⟩
  | 84 => ⟨S_, .i32⟩
  | 85 => ⟨S4x512x512, .i32⟩
  | 86 => ⟨S4x512x512, .i32⟩
  | 87 => ⟨S4x512x512, .i32⟩
  | 88 => ⟨S4x512x512x1, .i32⟩
  | 89 => ⟨S4x512x512x1, .i32⟩
  | 90 => ⟨S4x512x512x2, .i32⟩
  | 91 => ⟨S16x4x512x512, .f32⟩
  | 92 => ⟨S4x512x512, .f32⟩
  | 93 => ⟨S1x4x512x512, .f32⟩
  | 94 => ⟨S16x4x512x512, .f32⟩
  | 95 => ⟨S16x4x512x512, .f32⟩
  | 96 => ⟨S4x512x512, .f32⟩
  | 97 => ⟨S1x4x512x512, .f32⟩
  | 98 => ⟨S16x4x512x512, .f32⟩
  | 99 => ⟨S16x4x512x512, .f32⟩
  | 100 => ⟨S16x4x512x512, .f32⟩
  | 101 => ⟨S_, .f32⟩
  | 102 => ⟨S4x512x512, .f32⟩
  | 103 => ⟨S4x512x512, .f32⟩
  | 104 => ⟨S_, .f32⟩
  | 105 => ⟨S4x512x512, .f32⟩
  | 106 => ⟨S4x512x512, .f32⟩
  | 107 => ⟨S_, .f32⟩
  | 108 => ⟨S4x512x512, .f32⟩
  | 109 => ⟨S4x512x512, .i1⟩
  | 110 => ⟨S_, .f32⟩
  | 111 => ⟨S4x512x512, .f32⟩
  | 112 => ⟨S4x512x512, .i1⟩
  | 113 => ⟨S4x512x512, .i1⟩
  | 114 => ⟨S_, .f32⟩
  | 115 => ⟨S4x512x512, .f32⟩
  | 116 => ⟨S4x512x512, .i1⟩
  | 117 => ⟨S4x512x512, .i1⟩
  | 118 => ⟨S_, .f32⟩
  | 119 => ⟨S4x512x512, .f32⟩
  | 120 => ⟨S4x512x512, .i1⟩
  | 121 => ⟨S4x512x512, .i1⟩
  | 122 => ⟨S_, .i32⟩
  | 123 => ⟨S_, .i32⟩
  | 124 => ⟨S_, .f32⟩
  | 125 => ⟨S4x512x512, .f32⟩
  | 126 => ⟨S4x512x512, .f32⟩
  | 127 => ⟨S_, .f32⟩
  | _ => ⟨S4x512x512x2, .f32⟩

abbrev hbmTy0_2 (i : Nat) : BufTy := match i % 128 with
  | 0 => ⟨S4x512x512, .f32⟩
  | 1 => ⟨S4x512x512, .f32⟩
  | 2 => ⟨S4x512x512, .i32⟩
  | 3 => ⟨S_, .i32⟩
  | 4 => ⟨S_, .i32⟩
  | 5 => ⟨S_, .f32⟩
  | 6 => ⟨S4x512x512, .f32⟩
  | 7 => ⟨S4x512x512, .f32⟩
  | 8 => ⟨S_, .f32⟩
  | 9 => ⟨S4x512x512, .f32⟩
  | 10 => ⟨S4x512x512, .f32⟩
  | 11 => ⟨S4x512x512, .i32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S4x512x512x1, .i32⟩
  | 27 => ⟨S4x512x512x1, .i32⟩
  | 28 => ⟨S4x512x512x2, .i32⟩
  | 29 => ⟨S16x4x512x512, .f32⟩
  | 30 => ⟨S4x512x512, .f32⟩
  | 31 => ⟨S1x4x512x512, .f32⟩
  | 32 => ⟨S16x4x512x512, .f32⟩
  | 33 => ⟨S16x4x512x512, .f32⟩
  | 34 => ⟨S4x512x512, .f32⟩
  | 35 => ⟨S1x4x512x512, .f32⟩
  | 36 => ⟨S16x4x512x512, .f32⟩
  | 37 => ⟨S16x4x512x512, .f32⟩
  | 38 => ⟨S16x4x512x512, .f32⟩
  | 39 => ⟨S4x16x512x512, .f32⟩
  | 40 => ⟨S4x512x512x1, .f32⟩
  | 41 => ⟨S4x512x512, .f32⟩
  | 42 => ⟨S4x512x512x1, .f32⟩
  | 43 => ⟨S4x512x512, .f32⟩
  | 44 => ⟨S_, .f32⟩
  | 45 => ⟨S4x512x512, .f32⟩
  | 46 => ⟨S4x512x512, .f32⟩
  | 47 => ⟨S_, .f32⟩
  | 48 => ⟨S4x512x512, .f32⟩
  | 49 => ⟨S4x512x512, .f32⟩
  | 50 => ⟨S_, .f32⟩
  | 51 => ⟨S4x512x512, .f32⟩
  | 52 => ⟨S4x512x512, .f32⟩
  | 53 => ⟨S_, .f32⟩
  | 54 => ⟨S4x512x512, .f32⟩
  | 55 => ⟨S4x512x512, .f32⟩
  | 56 => ⟨S_, .f32⟩
  | 57 => ⟨S4x512x512, .f32⟩
  | 58 => ⟨S4x512x512, .f32⟩
  | 59 => ⟨S_, .f32⟩
  | 60 => ⟨S4x512x512, .f32⟩
  | 61 => ⟨S4x512x512, .f32⟩
  | 62 => ⟨S4x512x512, .f32⟩
  | 63 => ⟨S4x512x512, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S_, .f32⟩
  | 70 => ⟨S4x512x512, .f32⟩
  | 71 => ⟨S4x512x512, .f32⟩
  | 72 => ⟨S_, .f32⟩
  | 73 => ⟨S4x512x512, .f32⟩
  | 74 => ⟨S4x512x512, .i1⟩
  | 75 => ⟨S_, .f32⟩
  | 76 => ⟨S4x512x512, .f32⟩
  | 77 => ⟨S4x512x512, .i1⟩
  | 78 => ⟨S4x512x512, .i1⟩
  | 79 => ⟨S_, .f32⟩
  | 80 => ⟨S4x512x512, .f32⟩
  | 81 => ⟨S4x512x512, .i1⟩
  | 82 => ⟨S4x512x512, .i1⟩
  | 83 => ⟨S_, .f32⟩
  | 84 => ⟨S4x512x512, .f32⟩
  | 85 => ⟨S4x512x512, .i1⟩
  | 86 => ⟨S4x512x512, .i1⟩
  | 87 => ⟨S_, .i32⟩
  | 88 => ⟨S_, .i32⟩
  | 89 => ⟨S_, .f32⟩
  | 90 => ⟨S4x512x512, .f32⟩
  | 91 => ⟨S4x512x512, .f32⟩
  | 92 => ⟨S_, .f32⟩
  | 93 => ⟨S4x512x512, .f32⟩
  | 94 => ⟨S4x512x512, .f32⟩
  | 95 => ⟨S4x512x512, .i32⟩
  | 96 => ⟨S_, .i32⟩
  | 97 => ⟨S_, .i32⟩
  | 98 => ⟨S_, .f32⟩
  | 99 => ⟨S4x512x512, .f32⟩
  | 100 => ⟨S4x512x512, .f32⟩
  | 101 => ⟨S_, .f32⟩
  | 102 => ⟨S4x512x512, .f32⟩
  | 103 => ⟨S4x512x512, .f32⟩
  | 104 => ⟨S4x512x512, .i32⟩
  | 105 => ⟨S_, .i32⟩
  | 106 => ⟨S4x512x512, .i32⟩
  | 107 => ⟨S4x512x512, .i1⟩
  | 108 => ⟨S_, .i32⟩
  | 109 => ⟨S4x512x512, .i32⟩
  | 110 => ⟨S4x512x512, .i32⟩
  | 111 => ⟨S4x512x512, .i32⟩
  | 112 => ⟨S_, .i32⟩
  | 113 => ⟨S4x512x512, .i32⟩
  | 114 => ⟨S4x512x512, .i1⟩
  | 115 => ⟨S_, .i32⟩
  | 116 => ⟨S4x512x512, .i32⟩
  | 117 => ⟨S4x512x512, .i32⟩
  | 118 => ⟨S4x512x512, .i32⟩
  | 119 => ⟨S4x512x512x1, .i32⟩
  | 120 => ⟨S4x512x512x1, .i32⟩
  | 121 => ⟨S4x512x512x2, .i32⟩
  | 122 => ⟨S16x4x512x512, .f32⟩
  | 123 => ⟨S4x512x512, .f32⟩
  | 124 => ⟨S1x4x512x512, .f32⟩
  | 125 => ⟨S16x4x512x512, .f32⟩
  | 126 => ⟨S16x4x512x512, .f32⟩
  | 127 => ⟨S4x512x512, .f32⟩
  | _ => ⟨S4x512x512x2, .f32⟩

abbrev hbmTy0_3 (i : Nat) : BufTy := match i % 128 with
  | 0 => ⟨S1x4x512x512, .f32⟩
  | 1 => ⟨S16x4x512x512, .f32⟩
  | 2 => ⟨S16x4x512x512, .f32⟩
  | 3 => ⟨S_, .f32⟩
  | 4 => ⟨S4x512x512, .f32⟩
  | 5 => ⟨S4x512x512, .f32⟩
  | 6 => ⟨S_, .f32⟩
  | 7 => ⟨S4x512x512, .f32⟩
  | 8 => ⟨S4x512x512, .i1⟩
  | 9 => ⟨S_, .f32⟩
  | 10 => ⟨S4x512x512, .f32⟩
  | 11 => ⟨S4x512x512, .i1⟩
  | 12 => ⟨S4x512x512, .i1⟩
  | 13 => ⟨S_, .f32⟩
  | 14 => ⟨S4x512x512, .f32⟩
  | 15 => ⟨S4x512x512, .i1⟩
  | 16 => ⟨S4x512x512, .i1⟩
  | 17 => ⟨S_, .f32⟩
  | 18 => ⟨S4x512x512, .f32⟩
  | 19 => ⟨S4x512x512, .i1⟩
  | 20 => ⟨S4x512x512, .i1⟩
  | 21 => ⟨S_, .i32⟩
  | 22 => ⟨S_, .i32⟩
  | 23 => ⟨S_, .f32⟩
  | 24 => ⟨S4x512x512, .f32⟩
  | 25 => ⟨S4x512x512, .f32⟩
  | 26 => ⟨S_, .f32⟩
  | 27 => ⟨S4x512x512, .f32⟩
  | 28 => ⟨S4x512x512, .f32⟩
  | 29 => ⟨S4x512x512, .i32⟩
  | 30 => ⟨S_, .i32⟩
  | 31 => ⟨S_, .i32⟩
  | 32 => ⟨S_, .f32⟩
  | 33 => ⟨S4x512x512, .f32⟩
  | 34 => ⟨S4x512x512, .f32⟩
  | 35 => ⟨S_, .f32⟩
  | 36 => ⟨S4x512x512, .f32⟩
  | 37 => ⟨S4x512x512, .f32⟩
  | 38 => ⟨S4x512x512, .i32⟩
  | 39 => ⟨S_, .i32⟩
  | 40 => ⟨S4x512x512, .i32⟩
  | 41 => ⟨S4x512x512, .i1⟩
  | 42 => ⟨S_, .i32⟩
  | 43 => ⟨S4x512x512, .i32⟩
  | 44 => ⟨S4x512x512, .i32⟩
  | 45 => ⟨S4x512x512, .i32⟩
  | 46 => ⟨S_, .i32⟩
  | 47 => ⟨S4x512x512, .i32⟩
  | 48 => ⟨S4x512x512, .i1⟩
  | 49 => ⟨S_, .i32⟩
  | 50 => ⟨S4x512x512, .i32⟩
  | 51 => ⟨S4x512x512, .i32⟩
  | 52 => ⟨S4x512x512, .i32⟩
  | 53 => ⟨S4x512x512x1, .i32⟩
  | 54 => ⟨S4x512x512x1, .i32⟩
  | 55 => ⟨S4x512x512x2, .i32⟩
  | 56 => ⟨S16x4x512x512, .f32⟩
  | 57 => ⟨S4x512x512, .f32⟩
  | 58 => ⟨S1x4x512x512, .f32⟩
  | 59 => ⟨S16x4x512x512, .f32⟩
  | 60 => ⟨S16x4x512x512, .f32⟩
  | 61 => ⟨S4x512x512, .f32⟩
  | 62 => ⟨S1x4x512x512, .f32⟩
  | 63 => ⟨S16x4x512x512, .f32⟩
  | 64 => ⟨S16x4x512x512, .f32⟩
  | 65 => ⟨S16x4x512x512, .f32⟩
  | 66 => ⟨S_, .f32⟩
  | 67 => ⟨S4x512x512, .f32⟩
  | 68 => ⟨S4x512x512, .f32⟩
  | 69 => ⟨S_, .f32⟩
  | 70 => ⟨S4x512x512, .f32⟩
  | 71 => ⟨S4x512x512, .i1⟩
  | 72 => ⟨S_, .f32⟩
  | 73 => ⟨S4x512x512, .f32⟩
  | 74 => ⟨S4x512x512, .i1⟩
  | 75 => ⟨S4x512x512, .i1⟩
  | 76 => ⟨S_, .f32⟩
  | 77 => ⟨S4x512x512, .f32⟩
  | 78 => ⟨S4x512x512, .i1⟩
  | 79 => ⟨S4x512x512, .i1⟩
  | 80 => ⟨S_, .f32⟩
  | 81 => ⟨S4x512x512, .f32⟩
  | 82 => ⟨S4x512x512, .i1⟩
  | 83 => ⟨S4x512x512, .i1⟩
  | 84 => ⟨S_, .i32⟩
  | 85 => ⟨S_, .i32⟩
  | 86 => ⟨S_, .f32⟩
  | 87 => ⟨S4x512x512, .f32⟩
  | 88 => ⟨S4x512x512, .f32⟩
  | 89 => ⟨S_, .f32⟩
  | 90 => ⟨S4x512x512, .f32⟩
  | 91 => ⟨S4x512x512, .f32⟩
  | 92 => ⟨S4x512x512, .i32⟩
  | 93 => ⟨S_, .i32⟩
  | 94 => ⟨S_, .i32⟩
  | 95 => ⟨S_, .f32⟩
  | 96 => ⟨S4x512x512, .f32⟩
  | 97 => ⟨S4x512x512, .f32⟩
  | 98 => ⟨S_, .f32⟩
  | 99 => ⟨S4x512x512, .f32⟩
  | 100 => ⟨S4x512x512, .f32⟩
  | 101 => ⟨S4x512x512, .i32⟩
  | 102 => ⟨S_, .i32⟩
  | 103 => ⟨S4x512x512, .i32⟩
  | 104 => ⟨S4x512x512, .i1⟩
  | 105 => ⟨S_, .i32⟩
  | 106 => ⟨S4x512x512, .i32⟩
  | 107 => ⟨S4x512x512, .i32⟩
  | 108 => ⟨S4x512x512, .i32⟩
  | 109 => ⟨S_, .i32⟩
  | 110 => ⟨S4x512x512, .i32⟩
  | 111 => ⟨S4x512x512, .i1⟩
  | 112 => ⟨S_, .i32⟩
  | 113 => ⟨S4x512x512, .i32⟩
  | 114 => ⟨S4x512x512, .i32⟩
  | 115 => ⟨S4x512x512, .i32⟩
  | 116 => ⟨S4x512x512x1, .i32⟩
  | 117 => ⟨S4x512x512x1, .i32⟩
  | 118 => ⟨S4x512x512x2, .i32⟩
  | 119 => ⟨S16x4x512x512, .f32⟩
  | 120 => ⟨S4x512x512, .f32⟩
  | 121 => ⟨S1x4x512x512, .f32⟩
  | 122 => ⟨S16x4x512x512, .f32⟩
  | 123 => ⟨S16x4x512x512, .f32⟩
  | 124 => ⟨S4x512x512, .f32⟩
  | 125 => ⟨S1x4x512x512, .f32⟩
  | 126 => ⟨S16x4x512x512, .f32⟩
  | 127 => ⟨S16x4x512x512, .f32⟩
  | _ => ⟨S4x512x512x2, .f32⟩

abbrev hbmTy0_4 (i : Nat) : BufTy := match i % 128 with
  | 0 => ⟨S16x4x512x512, .f32⟩
  | 1 => ⟨S_, .f32⟩
  | 2 => ⟨S4x512x512, .f32⟩
  | 3 => ⟨S4x512x512, .f32⟩
  | 4 => ⟨S_, .f32⟩
  | 5 => ⟨S4x512x512, .f32⟩
  | 6 => ⟨S4x512x512, .f32⟩
  | 7 => ⟨S_, .f32⟩
  | 8 => ⟨S4x512x512, .f32⟩
  | 9 => ⟨S4x512x512, .i1⟩
  | 10 => ⟨S_, .f32⟩
  | 11 => ⟨S4x512x512, .f32⟩
  | 12 => ⟨S4x512x512, .i1⟩
  | 13 => ⟨S4x512x512, .i1⟩
  | 14 => ⟨S_, .f32⟩
  | 15 => ⟨S4x512x512, .f32⟩
  | 16 => ⟨S4x512x512, .i1⟩
  | 17 => ⟨S4x512x512, .i1⟩
  | 18 => ⟨S_, .f32⟩
  | 19 => ⟨S4x512x512, .f32⟩
  | 20 => ⟨S4x512x512, .i1⟩
  | 21 => ⟨S4x512x512, .i1⟩
  | 22 => ⟨S_, .i32⟩
  | 23 => ⟨S_, .i32⟩
  | 24 => ⟨S_, .f32⟩
  | 25 => ⟨S4x512x512, .f32⟩
  | 26 => ⟨S4x512x512, .f32⟩
  | 27 => ⟨S_, .f32⟩
  | 28 => ⟨S4x512x512, .f32⟩
  | 29 => ⟨S4x512x512, .f32⟩
  | 30 => ⟨S4x512x512, .i32⟩
  | 31 => ⟨S_, .i32⟩
  | 32 => ⟨S_, .i32⟩
  | 33 => ⟨S_, .f32⟩
  | 34 => ⟨S4x512x512, .f32⟩
  | 35 => ⟨S4x512x512, .f32⟩
  | 36 => ⟨S_, .f32⟩
  | 37 => ⟨S4x512x512, .f32⟩
  | 38 => ⟨S4x512x512, .f32⟩
  | 39 => ⟨S4x512x512, .i32⟩
  | 40 => ⟨S_, .i32⟩
  | 41 => ⟨S4x512x512, .i32⟩
  | 42 => ⟨S4x512x512, .i1⟩
  | 43 => ⟨S_, .i32⟩
  | 44 => ⟨S4x512x512, .i32⟩
  | 45 => ⟨S4x512x512, .i32⟩
  | 46 => ⟨S4x512x512, .i32⟩
  | 47 => ⟨S_, .i32⟩
  | 48 => ⟨S4x512x512, .i32⟩
  | 49 => ⟨S4x512x512, .i1⟩
  | 50 => ⟨S_, .i32⟩
  | 51 => ⟨S4x512x512, .i32⟩
  | 52 => ⟨S4x512x512, .i32⟩
  | 53 => ⟨S4x512x512, .i32⟩
  | 54 => ⟨S4x512x512x1, .i32⟩
  | 55 => ⟨S4x512x512x1, .i32⟩
  | 56 => ⟨S4x512x512x2, .i32⟩
  | 57 => ⟨S16x4x512x512, .f32⟩
  | 58 => ⟨S4x512x512, .f32⟩
  | 59 => ⟨S1x4x512x512, .f32⟩
  | 60 => ⟨S16x4x512x512, .f32⟩
  | 61 => ⟨S16x4x512x512, .f32⟩
  | 62 => ⟨S4x512x512, .f32⟩
  | 63 => ⟨S1x4x512x512, .f32⟩
  | 64 => ⟨S16x4x512x512, .f32⟩
  | 65 => ⟨S16x4x512x512, .f32⟩
  | 66 => ⟨S16x4x512x512, .f32⟩
  | 67 => ⟨S4x16x512x512, .f32⟩
  | 68 => ⟨S4x16x512x512, .f32⟩
  | 69 => ⟨S4x512x512x1, .f32⟩
  | 70 => ⟨S4x512x512, .f32⟩
  | 71 => ⟨S4x512x512x1, .f32⟩
  | 72 => ⟨S4x512x512, .f32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S_, .f32⟩
  | 80 => ⟨S4x512x512, .f32⟩
  | 81 => ⟨S4x512x512, .f32⟩
  | 82 => ⟨S_, .f32⟩
  | 83 => ⟨S4x512x512, .f32⟩
  | 84 => ⟨S4x512x512, .f32⟩
  | 85 => ⟨S_, .f32⟩
  | 86 => ⟨S4x512x512, .f32⟩
  | 87 => ⟨S4x512x512, .f32⟩
  | 88 => ⟨S_, .f32⟩
  | 89 => ⟨S4x512x512, .f32⟩
  | 90 => ⟨S4x512x512, .f32⟩
  | 91 => ⟨S4x512x512, .f32⟩
  | 92 => ⟨S4x512x512, .f32⟩
  | 93 => ⟨S4x512x512, .f32⟩
  | 94 => ⟨S4x512x512, .f32⟩
  | 95 => ⟨S_, .f32⟩
  | 96 => ⟨S4x512x512, .f32⟩
  | 97 => ⟨S4x512x512, .f32⟩
  | 98 => ⟨S_, .f32⟩
  | 99 => ⟨S4x512x512, .f32⟩
  | 100 => ⟨S4x512x512, .f32⟩
  | 101 => ⟨S_, .f32⟩
  | 102 => ⟨S4x512x512, .f32⟩
  | 103 => ⟨S4x512x512, .i1⟩
  | 104 => ⟨S_, .f32⟩
  | 105 => ⟨S4x512x512, .f32⟩
  | 106 => ⟨S4x512x512, .i1⟩
  | 107 => ⟨S4x512x512, .i1⟩
  | 108 => ⟨S_, .f32⟩
  | 109 => ⟨S4x512x512, .f32⟩
  | 110 => ⟨S4x512x512, .i1⟩
  | 111 => ⟨S4x512x512, .i1⟩
  | 112 => ⟨S_, .f32⟩
  | 113 => ⟨S4x512x512, .f32⟩
  | 114 => ⟨S4x512x512, .i1⟩
  | 115 => ⟨S4x512x512, .i1⟩
  | 116 => ⟨S_, .i32⟩
  | 117 => ⟨S_, .i32⟩
  | 118 => ⟨S_, .f32⟩
  | 119 => ⟨S4x512x512, .f32⟩
  | 120 => ⟨S4x512x512, .f32⟩
  | 121 => ⟨S_, .f32⟩
  | 122 => ⟨S4x512x512, .f32⟩
  | 123 => ⟨S4x512x512, .f32⟩
  | 124 => ⟨S4x512x512, .i32⟩
  | 125 => ⟨S_, .i32⟩
  | 126 => ⟨S_, .i32⟩
  | 127 => ⟨S_, .f32⟩
  | _ => ⟨S4x512x512x2, .f32⟩

abbrev hbmTy0_5 (i : Nat) : BufTy := match i % 128 with
  | 0 => ⟨S4x512x512, .f32⟩
  | 1 => ⟨S4x512x512, .f32⟩
  | 2 => ⟨S_, .f32⟩
  | 3 => ⟨S4x512x512, .f32⟩
  | 4 => ⟨S4x512x512, .f32⟩
  | 5 => ⟨S4x512x512, .i32⟩
  | 6 => ⟨S_, .i32⟩
  | 7 => ⟨S4x512x512, .i32⟩
  | 8 => ⟨S4x512x512, .i1⟩
  | 9 => ⟨S_, .i32⟩
  | 10 => ⟨S4x512x512, .i32⟩
  | 11 => ⟨S4x512x512, .i32⟩
  | 12 => ⟨S4x512x512, .i32⟩
  | 13 => ⟨S_, .i32⟩
  | 14 => ⟨S4x512x512, .i32⟩
  | 15 => ⟨S4x512x512, .i1⟩
  | 16 => ⟨S_, .i32⟩
  | 17 => ⟨S4x512x512, .i32⟩
  | 18 => ⟨S4x512x512, .i32⟩
  | 19 => ⟨S4x512x512, .i32⟩
  | 20 => ⟨S4x512x512x1, .i32⟩
  | 21 => ⟨S4x512x512x1, .i32⟩
  | 22 => ⟨S4x512x512x2, .i32⟩
  | 23 => ⟨S16x4x512x512, .f32⟩
  | 24 => ⟨S4x512x512, .f32⟩
  | 25 => ⟨S1x4x512x512, .f32⟩
  | 26 => ⟨S16x4x512x512, .f32⟩
  | 27 => ⟨S16x4x512x512, .f32⟩
  | 28 => ⟨S4x512x512, .f32⟩
  | 29 => ⟨S1x4x512x512, .f32⟩
  | 30 => ⟨S16x4x512x512, .f32⟩
  | 31 => ⟨S16x4x512x512, .f32⟩
  | 32 => ⟨S_, .f32⟩
  | 33 => ⟨S4x512x512, .f32⟩
  | 34 => ⟨S4x512x512, .f32⟩
  | 35 => ⟨S_, .f32⟩
  | 36 => ⟨S4x512x512, .f32⟩
  | 37 => ⟨S4x512x512, .i1⟩
  | 38 => ⟨S_, .f32⟩
  | 39 => ⟨S4x512x512, .f32⟩
  | 40 => ⟨S4x512x512, .i1⟩
  | 41 => ⟨S4x512x512, .i1⟩
  | 42 => ⟨S_, .f32⟩
  | 43 => ⟨S4x512x512, .f32⟩
  | 44 => ⟨S4x512x512, .i1⟩
  | 45 => ⟨S4x512x512, .i1⟩
  | 46 => ⟨S_, .f32⟩
  | 47 => ⟨S4x512x512, .f32⟩
  | 48 => ⟨S4x512x512, .i1⟩
  | 49 => ⟨S4x512x512, .i1⟩
  | 50 => ⟨S_, .i32⟩
  | 51 => ⟨S_, .i32⟩
  | 52 => ⟨S_, .f32⟩
  | 53 => ⟨S4x512x512, .f32⟩
  | 54 => ⟨S4x512x512, .f32⟩
  | 55 => ⟨S_, .f32⟩
  | 56 => ⟨S4x512x512, .f32⟩
  | 57 => ⟨S4x512x512, .f32⟩
  | 58 => ⟨S4x512x512, .i32⟩
  | 59 => ⟨S_, .i32⟩
  | 60 => ⟨S_, .i32⟩
  | 61 => ⟨S_, .f32⟩
  | 62 => ⟨S4x512x512, .f32⟩
  | 63 => ⟨S4x512x512, .f32⟩
  | 64 => ⟨S_, .f32⟩
  | 65 => ⟨S4x512x512, .f32⟩
  | 66 => ⟨S4x512x512, .f32⟩
  | 67 => ⟨S4x512x512, .i32⟩
  | 68 => ⟨S_, .i32⟩
  | 69 => ⟨S4x512x512, .i32⟩
  | 70 => ⟨S4x512x512, .i1⟩
  | 71 => ⟨S_, .i32⟩
  | 72 => ⟨S4x512x512, .i32⟩
  | 73 => ⟨S4x512x512, .i32⟩
  | 74 => ⟨S4x512x512, .i32⟩
  | 75 => ⟨S_, .i32⟩
  | 76 => ⟨S4x512x512, .i32⟩
  | 77 => ⟨S4x512x512, .i1⟩
  | 78 => ⟨S_, .i32⟩
  | 79 => ⟨S4x512x512, .i32⟩
  | 80 => ⟨S4x512x512, .i32⟩
  | 81 => ⟨S4x512x512, .i32⟩
  | 82 => ⟨S4x512x512x1, .i32⟩
  | 83 => ⟨S4x512x512x1, .i32⟩
  | 84 => ⟨S4x512x512x2, .i32⟩
  | 85 => ⟨S16x4x512x512, .f32⟩
  | 86 => ⟨S4x512x512, .f32⟩
  | 87 => ⟨S1x4x512x512, .f32⟩
  | 88 => ⟨S16x4x512x512, .f32⟩
  | 89 => ⟨S16x4x512x512, .f32⟩
  | 90 => ⟨S4x512x512, .f32⟩
  | 91 => ⟨S1x4x512x512, .f32⟩
  | 92 => ⟨S16x4x512x512, .f32⟩
  | 93 => ⟨S16x4x512x512, .f32⟩
  | 94 => ⟨S16x4x512x512, .f32⟩
  | 95 => ⟨S_, .f32⟩
  | 96 => ⟨S4x512x512, .f32⟩
  | 97 => ⟨S4x512x512, .f32⟩
  | 98 => ⟨S_, .f32⟩
  | 99 => ⟨S4x512x512, .f32⟩
  | 100 => ⟨S4x512x512, .i1⟩
  | 101 => ⟨S_, .f32⟩
  | 102 => ⟨S4x512x512, .f32⟩
  | 103 => ⟨S4x512x512, .i1⟩
  | 104 => ⟨S4x512x512, .i1⟩
  | 105 => ⟨S_, .f32⟩
  | 106 => ⟨S4x512x512, .f32⟩
  | 107 => ⟨S4x512x512, .i1⟩
  | 108 => ⟨S4x512x512, .i1⟩
  | 109 => ⟨S_, .f32⟩
  | 110 => ⟨S4x512x512, .f32⟩
  | 111 => ⟨S4x512x512, .i1⟩
  | 112 => ⟨S4x512x512, .i1⟩
  | 113 => ⟨S_, .i32⟩
  | 114 => ⟨S_, .i32⟩
  | 115 => ⟨S_, .f32⟩
  | 116 => ⟨S4x512x512, .f32⟩
  | 117 => ⟨S4x512x512, .f32⟩
  | 118 => ⟨S_, .f32⟩
  | 119 => ⟨S4x512x512, .f32⟩
  | 120 => ⟨S4x512x512, .f32⟩
  | 121 => ⟨S4x512x512, .i32⟩
  | 122 => ⟨S_, .i32⟩
  | 123 => ⟨S_, .i32⟩
  | 124 => ⟨S_, .f32⟩
  | 125 => ⟨S4x512x512, .f32⟩
  | 126 => ⟨S4x512x512, .f32⟩
  | 127 => ⟨S_, .f32⟩
  | _ => ⟨S4x512x512x2, .f32⟩

abbrev hbmTy0_6 (i : Nat) : BufTy := match i % 128 with
  | 0 => ⟨S4x512x512, .f32⟩
  | 1 => ⟨S4x512x512, .f32⟩
  | 2 => ⟨S4x512x512, .i32⟩
  | 3 => ⟨S_, .i32⟩
  | 4 => ⟨S4x512x512, .i32⟩
  | 5 => ⟨S4x512x512, .i1⟩
  | 6 => ⟨S_, .i32⟩
  | 7 => ⟨S4x512x512, .i32⟩
  | 8 => ⟨S4x512x512, .i32⟩
  | 9 => ⟨S4x512x512, .i32⟩
  | 10 => ⟨S_, .i32⟩
  | 11 => ⟨S4x512x512, .i32⟩
  | 12 => ⟨S4x512x512, .i1⟩
  | 13 => ⟨S_, .i32⟩
  | 14 => ⟨S4x512x512, .i32⟩
  | 15 => ⟨S4x512x512, .i32⟩
  | 16 => ⟨S4x512x512, .i32⟩
  | 17 => ⟨S4x512x512x1, .i32⟩
  | 18 => ⟨S4x512x512x1, .i32⟩
  | 19 => ⟨S4x512x512x2, .i32⟩
  | 20 => ⟨S16x4x512x512, .f32⟩
  | 21 => ⟨S4x512x512, .f32⟩
  | 22 => ⟨S1x4x512x512, .f32⟩
  | 23 => ⟨S16x4x512x512, .f32⟩
  | 24 => ⟨S16x4x512x512, .f32⟩
  | 25 => ⟨S4x512x512, .f32⟩
  | 26 => ⟨S1x4x512x512, .f32⟩
  | 27 => ⟨S16x4x512x512, .f32⟩
  | 28 => ⟨S16x4x512x512, .f32⟩
  | 29 => ⟨S16x4x512x512, .f32⟩
  | 30 => ⟨S_, .f32⟩
  | 31 => ⟨S4x512x512, .f32⟩
  | 32 => ⟨S4x512x512, .f32⟩
  | 33 => ⟨S_, .f32⟩
  | 34 => ⟨S4x512x512, .f32⟩
  | 35 => ⟨S4x512x512, .f32⟩
  | 36 => ⟨S_, .f32⟩
  | 37 => ⟨S4x512x512, .f32⟩
  | 38 => ⟨S4x512x512, .i1⟩
  | 39 => ⟨S_, .f32⟩
  | 40 => ⟨S4x512x512, .f32⟩
  | 41 => ⟨S4x512x512, .i1⟩
  | 42 => ⟨S4x512x512, .i1⟩
  | 43 => ⟨S_, .f32⟩
  | 44 => ⟨S4x512x512, .f32⟩
  | 45 => ⟨S4x512x512, .i1⟩
  | 46 => ⟨S4x512x512, .i1⟩
  | 47 => ⟨S_, .f32⟩
  | 48 => ⟨S4x512x512, .f32⟩
  | 49 => ⟨S4x512x512, .i1⟩
  | 50 => ⟨S4x512x512, .i1⟩
  | 51 => ⟨S_, .i32⟩
  | 52 => ⟨S_, .i32⟩
  | 53 => ⟨S_, .f32⟩
  | 54 => ⟨S4x512x512, .f32⟩
  | 55 => ⟨S4x512x512, .f32⟩
  | 56 => ⟨S_, .f32⟩
  | 57 => ⟨S4x512x512, .f32⟩
  | 58 => ⟨S4x512x512, .f32⟩
  | 59 => ⟨S4x512x512, .i32⟩
  | 60 => ⟨S_, .i32⟩
  | 61 => ⟨S_, .i32⟩
  | 62 => ⟨S_, .f32⟩
  | 63 => ⟨S4x512x512, .f32⟩
  | 64 => ⟨S4x512x512, .f32⟩
  | 65 => ⟨S_, .f32⟩
  | 66 => ⟨S4x512x512, .f32⟩
  | 67 => ⟨S4x512x512, .f32⟩
  | 68 => ⟨S4x512x512, .i32⟩
  | 69 => ⟨S_, .i32⟩
  | 70 => ⟨S4x512x512, .i32⟩
  | 71 => ⟨S4x512x512, .i1⟩
  | 72 => ⟨S_, .i32⟩
  | 73 => ⟨S4x512x512, .i32⟩
  | 74 => ⟨S4x512x512, .i32⟩
  | 75 => ⟨S4x512x512, .i32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S4x512x512x1, .i32⟩
  | 84 => ⟨S4x512x512x1, .i32⟩
  | 85 => ⟨S4x512x512x2, .i32⟩
  | 86 => ⟨S16x4x512x512, .f32⟩
  | 87 => ⟨S4x512x512, .f32⟩
  | 88 => ⟨S1x4x512x512, .f32⟩
  | 89 => ⟨S16x4x512x512, .f32⟩
  | 90 => ⟨S16x4x512x512, .f32⟩
  | 91 => ⟨S4x512x512, .f32⟩
  | 92 => ⟨S1x4x512x512, .f32⟩
  | 93 => ⟨S16x4x512x512, .f32⟩
  | 94 => ⟨S16x4x512x512, .f32⟩
  | 95 => ⟨S16x4x512x512, .f32⟩
  | 96 => ⟨S4x16x512x512, .f32⟩
  | 97 => ⟨S4x16x512x512, .f32⟩
  | 98 => ⟨S4x512x512x1, .f32⟩
  | 99 => ⟨S4x512x512, .f32⟩
  | 100 => ⟨S4x512x512x1, .f32⟩
  | 101 => ⟨S4x512x512, .f32⟩
  | 102 => ⟨S_, .f32⟩
  | 103 => ⟨S4x512x512, .f32⟩
  | 104 => ⟨S4x512x512, .f32⟩
  | 105 => ⟨S_, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S_, .f32⟩
  | 112 => ⟨S4x512x512, .f32⟩
  | 113 => ⟨S4x512x512, .f32⟩
  | 114 => ⟨S_, .f32⟩
  | 115 => ⟨S4x512x512, .f32⟩
  | 116 => ⟨S4x512x512, .f32⟩
  | 117 => ⟨S_, .f32⟩
  | 118 => ⟨S4x512x512, .f32⟩
  | 119 => ⟨S4x512x512, .f32⟩
  | 120 => ⟨S4x512x512, .f32⟩
  | 121 => ⟨S4x512x512, .f32⟩
  | 122 => ⟨S4x512x512, .f32⟩
  | 123 => ⟨S4x512x512, .f32⟩
  | 124 => ⟨S_, .f32⟩
  | 125 => ⟨S4x512x512, .f32⟩
  | 126 => ⟨S4x512x512, .f32⟩
  | 127 => ⟨S_, .f32⟩
  | _ => ⟨S4x512x512x2, .f32⟩

abbrev hbmTy0_7 (i : Nat) : BufTy := match i % 128 with
  | 0 => ⟨S4x512x512, .f32⟩
  | 1 => ⟨S4x512x512, .f32⟩
  | 2 => ⟨S_, .f32⟩
  | 3 => ⟨S4x512x512, .f32⟩
  | 4 => ⟨S4x512x512, .i1⟩
  | 5 => ⟨S_, .f32⟩
  | 6 => ⟨S4x512x512, .f32⟩
  | 7 => ⟨S4x512x512, .i1⟩
  | 8 => ⟨S4x512x512, .i1⟩
  | 9 => ⟨S_, .f32⟩
  | 10 => ⟨S4x512x512, .f32⟩
  | 11 => ⟨S4x512x512, .i1⟩
  | 12 => ⟨S4x512x512, .i1⟩
  | 13 => ⟨S_, .f32⟩
  | 14 => ⟨S4x512x512, .f32⟩
  | 15 => ⟨S4x512x512, .i1⟩
  | 16 => ⟨S4x512x512, .i1⟩
  | 17 => ⟨S_, .i32⟩
  | 18 => ⟨S_, .i32⟩
  | 19 => ⟨S_, .f32⟩
  | 20 => ⟨S4x512x512, .f32⟩
  | 21 => ⟨S4x512x512, .f32⟩
  | 22 => ⟨S_, .f32⟩
  | 23 => ⟨S4x512x512, .f32⟩
  | 24 => ⟨S4x512x512, .f32⟩
  | 25 => ⟨S4x512x512, .i32⟩
  | 26 => ⟨S_, .i32⟩
  | 27 => ⟨S_, .i32⟩
  | 28 => ⟨S_, .f32⟩
  | 29 => ⟨S4x512x512, .f32⟩
  | 30 => ⟨S4x512x512, .f32⟩
  | 31 => ⟨S_, .f32⟩
  | 32 => ⟨S4x512x512, .f32⟩
  | 33 => ⟨S4x512x512, .f32⟩
  | 34 => ⟨S4x512x512, .i32⟩
  | 35 => ⟨S_, .i32⟩
  | 36 => ⟨S4x512x512, .i32⟩
  | 37 => ⟨S4x512x512, .i1⟩
  | 38 => ⟨S_, .i32⟩
  | 39 => ⟨S4x512x512, .i32⟩
  | 40 => ⟨S4x512x512, .i32⟩
  | 41 => ⟨S4x512x512, .i32⟩
  | 42 => ⟨S_, .i32⟩
  | 43 => ⟨S4x512x512, .i32⟩
  | 44 => ⟨S4x512x512, .i1⟩
  | 45 => ⟨S_, .i32⟩
  | 46 => ⟨S4x512x512, .i32⟩
  | 47 => ⟨S4x512x512, .i32⟩
  | 48 => ⟨S4x512x512, .i32⟩
  | 49 => ⟨S4x512x512x1, .i32⟩
  | 50 => ⟨S4x512x512x1, .i32⟩
  | 51 => ⟨S4x512x512x2, .i32⟩
  | 52 => ⟨S16x4x512x512, .f32⟩
  | 53 => ⟨S4x512x512, .f32⟩
  | 54 => ⟨S1x4x512x512, .f32⟩
  | 55 => ⟨S16x4x512x512, .f32⟩
  | 56 => ⟨S16x4x512x512, .f32⟩
  | 57 => ⟨S4x512x512, .f32⟩
  | 58 => ⟨S1x4x512x512, .f32⟩
  | 59 => ⟨S16x4x512x512, .f32⟩
  | 60 => ⟨S16x4x512x512, .f32⟩
  | 61 => ⟨S_, .f32⟩
  | 62 => ⟨S4x512x512, .f32⟩
  | 63 => ⟨S4x512x512, .f32⟩
  | 64 => ⟨S_, .f32⟩
  | 65 => ⟨S4x512x512, .f32⟩
  | 66 => ⟨S4x512x512, .i1⟩
  | 67 => ⟨S_, .f32⟩
  | 68 => ⟨S4x512x512, .f32⟩
  | 69 => ⟨S4x512x512, .i1⟩
  | 70 => ⟨S4x512x512, .i1⟩
  | 71 => ⟨S_, .f32⟩
  | 72 => ⟨S4x512x512, .f32⟩
  | 73 => ⟨S4x512x512, .i1⟩
  | 74 => ⟨S4x512x512, .i1⟩
  | 75 => ⟨S_, .f32⟩
  | 76 => ⟨S4x512x512, .f32⟩
  | 77 => ⟨S4x512x512, .i1⟩
  | 78 => ⟨S4x512x512, .i1⟩
  | 79 => ⟨S_, .i32⟩
  | 80 => ⟨S_, .i32⟩
  | 81 => ⟨S_, .f32⟩
  | 82 => ⟨S4x512x512, .f32⟩
  | 83 => ⟨S4x512x512, .f32⟩
  | 84 => ⟨S_, .f32⟩
  | 85 => ⟨S4x512x512, .f32⟩
  | 86 => ⟨S4x512x512, .f32⟩
  | 87 => ⟨S4x512x512, .i32⟩
  | 88 => ⟨S_, .i32⟩
  | 89 => ⟨S_, .i32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S4x512x512, .i32⟩
  | 97 => ⟨S_, .i32⟩
  | 98 => ⟨S4x512x512, .i32⟩
  | 99 => ⟨S4x512x512, .i1⟩
  | 100 => ⟨S_, .i32⟩
  | 101 => ⟨S4x512x512, .i32⟩
  | 102 => ⟨S4x512x512, .i32⟩
  | 103 => ⟨S4x512x512, .i32⟩
  | 104 => ⟨S_, .i32⟩
  | 105 => ⟨S4x512x512, .i32⟩
  | 106 => ⟨S4x512x512, .i1⟩
  | 107 => ⟨S_, .i32⟩
  | 108 => ⟨S4x512x512, .i32⟩
  | 109 => ⟨S4x512x512, .i32⟩
  | 110 => ⟨S4x512x512, .i32⟩
  | 111 => ⟨S4x512x512x1, .i32⟩
  | 112 => ⟨S4x512x512x1, .i32⟩
  | 113 => ⟨S4x512x512x2, .i32⟩
  | 114 => ⟨S16x4x512x512, .f32⟩
  | 115 => ⟨S4x512x512, .f32⟩
  | 116 => ⟨S1x4x512x512, .f32⟩
  | 117 => ⟨S16x4x512x512, .f32⟩
  | 118 => ⟨S16x4x512x512, .f32⟩
  | 119 => ⟨S4x512x512, .f32⟩
  | 120 => ⟨S1x4x512x512, .f32⟩
  | 121 => ⟨S16x4x512x512, .f32⟩
  | 122 => ⟨S16x4x512x512, .f32⟩
  | 123 => ⟨S16x4x512x512, .f32⟩
  | 124 => ⟨S_, .f32⟩
  | 125 => ⟨S4x512x512, .f32⟩
  | 126 => ⟨S4x512x512, .f32⟩
  | 127 => ⟨S_, .f32⟩
  | _ => ⟨S4x512x512x2, .f32⟩

abbrev hbmTy0_8 (i : Nat) : BufTy := match i % 128 with
  | 0 => ⟨S4x512x512, .f32⟩
  | 1 => ⟨S4x512x512, .i1⟩
  | 2 => ⟨S_, .f32⟩
  | 3 => ⟨S4x512x512, .f32⟩
  | 4 => ⟨S4x512x512, .i1⟩
  | 5 => ⟨S4x512x512, .i1⟩
  | 6 => ⟨S_, .f32⟩
  | 7 => ⟨S4x512x512, .f32⟩
  | 8 => ⟨S4x512x512, .i1⟩
  | 9 => ⟨S4x512x512, .i1⟩
  | 10 => ⟨S_, .f32⟩
  | 11 => ⟨S4x512x512, .f32⟩
  | 12 => ⟨S4x512x512, .i1⟩
  | 13 => ⟨S4x512x512, .i1⟩
  | 14 => ⟨S_, .i32⟩
  | 15 => ⟨S_, .i32⟩
  | 16 => ⟨S_, .f32⟩
  | 17 => ⟨S4x512x512, .f32⟩
  | 18 => ⟨S4x512x512, .f32⟩
  | 19 => ⟨S_, .f32⟩
  | 20 => ⟨S4x512x512, .f32⟩
  | 21 => ⟨S4x512x512, .f32⟩
  | 22 => ⟨S4x512x512, .i32⟩
  | 23 => ⟨S_, .i32⟩
  | 24 => ⟨S_, .i32⟩
  | 25 => ⟨S_, .f32⟩
  | 26 => ⟨S4x512x512, .f32⟩
  | 27 => ⟨S4x512x512, .f32⟩
  | 28 => ⟨S_, .f32⟩
  | 29 => ⟨S4x512x512, .f32⟩
  | 30 => ⟨S4x512x512, .f32⟩
  | 31 => ⟨S4x512x512, .i32⟩
  | 32 => ⟨S_, .i32⟩
  | 33 => ⟨S4x512x512, .i32⟩
  | 34 => ⟨S4x512x512, .i1⟩
  | 35 => ⟨S_, .i32⟩
  | 36 => ⟨S4x512x512, .i32⟩
  | 37 => ⟨S4x512x512, .i32⟩
  | 38 => ⟨S4x512x512, .i32⟩
  | 39 => ⟨S_, .i32⟩
  | 40 => ⟨S4x512x512, .i32⟩
  | 41 => ⟨S4x512x512, .i1⟩
  | 42 => ⟨S_, .i32⟩
  | 43 => ⟨S4x512x512, .i32⟩
  | 44 => ⟨S4x512x512, .i32⟩
  | 45 => ⟨S4x512x512, .i32⟩
  | 46 => ⟨S4x512x512x1, .i32⟩
  | 47 => ⟨S4x512x512x1, .i32⟩
  | 48 => ⟨S4x512x512x2, .i32⟩
  | 49 => ⟨S16x4x512x512, .f32⟩
  | 50 => ⟨S4x512x512, .f32⟩
  | 51 => ⟨S1x4x512x512, .f32⟩
  | 52 => ⟨S16x4x512x512, .f32⟩
  | 53 => ⟨S16x4x512x512, .f32⟩
  | 54 => ⟨S4x512x512, .f32⟩
  | 55 => ⟨S1x4x512x512, .f32⟩
  | 56 => ⟨S16x4x512x512, .f32⟩
  | 57 => ⟨S16x4x512x512, .f32⟩
  | 58 => ⟨S16x4x512x512, .f32⟩
  | 59 => ⟨S_, .f32⟩
  | 60 => ⟨S4x512x512, .f32⟩
  | 61 => ⟨S4x512x512, .f32⟩
  | 62 => ⟨S_, .f32⟩
  | 63 => ⟨S4x512x512, .f32⟩
  | 64 => ⟨S4x512x512, .f32⟩
  | 65 => ⟨S_, .f32⟩
  | 66 => ⟨S4x512x512, .f32⟩
  | 67 => ⟨S4x512x512, .i1⟩
  | 68 => ⟨S_, .f32⟩
  | 69 => ⟨S4x512x512, .f32⟩
  | 70 => ⟨S4x512x512, .i1⟩
  | 71 => ⟨S4x512x512, .i1⟩
  | 72 => ⟨S_, .f32⟩
  | 73 => ⟨S4x512x512, .f32⟩
  | 74 => ⟨S4x512x512, .i1⟩
  | 75 => ⟨S4x512x512, .i1⟩
  | 76 => ⟨S_, .f32⟩
  | 77 => ⟨S4x512x512, .f32⟩
  | 78 => ⟨S4x512x512, .i1⟩
  | 79 => ⟨S4x512x512, .i1⟩
  | 80 => ⟨S_, .i32⟩
  | 81 => ⟨S_, .i32⟩
  | 82 => ⟨S_, .f32⟩
  | 83 => ⟨S4x512x512, .f32⟩
  | 84 => ⟨S4x512x512, .f32⟩
  | 85 => ⟨S_, .f32⟩
  | 86 => ⟨S4x512x512, .f32⟩
  | 87 => ⟨S4x512x512, .f32⟩
  | 88 => ⟨S4x512x512, .i32⟩
  | 89 => ⟨S_, .i32⟩
  | 90 => ⟨S_, .i32⟩
  | 91 => ⟨S_, .f32⟩
  | 92 => ⟨S4x512x512, .f32⟩
  | 93 => ⟨S4x512x512, .f32⟩
  | 94 => ⟨S_, .f32⟩
  | 95 => ⟨S4x512x512, .f32⟩
  | 96 => ⟨S4x512x512, .f32⟩
  | 97 => ⟨S4x512x512, .i32⟩
  | 98 => ⟨S_, .i32⟩
  | 99 => ⟨S4x512x512, .i32⟩
  | 100 => ⟨S4x512x512, .i1⟩
  | 101 => ⟨S_, .i32⟩
  | 102 => ⟨S4x512x512, .i32⟩
  | 103 => ⟨S4x512x512, .i32⟩
  | 104 => ⟨S4x512x512, .i32⟩
  | 105 => ⟨S_, .i32⟩
  | 106 => ⟨S4x512x512, .i32⟩
  | 107 => ⟨S4x512x512, .i1⟩
  | 108 => ⟨S_, .i32⟩
  | 109 => ⟨S4x512x512, .i32⟩
  | 110 => ⟨S4x512x512, .i32⟩
  | 111 => ⟨S4x512x512, .i32⟩
  | 112 => ⟨S4x512x512x1, .i32⟩
  | 113 => ⟨S4x512x512x1, .i32⟩
  | 114 => ⟨S4x512x512x2, .i32⟩
  | 115 => ⟨S16x4x512x512, .f32⟩
  | 116 => ⟨S4x512x512, .f32⟩
  | 117 => ⟨S1x4x512x512, .f32⟩
  | 118 => ⟨S16x4x512x512, .f32⟩
  | 119 => ⟨S16x4x512x512, .f32⟩
  | 120 => ⟨S4x512x512, .f32⟩
  | 121 => ⟨S1x4x512x512, .f32⟩
  | 122 => ⟨S16x4x512x512, .f32⟩
  | 123 => ⟨S16x4x512x512, .f32⟩
  | 124 => ⟨S16x4x512x512, .f32⟩
  | 125 => ⟨S4x16x512x512, .f32⟩
  | 126 => ⟨S4x16x512x512, .f32⟩
  | 127 => ⟨S4x1x512x512, .f32⟩
  | _ => ⟨S4x512x512x2, .f32⟩

abbrev hbmTy0_9 (i : Nat) : BufTy := match i % 128 with
  | 0 => ⟨S4x16x512x512, .f32⟩
  | 1 => ⟨S4x16x512x512, .f32⟩
  | _ => ⟨S4x512x512x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x512x512x2, .f32⟩

abbrev bufTy : (tb : Table) → Fin (tcTables nBuf tb) → BufTy
  | .hbm, ⟨i, _⟩ => hbmTy i
  | _, _ => ⟨S4x512x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c : Ref sig .tc := ⟨.hbm, 59, rfl⟩
abbrev main_c_13 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v39 : Ref sig .tc := ⟨.hbm, 66, rfl⟩
abbrev main_v40 : Ref sig .tc := ⟨.hbm, 67, rfl⟩
abbrev main_c_14 : Ref sig .tc := ⟨.hbm, 68, rfl⟩
abbrev main_c_15 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v41 : Ref sig .tc := ⟨.hbm, 75, rfl⟩
abbrev main_v42 : Ref sig .tc := ⟨.hbm, 76, rfl⟩
abbrev main_c_16 : Ref sig .tc := ⟨.hbm, 77, rfl⟩
abbrev main_v43 : Ref sig .tc := ⟨.hbm, 78, rfl⟩
abbrev main_v44 : Ref sig .tc := ⟨.hbm, 79, rfl⟩
abbrev main_c_17 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_18 : Ref sig .tc := ⟨.hbm, 84, rfl⟩
abbrev main_v48 : Ref sig .tc := ⟨.hbm, 85, rfl⟩
abbrev main_v49 : Ref sig .tc := ⟨.hbm, 86, rfl⟩
abbrev main_c_19 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_20 : Ref sig .tc := ⟨.hbm, 103, rfl⟩
abbrev main_v65 : Ref sig .tc := ⟨.hbm, 104, rfl⟩
abbrev main_v66 : Ref sig .tc := ⟨.hbm, 105, rfl⟩
abbrev main_cst_21 : Ref sig .tc := ⟨.hbm, 106, rfl⟩
abbrev main_v67 : Ref sig .tc := ⟨.hbm, 107, rfl⟩
abbrev main_v68 : Ref sig .tc := ⟨.hbm, 108, rfl⟩
abbrev main_cst_22 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_23 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_24 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_25 : Ref sig .tc := ⟨.hbm, 121, rfl⟩
abbrev main_c_26 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v78 : Ref sig .tc := ⟨.hbm, 128, rfl⟩
abbrev main_v79 : Ref sig .tc := ⟨.hbm, 129, rfl⟩
abbrev main_c_27 : Ref sig .tc := ⟨.hbm, 130, rfl⟩
abbrev main_c_28 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v80 : Ref sig .tc := ⟨.hbm, 137, rfl⟩
abbrev main_v81 : Ref sig .tc := ⟨.hbm, 138, rfl⟩
abbrev main_c_29 : Ref sig .tc := ⟨.hbm, 139, rfl⟩
abbrev main_v82 : Ref sig .tc := ⟨.hbm, 140, rfl⟩
abbrev main_v83 : Ref sig .tc := ⟨.hbm, 141, rfl⟩
abbrev main_c_30 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_31 : Ref sig .tc := ⟨.hbm, 146, rfl⟩
abbrev main_v87 : Ref sig .tc := ⟨.hbm, 147, rfl⟩
abbrev main_v88 : Ref sig .tc := ⟨.hbm, 148, rfl⟩
abbrev main_c_32 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_33 : Ref sig .tc := ⟨.hbm, 166, rfl⟩
abbrev main_v105 : Ref sig .tc := ⟨.hbm, 167, rfl⟩
abbrev main_v106 : Ref sig .tc := ⟨.hbm, 168, rfl⟩
abbrev main_cst_34 : Ref sig .tc := ⟨.hbm, 169, rfl⟩
abbrev main_v107 : Ref sig .tc := ⟨.hbm, 170, rfl⟩
abbrev main_v108 : Ref sig .tc := ⟨.hbm, 171, rfl⟩
abbrev main_cst_35 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_36 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_37 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_c_38 : Ref sig .tc := ⟨.hbm, 184, rfl⟩
abbrev main_c_39 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v118 : Ref sig .tc := ⟨.hbm, 191, rfl⟩
abbrev main_v119 : Ref sig .tc := ⟨.hbm, 192, rfl⟩
abbrev main_c_40 : Ref sig .tc := ⟨.hbm, 193, rfl⟩
abbrev main_c_41 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_v120 : Ref sig .tc := ⟨.hbm, 200, rfl⟩
abbrev main_v121 : Ref sig .tc := ⟨.hbm, 201, rfl⟩
abbrev main_c_42 : Ref sig .tc := ⟨.hbm, 202, rfl⟩
abbrev main_v122 : Ref sig .tc := ⟨.hbm, 203, rfl⟩
abbrev main_v123 : Ref sig .tc := ⟨.hbm, 204, rfl⟩
abbrev main_c_43 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_c_44 : Ref sig .tc := ⟨.hbm, 209, rfl⟩
abbrev main_v127 : Ref sig .tc := ⟨.hbm, 210, rfl⟩
abbrev main_v128 : Ref sig .tc := ⟨.hbm, 211, rfl⟩
abbrev main_c_45 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_46 : Ref sig .tc := ⟨.hbm, 229, rfl⟩
abbrev main_v145 : Ref sig .tc := ⟨.hbm, 230, rfl⟩
abbrev main_v146 : Ref sig .tc := ⟨.hbm, 231, rfl⟩
abbrev main_cst_47 : Ref sig .tc := ⟨.hbm, 232, rfl⟩
abbrev main_v147 : Ref sig .tc := ⟨.hbm, 233, rfl⟩
abbrev main_v148 : Ref sig .tc := ⟨.hbm, 234, rfl⟩
abbrev main_cst_48 : Ref sig .tc := ⟨.hbm, 235, rfl⟩
abbrev main_v149 : Ref sig .tc := ⟨.hbm, 236, rfl⟩
abbrev main_v150 : Ref sig .tc := ⟨.hbm, 237, rfl⟩
abbrev main_cst_49 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_50 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_51 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_c_52 : Ref sig .tc := ⟨.hbm, 250, rfl⟩
abbrev main_c_53 : Ref sig .tc := ⟨.hbm, 251, rfl⟩
abbrev main_call6_v0 : Ref sig .tc := ⟨.hbm, 252, rfl⟩
abbrev main_call6_v1 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_v160 : Ref sig .tc := ⟨.hbm, 257, rfl⟩
abbrev main_v161 : Ref sig .tc := ⟨.hbm, 258, rfl⟩
abbrev main_c_54 : Ref sig .tc := ⟨.hbm, 259, rfl⟩
abbrev main_c_55 : Ref sig .tc := ⟨.hbm, 260, rfl⟩
abbrev main_call7_v0 : Ref sig .tc := ⟨.hbm, 261, rfl⟩
abbrev main_call7_v1 : Ref sig .tc := ⟨.hbm, 262, rfl⟩
abbrev main_call7_v2 : Ref sig .tc := ⟨.hbm, 263, rfl⟩
abbrev main_call7_v3 : Ref sig .tc := ⟨.hbm, 264, rfl⟩
abbrev main_call7_v4 : Ref sig .tc := ⟨.hbm, 265, rfl⟩
abbrev main_v162 : Ref sig .tc := ⟨.hbm, 266, rfl⟩
abbrev main_v163 : Ref sig .tc := ⟨.hbm, 267, rfl⟩
abbrev main_c_56 : Ref sig .tc := ⟨.hbm, 268, rfl⟩
abbrev main_v164 : Ref sig .tc := ⟨.hbm, 269, rfl⟩
abbrev main_v165 : Ref sig .tc := ⟨.hbm, 270, rfl⟩
abbrev main_c_57 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_c_58 : Ref sig .tc := ⟨.hbm, 275, rfl⟩
abbrev main_v169 : Ref sig .tc := ⟨.hbm, 276, rfl⟩
abbrev main_v170 : Ref sig .tc := ⟨.hbm, 277, rfl⟩
abbrev main_c_59 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_cst_60 : Ref sig .tc := ⟨.hbm, 300, rfl⟩
abbrev main_v192 : Ref sig .tc := ⟨.hbm, 301, rfl⟩
abbrev main_v193 : Ref sig .tc := ⟨.hbm, 302, rfl⟩
abbrev main_cst_61 : Ref sig .tc := ⟨.hbm, 303, rfl⟩
abbrev main_v194 : Ref sig .tc := ⟨.hbm, 304, rfl⟩
abbrev main_v195 : Ref sig .tc := ⟨.hbm, 305, rfl⟩
abbrev main_cst_62 : Ref sig .tc := ⟨.hbm, 306, rfl⟩
abbrev main_v196 : Ref sig .tc := ⟨.hbm, 307, rfl⟩
abbrev main_v197 : Ref sig .tc := ⟨.hbm, 308, rfl⟩
abbrev main_cst_63 : Ref sig .tc := ⟨.hbm, 309, rfl⟩
abbrev main_v198 : Ref sig .tc := ⟨.hbm, 310, rfl⟩
abbrev main_v199 : Ref sig .tc := ⟨.hbm, 311, rfl⟩
abbrev main_cst_64 : Ref sig .tc := ⟨.hbm, 312, rfl⟩
abbrev main_v200 : Ref sig .tc := ⟨.hbm, 313, rfl⟩
abbrev main_v201 : Ref sig .tc := ⟨.hbm, 314, rfl⟩
abbrev main_cst_65 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_66 : Ref sig .tc := ⟨.hbm, 322, rfl⟩
abbrev main_v208 : Ref sig .tc := ⟨.hbm, 323, rfl⟩
abbrev main_v209 : Ref sig .tc := ⟨.hbm, 324, rfl⟩
abbrev main_cst_67 : Ref sig .tc := ⟨.hbm, 325, rfl⟩
abbrev main_v210 : Ref sig .tc := ⟨.hbm, 326, rfl⟩
abbrev main_v211 : Ref sig .tc := ⟨.hbm, 327, rfl⟩
abbrev main_cst_68 : Ref sig .tc := ⟨.hbm, 328, rfl⟩
abbrev main_v212 : Ref sig .tc := ⟨.hbm, 329, rfl⟩
abbrev main_v213 : Ref sig .tc := ⟨.hbm, 330, rfl⟩
abbrev main_cst_69 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_cst_70 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_cst_71 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_c_72 : Ref sig .tc := ⟨.hbm, 343, rfl⟩
abbrev main_c_73 : Ref sig .tc := ⟨.hbm, 344, rfl⟩
abbrev main_call8_v0 : Ref sig .tc := ⟨.hbm, 345, rfl⟩
abbrev main_call8_v1 : Ref sig .tc := ⟨.hbm, 346, rfl⟩
abbrev main_call8_v2 : Ref sig .tc := ⟨.hbm, 347, rfl⟩
abbrev main_call8_v3 : Ref sig .tc := ⟨.hbm, 348, rfl⟩
abbrev main_call8_v4 : Ref sig .tc := ⟨.hbm, 349, rfl⟩
abbrev main_v223 : Ref sig .tc := ⟨.hbm, 350, rfl⟩
abbrev main_v224 : Ref sig .tc := ⟨.hbm, 351, rfl⟩
abbrev main_c_74 : Ref sig .tc := ⟨.hbm, 352, rfl⟩
abbrev main_c_75 : Ref sig .tc := ⟨.hbm, 353, rfl⟩
abbrev main_call9_v0 : Ref sig .tc := ⟨.hbm, 354, rfl⟩
abbrev main_call9_v1 : Ref sig .tc := ⟨.hbm, 355, rfl⟩
abbrev main_call9_v2 : Ref sig .tc := ⟨.hbm, 356, rfl⟩
abbrev main_call9_v3 : Ref sig .tc := ⟨.hbm, 357, rfl⟩
abbrev main_call9_v4 : Ref sig .tc := ⟨.hbm, 358, rfl⟩
abbrev main_v225 : Ref sig .tc := ⟨.hbm, 359, rfl⟩
abbrev main_v226 : Ref sig .tc := ⟨.hbm, 360, rfl⟩
abbrev main_c_76 : Ref sig .tc := ⟨.hbm, 361, rfl⟩
abbrev main_v227 : Ref sig .tc := ⟨.hbm, 362, rfl⟩
abbrev main_v228 : Ref sig .tc := ⟨.hbm, 363, rfl⟩
abbrev main_c_77 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_c_78 : Ref sig .tc := ⟨.hbm, 368, rfl⟩
abbrev main_v232 : Ref sig .tc := ⟨.hbm, 369, rfl⟩
abbrev main_v233 : Ref sig .tc := ⟨.hbm, 370, rfl⟩
abbrev main_c_79 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_cst_80 : Ref sig .tc := ⟨.hbm, 387, rfl⟩
abbrev main_v249 : Ref sig .tc := ⟨.hbm, 388, rfl⟩
abbrev main_v250 : Ref sig .tc := ⟨.hbm, 389, rfl⟩
abbrev main_cst_81 : Ref sig .tc := ⟨.hbm, 390, rfl⟩
abbrev main_v251 : Ref sig .tc := ⟨.hbm, 391, rfl⟩
abbrev main_v252 : Ref sig .tc := ⟨.hbm, 392, rfl⟩
abbrev main_cst_82 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_cst_83 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_cst_84 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_c_85 : Ref sig .tc := ⟨.hbm, 405, rfl⟩
abbrev main_c_86 : Ref sig .tc := ⟨.hbm, 406, rfl⟩
abbrev main_call10_v0 : Ref sig .tc := ⟨.hbm, 407, rfl⟩
abbrev main_call10_v1 : Ref sig .tc := ⟨.hbm, 408, rfl⟩
abbrev main_call10_v2 : Ref sig .tc := ⟨.hbm, 409, rfl⟩
abbrev main_call10_v3 : Ref sig .tc := ⟨.hbm, 410, rfl⟩
abbrev main_call10_v4 : Ref sig .tc := ⟨.hbm, 411, rfl⟩
abbrev main_v262 : Ref sig .tc := ⟨.hbm, 412, rfl⟩
abbrev main_v263 : Ref sig .tc := ⟨.hbm, 413, rfl⟩
abbrev main_c_87 : Ref sig .tc := ⟨.hbm, 414, rfl⟩
abbrev main_c_88 : Ref sig .tc := ⟨.hbm, 415, rfl⟩
abbrev main_call11_v0 : Ref sig .tc := ⟨.hbm, 416, rfl⟩
abbrev main_call11_v1 : Ref sig .tc := ⟨.hbm, 417, rfl⟩
abbrev main_call11_v2 : Ref sig .tc := ⟨.hbm, 418, rfl⟩
abbrev main_call11_v3 : Ref sig .tc := ⟨.hbm, 419, rfl⟩
abbrev main_call11_v4 : Ref sig .tc := ⟨.hbm, 420, rfl⟩
abbrev main_v264 : Ref sig .tc := ⟨.hbm, 421, rfl⟩
abbrev main_v265 : Ref sig .tc := ⟨.hbm, 422, rfl⟩
abbrev main_c_89 : Ref sig .tc := ⟨.hbm, 423, rfl⟩
abbrev main_v266 : Ref sig .tc := ⟨.hbm, 424, rfl⟩
abbrev main_v267 : Ref sig .tc := ⟨.hbm, 425, rfl⟩
abbrev main_c_90 : Ref sig .tc := ⟨.hbm, 426, rfl⟩
abbrev main_v268 : Ref sig .tc := ⟨.hbm, 427, rfl⟩
abbrev main_v269 : Ref sig .tc := ⟨.hbm, 428, rfl⟩
abbrev main_v270 : Ref sig .tc := ⟨.hbm, 429, rfl⟩
abbrev main_c_91 : Ref sig .tc := ⟨.hbm, 430, rfl⟩
abbrev main_v271 : Ref sig .tc := ⟨.hbm, 431, rfl⟩
abbrev main_v272 : Ref sig .tc := ⟨.hbm, 432, rfl⟩
abbrev main_c_92 : Ref sig .tc := ⟨.hbm, 433, rfl⟩
abbrev main_v273 : Ref sig .tc := ⟨.hbm, 434, rfl⟩
abbrev main_v274 : Ref sig .tc := ⟨.hbm, 435, rfl⟩
abbrev main_v275 : Ref sig .tc := ⟨.hbm, 436, rfl⟩
abbrev main_v276 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_v282 : Ref sig .tc := ⟨.hbm, 443, rfl⟩
abbrev main_v283 : Ref sig .tc := ⟨.hbm, 444, rfl⟩
abbrev main_v284 : Ref sig .tc := ⟨.hbm, 445, rfl⟩
abbrev main_v285 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_cst_93 : Ref sig .tc := ⟨.hbm, 450, rfl⟩
abbrev main_v289 : Ref sig .tc := ⟨.hbm, 451, rfl⟩
abbrev main_v290 : Ref sig .tc := ⟨.hbm, 452, rfl⟩
abbrev main_cst_94 : Ref sig .tc := ⟨.hbm, 453, rfl⟩
abbrev main_v291 : Ref sig .tc := ⟨.hbm, 454, rfl⟩
abbrev main_v292 : Ref sig .tc := ⟨.hbm, 455, rfl⟩
abbrev main_cst_95 : Ref sig .tc := ⟨.hbm, 456, rfl⟩
abbrev main_v293 : Ref sig .tc := ⟨.hbm, 457, rfl⟩
abbrev main_v294 : Ref sig .tc := ⟨.hbm, 458, rfl⟩
abbrev main_v295 : Ref sig .tc := ⟨.hbm, 459, rfl⟩
abbrev main_cst_96 : Ref sig .tc := ⟨.hbm, 460, rfl⟩
abbrev main_v296 : Ref sig .tc := ⟨.hbm, 461, rfl⟩
abbrev main_v297 : Ref sig .tc := ⟨.hbm, 462, rfl⟩
abbrev main_v298 : Ref sig .tc := ⟨.hbm, 463, rfl⟩
abbrev main_cst_97 : Ref sig .tc := ⟨.hbm, 464, rfl⟩
abbrev main_v299 : Ref sig .tc := ⟨.hbm, 465, rfl⟩
abbrev main_v300 : Ref sig .tc := ⟨.hbm, 466, rfl⟩
abbrev main_v301 : Ref sig .tc := ⟨.hbm, 467, rfl⟩
abbrev main_c_98 : Ref sig .tc := ⟨.hbm, 468, rfl⟩
abbrev main_c_99 : Ref sig .tc := ⟨.hbm, 469, rfl⟩
abbrev main_call12_v0 : Ref sig .tc := ⟨.hbm, 470, rfl⟩
abbrev main_call12_v1 : Ref sig .tc := ⟨.hbm, 471, rfl⟩
abbrev main_call12_v2 : Ref sig .tc := ⟨.hbm, 472, rfl⟩
abbrev main_call12_v3 : Ref sig .tc := ⟨.hbm, 473, rfl⟩
abbrev main_call12_v4 : Ref sig .tc := ⟨.hbm, 474, rfl⟩
abbrev main_v302 : Ref sig .tc := ⟨.hbm, 475, rfl⟩
abbrev main_v303 : Ref sig .tc := ⟨.hbm, 476, rfl⟩
abbrev main_c_100 : Ref sig .tc := ⟨.hbm, 477, rfl⟩
abbrev main_c_101 : Ref sig .tc := ⟨.hbm, 478, rfl⟩
abbrev main_call13_v0 : Ref sig .tc := ⟨.hbm, 479, rfl⟩
abbrev main_call13_v1 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_v304 : Ref sig .tc := ⟨.hbm, 484, rfl⟩
abbrev main_v305 : Ref sig .tc := ⟨.hbm, 485, rfl⟩
abbrev main_c_102 : Ref sig .tc := ⟨.hbm, 486, rfl⟩
abbrev main_v306 : Ref sig .tc := ⟨.hbm, 487, rfl⟩
abbrev main_v307 : Ref sig .tc := ⟨.hbm, 488, rfl⟩
abbrev main_c_103 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_c_104 : Ref sig .tc := ⟨.hbm, 493, rfl⟩
abbrev main_v311 : Ref sig .tc := ⟨.hbm, 494, rfl⟩
abbrev main_v312 : Ref sig .tc := ⟨.hbm, 495, rfl⟩
abbrev main_c_105 : Ref sig .tc := ⟨.hbm, 496, rfl⟩
abbrev main_v313 : Ref sig .tc := ⟨.hbm, 497, rfl⟩
abbrev main_v314 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_v320 : Ref sig .tc := ⟨.hbm, 504, rfl⟩
abbrev main_v321 : Ref sig .tc := ⟨.hbm, 505, rfl⟩
abbrev main_v322 : Ref sig .tc := ⟨.hbm, 506, rfl⟩
abbrev main_v323 : Ref sig .tc := ⟨.hbm, 507, rfl⟩
abbrev main_v324 : Ref sig .tc := ⟨.hbm, 508, rfl⟩
abbrev main_v325 : Ref sig .tc := ⟨.hbm, 509, rfl⟩
abbrev main_v326 : Ref sig .tc := ⟨.hbm, 510, rfl⟩
abbrev main_v327 : Ref sig .tc := ⟨.hbm, 511, rfl⟩
abbrev main_v328 : Ref sig .tc := ⟨.hbm, 512, rfl⟩
abbrev main_cst_106 : Ref sig .tc := ⟨.hbm, 513, rfl⟩
abbrev main_v329 : Ref sig .tc := ⟨.hbm, 514, rfl⟩
abbrev main_v330 : Ref sig .tc := ⟨.hbm, 515, rfl⟩
abbrev main_cst_107 : Ref sig .tc := ⟨.hbm, 516, rfl⟩
abbrev main_v331 : Ref sig .tc := ⟨.hbm, 517, rfl⟩
abbrev main_v332 : Ref sig .tc := ⟨.hbm, 518, rfl⟩
abbrev main_cst_108 : Ref sig .tc := ⟨.hbm, 519, rfl⟩
abbrev main_v333 : Ref sig .tc := ⟨.hbm, 520, rfl⟩
abbrev main_v334 : Ref sig .tc := ⟨.hbm, 521, rfl⟩
abbrev main_cst_109 : Ref sig .tc := ⟨.hbm, 522, rfl⟩
abbrev main_v335 : Ref sig .tc := ⟨.hbm, 523, rfl⟩
abbrev main_v336 : Ref sig .tc := ⟨.hbm, 524, rfl⟩
abbrev main_v337 : Ref sig .tc := ⟨.hbm, 525, rfl⟩
abbrev main_cst_110 : Ref sig .tc := ⟨.hbm, 526, rfl⟩
abbrev main_v338 : Ref sig .tc := ⟨.hbm, 527, rfl⟩
abbrev main_v339 : Ref sig .tc := ⟨.hbm, 528, rfl⟩
abbrev main_v340 : Ref sig .tc := ⟨.hbm, 529, rfl⟩
abbrev main_cst_111 : Ref sig .tc := ⟨.hbm, 530, rfl⟩
abbrev main_v341 : Ref sig .tc := ⟨.hbm, 531, rfl⟩
abbrev main_v342 : Ref sig .tc := ⟨.hbm, 532, rfl⟩
abbrev main_v343 : Ref sig .tc := ⟨.hbm, 533, rfl⟩
abbrev main_c_112 : Ref sig .tc := ⟨.hbm, 534, rfl⟩
abbrev main_c_113 : Ref sig .tc := ⟨.hbm, 535, rfl⟩
abbrev main_call14_v0 : Ref sig .tc := ⟨.hbm, 536, rfl⟩
abbrev main_call14_v1 : Ref sig .tc := ⟨.hbm, 537, rfl⟩
abbrev main_call14_v2 : Ref sig .tc := ⟨.hbm, 538, rfl⟩
abbrev main_call14_v3 : Ref sig .tc := ⟨.hbm, 539, rfl⟩
abbrev main_call14_v4 : Ref sig .tc := ⟨.hbm, 540, rfl⟩
abbrev main_v344 : Ref sig .tc := ⟨.hbm, 541, rfl⟩
abbrev main_v345 : Ref sig .tc := ⟨.hbm, 542, rfl⟩
abbrev main_c_114 : Ref sig .tc := ⟨.hbm, 543, rfl⟩
abbrev main_c_115 : Ref sig .tc := ⟨.hbm, 544, rfl⟩
abbrev main_call15_v0 : Ref sig .tc := ⟨.hbm, 545, rfl⟩
abbrev main_call15_v1 : Ref sig .tc := ⟨.hbm, 546, rfl⟩
abbrev main_call15_v2 : Ref sig .tc := ⟨.hbm, 547, rfl⟩
abbrev main_call15_v3 : Ref sig .tc := ⟨.hbm, 548, rfl⟩
abbrev main_call15_v4 : Ref sig .tc := ⟨.hbm, 549, rfl⟩
abbrev main_v346 : Ref sig .tc := ⟨.hbm, 550, rfl⟩
abbrev main_v347 : Ref sig .tc := ⟨.hbm, 551, rfl⟩
abbrev main_c_116 : Ref sig .tc := ⟨.hbm, 552, rfl⟩
abbrev main_v348 : Ref sig .tc := ⟨.hbm, 553, rfl⟩
abbrev main_v349 : Ref sig .tc := ⟨.hbm, 554, rfl⟩
abbrev main_c_117 : Ref sig .tc := ⟨.hbm, 555, rfl⟩
abbrev main_v350 : Ref sig .tc := ⟨.hbm, 556, rfl⟩
abbrev main_v351 : Ref sig .tc := ⟨.hbm, 557, rfl⟩
abbrev main_v352 : Ref sig .tc := ⟨.hbm, 558, rfl⟩
abbrev main_c_118 : Ref sig .tc := ⟨.hbm, 559, rfl⟩
abbrev main_v353 : Ref sig .tc := ⟨.hbm, 560, rfl⟩
abbrev main_v354 : Ref sig .tc := ⟨.hbm, 561, rfl⟩
abbrev main_c_119 : Ref sig .tc := ⟨.hbm, 562, rfl⟩
abbrev main_v355 : Ref sig .tc := ⟨.hbm, 563, rfl⟩
abbrev main_v356 : Ref sig .tc := ⟨.hbm, 564, rfl⟩
abbrev main_v357 : Ref sig .tc := ⟨.hbm, 565, rfl⟩
abbrev main_v358 : Ref sig .tc := ⟨.hbm, 566, rfl⟩
abbrev main_v359 : Ref sig .tc := ⟨.hbm, 567, rfl⟩
abbrev main_v360 : Ref sig .tc := ⟨.hbm, 568, rfl⟩
abbrev main_v361 : Ref sig .tc := ⟨.hbm, 569, rfl⟩
abbrev main_v362 : Ref sig .tc := ⟨.hbm, 570, rfl⟩
abbrev main_v363 : Ref sig .tc := ⟨.hbm, 571, rfl⟩
abbrev main_v364 : Ref sig .tc := ⟨.hbm, 572, rfl⟩
abbrev main_v365 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_v369 : Ref sig .tc := ⟨.hbm, 577, rfl⟩
abbrev main_v370 : Ref sig .tc := ⟨.hbm, 578, rfl⟩
abbrev main_v371 : Ref sig .tc := ⟨.hbm, 579, rfl⟩
abbrev main_v372 : Ref sig .tc := ⟨.hbm, 580, rfl⟩
abbrev main_v373 : Ref sig .tc := ⟨.hbm, 581, rfl⟩
abbrev main_v374 : Ref sig .tc := ⟨.hbm, 582, rfl⟩
abbrev main_v375 : Ref sig .tc := ⟨.hbm, 583, rfl⟩
abbrev main_v376 : Ref sig .tc := ⟨.hbm, 584, rfl⟩
abbrev main_cst_120 : Ref sig .tc := ⟨.hbm, 585, rfl⟩
abbrev main_v377 : Ref sig .tc := ⟨.hbm, 586, rfl⟩
abbrev main_v378 : Ref sig .tc := ⟨.hbm, 587, rfl⟩
abbrev main_cst_121 : Ref sig .tc := ⟨.hbm, 588, rfl⟩
abbrev main_v379 : Ref sig .tc := ⟨.hbm, 589, rfl⟩
abbrev main_v380 : Ref sig .tc := ⟨.hbm, 590, rfl⟩
abbrev main_cst_122 : Ref sig .tc := ⟨.hbm, 591, rfl⟩
abbrev main_v381 : Ref sig .tc := ⟨.hbm, 592, rfl⟩
abbrev main_v382 : Ref sig .tc := ⟨.hbm, 593, rfl⟩
abbrev main_cst_123 : Ref sig .tc := ⟨.hbm, 594, rfl⟩
abbrev main_v383 : Ref sig .tc := ⟨.hbm, 595, rfl⟩
abbrev main_v384 : Ref sig .tc := ⟨.hbm, 596, rfl⟩
abbrev main_cst_124 : Ref sig .tc := ⟨.hbm, 597, rfl⟩
abbrev main_v385 : Ref sig .tc := ⟨.hbm, 598, rfl⟩
abbrev main_v386 : Ref sig .tc := ⟨.hbm, 599, rfl⟩
abbrev main_cst_125 : Ref sig .tc := ⟨.hbm, 600, rfl⟩
abbrev main_v387 : Ref sig .tc := ⟨.hbm, 601, rfl⟩
abbrev main_v388 : Ref sig .tc := ⟨.hbm, 602, rfl⟩
abbrev main_v389 : Ref sig .tc := ⟨.hbm, 603, rfl⟩
abbrev main_v390 : Ref sig .tc := ⟨.hbm, 604, rfl⟩
abbrev main_v391 : Ref sig .tc := ⟨.hbm, 605, rfl⟩
abbrev main_v392 : Ref sig .tc := ⟨.hbm, 606, rfl⟩
abbrev main_cst_126 : Ref sig .tc := ⟨.hbm, 607, rfl⟩
abbrev main_v393 : Ref sig .tc := ⟨.hbm, 608, rfl⟩
abbrev main_v394 : Ref sig .tc := ⟨.hbm, 609, rfl⟩
abbrev main_cst_127 : Ref sig .tc := ⟨.hbm, 610, rfl⟩
abbrev main_v395 : Ref sig .tc := ⟨.hbm, 611, rfl⟩
abbrev main_v396 : Ref sig .tc := ⟨.hbm, 612, rfl⟩
abbrev main_cst_128 : Ref sig .tc := ⟨.hbm, 613, rfl⟩
abbrev main_v397 : Ref sig .tc := ⟨.hbm, 614, rfl⟩
abbrev main_v398 : Ref sig .tc := ⟨.hbm, 615, rfl⟩
abbrev main_cst_129 : Ref sig .tc := ⟨.hbm, 616, rfl⟩
abbrev main_v399 : Ref sig .tc := ⟨.hbm, 617, rfl⟩
abbrev main_v400 : Ref sig .tc := ⟨.hbm, 618, rfl⟩
abbrev main_v401 : Ref sig .tc := ⟨.hbm, 619, rfl⟩
abbrev main_cst_130 : Ref sig .tc := ⟨.hbm, 620, rfl⟩
abbrev main_v402 : Ref sig .tc := ⟨.hbm, 621, rfl⟩
abbrev main_v403 : Ref sig .tc := ⟨.hbm, 622, rfl⟩
abbrev main_v404 : Ref sig .tc := ⟨.hbm, 623, rfl⟩
abbrev main_cst_131 : Ref sig .tc := ⟨.hbm, 624, rfl⟩
abbrev main_v405 : Ref sig .tc := ⟨.hbm, 625, rfl⟩
abbrev main_v406 : Ref sig .tc := ⟨.hbm, 626, rfl⟩
abbrev main_v407 : Ref sig .tc := ⟨.hbm, 627, rfl⟩
abbrev main_c_132 : Ref sig .tc := ⟨.hbm, 628, rfl⟩
abbrev main_c_133 : Ref sig .tc := ⟨.hbm, 629, rfl⟩
abbrev main_call16_v0 : Ref sig .tc := ⟨.hbm, 630, rfl⟩
abbrev main_call16_v1 : Ref sig .tc := ⟨.hbm, 631, rfl⟩
abbrev main_call16_v2 : Ref sig .tc := ⟨.hbm, 632, rfl⟩
abbrev main_call16_v3 : Ref sig .tc := ⟨.hbm, 633, rfl⟩
abbrev main_call16_v4 : Ref sig .tc := ⟨.hbm, 634, rfl⟩
abbrev main_v408 : Ref sig .tc := ⟨.hbm, 635, rfl⟩
abbrev main_v409 : Ref sig .tc := ⟨.hbm, 636, rfl⟩
abbrev main_c_134 : Ref sig .tc := ⟨.hbm, 637, rfl⟩
abbrev main_c_135 : Ref sig .tc := ⟨.hbm, 638, rfl⟩
abbrev main_call17_v0 : Ref sig .tc := ⟨.hbm, 639, rfl⟩
abbrev main_call17_v1 : Ref sig .tc := ⟨.hbm, 640, rfl⟩
abbrev main_call17_v2 : Ref sig .tc := ⟨.hbm, 641, rfl⟩
abbrev main_call17_v3 : Ref sig .tc := ⟨.hbm, 642, rfl⟩
abbrev main_call17_v4 : Ref sig .tc := ⟨.hbm, 643, rfl⟩
abbrev main_v410 : Ref sig .tc := ⟨.hbm, 644, rfl⟩
abbrev main_v411 : Ref sig .tc := ⟨.hbm, 645, rfl⟩
abbrev main_c_136 : Ref sig .tc := ⟨.hbm, 646, rfl⟩
abbrev main_v412 : Ref sig .tc := ⟨.hbm, 647, rfl⟩
abbrev main_v413 : Ref sig .tc := ⟨.hbm, 648, rfl⟩
abbrev main_c_137 : Ref sig .tc := ⟨.hbm, 649, rfl⟩
abbrev main_v414 : Ref sig .tc := ⟨.hbm, 650, rfl⟩
abbrev main_v415 : Ref sig .tc := ⟨.hbm, 651, rfl⟩
abbrev main_v416 : Ref sig .tc := ⟨.hbm, 652, rfl⟩
abbrev main_c_138 : Ref sig .tc := ⟨.hbm, 653, rfl⟩
abbrev main_v417 : Ref sig .tc := ⟨.hbm, 654, rfl⟩
abbrev main_v418 : Ref sig .tc := ⟨.hbm, 655, rfl⟩
abbrev main_c_139 : Ref sig .tc := ⟨.hbm, 656, rfl⟩
abbrev main_v419 : Ref sig .tc := ⟨.hbm, 657, rfl⟩
abbrev main_v420 : Ref sig .tc := ⟨.hbm, 658, rfl⟩
abbrev main_v421 : Ref sig .tc := ⟨.hbm, 659, rfl⟩
abbrev main_v422 : Ref sig .tc := ⟨.hbm, 660, rfl⟩
abbrev main_v423 : Ref sig .tc := ⟨.hbm, 661, rfl⟩
abbrev main_v424 : Ref sig .tc := ⟨.hbm, 662, rfl⟩
abbrev main_v425 : Ref sig .tc := ⟨.hbm, 663, rfl⟩
abbrev main_v426 : Ref sig .tc := ⟨.hbm, 664, rfl⟩
abbrev main_v427 : Ref sig .tc := ⟨.hbm, 665, rfl⟩
abbrev main_v428 : Ref sig .tc := ⟨.hbm, 666, rfl⟩
abbrev main_v429 : Ref sig .tc := ⟨.hbm, 667, rfl⟩
abbrev main_v430 : Ref sig .tc := ⟨.hbm, 668, rfl⟩
abbrev main_v431 : Ref sig .tc := ⟨.hbm, 669, rfl⟩
abbrev main_v432 : Ref sig .tc := ⟨.hbm, 670, rfl⟩
abbrev main_v433 : Ref sig .tc := ⟨.hbm, 671, rfl⟩
abbrev main_cst_140 : Ref sig .tc := ⟨.hbm, 672, rfl⟩
abbrev main_v434 : Ref sig .tc := ⟨.hbm, 673, rfl⟩
abbrev main_v435 : Ref sig .tc := ⟨.hbm, 674, rfl⟩
abbrev main_cst_141 : Ref sig .tc := ⟨.hbm, 675, rfl⟩
abbrev main_v436 : Ref sig .tc := ⟨.hbm, 676, rfl⟩
abbrev main_v437 : Ref sig .tc := ⟨.hbm, 677, rfl⟩
abbrev main_cst_142 : Ref sig .tc := ⟨.hbm, 678, rfl⟩
abbrev main_v438 : Ref sig .tc := ⟨.hbm, 679, rfl⟩
abbrev main_v439 : Ref sig .tc := ⟨.hbm, 680, rfl⟩
abbrev main_v440 : Ref sig .tc := ⟨.hbm, 681, rfl⟩
abbrev main_cst_143 : Ref sig .tc := ⟨.hbm, 682, rfl⟩
abbrev main_v441 : Ref sig .tc := ⟨.hbm, 683, rfl⟩
abbrev main_v442 : Ref sig .tc := ⟨.hbm, 684, rfl⟩
abbrev main_v443 : Ref sig .tc := ⟨.hbm, 685, rfl⟩
abbrev main_cst_144 : Ref sig .tc := ⟨.hbm, 686, rfl⟩
abbrev main_v444 : Ref sig .tc := ⟨.hbm, 687, rfl⟩
abbrev main_v445 : Ref sig .tc := ⟨.hbm, 688, rfl⟩
abbrev main_v446 : Ref sig .tc := ⟨.hbm, 689, rfl⟩
abbrev main_c_145 : Ref sig .tc := ⟨.hbm, 690, rfl⟩
abbrev main_c_146 : Ref sig .tc := ⟨.hbm, 691, rfl⟩
abbrev main_call18_v0 : Ref sig .tc := ⟨.hbm, 692, rfl⟩
abbrev main_call18_v1 : Ref sig .tc := ⟨.hbm, 693, rfl⟩
abbrev main_call18_v2 : Ref sig .tc := ⟨.hbm, 694, rfl⟩
abbrev main_call18_v3 : Ref sig .tc := ⟨.hbm, 695, rfl⟩
abbrev main_call18_v4 : Ref sig .tc := ⟨.hbm, 696, rfl⟩
abbrev main_v447 : Ref sig .tc := ⟨.hbm, 697, rfl⟩
abbrev main_v448 : Ref sig .tc := ⟨.hbm, 698, rfl⟩
abbrev main_c_147 : Ref sig .tc := ⟨.hbm, 699, rfl⟩
abbrev main_c_148 : Ref sig .tc := ⟨.hbm, 700, rfl⟩
abbrev main_call19_v0 : Ref sig .tc := ⟨.hbm, 701, rfl⟩
abbrev main_call19_v1 : Ref sig .tc := ⟨.hbm, 702, rfl⟩
abbrev main_call19_v2 : Ref sig .tc := ⟨.hbm, 703, rfl⟩
abbrev main_call19_v3 : Ref sig .tc := ⟨.hbm, 704, rfl⟩
abbrev main_call19_v4 : Ref sig .tc := ⟨.hbm, 705, rfl⟩
abbrev main_v449 : Ref sig .tc := ⟨.hbm, 706, rfl⟩
abbrev main_v450 : Ref sig .tc := ⟨.hbm, 707, rfl⟩
abbrev main_c_149 : Ref sig .tc := ⟨.hbm, 708, rfl⟩
abbrev main_v451 : Ref sig .tc := ⟨.hbm, 709, rfl⟩
abbrev main_v452 : Ref sig .tc := ⟨.hbm, 710, rfl⟩
abbrev main_c_150 : Ref sig .tc := ⟨.hbm, 711, rfl⟩
abbrev main_v453 : Ref sig .tc := ⟨.hbm, 712, rfl⟩
abbrev main_v454 : Ref sig .tc := ⟨.hbm, 713, rfl⟩
abbrev main_v455 : Ref sig .tc := ⟨.hbm, 714, rfl⟩
abbrev main_c_151 : Ref sig .tc := ⟨.hbm, 715, rfl⟩
abbrev main_v456 : Ref sig .tc := ⟨.hbm, 716, rfl⟩
abbrev main_v457 : Ref sig .tc := ⟨.hbm, 717, rfl⟩
abbrev main_c_152 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩
abbrev main_v461 : Ref sig .tc := ⟨.hbm, 722, rfl⟩
abbrev main_v462 : Ref sig .tc := ⟨.hbm, 723, rfl⟩
abbrev main_v463 : Ref sig .tc := ⟨.hbm, 724, rfl⟩
abbrev main_v464 : Ref sig .tc := ⟨.hbm, 725, rfl⟩
abbrev main_v465 : Ref sig .tc := ⟨.hbm, 726, rfl⟩
abbrev main_v466 : Ref sig .tc := ⟨.hbm, 727, rfl⟩
abbrev main_v467 : Ref sig .tc := ⟨.hbm, 728, rfl⟩
abbrev main_v468 : Ref sig .tc := ⟨.hbm, 729, rfl⟩
abbrev main_v469 : Ref sig .tc := ⟨.hbm, 730, rfl⟩
abbrev main_v470 : Ref sig .tc := ⟨.hbm, 731, rfl⟩
abbrev main_v471 : Ref sig .tc := ⟨.hbm, 732, rfl⟩
abbrev main_v472 : Ref sig .tc := ⟨.hbm, 733, rfl⟩
abbrev main_v473 : Ref sig .tc := ⟨.hbm, 734, rfl⟩
abbrev main_cst_153 : Ref sig .tc := ⟨.hbm, 735, rfl⟩
abbrev main_v474 : Ref sig .tc := ⟨.hbm, 736, rfl⟩
abbrev main_v475 : Ref sig .tc := ⟨.hbm, 737, rfl⟩
abbrev main_cst_154 : Ref sig .tc := ⟨.hbm, 738, rfl⟩
abbrev main_v476 : Ref sig .tc := ⟨.hbm, 739, rfl⟩
abbrev main_v477 : Ref sig .tc := ⟨.hbm, 740, rfl⟩
abbrev main_cst_155 : Ref sig .tc := ⟨.hbm, 741, rfl⟩
abbrev main_v478 : Ref sig .tc := ⟨.hbm, 742, rfl⟩
abbrev main_v479 : Ref sig .tc := ⟨.hbm, 743, rfl⟩
abbrev main_v480 : Ref sig .tc := ⟨.hbm, 744, rfl⟩
abbrev main_cst_156 : Ref sig .tc := ⟨.hbm, 745, rfl⟩
abbrev main_v481 : Ref sig .tc := ⟨.hbm, 746, rfl⟩
abbrev main_v482 : Ref sig .tc := ⟨.hbm, 747, rfl⟩
abbrev main_v483 : Ref sig .tc := ⟨.hbm, 748, rfl⟩
abbrev main_cst_157 : Ref sig .tc := ⟨.hbm, 749, rfl⟩
abbrev main_v484 : Ref sig .tc := ⟨.hbm, 750, rfl⟩
abbrev main_v485 : Ref sig .tc := ⟨.hbm, 751, rfl⟩
abbrev main_v486 : Ref sig .tc := ⟨.hbm, 752, rfl⟩
abbrev main_c_158 : Ref sig .tc := ⟨.hbm, 753, rfl⟩
abbrev main_c_159 : Ref sig .tc := ⟨.hbm, 754, rfl⟩
abbrev main_call20_v0 : Ref sig .tc := ⟨.hbm, 755, rfl⟩
abbrev main_call20_v1 : Ref sig .tc := ⟨.hbm, 756, rfl⟩
abbrev main_call20_v2 : Ref sig .tc := ⟨.hbm, 757, rfl⟩
abbrev main_call20_v3 : Ref sig .tc := ⟨.hbm, 758, rfl⟩
abbrev main_call20_v4 : Ref sig .tc := ⟨.hbm, 759, rfl⟩
abbrev main_v487 : Ref sig .tc := ⟨.hbm, 760, rfl⟩
abbrev main_v488 : Ref sig .tc := ⟨.hbm, 761, rfl⟩
abbrev main_c_160 : Ref sig .tc := ⟨.hbm, 762, rfl⟩
abbrev main_c_161 : Ref sig .tc := ⟨.hbm, 763, rfl⟩
abbrev main_call21_v0 : Ref sig .tc := ⟨.hbm, 764, rfl⟩
abbrev main_call21_v1 : Ref sig .tc := ⟨.hbm, 765, rfl⟩
abbrev main_call21_v2 : Ref sig .tc := ⟨.hbm, 766, rfl⟩
abbrev main_call21_v3 : Ref sig .tc := ⟨.hbm, 767, rfl⟩
abbrev main_call21_v4 : Ref sig .tc := ⟨.hbm, 768, rfl⟩
abbrev main_v489 : Ref sig .tc := ⟨.hbm, 769, rfl⟩
abbrev main_v490 : Ref sig .tc := ⟨.hbm, 770, rfl⟩
abbrev main_c_162 : Ref sig .tc := ⟨.hbm, 771, rfl⟩
abbrev main_v491 : Ref sig .tc := ⟨.hbm, 772, rfl⟩
abbrev main_v492 : Ref sig .tc := ⟨.hbm, 773, rfl⟩
abbrev main_c_163 : Ref sig .tc := ⟨.hbm, 774, rfl⟩
abbrev main_v493 : Ref sig .tc := ⟨.hbm, 775, rfl⟩
abbrev main_v494 : Ref sig .tc := ⟨.hbm, 776, rfl⟩
abbrev main_v495 : Ref sig .tc := ⟨.hbm, 777, rfl⟩
abbrev main_c_164 : Ref sig .tc := ⟨.hbm, 778, rfl⟩
abbrev main_v496 : Ref sig .tc := ⟨.hbm, 779, rfl⟩
abbrev main_v497 : Ref sig .tc := ⟨.hbm, 780, rfl⟩
abbrev main_c_165 : Ref sig .tc := ⟨.hbm, 781, rfl⟩
abbrev main_v498 : Ref sig .tc := ⟨.hbm, 782, rfl⟩
abbrev main_v499 : Ref sig .tc := ⟨.hbm, 783, rfl⟩
abbrev main_v500 : Ref sig .tc := ⟨.hbm, 784, rfl⟩
abbrev main_v501 : Ref sig .tc := ⟨.hbm, 785, rfl⟩
abbrev main_v502 : Ref sig .tc := ⟨.hbm, 786, rfl⟩
abbrev main_v503 : Ref sig .tc := ⟨.hbm, 787, rfl⟩
abbrev main_v504 : Ref sig .tc := ⟨.hbm, 788, rfl⟩
abbrev main_v505 : Ref sig .tc := ⟨.hbm, 789, rfl⟩
abbrev main_v506 : Ref sig .tc := ⟨.hbm, 790, rfl⟩
abbrev main_v507 : Ref sig .tc := ⟨.hbm, 791, rfl⟩
abbrev main_v508 : Ref sig .tc := ⟨.hbm, 792, rfl⟩
abbrev main_v509 : Ref sig .tc := ⟨.hbm, 793, rfl⟩
abbrev main_v510 : Ref sig .tc := ⟨.hbm, 794, rfl⟩
abbrev main_v511 : Ref sig .tc := ⟨.hbm, 795, rfl⟩
abbrev main_v512 : Ref sig .tc := ⟨.hbm, 796, rfl⟩
abbrev main_v513 : Ref sig .tc := ⟨.hbm, 797, rfl⟩
abbrev main_cst_166 : Ref sig .tc := ⟨.hbm, 798, rfl⟩
abbrev main_v514 : Ref sig .tc := ⟨.hbm, 799, rfl⟩
abbrev main_v515 : Ref sig .tc := ⟨.hbm, 800, rfl⟩
abbrev main_cst_167 : Ref sig .tc := ⟨.hbm, 801, rfl⟩
abbrev main_v516 : Ref sig .tc := ⟨.hbm, 802, rfl⟩
abbrev main_v517 : Ref sig .tc := ⟨.hbm, 803, rfl⟩
abbrev main_cst_168 : Ref sig .tc := ⟨.hbm, 804, rfl⟩
abbrev main_v518 : Ref sig .tc := ⟨.hbm, 805, rfl⟩
abbrev main_v519 : Ref sig .tc := ⟨.hbm, 806, rfl⟩
abbrev main_cst_169 : Ref sig .tc := ⟨.hbm, 807, rfl⟩
abbrev main_v520 : Ref sig .tc := ⟨.hbm, 808, rfl⟩
abbrev main_v521 : Ref sig .tc := ⟨.hbm, 809, rfl⟩
abbrev main_v522 : Ref sig .tc := ⟨.hbm, 810, rfl⟩
abbrev main_cst_170 : Ref sig .tc := ⟨.hbm, 811, rfl⟩
abbrev main_v523 : Ref sig .tc := ⟨.hbm, 812, rfl⟩
abbrev main_v524 : Ref sig .tc := ⟨.hbm, 813, rfl⟩
abbrev main_v525 : Ref sig .tc := ⟨.hbm, 814, rfl⟩
abbrev main_cst_171 : Ref sig .tc := ⟨.hbm, 815, rfl⟩
abbrev main_v526 : Ref sig .tc := ⟨.hbm, 816, rfl⟩
abbrev main_v527 : Ref sig .tc := ⟨.hbm, 817, rfl⟩
abbrev main_v528 : Ref sig .tc := ⟨.hbm, 818, rfl⟩
abbrev main_c_172 : Ref sig .tc := ⟨.hbm, 819, rfl⟩
abbrev main_c_173 : Ref sig .tc := ⟨.hbm, 820, rfl⟩
abbrev main_call22_v0 : Ref sig .tc := ⟨.hbm, 821, rfl⟩
abbrev main_call22_v1 : Ref sig .tc := ⟨.hbm, 822, rfl⟩
abbrev main_call22_v2 : Ref sig .tc := ⟨.hbm, 823, rfl⟩
abbrev main_call22_v3 : Ref sig .tc := ⟨.hbm, 824, rfl⟩
abbrev main_call22_v4 : Ref sig .tc := ⟨.hbm, 825, rfl⟩
abbrev main_v529 : Ref sig .tc := ⟨.hbm, 826, rfl⟩
abbrev main_v530 : Ref sig .tc := ⟨.hbm, 827, rfl⟩
abbrev main_c_174 : Ref sig .tc := ⟨.hbm, 828, rfl⟩
abbrev main_c_175 : Ref sig .tc := ⟨.hbm, 829, rfl⟩
abbrev main_call23_v0 : Ref sig .tc := ⟨.hbm, 830, rfl⟩
abbrev main_call23_v1 : Ref sig .tc := ⟨.hbm, 831, rfl⟩
abbrev main_call23_v2 : Ref sig .tc := ⟨.hbm, 832, rfl⟩
abbrev main_call23_v3 : Ref sig .tc := ⟨.hbm, 833, rfl⟩
abbrev main_call23_v4 : Ref sig .tc := ⟨.hbm, 834, rfl⟩
abbrev main_v531 : Ref sig .tc := ⟨.hbm, 835, rfl⟩
abbrev main_v532 : Ref sig .tc := ⟨.hbm, 836, rfl⟩
abbrev main_c_176 : Ref sig .tc := ⟨.hbm, 837, rfl⟩
abbrev main_v533 : Ref sig .tc := ⟨.hbm, 838, rfl⟩
abbrev main_v534 : Ref sig .tc := ⟨.hbm, 839, rfl⟩
abbrev main_c_177 : Ref sig .tc := ⟨.hbm, 840, rfl⟩
abbrev main_v535 : Ref sig .tc := ⟨.hbm, 841, rfl⟩
abbrev main_v536 : Ref sig .tc := ⟨.hbm, 842, rfl⟩
abbrev main_v537 : Ref sig .tc := ⟨.hbm, 843, rfl⟩
abbrev main_c_178 : Ref sig .tc := ⟨.hbm, 844, rfl⟩
abbrev main_v538 : Ref sig .tc := ⟨.hbm, 845, rfl⟩
abbrev main_v539 : Ref sig .tc := ⟨.hbm, 846, rfl⟩
abbrev main_c_179 : Ref sig .tc := ⟨.hbm, 847, rfl⟩
abbrev main_v540 : Ref sig .tc := ⟨.hbm, 848, rfl⟩
abbrev main_v541 : Ref sig .tc := ⟨.hbm, 849, rfl⟩
abbrev main_v542 : Ref sig .tc := ⟨.hbm, 850, rfl⟩
abbrev main_v543 : Ref sig .tc := ⟨.hbm, 851, rfl⟩
abbrev main_v544 : Ref sig .tc := ⟨.hbm, 852, rfl⟩
abbrev main_v545 : Ref sig .tc := ⟨.hbm, 853, rfl⟩
abbrev main_v546 : Ref sig .tc := ⟨.hbm, 854, rfl⟩
abbrev main_v547 : Ref sig .tc := ⟨.hbm, 855, rfl⟩
abbrev main_v548 : Ref sig .tc := ⟨.hbm, 856, rfl⟩
abbrev main_v549 : Ref sig .tc := ⟨.hbm, 857, rfl⟩
abbrev main_v550 : Ref sig .tc := ⟨.hbm, 858, rfl⟩
abbrev main_v551 : Ref sig .tc := ⟨.hbm, 859, rfl⟩
abbrev main_v552 : Ref sig .tc := ⟨.hbm, 860, rfl⟩
abbrev main_v553 : Ref sig .tc := ⟨.hbm, 861, rfl⟩
abbrev main_v554 : Ref sig .tc := ⟨.hbm, 862, rfl⟩
abbrev main_v555 : Ref sig .tc := ⟨.hbm, 863, rfl⟩
abbrev main_v556 : Ref sig .tc := ⟨.hbm, 864, rfl⟩
abbrev main_v557 : Ref sig .tc := ⟨.hbm, 865, rfl⟩
abbrev main_v558 : Ref sig .tc := ⟨.hbm, 866, rfl⟩
abbrev main_v559 : Ref sig .tc := ⟨.hbm, 867, rfl⟩
abbrev main_v560 : Ref sig .tc := ⟨.hbm, 868, rfl⟩
abbrev main_v561 : Ref sig .tc := ⟨.hbm, 869, rfl⟩
abbrev main_cst_180 : Ref sig .tc := ⟨.hbm, 870, rfl⟩
abbrev main_v562 : Ref sig .tc := ⟨.hbm, 871, rfl⟩
abbrev main_v563 : Ref sig .tc := ⟨.hbm, 872, rfl⟩
abbrev main_cst_181 : Ref sig .tc := ⟨.hbm, 873, rfl⟩
abbrev main_v564 : Ref sig .tc := ⟨.hbm, 874, rfl⟩
abbrev main_v565 : Ref sig .tc := ⟨.hbm, 875, rfl⟩
abbrev main_cst_182 : Ref sig .tc := ⟨.hbm, 876, rfl⟩
abbrev main_v566 : Ref sig .tc := ⟨.hbm, 877, rfl⟩
abbrev main_v567 : Ref sig .tc := ⟨.hbm, 878, rfl⟩
abbrev main_cst_183 : Ref sig .tc := ⟨.hbm, 879, rfl⟩
abbrev main_v568 : Ref sig .tc := ⟨.hbm, 880, rfl⟩
abbrev main_v569 : Ref sig .tc := ⟨.hbm, 881, rfl⟩
abbrev main_cst_184 : Ref sig .tc := ⟨.hbm, 882, rfl⟩
abbrev main_v570 : Ref sig .tc := ⟨.hbm, 883, rfl⟩
abbrev main_v571 : Ref sig .tc := ⟨.hbm, 884, rfl⟩
abbrev main_cst_185 : Ref sig .tc := ⟨.hbm, 885, rfl⟩
abbrev main_v572 : Ref sig .tc := ⟨.hbm, 886, rfl⟩
abbrev main_v573 : Ref sig .tc := ⟨.hbm, 887, rfl⟩
abbrev main_v574 : Ref sig .tc := ⟨.hbm, 888, rfl⟩
abbrev main_v575 : Ref sig .tc := ⟨.hbm, 889, rfl⟩
abbrev main_v576 : Ref sig .tc := ⟨.hbm, 890, rfl⟩
abbrev main_v577 : Ref sig .tc := ⟨.hbm, 891, rfl⟩
abbrev main_cst_186 : Ref sig .tc := ⟨.hbm, 892, rfl⟩
abbrev main_v578 : Ref sig .tc := ⟨.hbm, 893, rfl⟩
abbrev main_v579 : Ref sig .tc := ⟨.hbm, 894, rfl⟩
abbrev main_cst_187 : Ref sig .tc := ⟨.hbm, 895, rfl⟩
abbrev main_v580 : Ref sig .tc := ⟨.hbm, 896, rfl⟩
abbrev main_v581 : Ref sig .tc := ⟨.hbm, 897, rfl⟩
abbrev main_cst_188 : Ref sig .tc := ⟨.hbm, 898, rfl⟩
abbrev main_v582 : Ref sig .tc := ⟨.hbm, 899, rfl⟩
abbrev main_v583 : Ref sig .tc := ⟨.hbm, 900, rfl⟩
abbrev main_cst_189 : Ref sig .tc := ⟨.hbm, 901, rfl⟩
abbrev main_v584 : Ref sig .tc := ⟨.hbm, 902, rfl⟩
abbrev main_v585 : Ref sig .tc := ⟨.hbm, 903, rfl⟩
abbrev main_v586 : Ref sig .tc := ⟨.hbm, 904, rfl⟩
abbrev main_cst_190 : Ref sig .tc := ⟨.hbm, 905, rfl⟩
abbrev main_v587 : Ref sig .tc := ⟨.hbm, 906, rfl⟩
abbrev main_v588 : Ref sig .tc := ⟨.hbm, 907, rfl⟩
abbrev main_v589 : Ref sig .tc := ⟨.hbm, 908, rfl⟩
abbrev main_cst_191 : Ref sig .tc := ⟨.hbm, 909, rfl⟩
abbrev main_v590 : Ref sig .tc := ⟨.hbm, 910, rfl⟩
abbrev main_v591 : Ref sig .tc := ⟨.hbm, 911, rfl⟩
abbrev main_v592 : Ref sig .tc := ⟨.hbm, 912, rfl⟩
abbrev main_c_192 : Ref sig .tc := ⟨.hbm, 913, rfl⟩
abbrev main_c_193 : Ref sig .tc := ⟨.hbm, 914, rfl⟩
abbrev main_call24_v0 : Ref sig .tc := ⟨.hbm, 915, rfl⟩
abbrev main_call24_v1 : Ref sig .tc := ⟨.hbm, 916, rfl⟩
abbrev main_call24_v2 : Ref sig .tc := ⟨.hbm, 917, rfl⟩
abbrev main_call24_v3 : Ref sig .tc := ⟨.hbm, 918, rfl⟩
abbrev main_call24_v4 : Ref sig .tc := ⟨.hbm, 919, rfl⟩
abbrev main_v593 : Ref sig .tc := ⟨.hbm, 920, rfl⟩
abbrev main_v594 : Ref sig .tc := ⟨.hbm, 921, rfl⟩
abbrev main_c_194 : Ref sig .tc := ⟨.hbm, 922, rfl⟩
abbrev main_c_195 : Ref sig .tc := ⟨.hbm, 923, rfl⟩
abbrev main_call25_v0 : Ref sig .tc := ⟨.hbm, 924, rfl⟩
abbrev main_call25_v1 : Ref sig .tc := ⟨.hbm, 925, rfl⟩
abbrev main_call25_v2 : Ref sig .tc := ⟨.hbm, 926, rfl⟩
abbrev main_call25_v3 : Ref sig .tc := ⟨.hbm, 927, rfl⟩
abbrev main_call25_v4 : Ref sig .tc := ⟨.hbm, 928, rfl⟩
abbrev main_v595 : Ref sig .tc := ⟨.hbm, 929, rfl⟩
abbrev main_v596 : Ref sig .tc := ⟨.hbm, 930, rfl⟩
abbrev main_c_196 : Ref sig .tc := ⟨.hbm, 931, rfl⟩
abbrev main_v597 : Ref sig .tc := ⟨.hbm, 932, rfl⟩
abbrev main_v598 : Ref sig .tc := ⟨.hbm, 933, rfl⟩
abbrev main_c_197 : Ref sig .tc := ⟨.hbm, 934, rfl⟩
abbrev main_v599 : Ref sig .tc := ⟨.hbm, 935, rfl⟩
abbrev main_v600 : Ref sig .tc := ⟨.hbm, 936, rfl⟩
abbrev main_v601 : Ref sig .tc := ⟨.hbm, 937, rfl⟩
abbrev main_c_198 : Ref sig .tc := ⟨.hbm, 938, rfl⟩
abbrev main_v602 : Ref sig .tc := ⟨.hbm, 939, rfl⟩
abbrev main_v603 : Ref sig .tc := ⟨.hbm, 940, rfl⟩
abbrev main_c_199 : Ref sig .tc := ⟨.hbm, 941, rfl⟩
abbrev main_v604 : Ref sig .tc := ⟨.hbm, 942, rfl⟩
abbrev main_v605 : Ref sig .tc := ⟨.hbm, 943, rfl⟩
abbrev main_v606 : Ref sig .tc := ⟨.hbm, 944, rfl⟩
abbrev main_v607 : Ref sig .tc := ⟨.hbm, 945, rfl⟩
abbrev main_v608 : Ref sig .tc := ⟨.hbm, 946, rfl⟩
abbrev main_v609 : Ref sig .tc := ⟨.hbm, 947, rfl⟩
abbrev main_v610 : Ref sig .tc := ⟨.hbm, 948, rfl⟩
abbrev main_v611 : Ref sig .tc := ⟨.hbm, 949, rfl⟩
abbrev main_v612 : Ref sig .tc := ⟨.hbm, 950, rfl⟩
abbrev main_v613 : Ref sig .tc := ⟨.hbm, 951, rfl⟩
abbrev main_v614 : Ref sig .tc := ⟨.hbm, 952, rfl⟩
abbrev main_v615 : Ref sig .tc := ⟨.hbm, 953, rfl⟩
abbrev main_v616 : Ref sig .tc := ⟨.hbm, 954, rfl⟩
abbrev main_v617 : Ref sig .tc := ⟨.hbm, 955, rfl⟩
abbrev main_v618 : Ref sig .tc := ⟨.hbm, 956, rfl⟩
abbrev main_cst_200 : Ref sig .tc := ⟨.hbm, 957, rfl⟩
abbrev main_v619 : Ref sig .tc := ⟨.hbm, 958, rfl⟩
abbrev main_v620 : Ref sig .tc := ⟨.hbm, 959, rfl⟩
abbrev main_cst_201 : Ref sig .tc := ⟨.hbm, 960, rfl⟩
abbrev main_v621 : Ref sig .tc := ⟨.hbm, 961, rfl⟩
abbrev main_v622 : Ref sig .tc := ⟨.hbm, 962, rfl⟩
abbrev main_cst_202 : Ref sig .tc := ⟨.hbm, 963, rfl⟩
abbrev main_v623 : Ref sig .tc := ⟨.hbm, 964, rfl⟩
abbrev main_v624 : Ref sig .tc := ⟨.hbm, 965, rfl⟩
abbrev main_v625 : Ref sig .tc := ⟨.hbm, 966, rfl⟩
abbrev main_cst_203 : Ref sig .tc := ⟨.hbm, 967, rfl⟩
abbrev main_v626 : Ref sig .tc := ⟨.hbm, 968, rfl⟩
abbrev main_v627 : Ref sig .tc := ⟨.hbm, 969, rfl⟩
abbrev main_v628 : Ref sig .tc := ⟨.hbm, 970, rfl⟩
abbrev main_cst_204 : Ref sig .tc := ⟨.hbm, 971, rfl⟩
abbrev main_v629 : Ref sig .tc := ⟨.hbm, 972, rfl⟩
abbrev main_v630 : Ref sig .tc := ⟨.hbm, 973, rfl⟩
abbrev main_v631 : Ref sig .tc := ⟨.hbm, 974, rfl⟩
abbrev main_c_205 : Ref sig .tc := ⟨.hbm, 975, rfl⟩
abbrev main_c_206 : Ref sig .tc := ⟨.hbm, 976, rfl⟩
abbrev main_call26_v0 : Ref sig .tc := ⟨.hbm, 977, rfl⟩
abbrev main_call26_v1 : Ref sig .tc := ⟨.hbm, 978, rfl⟩
abbrev main_call26_v2 : Ref sig .tc := ⟨.hbm, 979, rfl⟩
abbrev main_call26_v3 : Ref sig .tc := ⟨.hbm, 980, rfl⟩
abbrev main_call26_v4 : Ref sig .tc := ⟨.hbm, 981, rfl⟩
abbrev main_v632 : Ref sig .tc := ⟨.hbm, 982, rfl⟩
abbrev main_v633 : Ref sig .tc := ⟨.hbm, 983, rfl⟩
abbrev main_c_207 : Ref sig .tc := ⟨.hbm, 984, rfl⟩
abbrev main_c_208 : Ref sig .tc := ⟨.hbm, 985, rfl⟩
abbrev main_call27_v0 : Ref sig .tc := ⟨.hbm, 986, rfl⟩
abbrev main_call27_v1 : Ref sig .tc := ⟨.hbm, 987, rfl⟩
abbrev main_call27_v2 : Ref sig .tc := ⟨.hbm, 988, rfl⟩
abbrev main_call27_v3 : Ref sig .tc := ⟨.hbm, 989, rfl⟩
abbrev main_call27_v4 : Ref sig .tc := ⟨.hbm, 990, rfl⟩
abbrev main_v634 : Ref sig .tc := ⟨.hbm, 991, rfl⟩
abbrev main_v635 : Ref sig .tc := ⟨.hbm, 992, rfl⟩
abbrev main_c_209 : Ref sig .tc := ⟨.hbm, 993, rfl⟩
abbrev main_v636 : Ref sig .tc := ⟨.hbm, 994, rfl⟩
abbrev main_v637 : Ref sig .tc := ⟨.hbm, 995, rfl⟩
abbrev main_c_210 : Ref sig .tc := ⟨.hbm, 996, rfl⟩
abbrev main_v638 : Ref sig .tc := ⟨.hbm, 997, rfl⟩
abbrev main_v639 : Ref sig .tc := ⟨.hbm, 998, rfl⟩
abbrev main_v640 : Ref sig .tc := ⟨.hbm, 999, rfl⟩
abbrev main_c_211 : Ref sig .tc := ⟨.hbm, 1000, rfl⟩
abbrev main_v641 : Ref sig .tc := ⟨.hbm, 1001, rfl⟩
abbrev main_v642 : Ref sig .tc := ⟨.hbm, 1002, rfl⟩
abbrev main_c_212 : Ref sig .tc := ⟨.hbm, 1003, rfl⟩
abbrev main_v643 : Ref sig .tc := ⟨.hbm, 1004, rfl⟩
abbrev main_v644 : Ref sig .tc := ⟨.hbm, 1005, rfl⟩
abbrev main_v645 : Ref sig .tc := ⟨.hbm, 1006, rfl⟩
abbrev main_v646 : Ref sig .tc := ⟨.hbm, 1007, rfl⟩
abbrev main_v647 : Ref sig .tc := ⟨.hbm, 1008, rfl⟩
abbrev main_v648 : Ref sig .tc := ⟨.hbm, 1009, rfl⟩
abbrev main_v649 : Ref sig .tc := ⟨.hbm, 1010, rfl⟩
abbrev main_v650 : Ref sig .tc := ⟨.hbm, 1011, rfl⟩
abbrev main_v651 : Ref sig .tc := ⟨.hbm, 1012, rfl⟩
abbrev main_v652 : Ref sig .tc := ⟨.hbm, 1013, rfl⟩
abbrev main_v653 : Ref sig .tc := ⟨.hbm, 1014, rfl⟩
abbrev main_v654 : Ref sig .tc := ⟨.hbm, 1015, rfl⟩
abbrev main_v655 : Ref sig .tc := ⟨.hbm, 1016, rfl⟩
abbrev main_v656 : Ref sig .tc := ⟨.hbm, 1017, rfl⟩
abbrev main_v657 : Ref sig .tc := ⟨.hbm, 1018, rfl⟩
abbrev main_v658 : Ref sig .tc := ⟨.hbm, 1019, rfl⟩
abbrev main_cst_213 : Ref sig .tc := ⟨.hbm, 1020, rfl⟩
abbrev main_v659 : Ref sig .tc := ⟨.hbm, 1021, rfl⟩
abbrev main_v660 : Ref sig .tc := ⟨.hbm, 1022, rfl⟩
abbrev main_cst_214 : Ref sig .tc := ⟨.hbm, 1023, rfl⟩
abbrev main_v661 : Ref sig .tc := ⟨.hbm, 1024, rfl⟩
abbrev main_v662 : Ref sig .tc := ⟨.hbm, 1025, rfl⟩
abbrev main_cst_215 : Ref sig .tc := ⟨.hbm, 1026, rfl⟩
abbrev main_v663 : Ref sig .tc := ⟨.hbm, 1027, rfl⟩
abbrev main_v664 : Ref sig .tc := ⟨.hbm, 1028, rfl⟩
abbrev main_v665 : Ref sig .tc := ⟨.hbm, 1029, rfl⟩
abbrev main_cst_216 : Ref sig .tc := ⟨.hbm, 1030, rfl⟩
abbrev main_v666 : Ref sig .tc := ⟨.hbm, 1031, rfl⟩
abbrev main_v667 : Ref sig .tc := ⟨.hbm, 1032, rfl⟩
abbrev main_v668 : Ref sig .tc := ⟨.hbm, 1033, rfl⟩
abbrev main_cst_217 : Ref sig .tc := ⟨.hbm, 1034, rfl⟩
abbrev main_v669 : Ref sig .tc := ⟨.hbm, 1035, rfl⟩
abbrev main_v670 : Ref sig .tc := ⟨.hbm, 1036, rfl⟩
abbrev main_v671 : Ref sig .tc := ⟨.hbm, 1037, rfl⟩
abbrev main_c_218 : Ref sig .tc := ⟨.hbm, 1038, rfl⟩
abbrev main_c_219 : Ref sig .tc := ⟨.hbm, 1039, rfl⟩
abbrev main_call28_v0 : Ref sig .tc := ⟨.hbm, 1040, rfl⟩
abbrev main_call28_v1 : Ref sig .tc := ⟨.hbm, 1041, rfl⟩
abbrev main_call28_v2 : Ref sig .tc := ⟨.hbm, 1042, rfl⟩
abbrev main_call28_v3 : Ref sig .tc := ⟨.hbm, 1043, rfl⟩
abbrev main_call28_v4 : Ref sig .tc := ⟨.hbm, 1044, rfl⟩
abbrev main_v672 : Ref sig .tc := ⟨.hbm, 1045, rfl⟩
abbrev main_v673 : Ref sig .tc := ⟨.hbm, 1046, rfl⟩
abbrev main_c_220 : Ref sig .tc := ⟨.hbm, 1047, rfl⟩
abbrev main_c_221 : Ref sig .tc := ⟨.hbm, 1048, rfl⟩
abbrev main_call29_v0 : Ref sig .tc := ⟨.hbm, 1049, rfl⟩
abbrev main_call29_v1 : Ref sig .tc := ⟨.hbm, 1050, rfl⟩
abbrev main_call29_v2 : Ref sig .tc := ⟨.hbm, 1051, rfl⟩
abbrev main_call29_v3 : Ref sig .tc := ⟨.hbm, 1052, rfl⟩
abbrev main_call29_v4 : Ref sig .tc := ⟨.hbm, 1053, rfl⟩
abbrev main_v674 : Ref sig .tc := ⟨.hbm, 1054, rfl⟩
abbrev main_v675 : Ref sig .tc := ⟨.hbm, 1055, rfl⟩
abbrev main_c_222 : Ref sig .tc := ⟨.hbm, 1056, rfl⟩
abbrev main_v676 : Ref sig .tc := ⟨.hbm, 1057, rfl⟩
abbrev main_v677 : Ref sig .tc := ⟨.hbm, 1058, rfl⟩
abbrev main_c_223 : Ref sig .tc := ⟨.hbm, 1059, rfl⟩
abbrev main_v678 : Ref sig .tc := ⟨.hbm, 1060, rfl⟩
abbrev main_v679 : Ref sig .tc := ⟨.hbm, 1061, rfl⟩
abbrev main_v680 : Ref sig .tc := ⟨.hbm, 1062, rfl⟩
abbrev main_c_224 : Ref sig .tc := ⟨.hbm, 1063, rfl⟩
abbrev main_v681 : Ref sig .tc := ⟨.hbm, 1064, rfl⟩
abbrev main_v682 : Ref sig .tc := ⟨.hbm, 1065, rfl⟩
abbrev main_c_225 : Ref sig .tc := ⟨.hbm, 1066, rfl⟩
abbrev main_v683 : Ref sig .tc := ⟨.hbm, 1067, rfl⟩
abbrev main_v684 : Ref sig .tc := ⟨.hbm, 1068, rfl⟩
abbrev main_v685 : Ref sig .tc := ⟨.hbm, 1069, rfl⟩
abbrev main_v686 : Ref sig .tc := ⟨.hbm, 1070, rfl⟩
abbrev main_v687 : Ref sig .tc := ⟨.hbm, 1071, rfl⟩
abbrev main_v688 : Ref sig .tc := ⟨.hbm, 1072, rfl⟩
abbrev main_v689 : Ref sig .tc := ⟨.hbm, 1073, rfl⟩
abbrev main_v690 : Ref sig .tc := ⟨.hbm, 1074, rfl⟩
abbrev main_v691 : Ref sig .tc := ⟨.hbm, 1075, rfl⟩
abbrev main_v692 : Ref sig .tc := ⟨.hbm, 1076, rfl⟩
abbrev main_v693 : Ref sig .tc := ⟨.hbm, 1077, rfl⟩
abbrev main_v694 : Ref sig .tc := ⟨.hbm, 1078, rfl⟩
abbrev main_v695 : Ref sig .tc := ⟨.hbm, 1079, rfl⟩
abbrev main_v696 : Ref sig .tc := ⟨.hbm, 1080, rfl⟩
abbrev main_v697 : Ref sig .tc := ⟨.hbm, 1081, rfl⟩
abbrev main_v698 : Ref sig .tc := ⟨.hbm, 1082, rfl⟩
abbrev main_cst_226 : Ref sig .tc := ⟨.hbm, 1083, rfl⟩
abbrev main_v699 : Ref sig .tc := ⟨.hbm, 1084, rfl⟩
abbrev main_v700 : Ref sig .tc := ⟨.hbm, 1085, rfl⟩
abbrev main_cst_227 : Ref sig .tc := ⟨.hbm, 1086, rfl⟩
abbrev main_v701 : Ref sig .tc := ⟨.hbm, 1087, rfl⟩
abbrev main_v702 : Ref sig .tc := ⟨.hbm, 1088, rfl⟩
abbrev main_cst_228 : Ref sig .tc := ⟨.hbm, 1089, rfl⟩
abbrev main_v703 : Ref sig .tc := ⟨.hbm, 1090, rfl⟩
abbrev main_v704 : Ref sig .tc := ⟨.hbm, 1091, rfl⟩
abbrev main_cst_229 : Ref sig .tc := ⟨.hbm, 1092, rfl⟩
abbrev main_v705 : Ref sig .tc := ⟨.hbm, 1093, rfl⟩
abbrev main_v706 : Ref sig .tc := ⟨.hbm, 1094, rfl⟩
abbrev main_v707 : Ref sig .tc := ⟨.hbm, 1095, rfl⟩
abbrev main_cst_230 : Ref sig .tc := ⟨.hbm, 1096, rfl⟩
abbrev main_v708 : Ref sig .tc := ⟨.hbm, 1097, rfl⟩
abbrev main_v709 : Ref sig .tc := ⟨.hbm, 1098, rfl⟩
abbrev main_v710 : Ref sig .tc := ⟨.hbm, 1099, rfl⟩
abbrev main_cst_231 : Ref sig .tc := ⟨.hbm, 1100, rfl⟩
abbrev main_v711 : Ref sig .tc := ⟨.hbm, 1101, rfl⟩
abbrev main_v712 : Ref sig .tc := ⟨.hbm, 1102, rfl⟩
abbrev main_v713 : Ref sig .tc := ⟨.hbm, 1103, rfl⟩
abbrev main_c_232 : Ref sig .tc := ⟨.hbm, 1104, rfl⟩
abbrev main_c_233 : Ref sig .tc := ⟨.hbm, 1105, rfl⟩
abbrev main_call30_v0 : Ref sig .tc := ⟨.hbm, 1106, rfl⟩
abbrev main_call30_v1 : Ref sig .tc := ⟨.hbm, 1107, rfl⟩
abbrev main_call30_v2 : Ref sig .tc := ⟨.hbm, 1108, rfl⟩
abbrev main_call30_v3 : Ref sig .tc := ⟨.hbm, 1109, rfl⟩
abbrev main_call30_v4 : Ref sig .tc := ⟨.hbm, 1110, rfl⟩
abbrev main_v714 : Ref sig .tc := ⟨.hbm, 1111, rfl⟩
abbrev main_v715 : Ref sig .tc := ⟨.hbm, 1112, rfl⟩
abbrev main_c_234 : Ref sig .tc := ⟨.hbm, 1113, rfl⟩
abbrev main_c_235 : Ref sig .tc := ⟨.hbm, 1114, rfl⟩
abbrev main_call31_v0 : Ref sig .tc := ⟨.hbm, 1115, rfl⟩
abbrev main_call31_v1 : Ref sig .tc := ⟨.hbm, 1116, rfl⟩
abbrev main_call31_v2 : Ref sig .tc := ⟨.hbm, 1117, rfl⟩
abbrev main_call31_v3 : Ref sig .tc := ⟨.hbm, 1118, rfl⟩
abbrev main_call31_v4 : Ref sig .tc := ⟨.hbm, 1119, rfl⟩
abbrev main_v716 : Ref sig .tc := ⟨.hbm, 1120, rfl⟩
abbrev main_v717 : Ref sig .tc := ⟨.hbm, 1121, rfl⟩
abbrev main_c_236 : Ref sig .tc := ⟨.hbm, 1122, rfl⟩
abbrev main_v718 : Ref sig .tc := ⟨.hbm, 1123, rfl⟩
abbrev main_v719 : Ref sig .tc := ⟨.hbm, 1124, rfl⟩
abbrev main_c_237 : Ref sig .tc := ⟨.hbm, 1125, rfl⟩
abbrev main_v720 : Ref sig .tc := ⟨.hbm, 1126, rfl⟩
abbrev main_v721 : Ref sig .tc := ⟨.hbm, 1127, rfl⟩
abbrev main_v722 : Ref sig .tc := ⟨.hbm, 1128, rfl⟩
abbrev main_c_238 : Ref sig .tc := ⟨.hbm, 1129, rfl⟩
abbrev main_v723 : Ref sig .tc := ⟨.hbm, 1130, rfl⟩
abbrev main_v724 : Ref sig .tc := ⟨.hbm, 1131, rfl⟩
abbrev main_c_239 : Ref sig .tc := ⟨.hbm, 1132, rfl⟩
abbrev main_v725 : Ref sig .tc := ⟨.hbm, 1133, rfl⟩
abbrev main_v726 : Ref sig .tc := ⟨.hbm, 1134, rfl⟩
abbrev main_v727 : Ref sig .tc := ⟨.hbm, 1135, rfl⟩
abbrev main_v728 : Ref sig .tc := ⟨.hbm, 1136, rfl⟩
abbrev main_v729 : Ref sig .tc := ⟨.hbm, 1137, rfl⟩
abbrev main_v730 : Ref sig .tc := ⟨.hbm, 1138, rfl⟩
abbrev main_v731 : Ref sig .tc := ⟨.hbm, 1139, rfl⟩
abbrev main_v732 : Ref sig .tc := ⟨.hbm, 1140, rfl⟩
abbrev main_v733 : Ref sig .tc := ⟨.hbm, 1141, rfl⟩
abbrev main_v734 : Ref sig .tc := ⟨.hbm, 1142, rfl⟩
abbrev main_v735 : Ref sig .tc := ⟨.hbm, 1143, rfl⟩
abbrev main_v736 : Ref sig .tc := ⟨.hbm, 1144, rfl⟩
abbrev main_v737 : Ref sig .tc := ⟨.hbm, 1145, rfl⟩
abbrev main_v738 : Ref sig .tc := ⟨.hbm, 1146, rfl⟩
abbrev main_v739 : Ref sig .tc := ⟨.hbm, 1147, rfl⟩
abbrev main_v740 : Ref sig .tc := ⟨.hbm, 1148, rfl⟩
abbrev main_v741 : Ref sig .tc := ⟨.hbm, 1149, rfl⟩
abbrev main_v742 : Ref sig .tc := ⟨.hbm, 1150, rfl⟩
abbrev main_v743 : Ref sig .tc := ⟨.hbm, 1151, rfl⟩
abbrev main_v744 : Ref sig .tc := ⟨.hbm, 1152, rfl⟩
abbrev main_v745 : Ref sig .tc := ⟨.hbm, 1153, rfl⟩

abbrev nD : Nat := 1
abbrev τ : Topo := Topo.v7x

variable {F : FTy → Type} [FloatOps F]

class Facts₀ : Prop where
  bcast_S_S4x512x512x2 : S_.BroadcastsInDim S4x512x512x2 (![] : Fin 0 → Fin S4x512x512x2.rank)
  slices_S4x512x512x2_S4x512x512x1_0_0_0_0 : S4x512x512x2.Slices ![0, 0, 0, 0] S4x512x512x1
  shapeCasts_S4x512x512x1_S4x512x512 : S4x512x512x1.ShapeCasts S4x512x512
  slices_S4x512x512x2_S4x512x512x1_0_0_0_1 : S4x512x512x2.Slices ![0, 0, 0, 1] S4x512x512x1
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x2_d3 : Shape.Concatenates [S4x512x512x1, S4x512x512x1] S4x512x512x2 3
  bcast_S4x512x512_S1x4x512x512_1_2_3 : S4x512x512.BroadcastsInDim S1x4x512x512 (![1, 2, 3] : Fin 3 → Fin S1x4x512x512.rank)
  bcast_S1x4x512x512_S16x4x512x512_0_1_2_3 : S1x4x512x512.BroadcastsInDim S16x4x512x512 (![0, 1, 2, 3] : Fin 4 → Fin S16x4x512x512.rank)
  transposes_S16x4x512x512_S4x16x512x512_1_0_2_3 : S16x4x512x512.Transposes [1, 0, 2, 3] S4x16x512x512
  bcast_S4x512x512_S4x1x512x512_0_2_3 : S4x512x512.BroadcastsInDim S4x1x512x512 (![0, 2, 3] : Fin 3 → Fin S4x1x512x512.rank)
  bcast_S4x1x512x512_S4x16x512x512_0_1_2_3 : S4x1x512x512.BroadcastsInDim S4x16x512x512 (![0, 1, 2, 3] : Fin 4 → Fin S4x16x512x512.rank)
  gather_S16x1024x1024_S4x512x512x2_S16x4x512x512_0_12_n_n_12_3_1611_wf : GatherDims.WF S16x1024x1024 S4x512x512x2 S16x4x512x512 [0] [1, 2] [] [1, 2] [] 3 ![16, 1, 1]
  gather_S16x512x512_S4x512x512x2_S16x4x512x512_0_12_n_n_12_3_1611_wf : GatherDims.WF S16x512x512 S4x512x512x2 S16x4x512x512 [0] [1, 2] [] [1, 2] [] 3 ![16, 1, 1]
  gather_S16x256x256_S4x512x512x2_S16x4x512x512_0_12_n_n_12_3_1611_wf : GatherDims.WF S16x256x256 S4x512x512x2 S16x4x512x512 [0] [1, 2] [] [1, 2] [] 3 ![16, 1, 1]
  gather_S16x128x128_S4x512x512x2_S16x4x512x512_0_12_n_n_12_3_1611_wf : GatherDims.WF S16x128x128 S4x512x512x2 S16x4x512x512 [0] [1, 2] [] [1, 2] [] 3 ![16, 1, 1]

variable [Facts₀]

def gather_S16x1024x1024_S4x512x512x2_S16x4x512x512_0_12_n_n_12_3_1611 : GatherDims S16x1024x1024 S4x512x512x2 S16x4x512x512 where
  offsetDims := [0]
  collapsedSliceDims := [1, 2]
  operandBatchingDims := []
  startIndicesBatchingDims := []
  startIndexMap := [1, 2]
  indexVectorDim := 3
  sliceSizes := ![16, 1, 1]
  wf := gather_S16x1024x1024_S4x512x512x2_S16x4x512x512_0_12_n_n_12_3_1611_wf
def gather_S16x512x512_S4x512x512x2_S16x4x512x512_0_12_n_n_12_3_1611 : GatherDims S16x512x512 S4x512x512x2 S16x4x512x512 where
  offsetDims := [0]
  collapsedSliceDims := [1, 2]
  operandBatchingDims := []
  startIndicesBatchingDims := []
  startIndexMap := [1, 2]
  indexVectorDim := 3
  sliceSizes := ![16, 1, 1]
  wf := gather_S16x512x512_S4x512x512x2_S16x4x512x512_0_12_n_n_12_3_1611_wf
def gather_S16x256x256_S4x512x512x2_S16x4x512x512_0_12_n_n_12_3_1611 : GatherDims S16x256x256 S4x512x512x2 S16x4x512x512 where
  offsetDims := [0]
  collapsedSliceDims := [1, 2]
  operandBatchingDims := []
  startIndicesBatchingDims := []
  startIndexMap := [1, 2]
  indexVectorDim := 3
  sliceSizes := ![16, 1, 1]
  wf := gather_S16x256x256_S4x512x512x2_S16x4x512x512_0_12_n_n_12_3_1611_wf
def gather_S16x128x128_S4x512x512x2_S16x4x512x512_0_12_n_n_12_3_1611 : GatherDims S16x128x128 S4x512x512x2 S16x4x512x512 where
  offsetDims := [0]
  collapsedSliceDims := [1, 2]
  operandBatchingDims := []
  startIndicesBatchingDims := []
  startIndexMap := [1, 2]
  indexVectorDim := 3
  sliceSizes := ![16, 1, 1]
  wf := gather_S16x128x128_S4x512x512x2_S16x4x512x512_0_12_n_n_12_3_1611_wf

class Facts : Prop extends Facts₀ where

variable [Facts]
-- ==== Proof.LibGatherPlanes.lean ====
/-
  Two spellings of "fetch one texel's channel vector per query point".

  A table of C channels over an H × W raster is stored either channels-first, [C, H, W], or channels-last,
  [H, W, C]. Query points form a [B, P, Q] array, each carrying a (row, column) pair of signed integers, so the
  start indices have shape [B, P, Q, 2]. The gather with the pair naming the two raster axes and the whole channel
  axis taken as the slice gives [B, P, Q, C] from the channels-last table and [C, B, P, Q] from the channels-first
  one. Read at an entry, both are the table's entry at channel c, row min(r, H − 1), column min(s, W − 1), where
  r and s are the query's pair read as signed integers and floored at zero: the same number from either layout.
-/
import Idealize.ShloMosaic.PureOps.Ideal
import Idealize.ShloMosaic.Lib.ValueIdx
import Idealize.ShloMosaic.Lib.Pipeline.Value

noncomputable section

namespace Idealize.ShloMosaic.GatherPlanes

open Idealize.ShloMosaic Idealize.ShloMosaic.ValueIdx

variable {α : Type}

/-- The dimension numbers of the channels-last gather: operand [H, W, C], start indices [B, P, Q, 2], result
    [B, P, Q, C]; the pair names operand axes 0 and 1, both collapsed, and the slice is the whole channel axis. -/
abbrev lastDims (H W C B P Q : Nat)
    (wf : GatherDims.WF ⟨3, ![H, W, C]⟩ ⟨4, ![B, P, Q, 2]⟩ ⟨4, ![B, P, Q, C]⟩ [3] [0, 1] [] [0, 1] [] 3 ![1, 1, C]) :
    GatherDims ⟨3, ![H, W, C]⟩ ⟨4, ![B, P, Q, 2]⟩ ⟨4, ![B, P, Q, C]⟩ where
  offsetDims := [3]
  collapsedSliceDims := [0, 1]
  operandBatchingDims := []
  startIndicesBatchingDims := []
  startIndexMap := [0, 1]
  indexVectorDim := 3
  sliceSizes := ![1, 1, C]
  wf := wf

/-- The dimension numbers of the channels-first gather: operand [C, H, W], start indices [B, P, Q, 2], result
    [C, B, P, Q]; the pair names operand axes 1 and 2, both collapsed, and the slice is the whole channel axis. -/
abbrev firstDims (H W C B P Q : Nat)
    (wf : GatherDims.WF ⟨3, ![C, H, W]⟩ ⟨4, ![B, P, Q, 2]⟩ ⟨4, ![C, B, P, Q]⟩ [0] [1, 2] [] [1, 2] [] 3 ![C, 1, 1]) :
    GatherDims ⟨3, ![C, H, W]⟩ ⟨4, ![B, P, Q, 2]⟩ ⟨4, ![C, B, P, Q]⟩ where
  offsetDims := [0]
  collapsedSliceDims := [1, 2]
  operandBatchingDims := []
  startIndicesBatchingDims := []
  startIndexMap := [1, 2]
  indexVectorDim := 3
  sliceSizes := ![C, 1, 1]
  wf := wf

/-- A signed start component floored at zero and capped at the last admissible start `n − 1`. -/
def clampAt {w : Nat} (n : Nat) (v : BitVec w) : Nat := min v.toInt.toNat (n - 1)

theorem clampAt_lt {w : Nat} {n : Nat} (hn : 0 < n) (v : BitVec w) : clampAt n v < n := by
  unfold clampAt; omega

/-- THE CHANNELS-LAST GATHER AT AN ENTRY: the table at the clamped (row, column) of query (b, p, q), channel c. -/
theorem gather_last_apply {H W C B P Q w : Nat} (hH : 0 < H) (hW : 0 < W)
    (wf : GatherDims.WF ⟨3, ![H, W, C]⟩ ⟨4, ![B, P, Q, 2]⟩ ⟨4, ![B, P, Q, C]⟩ [3] [0, 1] [] [0, 1] [] 3 ![1, 1, C])
    (x : (⟨3, ![H, W, C]⟩ : Shape).Idx → α) (idx : IVec ⟨4, ![B, P, Q, 2]⟩ w)
    (b : Fin B) (p : Fin P) (q : Fin Q) (c : Fin C) :
    Host.gather (lastDims H W C B P Q wf) x idx (ix4 b p q c)
      = x (ix3 ⟨clampAt H (idx (ix4 b p q (0 : Fin 2))), clampAt_lt hH _⟩
               ⟨clampAt W (idx (ix4 b p q (1 : Fin 2))), clampAt_lt hW _⟩ c) := by
  unfold Host.gather
  refine congrArg x (funext fun a => Fin.ext ?_)
  have hnb : ∀ a : Fin 3, (lastDims H W C B P Q wf).batchCoord (ix4 b p q c) a = 0 :=
    fun a => GatherDims.batchCoord_eq_zero (lastDims H W C B P Q wf) (ix4 b p q c) a List.not_mem_nil
  have hsi : ∀ (k : Fin 2) (hk : k.val < (lastDims H W C B P Q wf).startIndexMap.length),
      (lastDims H W C B P Q wf).siIdx (ix4 b p q c) ⟨k.val, hk⟩ = ix4 b p q k := by
    intro k hk
    funext e; refine Fin.ext ?_
    match e with
    | ⟨0, _⟩ => rfl
    | ⟨1, _⟩ => rfl
    | ⟨2, _⟩ => rfl
    | ⟨3, _⟩ => rfl
  match a with
  | ⟨0, _⟩ =>
    show (lastDims H W C B P Q wf).start (ix4 b p q c) idx 0 + (lastDims H W C B P Q wf).batchCoord (ix4 b p q c) 0 + (lastDims H W C B P Q wf).offCoord (ix4 b p q c) 0
      = clampAt H (idx (ix4 b p q (0 : Fin 2)))
    have hmem : (0 : Fin 3) ∈ ([0, 1] : List (Fin 3)) := by decide
    rw [hnb 0, GatherDims.offCoord_eq_zero (lastDims H W C B P Q wf) (ix4 b p q c) 0 (fun h => ((GatherDims.mem_sKept (lastDims H W C B P Q wf) 0).mp h).1 hmem)]
    simp only [Nat.add_zero]
    unfold GatherDims.start
    rw [dif_pos hmem]
    exact congrArg (fun i => min (idx i).toInt.toNat (H - 1)) (hsi 0 (show (0 : Nat) < 2 from by decide))
  | ⟨1, _⟩ =>
    show (lastDims H W C B P Q wf).start (ix4 b p q c) idx 1 + (lastDims H W C B P Q wf).batchCoord (ix4 b p q c) 1 + (lastDims H W C B P Q wf).offCoord (ix4 b p q c) 1
      = clampAt W (idx (ix4 b p q (1 : Fin 2)))
    have hmem : (1 : Fin 3) ∈ ([0, 1] : List (Fin 3)) := by decide
    rw [hnb 1, GatherDims.offCoord_eq_zero (lastDims H W C B P Q wf) (ix4 b p q c) 1 (fun h => ((GatherDims.mem_sKept (lastDims H W C B P Q wf) 1).mp h).1 hmem)]
    simp only [Nat.add_zero]
    unfold GatherDims.start
    rw [dif_pos hmem]
    exact congrArg (fun i => min (idx i).toInt.toNat (W - 1)) (hsi 1 (show (1 : Nat) < 2 from by decide))
  | ⟨2, _⟩ =>
    show (lastDims H W C B P Q wf).start (ix4 b p q c) idx 2 + (lastDims H W C B P Q wf).batchCoord (ix4 b p q c) 2 + (lastDims H W C B P Q wf).offCoord (ix4 b p q c) 2 = c.val
    have hnot : (2 : Fin 3) ∉ ([0, 1] : List (Fin 3)) := by decide
    rw [hnb 2]
    unfold GatherDims.start
    rw [dif_neg hnot]
    unfold GatherDims.offCoord
    rw [dif_pos ((GatherDims.mem_sKept (lastDims H W C B P Q wf) 2).mpr ⟨hnot, List.not_mem_nil⟩)]
    simp only [Nat.zero_add]
    rfl

/-- THE CHANNELS-FIRST GATHER AT AN ENTRY: the table at channel c and the clamped (row, column) of query (b, p, q). -/
theorem gather_first_apply {H W C B P Q w : Nat} (hH : 0 < H) (hW : 0 < W)
    (wf : GatherDims.WF ⟨3, ![C, H, W]⟩ ⟨4, ![B, P, Q, 2]⟩ ⟨4, ![C, B, P, Q]⟩ [0] [1, 2] [] [1, 2] [] 3 ![C, 1, 1])
    (x : (⟨3, ![C, H, W]⟩ : Shape).Idx → α) (idx : IVec ⟨4, ![B, P, Q, 2]⟩ w)
    (b : Fin B) (p : Fin P) (q : Fin Q) (c : Fin C) :
    Host.gather (firstDims H W C B P Q wf) x idx (ix4 c b p q)
      = x (ix3 c ⟨clampAt H (idx (ix4 b p q (0 : Fin 2))), clampAt_lt hH _⟩
                 ⟨clampAt W (idx (ix4 b p q (1 : Fin 2))), clampAt_lt hW _⟩) := by
  unfold Host.gather
  refine congrArg x (funext fun a => Fin.ext ?_)
  have hnb : ∀ a : Fin 3, (firstDims H W C B P Q wf).batchCoord (ix4 c b p q) a = 0 :=
    fun a => GatherDims.batchCoord_eq_zero (firstDims H W C B P Q wf) (ix4 c b p q) a List.not_mem_nil
  have hsi : ∀ (k : Fin 2) (hk : k.val < (firstDims H W C B P Q wf).startIndexMap.length),
      (firstDims H W C B P Q wf).siIdx (ix4 c b p q) ⟨k.val, hk⟩ = ix4 b p q k := by
    intro k hk
    funext e; refine Fin.ext ?_
    match e with
    | ⟨0, _⟩ => rfl
    | ⟨1, _⟩ => rfl
    | ⟨2, _⟩ => rfl
    | ⟨3, _⟩ => rfl
  match a with
  | ⟨0, _⟩ =>
    show (firstDims H W C B P Q wf).start (ix4 c b p q) idx 0 + (firstDims H W C B P Q wf).batchCoord (ix4 c b p q) 0 + (firstDims H W C B P Q wf).offCoord (ix4 c b p q) 0 = c.val
    have hnot : (0 : Fin 3) ∉ ([1, 2] : List (Fin 3)) := by decide
    rw [hnb 0]
    unfold GatherDims.start
    rw [dif_neg hnot]
    unfold GatherDims.offCoord
    rw [dif_pos ((GatherDims.mem_sKept (firstDims H W C B P Q wf) 0).mpr ⟨hnot, List.not_mem_nil⟩)]
    simp only [Nat.zero_add]
    rfl
  | ⟨1, _⟩ =>
    show (firstDims H W C B P Q wf).start (ix4 c b p q) idx 1 + (firstDims H W C B P Q wf).batchCoord (ix4 c b p q) 1 + (firstDims H W C B P Q wf).offCoord (ix4 c b p q) 1
      = clampAt H (idx (ix4 b p q (0 : Fin 2)))
    have hmem : (1 : Fin 3) ∈ ([1, 2] : List (Fin 3)) := by decide
    rw [hnb 1, GatherDims.offCoord_eq_zero (firstDims H W C B P Q wf) (ix4 c b p q) 1 (fun h => ((GatherDims.mem_sKept (firstDims H W C B P Q wf) 1).mp h).1 hmem)]
    simp only [Nat.add_zero]
    unfold GatherDims.start
    rw [dif_pos hmem]
    exact congrArg (fun i => min (idx i).toInt.toNat (H - 1)) (hsi 0 (show (0 : Nat) < 2 from by decide))
  | ⟨2, _⟩ =>
    show (firstDims H W C B P Q wf).start (ix4 c b p q) idx 2 + (firstDims H W C B P Q wf).batchCoord (ix4 c b p q) 2 + (firstDims H W C B P Q wf).offCoord (ix4 c b p q) 2
      = clampAt W (idx (ix4 b p q (1 : Fin 2)))
    have hmem : (2 : Fin 3) ∈ ([1, 2] : List (Fin 3)) := by decide
    rw [hnb 2, GatherDims.offCoord_eq_zero (firstDims H W C B P Q wf) (ix4 c b p q) 2 (fun h => ((GatherDims.mem_sKept (firstDims H W C B P Q wf) 2).mp h).1 hmem)]
    simp only [Nat.add_zero]
    unfold GatherDims.start
    rw [dif_pos hmem]
    exact congrArg (fun i => min (idx i).toInt.toNat (W - 1)) (hsi 1 (show (1 : Nat) < 2 from by decide))

end Idealize.ShloMosaic.GatherPlanes

end
-- ==== Proof.Sampling.lean ====
/-
  Bilinear sampling of a square table of 16 channels at 4 × 512 × 512 query points, written once as array functions.

  A query is a pair (x, y) in the unit square. It is first stretched to [−1, 1] (`grid`), then to pixel coordinates of a
  table of side m: pix = (g + 1) · ½ · (m − 1) on each axis. The four neighbours of the pixel position are the
  floor and floor + 1 on each axis; the neighbour at the floor carries weight 1 − frac and the one above weight frac,
  a corner's weight being the product of its row weight and its column weight. A corner outside the table counts for
  nothing (`inside` is the 0 / 1 indicator that both its coordinates lie in [0, m − 1]); its table entry is fetched
  at the coordinates clipped into the table, converted to integers, a negative integer wrapped by adding m.

  Two programs spell one corner's contribution differently:
    channels last :  table[row, col, c] · (weight · inside)      an array [4, 512, 512, 16]
    channels first: (table[c, row, col] · inside) · weight       an array [16, 4, 512, 512]
  and a layer is the sum of its four corners moved to [4, 16, 512, 512]. Everything in a corner except the fetch
  and the order of the two products is the same array in both spellings, so it is named here once and never opened.
-/
import Idealize.ShloMosaic.PureOps.Ideal
import Idealize.ShloMosaic.Lib.ValueIdx
import Idealize.ShloMosaic.Lib.Pipeline.Value
import proofs.«142769_j46222438040249_2_alg».proof.Proof.LibGatherPlanes

noncomputable section

namespace Cert.Sampling

open Idealize.ShloMosaic Idealize.ShloMosaic.ValueIdx Idealize.ShloMosaic.GatherPlanes

variable {F : FTy → Type} [FloatOps F]

/-! ## Shapes -/

abbrev Sc : Shape := ⟨0, ![]⟩
abbrev Pts : Shape := ⟨3, ![4, 512, 512]⟩
abbrev Pairs : Shape := ⟨4, ![4, 512, 512, 2]⟩
abbrev Col : Shape := ⟨4, ![4, 512, 512, 1]⟩
abbrev Last : Shape := ⟨4, ![4, 512, 512, 16]⟩
abbrev First : Shape := ⟨4, ![16, 4, 512, 512]⟩
abbrev Lead : Shape := ⟨4, ![1, 4, 512, 512]⟩
abbrev Mid : Shape := ⟨4, ![4, 1, 512, 512]⟩
abbrev Out : Shape := ⟨4, ![4, 16, 512, 512]⟩
abbrev Tex (m : Nat) : Shape := ⟨3, ![16, m, m]⟩
abbrev TexT (m : Nat) : Shape := ⟨3, ![m, m, 16]⟩

theorem sc_pts : Sc.BroadcastsInDim Pts (![] : Fin 0 → Fin Pts.rank) := by decide
theorem sc_pairs : Sc.BroadcastsInDim Pairs (![] : Fin 0 → Fin Pairs.rank) := by decide
theorem slice_x : Pairs.Slices ![0, 0, 0, 0] Col := by decide
theorem slice_y : Pairs.Slices ![0, 0, 0, 1] Col := by decide
theorem col_pts : Col.ShapeCasts Pts := by decide
theorem pts_col : Pts.BroadcastsInDim Col (![0, 1, 2] : Fin 3 → Fin Col.rank) := by decide
theorem col_cat : Shape.Concatenates [Col, Col] Pairs 3 := by decide
theorem col_last : Col.BroadcastsInDim Last (![0, 1, 2, 3] : Fin 4 → Fin Last.rank) := by decide
theorem pts_lead : Pts.BroadcastsInDim Lead (![1, 2, 3] : Fin 3 → Fin Lead.rank) := by decide
theorem lead_first : Lead.BroadcastsInDim First (![0, 1, 2, 3] : Fin 4 → Fin First.rank) := by decide
theorem pts_mid : Pts.BroadcastsInDim Mid (![0, 2, 3] : Fin 3 → Fin Mid.rank) := by decide
theorem mid_out : Mid.BroadcastsInDim Out (![0, 1, 2, 3] : Fin 4 → Fin Out.rank) := by decide
theorem last_out : Last.Transposes [0, 3, 1, 2] Out := by decide
theorem first_out : First.Transposes [1, 0, 2, 3] Out := by decide

/-! ## The part of a corner both spellings share -/

/-- A float constant at every query point. -/
def splat (w : BitVec 32) : FVec F Pts .f32 := broadcastInDim Pts ![] sc_pts (constant Sc .f32 w)
/-- An integer constant at every query point. -/
def splatI (w : BitVec 32) : IVec Pts 32 := broadcastInDim Pts ![] sc_pts (constantI Sc 32 w)
/-- An integer constant converted to a float, at every query point. -/
def splatIF (w : BitVec 32) : FVec F Pts .f32 := broadcastInDim Pts ![] sc_pts (sitofp .f32 (constantI Sc 32 w))

/-- The queries stretched from the unit square to [−1, 1]²: 2 · x − 1. -/
def grid (x : FVec F Pairs .f32) : FVec F Pairs .f32 :=
  subf (mulf x (broadcastInDim Pairs ![] sc_pairs (constant Sc .f32 0x40000000#32)))
    (broadcastInDim Pairs ![] sc_pairs (constant Sc .f32 0x3F800000#32))
/-- The horizontal coordinate of every query. -/
def gx (x : FVec F Pairs .f32) : FVec F Pts .f32 :=
  shapeCast _ (extractStridedSlice Col ![0, 0, 0, 0] (grid x) slice_x) col_pts
/-- The vertical coordinate of every query. -/
def gy (x : FVec F Pairs .f32) : FVec F Pts .f32 :=
  shapeCast _ (extractStridedSlice Col ![0, 0, 0, 1] (grid x) slice_y) col_pts

/-- The pixel position on an axis whose last pixel is `n` (the float m − 1): (g + 1) · ½ · n. -/
def pix (n : BitVec 32) (g : FVec F Pts .f32) : FVec F Pts .f32 :=
  mulf (mulf (addf g (splat 0x3F800000#32)) (splat 0x3F000000#32)) (splat n)
/-- The neighbour below: the floor of the pixel position. -/
def lo (n : BitVec 32) (g : FVec F Pts .f32) : FVec F Pts .f32 := Host.floor (pix n g)
/-- The neighbour above: floor + 1. -/
def hi (n : BitVec 32) (g : FVec F Pts .f32) : FVec F Pts .f32 := addf (lo n g) (splat 0x3F800000#32)
/-- The weight of the neighbour above: the fractional part. -/
def wHi (n : BitVec 32) (g : FVec F Pts .f32) : FVec F Pts .f32 := subf (pix n g) (lo n g)
/-- The weight of the neighbour below: one minus the fractional part. -/
def wLo (n : BitVec 32) (g : FVec F Pts .f32) : FVec F Pts .f32 := subf (splat 0x3F800000#32) (wHi n g)

/-- The indicator that a corner (column `u`, row `v`) lies in the table: 0 ≤ u ≤ n and 0 ≤ v ≤ n. -/
def inside (n : BitVec 32) (u v : FVec F Pts .f32) : IVec Pts 1 :=
  andi (andi (andi (cmpf .oge u (splat 0x00000000#32)) (cmpf .ole u (splat n))) (cmpf .oge v (splat 0x00000000#32)))
    (cmpf .ole v (splat n))
/-- The indicator as the float 0 or 1. -/
def insideF (n : BitVec 32) (u v : FVec F Pts .f32) : FVec F Pts .f32 := uitofp .f32 (inside n u v)

/-- A coordinate clipped into [0, k] (the integer m − 1, compared as a float). -/
def clip (k : BitVec 32) (u : FVec F Pts .f32) : FVec F Pts .f32 :=
  minimumf (splatIF k) (maximumf (splatIF 0#32) u)
/-- The table index of a coordinate: clipped, converted to an integer, a negative one wrapped by the side `k1` = m. -/
def texel (k k1 : BitVec 32) (u : FVec F Pts .f32) : IVec Pts 32 :=
  select (cmpi .slt (fptosi 32 (clip k u)) (splatI 0#32)) (addi (fptosi 32 (clip k u)) (splatI k1)) (fptosi 32 (clip k u))
/-- A (row, column) index pair per query. -/
def pair (j i : IVec Pts 32) : IVec Pairs 32 :=
  concatenate Pairs 3 [⟨Col, broadcastInDim Col ![0, 1, 2] pts_col j⟩, ⟨Col, broadcastInDim Col ![0, 1, 2] pts_col i⟩] col_cat
/-- The index pair of the corner at column `u`, row `v`. -/
def corner (k k1 : BitVec 32) (u v : FVec F Pts .f32) : IVec Pairs 32 := pair (texel k k1 v) (texel k k1 u)

/-! ## One corner, in the two spellings -/

/-- Channels last: table entry times (weight · inside). -/
def cornerLast {m : Nat} (hg : GatherDims.WF (TexT m) Pairs Last [3] [0, 1] [] [0, 1] [] 3 ![1, 1, 16])
    (n k k1 : BitVec 32) (t : FVec F (TexT m) .f32) (u v w : FVec F Pts .f32) : FVec F Last .f32 :=
  mulf (Host.gather (lastDims m m 16 4 512 512 hg) t (corner k k1 u v))
    (broadcastInDim Last ![0, 1, 2, 3] col_last (broadcastInDim Col ![0, 1, 2] pts_col (mulf w (insideF n u v))))

/-- Channels first: (table entry times inside) times weight. -/
def cornerFirst {m : Nat} (hg : GatherDims.WF (Tex m) Pairs First [0] [1, 2] [] [1, 2] [] 3 ![16, 1, 1])
    (n k k1 : BitVec 32) (t : FVec F (Tex m) .f32) (u v w : FVec F Pts .f32) : FVec F First .f32 :=
  mulf (mulf (Host.gather (firstDims m m 16 4 512 512 hg) t (corner k k1 u v))
      (broadcastInDim First ![0, 1, 2, 3] lead_first (broadcastInDim Lead ![1, 2, 3] pts_lead (insideF n u v))))
    (broadcastInDim First ![0, 1, 2, 3] lead_first (broadcastInDim Lead ![1, 2, 3] pts_lead w))

/-! ## One layer: the four corners summed and moved to [4, 16, 512, 512] -/

/-- Channels last, the table transposed to [m, m, 16] first. -/
def layerLast {m : Nat} (ht : (Tex m).Transposes [1, 2, 0] (TexT m))
    (hg : GatherDims.WF (TexT m) Pairs Last [3] [0, 1] [] [0, 1] [] 3 ![1, 1, 16])
    (n k k1 : BitVec 32) (t : FVec F (Tex m) .f32) (x : FVec F Pairs .f32) : FVec F Out .f32 :=
  transpose Out [0, 3, 1, 2]
    (addf (addf (addf
      (cornerLast hg n k k1 (transpose (TexT m) [1, 2, 0] t ht) (lo n (gx x)) (lo n (gy x)) (mulf (wLo n (gy x)) (wLo n (gx x))))
      (cornerLast hg n k k1 (transpose (TexT m) [1, 2, 0] t ht) (hi n (gx x)) (lo n (gy x)) (mulf (wLo n (gy x)) (wHi n (gx x)))))
      (cornerLast hg n k k1 (transpose (TexT m) [1, 2, 0] t ht) (lo n (gx x)) (hi n (gy x)) (mulf (wHi n (gy x)) (wLo n (gx x)))))
      (cornerLast hg n k k1 (transpose (TexT m) [1, 2, 0] t ht) (hi n (gx x)) (hi n (gy x)) (mulf (wHi n (gy x)) (wHi n (gx x)))))
    last_out

/-- Channels first. -/
def layerFirst {m : Nat} (hg : GatherDims.WF (Tex m) Pairs First [0] [1, 2] [] [1, 2] [] 3 ![16, 1, 1])
    (n k k1 : BitVec 32) (t : FVec F (Tex m) .f32) (x : FVec F Pairs .f32) : FVec F Out .f32 :=
  transpose Out [1, 0, 2, 3]
    (addf (addf (addf
      (cornerFirst hg n k k1 t (lo n (gx x)) (lo n (gy x)) (mulf (wLo n (gy x)) (wLo n (gx x))))
      (cornerFirst hg n k k1 t (hi n (gx x)) (lo n (gy x)) (mulf (wLo n (gy x)) (wHi n (gx x)))))
      (cornerFirst hg n k k1 t (lo n (gx x)) (hi n (gy x)) (mulf (wHi n (gy x)) (wLo n (gx x)))))
      (cornerFirst hg n k k1 t (hi n (gx x)) (hi n (gy x)) (mulf (wHi n (gy x)) (wHi n (gx x)))))
    first_out

/-! ## The four layers summed and masked -/

/-- The result: the four layers summed, times the per-query mask spread over the channels. -/
def combined (L1 L2 L3 L4 : FVec F Out .f32) (msk : FVec F Pts .f32) : FVec F Out .f32 :=
  mulf (addf (addf (addf L1 L2) L3) L4)
    (broadcastInDim Out ![0, 1, 2, 3] mid_out (broadcastInDim Mid ![0, 2, 3] pts_mid msk))

end Cert.Sampling

end
-- ==== Proof.SamplingLaw.lean ====
/-
  The two spellings of a sampled layer are the same array over the extended reals.

  At a query (b, h, q) and channel c, a corner's channels-last entry is  T[row, col, c] · (weight · inside)  of the
  transposed table T[r, s, c] = t[c, r, s], and its channels-first entry is  (t[c, row, col] · inside) · weight,  with
  the same clamped (row, col) read off the same index pair. Multiplication of extended reals is commutative and
  associative (also at 0 · ∞), so the two are equal with no condition on the numbers; a layer is the same sum of four
  such entries read through two different transpositions.
-/
import proofs.«142769_j46222438040249_2_alg».proof.Proof.Sampling

noncomputable section

namespace Cert.Sampling

open Idealize.ShloMosaic Idealize.ShloMosaic.ValueIdx Idealize.ShloMosaic.GatherPlanes

/-- The channels-last table at (row, column, channel) is the table at (channel, row, column). -/
theorem tex_transpose_apply {m : Nat} (ht : (Tex m).Transposes [1, 2, 0] (TexT m)) (t : FVec Ideal (Tex m) .f32)
    (r s : Fin m) (c : Fin 16) : transpose (TexT m) [1, 2, 0] t ht (ix3 r s c) = t (ix3 c r s) :=
  transpose_apply _ t ht _ _ fun a => match a with | ⟨0, _⟩ => rfl | ⟨1, _⟩ => rfl | ⟨2, _⟩ => rfl

/-- A per-query array spread along a trailing channel axis reads the query's value. -/
theorem spread_last_apply (z : FVec Ideal Pts .f32) (b : Fin 4) (h q : Fin 512) (c : Fin 16) :
    broadcastInDim Last ![0, 1, 2, 3] col_last (broadcastInDim Col ![0, 1, 2] pts_col z) (ix4 b h q c) = z (ix3 b h q) := by
  refine (broadcastInDim_apply _ col_last _ _ (ix4 b h q (0 : Fin 1)) fun a => ?_).trans
    (broadcastInDim_apply _ pts_col z _ (ix3 b h q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A per-query array spread along a leading channel axis reads the query's value. -/
theorem spread_first_apply (z : FVec Ideal Pts .f32) (b : Fin 4) (h q : Fin 512) (c : Fin 16) :
    broadcastInDim First ![0, 1, 2, 3] lead_first (broadcastInDim Lead ![1, 2, 3] pts_lead z) (ix4 c b h q) = z (ix3 b h q) := by
  refine (broadcastInDim_apply _ lead_first _ _ (ix4 (0 : Fin 1) b h q) fun a => ?_).trans
    (broadcastInDim_apply _ pts_lead z _ (ix3 b h q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- ONE CORNER: the channels-last entry at (b, h, q, c) is the channels-first entry at (c, b, h, q). -/
theorem corner_eq {m : Nat} (hm : 0 < m) (ht : (Tex m).Transposes [1, 2, 0] (TexT m))
    (hgl : GatherDims.WF (TexT m) Pairs Last [3] [0, 1] [] [0, 1] [] 3 ![1, 1, 16])
    (hgf : GatherDims.WF (Tex m) Pairs First [0] [1, 2] [] [1, 2] [] 3 ![16, 1, 1])
    (n k k1 : BitVec 32) (t : FVec Ideal (Tex m) .f32) (u v w : FVec Ideal Pts .f32)
    (b : Fin 4) (c : Fin 16) (h q : Fin 512) :
    cornerLast hgl n k k1 (transpose (TexT m) [1, 2, 0] t ht) u v w (ix4 b h q c)
      = cornerFirst hgf n k k1 t u v w (ix4 c b h q) := by
  unfold cornerLast cornerFirst
  rw [mulf_apply, mulf_apply, mulf_apply, gather_last_apply hm hm, gather_first_apply hm hm, tex_transpose_apply,
    spread_last_apply, spread_first_apply, spread_first_apply, mulf_apply]
  rw [mul_comm (w (ix3 b h q)), mul_assoc]

/-- ONE LAYER: the two spellings agree at every entry. -/
theorem layer_eq {m : Nat} (hm : 0 < m) (ht : (Tex m).Transposes [1, 2, 0] (TexT m))
    (hgl : GatherDims.WF (TexT m) Pairs Last [3] [0, 1] [] [0, 1] [] 3 ![1, 1, 16])
    (hgf : GatherDims.WF (Tex m) Pairs First [0] [1, 2] [] [1, 2] [] 3 ![16, 1, 1])
    (n k k1 : BitVec 32) (t : FVec Ideal (Tex m) .f32) (x : FVec Ideal Pairs .f32)
    (b : Fin 4) (c : Fin 16) (h q : Fin 512) :
    layerLast ht hgl n k k1 t x (ix4 b c h q) = layerFirst hgf n k k1 t x (ix4 b c h q) := by
  unfold layerLast layerFirst
  refine (transpose_apply _ _ last_out _ (ix4 b h q c) fun a => ?_).trans
    (Eq.trans ?_ (transpose_apply _ _ first_out _ (ix4 c b h q) fun a => ?_).symm)
  · match a with
    | ⟨0, _⟩ => rfl
    | ⟨1, _⟩ => rfl
    | ⟨2, _⟩ => rfl
    | ⟨3, _⟩ => rfl
  · rw [addf_apply, addf_apply, addf_apply, addf_apply, addf_apply, addf_apply,
      corner_eq hm ht hgl hgf, corner_eq hm ht hgl hgf, corner_eq hm ht hgl hgf, corner_eq hm ht hgl hgf]
  · match a with
    | ⟨0, _⟩ => rfl
    | ⟨1, _⟩ => rfl
    | ⟨2, _⟩ => rfl
    | ⟨3, _⟩ => rfl

/-! ## The four layers summed and masked -/

/-- The result at an entry. -/
theorem combined_apply (L1 L2 L3 L4 : FVec Ideal Out .f32) (msk : FVec Ideal Pts .f32)
    (b : Fin 4) (c : Fin 16) (h q : Fin 512) :
    combined L1 L2 L3 L4 msk (ix4 b c h q)
      = (L1 (ix4 b c h q) + L2 (ix4 b c h q) + L3 (ix4 b c h q) + L4 (ix4 b c h q)) * msk (ix3 b h q) := by
  unfold combined
  rw [mulf_apply, addf_apply, addf_apply, addf_apply]
  refine congrArg _ ?_
  refine (broadcastInDim_apply _ mid_out _ _ (ix4 b (0 : Fin 1) h q) fun a => ?_).trans
    (broadcastInDim_apply _ pts_mid msk _ (ix3 b h q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

end Cert.Sampling

end
-- ==== Proof.KernelFinal.lean ====
/-
  The combining kernel's output array, as one function of the five arrays it stages.

  The kernel runs over 32 grid points; point t stages rows 16·t … 16·t + 15 of each of the four layer arrays
  [4, 16, 512, 512] and of the mask [4, 512, 512], adds the four layer blocks and multiplies by the mask block spread
  over the channel axis, and writes the block back at the same rows. Every row 0 ≤ h < 512 lies in exactly the block of
  point h / 16, so the output array is, entry by entry, (L1 + L2 + L3 + L4) · mask at the query: the masked sum
  `Sampling.combined` of the five arrays as the kernel finds them.
-/
import proofs.«142769_j46222438040249_2_alg».proof.Proof.KernelIdealValue
import proofs.«142769_j46222438040249_2_alg».proof.Proof.SamplingLaw

noncomputable section

namespace Cert.KernelIdeal.Final

open Cert.KernelIdeal Cert.KernelIdeal.Gen Cert.KernelIdeal.GenP Cert.KernelIdeal.ValueP Idealize.ShloMosaic
  Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array: the masked sum of the four layer arrays, each as the kernel finds it. -/
abbrev G (c : Dev nD) : FVec Ideal S4x16x512x512 .f32 :=
  Cert.Sampling.combined (F := Ideal) (V m c main_v180) (V m c main_v353) (V m c main_v526) (V m c main_v699) (V m c main_arg1)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The body's result at an entry of the block, over arbitrary staged blocks: the four layer blocks added, times the
    mask block's entry at the same point. -/
theorem out_apply (x0 x1 x2 x3 : Vec Ideal S4x16x16x512 .f32) (x4 : Vec Ideal S4x16x512 .f32) (y : S4x16x16x512.Idx) :
    out0_5 x0 x1 x2 x3 x4 y = (x0 y + x1 y + x2 y + x3 y) * x4 (ix3 (y 0) (y 2) (y 3)) := by
  unfold out0_5
  refine (canon5_eq _ _ _ _ _ y).trans ?_
  simp only [View.ld_unit_zero (S := S4x16x16x512) hz4, View.ld_unit_zero (S := S4x16x512) hz3]
  dsimp only [E5]
  have e0 : ix5_0 y = y := funext fun a => Fin.ext (by match a with | ⟨0, _⟩ => rfl | ⟨1, _⟩ => rfl | ⟨2, _⟩ => rfl | ⟨3, _⟩ => rfl)
  have e1 : ix5_1 y = y := funext fun a => Fin.ext (by match a with | ⟨0, _⟩ => rfl | ⟨1, _⟩ => rfl | ⟨2, _⟩ => rfl | ⟨3, _⟩ => rfl)
  have e2 : ix5_2 y = y := funext fun a => Fin.ext (by match a with | ⟨0, _⟩ => rfl | ⟨1, _⟩ => rfl | ⟨2, _⟩ => rfl | ⟨3, _⟩ => rfl)
  have e3 : ix5_3 y = y := funext fun a => Fin.ext (by match a with | ⟨0, _⟩ => rfl | ⟨1, _⟩ => rfl | ⟨2, _⟩ => rfl | ⟨3, _⟩ => rfl)
  have e4 : ix5_4 y = ix3 (y 0) (y 2) (y 3) :=
    funext fun a => Fin.ext (by match a with | ⟨0, _⟩ => rfl | ⟨1, _⟩ => rfl | ⟨2, _⟩ => rfl)
  rw [e0, e1, e2, e3, e4]
  rfl

set_option maxHeartbeats 4000000 in
/-- Point t's block of window 5 starts at row block t (the printed index map, decided over the 32 grid points). -/
theorem idx_facts5 : ∀ t : Fin cfg0.N,
    win0_5.index t (0 : Fin 4) = 0 ∧ win0_5.index t (1 : Fin 4) = 0 ∧ win0_5.index t (2 : Fin 4) = t.val ∧ win0_5.index t (3 : Fin 4) = 0 :=
  (by decide +kernel : ∀ t : Fin grid0.N, _)

set_option maxHeartbeats 4000000 in
/-- Point t's block of window 0 starts at row block t (the printed index map, decided over the 32 grid points). -/
theorem idx_facts0 : ∀ t : Fin cfg0.N,
    win0_0.index t (0 : Fin 4) = 0 ∧ win0_0.index t (1 : Fin 4) = 0 ∧ win0_0.index t (2 : Fin 4) = t.val ∧ win0_0.index t (3 : Fin 4) = 0 :=
  (by decide +kernel : ∀ t : Fin grid0.N, _)

set_option maxHeartbeats 4000000 in
/-- Point t's block of window 1 starts at row block t (the printed index map, decided over the 32 grid points). -/
theorem idx_facts1 : ∀ t : Fin cfg0.N,
    win0_1.index t (0 : Fin 4) = 0 ∧ win0_1.index t (1 : Fin 4) = 0 ∧ win0_1.index t (2 : Fin 4) = t.val ∧ win0_1.index t (3 : Fin 4) = 0 :=
  (by decide +kernel : ∀ t : Fin grid0.N, _)

set_option maxHeartbeats 4000000 in
/-- Point t's block of window 2 starts at row block t (the printed index map, decided over the 32 grid points). -/
theorem idx_facts2 : ∀ t : Fin cfg0.N,
    win0_2.index t (0 : Fin 4) = 0 ∧ win0_2.index t (1 : Fin 4) = 0 ∧ win0_2.index t (2 : Fin 4) = t.val ∧ win0_2.index t (3 : Fin 4) = 0 :=
  (by decide +kernel : ∀ t : Fin grid0.N, _)

set_option maxHeartbeats 4000000 in
/-- Point t's block of window 3 starts at row block t (the printed index map, decided over the 32 grid points). -/
theorem idx_facts3 : ∀ t : Fin cfg0.N,
    win0_3.index t (0 : Fin 4) = 0 ∧ win0_3.index t (1 : Fin 4) = 0 ∧ win0_3.index t (2 : Fin 4) = t.val ∧ win0_3.index t (3 : Fin 4) = 0 :=
  (by decide +kernel : ∀ t : Fin grid0.N, _)

set_option maxHeartbeats 4000000 in
/-- Point t's block of the mask window starts at row block t. -/
theorem idx_facts4 : ∀ t : Fin cfg0.N,
    win0_4.index t (0 : Fin 3) = 0 ∧ win0_4.index t (1 : Fin 3) = t.val ∧ win0_4.index t (2 : Fin 3) = 0 :=
  (by decide +kernel : ∀ t : Fin grid0.N, _)

/-- ONE POINT, over arbitrary arrays: the body's result of the five arrays' blocks at point t is block t of their
    masked sum. -/
theorem point_eq (A0 A1 A2 A3 : FVec Ideal S4x16x512x512 .f32) (A4 : FVec Ideal S4x512x512 .f32) (t : Fin cfg0.N)
    (j : S4x16x16x512.Idx) :
    out0_5 (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) j
    = Cert.Sampling.combined (F := Ideal) A0 A1 A2 A3 A4 (((cfg0.win 5).blk t).view.emb j) := by
  obtain ⟨o0, o1, o2, o3⟩ := idx_facts5 t
  obtain ⟨a0, a1, a2, a3⟩ := idx_facts0 t
  obtain ⟨b0, b1, b2, b3⟩ := idx_facts1 t
  obtain ⟨c0, c1, c2, c3⟩ := idx_facts2 t
  obtain ⟨d0, d1, d2, d3⟩ := idx_facts3 t
  obtain ⟨e0, e1, e2⟩ := idx_facts4 t
  have ht : t.val < 32 := Nat.lt_of_lt_of_eq t.isLt N_0
  have hj0 : (j 0).val < 4 := (j 0).isLt
  have hj1 : (j 1).val < 16 := (j 1).isLt
  have hj2 : (j 2).val < 16 := (j 2).isLt
  have hj3 : (j 3).val < 512 := (j 3).isLt
  refine (out_apply _ _ _ _ _ j).trans ?_
  -- the entry of the output array under block entry j: row 16 t + j₂
  have hi : ((cfg0.win 5).blk t).view.emb j
    = ix4 (⟨(j 0).val, hj0⟩ : Fin 4) (⟨(j 1).val, hj1⟩ : Fin 16) (⟨t.val * 16 + (j 2).val, by omega⟩ : Fin 512) (⟨(j 3).val, hj3⟩ : Fin 512) := by
    funext a; apply Fin.ext
    match a with
    | ⟨0, _⟩ => show win0_5.index t (0 : Fin 4) * 4 + 1 * (j 0).val = (j 0).val; omega
    | ⟨1, _⟩ => show win0_5.index t (1 : Fin 4) * 16 + 1 * (j 1).val = (j 1).val; omega
    | ⟨2, _⟩ => show win0_5.index t (2 : Fin 4) * 16 + 1 * (j 2).val = t.val * 16 + (j 2).val; omega
    | ⟨3, _⟩ => show win0_5.index t (3 : Fin 4) * 512 + 1 * (j 3).val = (j 3).val; omega
  -- each layer block is its array read at the same entry
  have r0 : ((cfg0.win 0).blk t).view.read (Elt Ideal) A0 j = A0 (ix4 (⟨(j 0).val, hj0⟩ : Fin 4) (⟨(j 1).val, hj1⟩ : Fin 16) (⟨t.val * 16 + (j 2).val, by omega⟩ : Fin 512) (⟨(j 3).val, hj3⟩ : Fin 512)) := by
    show A0 (((cfg0.win 0).blk t).view.emb j) = _
    refine congrArg _ (funext fun a => Fin.ext ?_)
    match a with
    | ⟨0, _⟩ => show win0_0.index t (0 : Fin 4) * 4 + 1 * (j 0).val = (j 0).val; omega
    | ⟨1, _⟩ => show win0_0.index t (1 : Fin 4) * 16 + 1 * (j 1).val = (j 1).val; omega
    | ⟨2, _⟩ => show win0_0.index t (2 : Fin 4) * 16 + 1 * (j 2).val = t.val * 16 + (j 2).val; omega
    | ⟨3, _⟩ => show win0_0.index t (3 : Fin 4) * 512 + 1 * (j 3).val = (j 3).val; omega
  have r1 : ((cfg0.win 1).blk t).view.read (Elt Ideal) A1 j = A1 (ix4 (⟨(j 0).val, hj0⟩ : Fin 4) (⟨(j 1).val, hj1⟩ : Fin 16) (⟨t.val * 16 + (j 2).val, by omega⟩ : Fin 512) (⟨(j 3).val, hj3⟩ : Fin 512)) := by
    show A1 (((cfg0.win 1).blk t).view.emb j) = _
    refine congrArg _ (funext fun a => Fin.ext ?_)
    match a with
    | ⟨0, _⟩ => show win0_1.index t (0 : Fin 4) * 4 + 1 * (j 0).val = (j 0).val; omega
    | ⟨1, _⟩ => show win0_1.index t (1 : Fin 4) * 16 + 1 * (j 1).val = (j 1).val; omega
    | ⟨2, _⟩ => show win0_1.index t (2 : Fin 4) * 16 + 1 * (j 2).val = t.val * 16 + (j 2).val; omega
    | ⟨3, _⟩ => show win0_1.index t (3 : Fin 4) * 512 + 1 * (j 3).val = (j 3).val; omega
  have r2 : ((cfg0.win 2).blk t).view.read (Elt Ideal) A2 j = A2 (ix4 (⟨(j 0).val, hj0⟩ : Fin 4) (⟨(j 1).val, hj1⟩ : Fin 16) (⟨t.val * 16 + (j 2).val, by omega⟩ : Fin 512) (⟨(j 3).val, hj3⟩ : Fin 512)) := by
    show A2 (((cfg0.win 2).blk t).view.emb j) = _
    refine congrArg _ (funext fun a => Fin.ext ?_)
    match a with
    | ⟨0, _⟩ => show win0_2.index t (0 : Fin 4) * 4 + 1 * (j 0).val = (j 0).val; omega
    | ⟨1, _⟩ => show win0_2.index t (1 : Fin 4) * 16 + 1 * (j 1).val = (j 1).val; omega
    | ⟨2, _⟩ => show win0_2.index t (2 : Fin 4) * 16 + 1 * (j 2).val = t.val * 16 + (j 2).val; omega
    | ⟨3, _⟩ => show win0_2.index t (3 : Fin 4) * 512 + 1 * (j 3).val = (j 3).val; omega
  have r3 : ((cfg0.win 3).blk t).view.read (Elt Ideal) A3 j = A3 (ix4 (⟨(j 0).val, hj0⟩ : Fin 4) (⟨(j 1).val, hj1⟩ : Fin 16) (⟨t.val * 16 + (j 2).val, by omega⟩ : Fin 512) (⟨(j 3).val, hj3⟩ : Fin 512)) := by
    show A3 (((cfg0.win 3).blk t).view.emb j) = _
    refine congrArg _ (funext fun a => Fin.ext ?_)
    match a with
    | ⟨0, _⟩ => show win0_3.index t (0 : Fin 4) * 4 + 1 * (j 0).val = (j 0).val; omega
    | ⟨1, _⟩ => show win0_3.index t (1 : Fin 4) * 16 + 1 * (j 1).val = (j 1).val; omega
    | ⟨2, _⟩ => show win0_3.index t (2 : Fin 4) * 16 + 1 * (j 2).val = t.val * 16 + (j 2).val; omega
    | ⟨3, _⟩ => show win0_3.index t (3 : Fin 4) * 512 + 1 * (j 3).val = (j 3).val; omega
  -- and the mask block is the mask at the same query
  have r4 : ((cfg0.win 4).blk t).view.read (Elt Ideal) A4 (ix3 (j 0) (j 2) (j 3))
    = A4 (ix3 (⟨(j 0).val, hj0⟩ : Fin 4) (⟨t.val * 16 + (j 2).val, by omega⟩ : Fin 512) (⟨(j 3).val, hj3⟩ : Fin 512)) := by
    show A4 (((cfg0.win 4).blk t).view.emb (ix3 (j 0) (j 2) (j 3))) = _
    refine congrArg _ (funext fun a => Fin.ext ?_)
    match a with
    | ⟨0, _⟩ => show win0_4.index t (0 : Fin 3) * 4 + 1 * (j 0).val = (j 0).val; omega
    | ⟨1, _⟩ => show win0_4.index t (1 : Fin 3) * 16 + 1 * (j 2).val = t.val * 16 + (j 2).val; omega
    | ⟨2, _⟩ => show win0_4.index t (2 : Fin 3) * 512 + 1 * (j 3).val = (j 3).val; omega
  rw [r0, r1, r2, r3, r4, hi]
  exact (Cert.Sampling.combined_apply _ _ _ _ _ _ _ _ _).symm

/-- WHAT POINT t WRITES BACK is block t of the masked sum of the arrays as the kernel finds them. -/
theorem flushed_eq (c : Dev nD) (t : Fin cfg0.N) :
    (dats m 0 c).flushed 5 t = ((cfg0.win 5).blk t).view.read (Elt Ideal) (G m c) := by
  rw [flushed5]
  funext j
  exact point_eq (V m c main_v180) (V m c main_v353) (V m c main_v526) (V m c main_v699) (V m c main_arg1) t j

/-- An index of the output array is in point t's block iff each coordinate is in the block's range on its axis. -/
theorem mem_blk (t : Fin cfg0.N) (i : S4x16x512x512.Idx) :
    i ∈ ((cfg0.win 5).blk t).view.set ↔ ∀ a : Fin 4, win0_5.index t a * S4x16x16x512.size a ≤ (i a).val
      ∧ (i a).val < win0_5.index t a * S4x16x16x512.size a + S4x16x16x512.size a := by
  show i ∈ ((View.whole main_v700).slice (win0_5.rect t)).set ↔ _
  rw [View.set_slice_whole, Rect.mem_set_unit]
  exact Iff.rfl

/-- Every entry of the output array lies in the block of the point its row selects: row h in block h / 16. -/
theorem cover (i : S4x16x512x512.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 512 := (i 2).isLt
  have hi3 : (i 3).val < 512 := (i 3).isLt
  have hN : grid0.N = 32 := N_0
  have hlt : (i 2).val / 16 < cfg0.N := by show (i 2).val / 16 < grid0.N; omega
  obtain ⟨o0, o1, o2, o3⟩ := idx_facts5 ⟨(i 2).val / 16, hlt⟩
  refine ⟨⟨(i 2).val / 16, hlt⟩, flush0_5 _, ?_⟩
  rw [mem_blk]
  intro a
  match a with
  | ⟨0, _⟩ =>
    show win0_5.index ⟨(i 2).val / 16, hlt⟩ (0 : Fin 4) * 4 ≤ (i 0).val ∧ (i 0).val < win0_5.index ⟨(i 2).val / 16, hlt⟩ (0 : Fin 4) * 4 + 4
    omega
  | ⟨1, _⟩ =>
    show win0_5.index ⟨(i 2).val / 16, hlt⟩ (1 : Fin 4) * 16 ≤ (i 1).val ∧ (i 1).val < win0_5.index ⟨(i 2).val / 16, hlt⟩ (1 : Fin 4) * 16 + 16
    omega
  | ⟨2, _⟩ =>
    show win0_5.index ⟨(i 2).val / 16, hlt⟩ (2 : Fin 4) * 16 ≤ (i 2).val ∧ (i 2).val < win0_5.index ⟨(i 2).val / 16, hlt⟩ (2 : Fin 4) * 16 + 16
    have : (⟨(i 2).val / 16, hlt⟩ : Fin cfg0.N).val = (i 2).val / 16 := rfl
    omega
  | ⟨3, _⟩ =>
    show win0_5.index ⟨(i 2).val / 16, hlt⟩ (3 : Fin 4) * 512 ≤ (i 3).val ∧ (i 3).val < win0_5.index ⟨(i 2).val / 16, hlt⟩ (3 : Fin 4) * 512 + 512
    omega

/-- THE OUTPUT ARRAY after the run is the masked sum of the staged arrays. -/
theorem final (c : Dev nD) : (dats m 0 c).arrAt 5 cfg0.N = G m c :=
  (dats m 0 c).arrAt_eq_of_cover 5 (G m c) (fun t _ => flushed_eq m c t) cover

/-- The kernel program's run: it ends with the output array at the masked sum and the arguments unchanged. -/
theorem run : θ_run defs (onTc (τ := τ) (main (F := Ideal))) ⟨m, fun _ => 0, ρ⟩ fun r => ∀ c : Dev nD,
      r.2.mem ((c : Thread nD τ).loc main_v700) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Final

end
-- ==== Proof.KernelLayer1.lean ====
/-
  Layer 1 before the combining kernel. The host operations in front of the kernel transpose the table of side 1024 to
  channels last, sample it at the four neighbours of every query and move the weighted sum to [4, 16, 512, 512]; the
  array they leave for the kernel's window 0 is the channels-last spelling of the sampled layer, as one function of the
  table and the queries.
-/
import proofs.«142769_j46222438040249_2_alg».proof.Proof.KernelIdealFrame
import proofs.«142769_j46222438040249_2_alg».proof.Proof.Sampling
import Idealize.ShloMosaic.Lib.StableHlo.Run

noncomputable section

namespace Cert.KernelIdeal.Layers

open Cert.KernelIdeal Cert.KernelIdeal.Gen Cert.KernelIdeal.GenP Idealize.ShloMosaic Idealize.ShloMosaic.TcCoe Idealize.SL.Sem
  Idealize.ShloMosaic.StableHlo

variable (m : (ℓ : Loc nD τ sig) → Buf (Elt Ideal) ℓ)

set_option maxRecDepth 65536 in
set_option maxHeartbeats 0 in
/-- What window 0's array holds when the kernel is launched. -/
theorem layer1 (c : Dev nD) :
    (V m c main_v180 : FVec Ideal S4x16x512x512 .f32)
      = Cert.Sampling.layerLast (F := Ideal) (m := 1024) transposes_S16x1024x1024_S1024x1024x16_1_2_0
          gather_S1024x1024x16_S4x512x512x2_S4x512x512x16_3_01_n_n_01_3_1116_wf 0x447FC000#32 1023#32 1024#32
          (m ((c : Thread nD τ).loc main_arg2)) (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_results_simp
  rfl

end Cert.KernelIdeal.Layers

end
-- ==== Proof.KernelLayer2.lean ====
/-
  Layer 2 before the combining kernel. The host operations in front of the kernel transpose the table of side 512 to
  channels last, sample it at the four neighbours of every query and move the weighted sum to [4, 16, 512, 512]; the
  array they leave for the kernel's window 1 is the channels-last spelling of the sampled layer, as one function of the
  table and the queries.
-/
import proofs.«142769_j46222438040249_2_alg».proof.Proof.KernelIdealFrame
import proofs.«142769_j46222438040249_2_alg».proof.Proof.Sampling
import Idealize.ShloMosaic.Lib.StableHlo.Run

noncomputable section

namespace Cert.KernelIdeal.Layers

open Cert.KernelIdeal Cert.KernelIdeal.Gen Cert.KernelIdeal.GenP Idealize.ShloMosaic Idealize.ShloMosaic.TcCoe Idealize.SL.Sem
  Idealize.ShloMosaic.StableHlo

variable (m : (ℓ : Loc nD τ sig) → Buf (Elt Ideal) ℓ)

set_option maxRecDepth 65536 in
set_option maxHeartbeats 0 in
/-- What window 1's array holds when the kernel is launched. -/
theorem layer2 (c : Dev nD) :
    (V m c main_v353 : FVec Ideal S4x16x512x512 .f32)
      = Cert.Sampling.layerLast (F := Ideal) (m := 512) transposes_S16x512x512_S512x512x16_1_2_0
          gather_S512x512x16_S4x512x512x2_S4x512x512x16_3_01_n_n_01_3_1116_wf 0x43FF8000#32 511#32 512#32
          (m ((c : Thread nD τ).loc main_arg3)) (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_results_simp
  rfl

end Cert.KernelIdeal.Layers

end
-- ==== Proof.KernelLayer3.lean ====
/-
  Layer 3 before the combining kernel. The host operations in front of the kernel transpose the table of side 256 to
  channels last, sample it at the four neighbours of every query and move the weighted sum to [4, 16, 512, 512]; the
  array they leave for the kernel's window 2 is the channels-last spelling of the sampled layer, as one function of the
  table and the queries.
-/
import proofs.«142769_j46222438040249_2_alg».proof.Proof.KernelIdealFrame
import proofs.«142769_j46222438040249_2_alg».proof.Proof.Sampling
import Idealize.ShloMosaic.Lib.StableHlo.Run

noncomputable section

namespace Cert.KernelIdeal.Layers

open Cert.KernelIdeal Cert.KernelIdeal.Gen Cert.KernelIdeal.GenP Idealize.ShloMosaic Idealize.ShloMosaic.TcCoe Idealize.SL.Sem
  Idealize.ShloMosaic.StableHlo

variable (m : (ℓ : Loc nD τ sig) → Buf (Elt Ideal) ℓ)

set_option maxRecDepth 65536 in
set_option maxHeartbeats 0 in
/-- What window 2's array holds when the kernel is launched. -/
theorem layer3 (c : Dev nD) :
    (V m c main_v526 : FVec Ideal S4x16x512x512 .f32)
      = Cert.Sampling.layerLast (F := Ideal) (m := 256) transposes_S16x256x256_S256x256x16_1_2_0
          gather_S256x256x16_S4x512x512x2_S4x512x512x16_3_01_n_n_01_3_1116_wf 0x437F0000#32 255#32 256#32
          (m ((c : Thread nD τ).loc main_arg4)) (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_results_simp
  rfl

end Cert.KernelIdeal.Layers

end
-- ==== Proof.KernelLayer4.lean ====
/-
  Layer 4 before the combining kernel. The host operations in front of the kernel transpose the table of side 128 to
  channels last, sample it at the four neighbours of every query and move the weighted sum to [4, 16, 512, 512]; the
  array they leave for the kernel's window 3 is the channels-last spelling of the sampled layer, as one function of the
  table and the queries.
-/
import proofs.«142769_j46222438040249_2_alg».proof.Proof.KernelIdealFrame
import proofs.«142769_j46222438040249_2_alg».proof.Proof.Sampling
import Idealize.ShloMosaic.Lib.StableHlo.Run

noncomputable section

namespace Cert.KernelIdeal.Layers

open Cert.KernelIdeal Cert.KernelIdeal.Gen Cert.KernelIdeal.GenP Idealize.ShloMosaic Idealize.ShloMosaic.TcCoe Idealize.SL.Sem
  Idealize.ShloMosaic.StableHlo

variable (m : (ℓ : Loc nD τ sig) → Buf (Elt Ideal) ℓ)

set_option maxRecDepth 65536 in
set_option maxHeartbeats 0 in
/-- What window 3's array holds when the kernel is launched. -/
theorem layer4 (c : Dev nD) :
    (V m c main_v699 : FVec Ideal S4x16x512x512 .f32)
      = Cert.Sampling.layerLast (F := Ideal) (m := 128) transposes_S16x128x128_S128x128x16_1_2_0
          gather_S128x128x16_S4x512x512x2_S4x512x512x16_3_01_n_n_01_3_1116_wf 0x42FE0000#32 127#32 128#32
          (m ((c : Thread nD τ).loc main_arg5)) (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_results_simp
  rfl

end Cert.KernelIdeal.Layers

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefOps.lean ====
/- bun scratch/mk_refops.js — the table below (the stretches `ops0` … `ops16` and their side conditions) is written by that script
   from the generated operation list of the reference; the statements around it are written by hand.

  The reference's @main is one straight line of 1148 host operations, printed in 17 parts. Each part is the line of its
  own operations (`part_k`, by unfolding), so @main is the line of all of them, stretch after stretch (`main_eq`); every
  operation touches TensorCore buffers only (`all_sub`) and determines its results (`all_fresh`). -/
import proofs.«142769_j46222438040249_2_alg».proof.Proof.Gen.ReferenceIdeal
import Idealize.ShloMosaic.Lib.StableHlo.Run
import proofs.«142769_j46222438040249_2_alg».proof.Proof.LibStretches

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of part 0, in order. -/
abbrev ops0 : List (HloOp τ sig (Elt F)) :=
  [ nullary main_cst (constant S_ .f32 0x40000000#32),
    unary main_cst main_v0 (broadcastInDim S4x512x512x2 ![] bcast_S_S4x512x512x2 : (⟨S_, .f32⟩ : BufTy).Contents (Elt F) → (⟨S4x512x512x2, .f32⟩ : BufTy).Contents (Elt F)),
    binary main_arg0 main_v0 main_v1 (mulf : (⟨S4x512x512x2, .f32⟩ : BufTy).Contents (Elt F) → (⟨S4x512x512x2, .f32⟩ : BufTy).Contents (Elt F) → (⟨S4x512x512x2, .f32⟩ : BufTy).Contents (Elt F)),
    nullary main_cst_0 (constant S_ .f32 0x3F800000#32),
    unary main_cst_0 main_v2 (broadcastInDim S4x512x512x2 ![] bcast_S_S4x512x512x2 : (⟨S_, .f32⟩ : BufTy).Contents (Elt F) → (⟨S4x512x512x2, .f32⟩ : BufTy).Contents (Elt F)),
    binary main_v1 main_v2 main_v3 (subf : (⟨S4x512x512x2, .f32⟩ : BufTy).Contents (Elt F) → (⟨S4x512x512x2, .f32⟩ : BufTy).Contents (Elt F) → (⟨S4x512x512x2, .f32⟩ : BufTy).Contents (Elt F)),
    unary main_v3 main_v4 ((extractStridedSlice S4x512x512x1 ![0, 0, 0, 0] · slices_S4x512x512x2_S4x512x512x1_0_0_0_0) : (⟨S4x512x512x2, .f32⟩ : BufTy).Contents (Elt F) → (⟨S4x512x512x1, .f32⟩ : BufTy).Contents (Elt F)),
    reshape main_v4 main_v5 rfl shapeCasts_S4x512x512x1_S4x512x512,
    unary main_v3 main_v6 ((extractStridedSlice S4x512x512x1 ![0, 0, 0, 1] · slices_S4x512x512x2_S4x512x512x1_0_0_0_1) : (⟨S4x512x512x2, .f32⟩ : BufTy).Contents (Elt F) → (⟨S4x512x512x1, .f32⟩ : BufTy).Contents (Elt F)),
    reshape main_v6 main_v7 rfl shapeCasts_S4x512x512x1_S4x512x512,
    nullary main_cst_1 (constant S_ .f32 0x3F800000#32),
    unary main_cst_1 main_v8 (broadcastInDim S4x512x512 ![] bcast_S_S4x512x512 : (⟨S_, .f32⟩ : BufTy).Contents (Elt F) → (⟨S4x512x512, .f32⟩ : BufTy).Contents (Elt F)),
    binary main_v5 main_v8 main_v9 (addf : (⟨S4x512x512, .f32⟩ : BufTy).Contents (Elt F) → (⟨S4x512x512, .f32⟩ : BufTy).Contents (Elt F) → (⟨S4x512x512, .f32⟩ : BufTy).Contents (Elt F)),
    nullary main_cst_2 (constant S_ .f32 0x3F000000#32),
    unary main_cst_2 main_v10 (broadcastInDim S4x512x512 ![] bcast_S_S4x512x512 : (⟨S_, .f32⟩ : BufTy).Contents (Elt F) → (⟨S4x512x512, .f32⟩ : BufTy).Contents (Elt F)),
    binary main_v9 main_v10 main_v11 (mulf : (⟨S4x512x512, .f32⟩ : BufTy).Contents (Elt F) → (⟨S4x512x512, .f32⟩ : BufTy).Contents (Elt F) → (⟨S4x512x512, .f32⟩ : BufTy).Contents (Elt F)),
    nullary main_cst_3 (constant S_ .f32 0x447FC000#32),
    unary main_cst_3 main_v12 (broadcastInDim S4x512x512 ![] bcast_S_S4x512x512 : (⟨S_, .f32⟩ : BufTy).Contents (Elt F) → (⟨S4x512x512, .f32⟩ : BufTy).Contents (Elt F)),
    binary main_v11 main_v12 main_v13 (mulf : (⟨S4x512x512, .f32⟩ : BufTy).Contents (Elt F) → (⟨S4x512x512, .f32⟩ : BufTy).Contents (Elt F) → (⟨S4x512x512, .f32⟩ : BufTy).Contents (Elt F)),
    nullary main_cst_4 (constant S_ .f32 0x3F800000#32),
    unary main_cst_4 main_v14 (broadcastInDim S4x512x512 ![] bcast_S_S4x512x512 : (⟨S_, .f32⟩ : BufTy).Contents (Elt F) → (⟨S4x512x512, .f32⟩ : BufTy).Contents (Elt F)),
    binary main_v7 main_v14 main_v15 (addf : (⟨S4x512x512, .f32⟩ : BufTy).Contents (Elt F) → (⟨S4x512x512, .f32⟩ : BufTy).Contents (Elt F) → (⟨S4x512x512, .f32⟩ : BufTy).Contents (Elt F)),
    nullary main_cst_5 (constant S_ .f32 0x3F000000#32),
    unary main_cst_5 main_v16 (broadcastInDim S4x512x512 ![] bcast_S_S4x512x512 : (⟨S_, .f32⟩ : BufTy).Contents (Elt F) → (⟨S4x512x512, .f32⟩ : BufTy).Contents (Elt F)),
    binary main_v15 main_v16 main_v17 (mulf : (⟨S4x512x512, .f32⟩ : BufTy).Contents (Elt F) → (⟨S4x512x512, .f32⟩ : BufTy).Contents (Elt F) → (⟨S4x512x512, .f32⟩ : BufTy).Contents (Elt F)),
    nullary main_cst_6 (constant S_ .f32 0x447FC000#32),
    unary main_cst_6 main_v18 (broadcastInDim S4x512x512 ![] bcast_S_S4x512x512 : (⟨S_, .f32⟩ : BufTy).Contents (Elt F) → (⟨S4x512x512, .f32⟩ : BufTy).Contents (Elt F)),
    binary main_v17 main_v18 main_v19 (mulf : (⟨S4x512x512, .f32⟩ : BufTy).Contents (Elt F) → (⟨S4x512x512, .f32⟩ : BufTy).Contents (Elt F) → (⟨S4x512x512, .f32⟩ : BufTy).Contents (Elt F)),
    unary main_v13 main_v20 (Host.floor : (⟨S4x512x512, .f32⟩ : BufTy).Contents (Elt F) → (⟨S4x512x512, .f32⟩ : BufTy).Contents (Elt F)),
    unary main_v19 main_v21 (Host.floor : (⟨S4x512x512, .f32⟩ : BufTy).Contents (Elt F) → (⟨S4x512x512, .f32⟩ : BufTy).Contents (Elt F)),
    binary main_v13 main_v20 main_v22 (subf : (⟨S4x512x512, .f32⟩ : BufTy).Contents (Elt F) → (⟨S4x512x512, .f32⟩ : BufTy).Contents (Elt F) → (⟨S4x512x512, .f32⟩ : BufTy).Contents (Elt F)),
    binary main_v19 main_v21 main_v23 (subf : (⟨S4x512x512, .f32⟩ : BufTy).Contents (Elt F) → (⟨S4x512x512, .f32⟩ : BufTy).Contents (Elt F) → (⟨S4x512x512, .f32⟩ : BufTy).Contents (Elt F)),
    nullary main_cst_7 (constant S_ .f32 0x3F800000#32),
    unary main_cst_7 main_v24 (broadcastInDim S4x512x512 ![] bcast_S_S4x512x512 : (⟨S_, .f32⟩ : BufTy).Contents (Elt F) → (⟨S4x512x512, .f32⟩ : BufTy).Contents (Elt F)),
    binary main_v24 main_v22 main_v25 (subf : (⟨S4x512x512, .f32⟩ : BufTy).Contents (Elt F) → (⟨S4x512x512, .f32⟩ : BufTy).Contents (Elt F) → (⟨S4x512x512, .f32⟩ : BufTy).Contents (Elt F)),
    nullary main_cst_8 (constant S_ .f32 0x3F800000#32),
    unary main_cst_8 main_v26 (broadcastInDim S4x512x512 ![] bcast_S_S4x512x512 : (⟨S_, .f32⟩ : BufTy).Contents (Elt F) → (⟨S4x512x512, .f32⟩ : BufTy).Contents (Elt F)),
    binary main_v26 main_v23 main_v27 (subf : (⟨S4x512x512, .f32⟩ : BufTy).Contents (Elt F) → (⟨S4x512x512, .f32⟩ : BufTy).Contents (Elt F) → (⟨S4x512x512, .f32⟩ : BufTy).Contents (Elt F)),
    nullary main_cst_9 (constant S_ .f32 0x00000000#32),
    unary main_cst_9 main_v28 (broadcastInDim S4x512x512 ![] bcast_S_S4x512x512 : (⟨S_, .f32⟩ : BufTy).Contents (Elt F) → (⟨S4x512x512, .f32⟩ : BufTy).Contents (Elt F)),
    binary main_v20 main_v28 main_v29 (cmpf .oge : (⟨S4x512x512, .f32⟩ : BufTy).Contents (Elt F) → (⟨S4x512x512, .f32⟩ : BufTy).Contents (Elt F) → (⟨S4x512x512, .i1⟩ : BufTy).Contents (Elt F)),
    nullary main_cst_10 (constant S_ .f32 0x447FC000#32),
    unary main_cst_10 main_v30 (broadcastInDim S4x512x512 ![] bcast_S_S4x512x512 : (⟨S_, .f32⟩ : BufTy).Contents (Elt F) → (⟨S4x512x512, .f32⟩ : BufTy).Contents (Elt F)),
    binary main_v20 main_v30 main_v31 (cmpf .ole : (⟨S4x512x512, .f32⟩ : BufTy).Contents (Elt F) → (⟨S4x512x512, .f32⟩ : BufTy).Contents (Elt F) → (⟨S4x512x512, .i1⟩ : BufTy).Contents (Elt F)),
    binary main_v29 main_v31 main_v32 (andi : (⟨S4x512x512, .i1⟩ : BufTy).Contents (Elt F) → (⟨S4x512x512, .i1⟩ : BufTy).Contents (Elt F) → (⟨S4x512x512, .i1⟩ : BufTy).Contents (Elt F)),
    nullary main_cst_11 (constant S_ .f32 0x00000000#32),
    unary main_cst_11 main_v33 (broadcastInDim S4x512x512 ![] bcast_S_S4x512x512 : (⟨S_, .f32⟩ : BufTy).Contents (Elt F) → (⟨S4x512x512, .f32⟩ : BufTy).Contents (Elt F)),
    binary main_v21 main_v33 main_v34 (cmpf .oge : (⟨S4x512x512, .f32⟩ : BufTy).Contents (Elt F) → (⟨S4x512x512, .f32⟩ : BufTy).Contents (Elt F) → (⟨S4x512x512, .i1⟩ : BufTy).Contents (Elt F)),
    binary main_v32 main_v34 main_v35 (andi : (⟨S4x512x512, .i1⟩ : BufTy).Contents (Elt F) → (⟨S4x512x512, .i1⟩ : BufTy).Contents (Elt F) → (⟨S4x512x512, .i1⟩ : BufTy).Contents (Elt F)),
    nullary main_cst_12 (constant S_ .f32 0x447FC000#32),
    unary main_cst_12 main_v36 (broadcastInDim S4x512x512 ![] bcast_S_S4x512x512 : (⟨S_, .f32⟩ : BufTy).Contents (Elt F) → (⟨S4x512x512, .f32⟩ : BufTy).Contents (Elt F)),
    binary main_v21 main_v36 main_v37 (cmpf .ole : (⟨S4x512x512, .f32⟩ : BufTy).Contents (Elt F) → (⟨S4x512x512, .f32⟩ : BufTy).Contents (Elt F) → (⟨S4x512x512, .i1⟩ : BufTy).Contents (Elt F)),
    binary main_v35 main_v37 main_v38 (andi : (⟨S4x512x512, .i1⟩ : BufTy).Contents (Elt F) → (⟨S4x512x512, .i1⟩ : BufTy).Contents (Elt F) → (⟨S4x512x512, .i1⟩ : BufTy).Contents (Elt F)),
    nullary main_c (constantI S_ 32 0#32),
    nullary main_c_13 (constantI S_ 32 1023#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S4x512x512, .f32⟩) main_call0_v1) (broadcastInDim S4x512x512 ![] bcast_S_S4x512x512),
    TRef.binary (TRef.of (T := ⟨S4x512x512, .f32⟩) main_call0_v1) (TRef.of (T := ⟨S4x512x512, .f32⟩) main_v20) (TRef.of (T := ⟨S4x512x512, .f32⟩) main_call0_v2) maximumf,
    TRef.unary (TRef.of (T := ⟨S_, .i32⟩) main_c_13) (TRef.of (T := ⟨S_, .f32⟩) main_call0_v3) (sitofp .f32),
    TRef.unary (TRef.of (T := ⟨S_, .f32⟩) main_call0_v3) (TRef.of (T := ⟨S4x512x512, .f32⟩) main_call0_v4) (broadcastInDim S4x512x512 ![] bcast_S_S4x512x512),
    TRef.binary (TRef.of (T := ⟨S4x512x512, .f32⟩) main_call0_v4) (TRef.of (T := ⟨S4x512x512, .f32⟩) main_call0_v2) (TRef.of (T := ⟨S4x512x512, .f32⟩) main_v39) minimumf,
    unary main_v39 main_v40 (fptosi 32 : (⟨S4x512x512, .f32⟩ : BufTy).Contents (Elt F) → (⟨S4x512x512, .i32⟩ : BufTy).Contents (Elt F)),
    nullary main_c_14 (constantI S_ 32 0#32),
    nullary main_c_15 (constantI S_ 32 1023#32),
    TRef.unary (TRef.of (T := ⟨S_, .i32⟩) main_c_14) (TRef.of (T := ⟨S_, .f32⟩) main_call1_v0) (sitofp .f32),
    TRef.unary (TRef.of (T := ⟨S_, .f32⟩) main_call1_v0) (TRef.of (T := ⟨S4x512x512, .f32⟩) main_call1_v1) (broadcastInDim S4x512x512 ![] bcast_S_S4x512x512),
    TRef.binary (TRef.of (T := ⟨S4x512x512, .f32⟩) main_call1_v1) (TRef.of (T := ⟨S4x512x512, .f32⟩) main_v21) (TRef.of (T := ⟨S4x512x512, .f32⟩) main_call1_v2) maximumf,
    TRef.unary (TRef.of (T := ⟨S_, .i32⟩) main_c_15) (TRef.of (T := ⟨S_, .f32⟩) main_call1_v3) (sitofp .f32),
    TRef.unary (TRef.of (T := ⟨S_, .f32⟩) main_call1_v3) (TRef.of (T := ⟨S4x512x512, .f32⟩) main_call1_v4) (broadcastInDim S4x512x512 ![] bcast_S_S4x512x512),
    TRef.binary (TRef.of (T := ⟨S4x512x512, .f32⟩) main_call1_v4) (TRef.of (T := ⟨S4x512x512, .f32⟩) main_call1_v2) (TRef.of (T := ⟨S4x512x512, .f32⟩) main_v41) minimumf ]

set_option maxRecDepth 16384 in
set_option maxHeartbeats 4000000 in
/-- Part 0 of @main is the line of its operations. -/
theorem part0 (d : Dev nD) : main_part0 (F := F) d = seq ops0 := rfl

set_option maxRecDepth 16384 in
theorem sub0 : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩

theorem fresh0 : (ops0 : List (HloOp τ sig (Elt F))).Forall fun op => op.fresh = ∅ := by
  simp only [List.Forall]; repeat' constructor

/-- The operations of part 1, in order. -/
abbrev ops1 : List (HloOp τ sig (Elt F)) :=
  [ unary main_v41 main_v42 (fptosi 32 : (⟨S4x512x512, .f32⟩ : BufTy).Contents (Elt F) → (⟨S4x512x512, .i32⟩ : BufTy).Contents (Elt F)),
    nullary main_c_16 (constantI S_ 32 0#32),
    unary main_c_16 main_v43 (broadcastInDim S4x512x512 ![] bcast_S_S4x512x512 : (⟨S_, .i32⟩ : BufTy).Contents (Elt F) → (⟨S4x512x512, .i32⟩ : BufTy).Contents (Elt F)),
    binary main_v42 main_v43 main_v44 (cmpi .slt : (⟨S4x512x512, .i32⟩ : BufTy).Contents (Elt F) → (⟨S4x512x512, .i32⟩ : BufTy).Contents (Elt F) → (⟨S4x512x512, .i1⟩ : BufTy).Contents (Elt F)),
    nullary main_c_17 (constantI S_ 32 1024#32),
    unary main_c_17 main_v45 (broadcastInDim S4x512x512 ![] bcast_S_S4x512x512 : (⟨S_, .i32⟩ : BufTy).Contents (Elt F) → (⟨S4x512x512, .i32⟩ : BufTy).Contents (Elt F)),
    binary main_v42 main_v45 main_v46 (addi : (⟨S4x512x512, .i32⟩ : BufTy).Contents (Elt F) → (⟨S4x512x512, .i32⟩ : BufTy).Contents (Elt F) → (⟨S4x512x512, .i32⟩ : BufTy).Contents (Elt F)),
    ternary main_v44 main_v46 main_v42 main_v47 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_18 (constantI S_ 32 0#32),
    unary main_c_18 main_v48 (broadcastInDim S4x512x512 ![] bcast_S_S4x512x512 : (⟨S_, .i32⟩ : BufTy).Contents (Elt F) → (⟨S4x512x512, .i32⟩ : BufTy).Contents (Elt F)),
    binary main_v40 main_v48 main_v49 (cmpi .slt : (⟨S4x512x512, .i32⟩ : BufTy).Contents (Elt F) → (⟨S4x512x512, .i32⟩ : BufTy).Contents (Elt F) → (⟨S4x512x512, .i1⟩ : BufTy).Contents (Elt F)),
    nullary main_c_19 (constantI S_ 32 1024#32),
    unary main_c_19 main_v50 (broadcastInDim S4x512x512 ![] bcast_S_S4x512x512 : (⟨S_, .i32⟩ : BufTy).Contents (Elt F) → (⟨S4x512x512, .i32⟩ : BufTy).Contents (Elt F)),
    binary main_v40 main_v50 main_v51 (addi : (⟨S4x512x512, .i32⟩ : BufTy).Contents (Elt F) → (⟨S4x512x512, .i32⟩ : BufTy).Contents (Elt F) → (⟨S4x512x512, .i32⟩ : BufTy).Contents (Elt F)),
    ternary main_v49 main_v51 main_v40 main_v52 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v47 main_v53 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v52 main_v54 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v53 main_v54 main_v55 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg2 main_v55 main_v56 ((fun x i => Host.gather gather_S16x1024x1024_S4x512x512x2_S16x4x512x512_0_12_n_n_12_3_1611 x i) : (⟨S16x1024x1024, .f32⟩ : BufTy).Contents (Elt F) → (⟨S4x512x512x2, .i32⟩ : BufTy).Contents (Elt F) → (⟨S16x4x512x512, .f32⟩ : BufTy).Contents (Elt F)),
    unary main_v38 main_v57 (uitofp .f32 : (⟨S4x512x512, .i1⟩ : BufTy).Contents (Elt F) → (⟨S4x512x512, .f32⟩ : BufTy).Contents (Elt F)),
    unary main_v57 main_v58 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v58 main_v59 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v56 main_v59 main_v60 (mulf : (⟨S16x4x512x512, .f32⟩ : BufTy).Contents (Elt F) → (⟨S16x4x512x512, .f32⟩ : BufTy).Contents (Elt F) → (⟨S16x4x512x512, .f32⟩ : BufTy).Contents (Elt F)),
    binary main_v27 main_v25 main_v61 (mulf : (⟨S4x512x512, .f32⟩ : BufTy).Contents (Elt F) → (⟨S4x512x512, .f32⟩ : BufTy).Contents (Elt F) → (⟨S4x512x512, .f32⟩ : BufTy).Contents (Elt F)),
    unary main_v61 main_v62 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v62 main_v63 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v60 main_v63 main_v64 (mulf : (⟨S16x4x512x512, .f32⟩ : BufTy).Contents (Elt F) → (⟨S16x4x512x512, .f32⟩ : BufTy).Contents (Elt F) → (⟨S16x4x512x512, .f32⟩ : BufTy).Contents (Elt F)),
    nullary main_cst_20 (constant S_ .f32 0x3F800000#32),
    unary main_cst_20 main_v65 (broadcastInDim S4x512x512 ![] bcast_S_S4x512x512 : (⟨S_, .f32⟩ : BufTy).Contents (Elt F) → (⟨S4x512x512, .f32⟩ : BufTy).Contents (Elt F)),
    binary main_v20 main_v65 main_v66 (addf : (⟨S4x512x512, .f32⟩ : BufTy).Contents (Elt F) → (⟨S4x512x512, .f32⟩ : BufTy).Contents (Elt F) → (⟨S4x512x512, .f32⟩ : BufTy).Contents (Elt F)),
    nullary main_cst_21 (constant S_ .f32 0x00000000#32),
    unary main_cst_21 main_v67 (broadcastInDim S4x512x512 ![] bcast_S_S4x512x512 : (⟨S_, .f32⟩ : BufTy).Contents (Elt F) → (⟨S4x512x512, .f32⟩ : BufTy).Contents (Elt F)),
    binary main_v66 main_v67 main_v68 (cmpf .oge : (⟨S4x512x512, .f32⟩ : BufTy).Contents (Elt F) → (⟨S4x512x512, .f32⟩ : BufTy).Contents (Elt F) → (⟨S4x512x512, .i1⟩ : BufTy).Contents (Elt F)),
    nullary main_cst_22 (constant S_ .f32 0x447FC000#32),
    unary main_cst_22 main_v69 (broadcastInDim S4x512x512 ![] bcast_S_S4x512x512 : (⟨S_, .f32⟩ : BufTy).Contents (Elt F) → (⟨S4x512x512, .f32⟩ : BufTy).Contents (Elt F)),
    binary main_v66 main_v69 main_v70 (cmpf .ole : (⟨S4x512x512, .f32⟩ : BufTy).Contents (Elt F) → (⟨S4x512x512, .f32⟩ : BufTy).Contents (Elt F) → (⟨S4x512x512, .i1⟩ : BufTy).Contents (Elt F)),
    binary main_v68 main_v70 main_v71 (andi : (⟨S4x512x512, .i1⟩ : BufTy).Contents (Elt F) → (⟨S4x512x512, .i1⟩ : BufTy).Contents (Elt F) → (⟨S4x512x512, .i1⟩ : BufTy).Contents (Elt F)),
    nullary main_cst_23 (constant S_ .f32 0x00000000#32),
    unary main_cst_23 main_v72 (broadcastInDim S4x512x512 ![] bcast_S_S4x512x512 : (⟨S_, .f32⟩ : BufTy).Contents (Elt F) → (⟨S4x512x512, .f32⟩ : BufTy).Contents (Elt F)),
    binary main_v21 main_v72 main_v73 (cmpf .oge : (⟨S4x512x512, .f32⟩ : BufTy).Contents (Elt F) → (⟨S4x512x512, .f32⟩ : BufTy).Contents (Elt F) → (⟨S4x512x512, .i1⟩ : BufTy).Contents (Elt F)),
    binary main_v71 main_v73 main_v74 (andi : (⟨S4x512x512, .i1⟩ : BufTy).Contents (Elt F) → (⟨S4x512x512, .i1⟩ : BufTy).Contents (Elt F) → (⟨S4x512x512, .i1⟩ : BufTy).Contents (Elt F)),
    nullary main_cst_24 (constant S_ .f32 0x447FC000#32),
    unary main_cst_24 main_v75 (broadcastInDim S4x512x512 ![] bcast_S_S4x512x512 : (⟨S_, .f32⟩ : BufTy).Contents (Elt F) → (⟨S4x512x512, .f32⟩ : BufTy).Contents (Elt F)),
    binary main_v21 main_v75 main_v76 (cmpf .ole : (⟨S4x512x512, .f32⟩ : BufTy).Contents (Elt F) → (⟨S4x512x512, .f32⟩ : BufTy).Contents (Elt F) → (⟨S4x512x512, .i1⟩ : BufTy).Contents (Elt F)),
    binary main_v74 main_v76 main_v77 (andi : (⟨S4x512x512, .i1⟩ : BufTy).Contents (Elt F) → (⟨S4x512x512, .i1⟩ : BufTy).Contents (Elt F) → (⟨S4x512x512, .i1⟩ : BufTy).Contents (Elt F)),
    nullary main_c_25 (constantI S_ 32 0#32),
    nullary main_c_26 (constantI S_ 32 1023#32),
    TRef.unary (TRef.of (T := ⟨S_, .i32⟩) main_c_25) (TRef.of (T := ⟨S_, .f32⟩) main_call2_v0) (sitofp .f32),
    TRef.unary (TRef.of (T := ⟨S_, .f32⟩) main_call2_v0) (TRef.of (T := ⟨S4x512x512, .f32⟩) main_call2_v1) (broadcastInDim S4x512x512 ![] bcast_S_S4x512x512),
    TRef.binary (TRef.of (T := ⟨S4x512x512, .f32⟩) main_call2_v1) (TRef.of (T := ⟨S4x512x512, .f32⟩) main_v66) (TRef.of (T := ⟨S4x512x512, .f32⟩) main_call2_v2) maximumf,
    TRef.unary (TRef.of (T := ⟨S_, .i32⟩) main_c_26) (TRef.of (T := ⟨S_, .f32⟩) main_call2_v3) (sitofp .f32),
    TRef.unary (TRef.of (T := ⟨S_, .f32⟩) main_call2_v3) (TRef.of (T := ⟨S4x512x512, .f32⟩) main_call2_v4) (broadcastInDim S4x512x512 ![] bcast_S_S4x512x512),
    TRef.binary (TRef.of (T := ⟨S4x512x512, .f32⟩) main_call2_v4) (TRef.of (T := ⟨S4x512x512, .f32⟩) main_call2_v2) (TRef.of (T := ⟨S4x512x512, .f32⟩) main_v78) minimumf,
    unary main_v78 main_v79 (fptosi 32 : (⟨S4x512x512, .f32⟩ : BufTy).Contents (Elt F) → (⟨S4x512x512, .i32⟩ : BufTy).Contents (Elt F)),
    nullary main_c_27 (constantI S_ 32 0#32),
    nullary main_c_28 (constantI S_ 32 1023#32),
    TRef.unary (TRef.of (T := ⟨S_, .i32⟩) main_c_27) (TRef.of (T := ⟨S_, .f32⟩) main_call3_v0) (sitofp .f32),
    TRef.unary (TRef.of (T := ⟨S_, .f32⟩) main_call3_v0) (TRef.of (T := ⟨S4x512x512, .f32⟩) main_call3_v1) (broadcastInDim S4x512x512 ![] bcast_S_S4x512x512),
    TRef.binary (TRef.of (T := ⟨S4x512x512, .f32⟩) main_call3_v1) (TRef.of (T := ⟨S4x512x512, .f32⟩) main_v21) (TRef.of (T := ⟨S4x512x512, .f32⟩) main_call3_v2) maximumf,
    TRef.unary (TRef.of (T := ⟨S_, .i32⟩) main_c_28) (TRef.of (T := ⟨S_, .f32⟩) main_call3_v3) (sitofp .f32),
    TRef.unary (TRef.of (T := ⟨S_, .f32⟩) main_call3_v3) (TRef.of (T := ⟨S4x512x512, .f32⟩) main_call3_v4) (broadcastInDim S4x512x512 ![] bcast_S_S4x512x512),
    TRef.binary (TRef.of (T := ⟨S4x512x512, .f32⟩) main_call3_v4) (TRef.of (T := ⟨S4x512x512, .f32⟩) main_call3_v2) (TRef.of (T := ⟨S4x512x512, .f32⟩) main_v80) minimumf,
    unary main_v80 main_v81 (fptosi 32 : (⟨S4x512x512, .f32⟩ : BufTy).Contents (Elt F) → (⟨S4x512x512, .i32⟩ : BufTy).Contents (Elt F)),
    nullary main_c_29 (constantI S_ 32 0#32),
    unary main_c_29 main_v82 (broadcastInDim S4x512x512 ![] bcast_S_S4x512x512 : (⟨S_, .i32⟩ : BufTy).Contents (Elt F) → (⟨S4x512x512, .i32⟩ : BufTy).Contents (Elt F)),
    binary main_v81 main_v82 main_v83 (cmpi .slt : (⟨S4x512x512, .i32⟩ : BufTy).Contents (Elt F) → (⟨S4x512x512, .i32⟩ : BufTy).Contents (Elt F) → (⟨S4x512x512, .i1⟩ : BufTy).Contents (Elt F)),
    nullary main_c_30 (constantI S_ 32 1024#32),
    unary main_c_30 main_v84 (broadcastInDim S4x512x512 ![] bcast_S_S4x512x512 : (⟨S_, .i32⟩ : BufTy).Contents (Elt F) → (⟨S4x512x512, .i32⟩ : BufTy).Contents (Elt F)),
    binary main_v81 main_v84 main_v85 (addi : (⟨S4x512x512, .i32⟩ : BufTy).Contents (Elt F) → (⟨S4x512x512, .i32⟩ : BufTy).Contents (Elt F) → (⟨S4x512x512, .i32⟩ : BufTy).Contents (Elt F)),
    ternary main_v83 main_v85 main_v81 main_v86 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]

set_option maxRecDepth 16384 in
set_option maxHeartbeats 4000000 in
/-- Part 1 of @main is the line of its operations. -/
theorem part1 (d : Dev nD) : main_part1 (F := F) d = seq ops1 := rfl

set_option maxRecDepth 16384 in
theorem sub1 : (ops1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

theorem fresh1 : (ops1 : List (HloOp τ sig (Elt F))).Forall fun op => op.fresh = ∅ := by
  simp only [List.Forall]; repeat' constructor

/-- The operations of part 2, in order. -/
abbrev ops2 : List (HloOp τ sig (Elt F)) :=
  [ nullary main_c_31 (constantI S_ 32 0#32),
    unary main_c_31 main_v87 (broadcastInDim S4x512x512 ![] bcast_S_S4x512x512 : (⟨S_, .i32⟩ : BufTy).Contents (Elt F) → (⟨S4x512x512, .i32⟩ : BufTy).Contents (Elt F)),
    binary main_v79 main_v87 main_v88 (cmpi .slt : (⟨S4x512x512, .i32⟩ : BufTy).Contents (Elt F) → (⟨S4x512x512, .i32⟩ : BufTy).Contents (Elt F) → (⟨S4x512x512, .i1⟩ : BufTy).Contents (Elt F)),
    nullary main_c_32 (constantI S_ 32 1024#32),
    unary main_c_32 main_v89 (broadcastInDim S4x512x512 ![] bcast_S_S4x512x512 : (⟨S_, .i32⟩ : BufTy).Contents (Elt F) → (⟨S4x512x512, .i32⟩ : BufTy).Contents (Elt F)),
    binary main_v79 main_v89 main_v90 (addi : (⟨S4x512x512, .i32⟩ : BufTy).Contents (Elt F) → (⟨S4x512x512, .i32⟩ : BufTy).Contents (Elt F) → (⟨S4x512x512, .i32⟩ : BufTy).Contents (Elt F)),
    ternary main_v88 main_v90 main_v79 main_v91 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v86 main_v92 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v91 main_v93 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v92 main_v93 main_v94 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg2 main_v94 main_v95 ((fun x i => Host.gather gather_S16x1024x1024_S4x512x512x2_S16x4x512x512_0_12_n_n_12_3_1611 x i) : (⟨S16x1024x1024, .f32⟩ : BufTy).Contents (Elt F) → (⟨S4x512x512x2, .i32⟩ : BufTy).Contents (Elt F) → (⟨S16x4x512x512, .f32⟩ : BufTy).Contents (Elt F)),
    unary main_v77 main_v96 (uitofp .f32 : (⟨S4x512x512, .i1⟩ : BufTy).Contents (Elt F) → (⟨S4x512x512, .f32⟩ : BufTy).Contents (Elt F)),
    unary main_v96 main_v97 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v97 main_v98 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v95 main_v98 main_v99 (mulf : (⟨S16x4x512x512, .f32⟩ : BufTy).Contents (Elt F) → (⟨S16x4x512x512, .f32⟩ : BufTy).Contents (Elt F) → (⟨S16x4x512x512, .f32⟩ : BufTy).Contents (Elt F)),
    binary main_v27 main_v22 main_v100 (mulf : (⟨S4x512x512, .f32⟩ : BufTy).Contents (Elt F) → (⟨S4x512x512, .f32⟩ : BufTy).Contents (Elt F) → (⟨S4x512x512, .f32⟩ : BufTy).Contents (Elt F)),
    unary main_v100 main_v101 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v101 main_v102 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v99 main_v102 main_v103 (mulf : (⟨S16x4x512x512, .f32⟩ : BufTy).Contents (Elt F) → (⟨S16x4x512x512, .f32⟩ : BufTy).Contents (Elt F) → (⟨S16x4x512x512, .f32⟩ : BufTy).Contents (Elt F)),
    binary main_v64 main_v103 main_v104 (addf : (⟨S16x4x512x512, .f32⟩ : BufTy).Contents (Elt F) → (⟨S16x4x512x512, .f32⟩ : BufTy).Contents (Elt F) → (⟨S16x4x512x512, .f32⟩ : BufTy).Contents (Elt F)),
    nullary main_cst_33 (constant S_ .f32 0x3F800000#32),
    unary main_cst_33 main_v105 (broadcastInDim S4x512x512 ![] bcast_S_S4x512x512 : (⟨S_, .f32⟩ : BufTy).Contents (Elt F) → (⟨S4x512x512, .f32⟩ : BufTy).Contents (Elt F)),
    binary main_v21 main_v105 main_v106 (addf : (⟨S4x512x512, .f32⟩ : BufTy).Contents (Elt F) → (⟨S4x512x512, .f32⟩ : BufTy).Contents (Elt F) → (⟨S4x512x512, .f32⟩ : BufTy).Contents (Elt F)),
    nullary main_cst_34 (constant S_ .f32 0x00000000#32),
    unary main_cst_34 main_v107 (broadcastInDim S4x512x512 ![] bcast_S_S4x512x512 : (⟨S_, .f32⟩ : BufTy).Contents (Elt F) → (⟨S4x512x512, .f32⟩ : BufTy).Contents (Elt F)),
    binary main_v20 main_v107 main_v108 (cmpf .oge : (⟨S4x512x512, .f32⟩ : BufTy).Contents (Elt F) → (⟨S4x512x512, .f32⟩ : BufTy).Contents (Elt F) → (⟨S4x512x512, .i1⟩ : BufTy).Contents (Elt F)),
    nullary main_cst_35 (constant S_ .f32 0x447FC000#32),
    unary main_cst_35 main_v109 (broadcastInDim S4x512x512 ![] bcast_S_S4x512x512 : (⟨S_, .f32⟩ : BufTy).Contents (Elt F) → (⟨S4x512x512, .f32⟩ : BufTy).Contents (Elt F)),
    binary main_v20 main_v109 main_v110 (cmpf .ole : (⟨S4x512x512, .f32⟩ : BufTy).Contents (Elt F) → (⟨S4x512x512, .f32⟩ : BufTy).Contents (Elt F) → (⟨S4x512x512, .i1⟩ : BufTy).Contents (Elt F)),
    binary main_v108 main_v110 main_v111 (andi : (⟨S4x512x512, .i1⟩ : BufTy).Contents (Elt F) → (⟨S4x512x512, .i1⟩ : BufTy).Contents (Elt F) → (⟨S4x512x512, .i1⟩ : BufTy).Contents (Elt F)),
    nullary main_cst_36 (constant S_ .f32 0x00000000#32),
    unary main_cst_36 main_v112 (broadcastInDim S4x512x512 ![] bcast_S_S4x512x512 : (⟨S_, .f32⟩ : BufTy).Contents (Elt F) → (⟨S4x512x512, .f32⟩ : BufTy).Contents (Elt F)),
    binary main_v106 main_v112 main_v113 (cmpf .oge : (⟨S4x512x512, .f32⟩ : BufTy).Contents (Elt F) → (⟨S4x512x512, .f32⟩ : BufTy).Contents (Elt F) → (⟨S4x512x512, .i1⟩ : BufTy).Contents (Elt F)),
    binary main_v111 main_v113 main_v114 (andi : (⟨S4x512x512, .i1⟩ : BufTy).Contents (Elt F) → (⟨S4x512x512, .i1⟩ : BufTy).Contents (Elt F) → (⟨S4x512x512, .i1⟩ : BufTy).Contents (Elt F)),
    nullary main_cst_37 (constant S_ .f32 0x447FC000#32),
    unary main_cst_37 main_v115 (broadcastInDim S4x512x512 ![] bcast_S_S4x512x512 : (⟨S_, .f32⟩ : BufTy).Contents (Elt F) → (⟨S4x512x512, .f32⟩ : BufTy).Contents (Elt F)),
    binary main_v106 main_v115 main_v116 (cmpf .ole : (⟨S4x512x512, .f32⟩ : BufTy).Contents (Elt F) → (⟨S4x512x512, .f32⟩ : BufTy).Contents (Elt F) → (⟨S4x512x512, .i1⟩ : BufTy).Contents (Elt F)),
    binary main_v114 main_v116 main_v117 (andi : (⟨S4x512x512, .i1⟩ : BufTy).Contents (Elt F) → (⟨S4x512x512, .i1⟩ : BufTy).Contents (Elt F) → (⟨S4x512x512, .i1⟩ : BufTy).Contents (Elt F)),
    nullary main_c_38 (constantI S_ 32 0#32),
    nullary main_c_39 (constantI S_ 32 1023#32),
    TRef.unary (TRef.of (T := ⟨S_, .i32⟩) main_c_38) (TRef.of (T := ⟨S_, .f32⟩) main_call4_v0) (sitofp .f32),
    TRef.unary (TRef.of (T := ⟨S_, .f32⟩) main_call4_v0) (TRef.of (T := ⟨S4x512x512, .f32⟩) main_call4_v1) (broadcastInDim S4x512x512 ![] bcast_S_S4x512x512),
    TRef.binary (TRef.of (T := ⟨S4x512x512, .f32⟩) main_call4_v1) (TRef.of (T := ⟨S4x512x512, .f32⟩) main_v20) (TRef.of (T := ⟨S4x512x512, .f32⟩) main_call4_v2) maximumf,
    TRef.unary (TRef.of (T := ⟨S_, .i32⟩) main_c_39) (TRef.of (T := ⟨S_, .f32⟩) main_call4_v3) (sitofp .f32),
    TRef.unary (TRef.of (T := ⟨S_, .f32⟩) main_call4_v3) (TRef.of (T := ⟨S4x512x512, .f32⟩) main_call4_v4) (broadcastInDim S4x512x512 ![] bcast_S_S4x512x512),
    TRef.binary (TRef.of (T := ⟨S4x512x512, .f32⟩) main_call4_v4) (TRef.of (T := ⟨S4x512x512, .f32⟩) main_call4_v2) (TRef.of (T := ⟨S4x512x512, .f32⟩) main_v118) minimumf,
    unary main_v118 main_v119 (fptosi 32 : (⟨S4x512x512, .f32⟩ : BufTy).Contents (Elt F) → (⟨S4x512x512, .i32⟩ : BufTy).Contents (Elt F)),
    nullary main_c_40 (constantI S_ 32 0#32),
    nullary main_c_41 (constantI S_ 32 1023#32),
    TRef.unary (TRef.of (T := ⟨S_, .i32⟩) main_c_40) (TRef.of (T := ⟨S_, .f32⟩) main_call5_v0) (sitofp .f32),
    TRef.unary (TRef.of (T := ⟨S_, .f32⟩) main_call5_v0) (TRef.of (T := ⟨S4x512x512, .f32⟩) main_call5_v1) (broadcastInDim S4x512x512 ![] bcast_S_S4x512x512),
    TRef.binary (TRef.of (T := ⟨S4x512x512, .f32⟩) main_call5_v1) (TRef.of (T := ⟨S4x512x512, .f32⟩) main_v106) (TRef.of (T := ⟨S4x512x512, .f32⟩) main_call5_v2) maximumf,
    TRef.unary (TRef.of (T := ⟨S_, .i32⟩) main_c_41) (TRef.of (T := ⟨S_, .f32⟩) main_call5_v3) (sitofp .f32),
    TRef.unary (TRef.of (T := ⟨S_, .f32⟩) main_call5_v3) (TRef.of (T := ⟨S4x512x512, .f32⟩) main_call5_v4) (broadcastInDim S4x512x512 ![] bcast_S_S4x512x512),
    TRef.binary (TRef.of (T := ⟨S4x512x512, .f32⟩) main_call5_v4) (TRef.of (T := ⟨S4x512x512, .f32⟩) main_call5_v2) (TRef.of (T := ⟨S4x512x512, .f32⟩) main_v120) minimumf,
    unary main_v120 main_v121 (fptosi 32 : (⟨S4x512x512, .f32⟩ : BufTy).Contents (Elt F) → (⟨S4x512x512, .i32⟩ : BufTy).Contents (Elt F)),
    nullary main_c_42 (constantI S_ 32 0#32),
    unary main_c_42 main_v122 (broadcastInDim S4x512x512 ![] bcast_S_S4x512x512 : (⟨S_, .i32⟩ : BufTy).Contents (Elt F) → (⟨S4x512x512, .i32⟩ : BufTy).Contents (Elt F)),
    binary main_v121 main_v122 main_v123 (cmpi .slt : (⟨S4x512x512, .i32⟩ : BufTy).Contents (Elt F) → (⟨S4x512x512, .i32⟩ : BufTy).Contents (Elt F) → (⟨S4x512x512, .i1⟩ : BufTy).Contents (Elt F)),
    nullary main_c_43 (constantI S_ 32 1024#32),
    unary main_c_43 main_v124 (broadcastInDim S4x512x512 ![] bcast_S_S4x512x512 : (⟨S_, .i32⟩ : BufTy).Contents (Elt F) → (⟨S4x512x512, .i32⟩ : BufTy).Contents (Elt F)),
    binary main_v121 main_v124 main_v125 (addi : (⟨S4x512x512, .i32⟩ : BufTy).Contents (Elt F) → (⟨S4x512x512, .i32⟩ : BufTy).Contents (Elt F) → (⟨S4x512x512, .i32⟩ : BufTy).Contents (Elt F)),
    ternary main_v123 main_v125 main_v121 main_v126 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_44 (constantI S_ 32 0#32),
    unary main_c_44 main_v127 (broadcastInDim S4x512x512 ![] bcast_S_S4x512x512 : (⟨S_, .i32⟩ : BufTy).Contents (Elt F) → (⟨S4x512x512, .i32⟩ : BufTy).Contents (Elt F)),
    binary main_v119 main_v127 main_v128 (cmpi .slt : (⟨S4x512x512, .i32⟩ : BufTy).Contents (Elt F) → (⟨S4x512x512, .i32⟩ : BufTy).Contents (Elt F) → (⟨S4x512x512, .i1⟩ : BufTy).Contents (Elt F)),
    nullary main_c_45 (constantI S_ 32 1024#32),
    unary main_c_45 main_v129 (broadcastInDim S4x512x512 ![] bcast_S_S4x512x512 : (⟨S_, .i32⟩ : BufTy).Contents (Elt F) → (⟨S4x512x512, .i32⟩ : BufTy).Contents (Elt F)),
    binary main_v119 main_v129 main_v130 (addi : (⟨S4x512x512, .i32⟩ : BufTy).Contents (Elt F) → (⟨S4x512x512, .i32⟩ : BufTy).Contents (Elt F) → (⟨S4x512x512, .i32⟩ : BufTy).Contents (Elt F)),
    ternary main_v128 main_v130 main_v119 main_v131 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]

set_option maxRecDepth 16384 in
set_option maxHeartbeats 4000000 in
/-- Part 2 of @main is the line of its operations. -/
theorem part2 (d : Dev nD) : main_part2 (F := F) d = seq ops2 := rfl

set_option maxRecDepth 16384 in
theorem sub2 : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem fresh2 : (ops2 : List (HloOp τ sig (Elt F))).Forall fun op => op.fresh = ∅ := by
  simp only [List.Forall]; repeat' constructor

/-- The operations of part 3, in order. -/
abbrev ops3 : List (HloOp τ sig (Elt F)) :=
  [ unary main_v126 main_v132 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v131 main_v133 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v132 main_v133 main_v134 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg2 main_v134 main_v135 ((fun x i => Host.gather gather_S16x1024x1024_S4x512x512x2_S16x4x512x512_0_12_n_n_12_3_1611 x i) : (⟨S16x1024x1024, .f32⟩ : BufTy).Contents (Elt F) → (⟨S4x512x512x2, .i32⟩ : BufTy).Contents (Elt F) → (⟨S16x4x512x512, .f32⟩ : BufTy).Contents (Elt F)),
    unary main_v117 main_v136 (uitofp .f32 : (⟨S4x512x512, .i1⟩ : BufTy).Contents (Elt F) → (⟨S4x512x512, .f32⟩ : BufTy).Contents (Elt F)),
    unary main_v136 main_v137 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v137 main_v138 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v135 main_v138 main_v139 (mulf : (⟨S16x4x512x512, .f32⟩ : BufTy).Contents (Elt F) → (⟨S16x4x512x512, .f32⟩ : BufTy).Contents (Elt F) → (⟨S16x4x512x512, .f32⟩ : BufTy).Contents (Elt F)),
    binary main_v23 main_v25 main_v140 (mulf : (⟨S4x512x512, .f32⟩ : BufTy).Contents (Elt F) → (⟨S4x512x512, .f32⟩ : BufTy).Contents (Elt F) → (⟨S4x512x512, .f32⟩ : BufTy).Contents (Elt F)),
    unary main_v140 main_v141 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v141 main_v142 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v139 main_v142 main_v143 (mulf : (⟨S16x4x512x512, .f32⟩ : BufTy).Contents (Elt F) → (⟨S16x4x512x512, .f32⟩ : BufTy).Contents (Elt F) → (⟨S16x4x512x512, .f32⟩ : BufTy).Contents (Elt F)),
    binary main_v104 main_v143 main_v144 (addf : (⟨S16x4x512x512, .f32⟩ : BufTy).Contents (Elt F) → (⟨S16x4x512x512, .f32⟩ : BufTy).Contents (Elt F) → (⟨S16x4x512x512, .f32⟩ : BufTy).Contents (Elt F)),
    nullary main_cst_46 (constant S_ .f32 0x3F800000#32),
    unary main_cst_46 main_v145 (broadcastInDim S4x512x512 ![] bcast_S_S4x512x512 : (⟨S_, .f32⟩ : BufTy).Contents (Elt F) → (⟨S4x512x512, .f32⟩ : BufTy).Contents (Elt F)),
    binary main_v21 main_v145 main_v146 (addf : (⟨S4x512x512, .f32⟩ : BufTy).Contents (Elt F) → (⟨S4x512x512, .f32⟩ : BufTy).Contents (Elt F) → (⟨S4x512x512, .f32⟩ : BufTy).Contents (Elt F)),
    nullary main_cst_47 (constant S_ .f32 0x3F800000#32),
    unary main_cst_47 main_v147 (broadcastInDim S4x512x512 ![] bcast_S_S4x512x512 : (⟨S_, .f32⟩ : BufTy).Contents (Elt F) → (⟨S4x512x512, .f32⟩ : BufTy).Contents (Elt F)),
    binary main_v20 main_v147 main_v148 (addf : (⟨S4x512x512, .f32⟩ : BufTy).Contents (Elt F) → (⟨S4x512x512, .f32⟩ : BufTy).Contents (Elt F) → (⟨S4x512x512, .f32⟩ : BufTy).Contents (Elt F)),
    nullary main_cst_48 (constant S_ .f32 0x00000000#32),
    unary main_cst_48 main_v149 (broadcastInDim S4x512x512 ![] bcast_S_S4x512x512 : (⟨S_, .f32⟩ : BufTy).Contents (Elt F) → (⟨S4x512x512, .f32⟩ : BufTy).Contents (Elt F)),
    binary main_v148 main_v149 main_v150 (cmpf .oge : (⟨S4x512x512, .f32⟩ : BufTy).Contents (Elt F) → (⟨S4x512x512, .f32⟩ : BufTy).Contents (Elt F) → (⟨S4x512x512, .i1⟩ : BufTy).Contents (Elt F)),
    nullary main_cst_49 (constant S_ .f32 0x447FC000#32),
    unary main_cst_49 main_v151 (broadcastInDim S4x512x512 ![] bcast_S_S4x512x512 : (⟨S_, .f32⟩ : BufTy).Contents (Elt F) → (⟨S4x512x512, .f32⟩ : BufTy).Contents (Elt F)),
    binary main_v148 main_v151 main_v152 (cmpf .ole : (⟨S4x512x512, .f32⟩ : BufTy).Contents (Elt F) → (⟨S4x512x512, .f32⟩ : BufTy).Contents (Elt F) → (⟨S4x512x512, .i1⟩ : BufTy).Contents (Elt F)),
    binary main_v150 main_v152 main_v153 (andi : (⟨S4x512x512, .i1⟩ : BufTy).Contents (Elt F) → (⟨S4x512x512, .i1⟩ : BufTy).Contents (Elt F) → (⟨S4x512x512, .i1⟩ : BufTy).Contents (Elt F)),
    nullary main_cst_50 (constant S_ .f32 0x00000000#32),
    unary main_cst_50 main_v154 (broadcastInDim S4x512x512 ![] bcast_S_S4x512x512 : (⟨S_, .f32⟩ : BufTy).Contents (Elt F) → (⟨S4x512x512, .f32⟩ : BufTy).Contents (Elt F)),
    binary main_v146 main_v154 main_v155 (cmpf .oge : (⟨S4x512x512, .f32⟩ : BufTy).Contents (Elt F) → (⟨S4x512x512, .f32⟩ : BufTy).Contents (Elt F) → (⟨S4x512x512, .i1⟩ : BufTy).Contents (Elt F)),
    binary main_v153 main_v155 main_v156 (andi : (⟨S4x512x512, .i1⟩ : BufTy).Contents (Elt F) → (⟨S4x512x512, .i1⟩ : BufTy).Contents (Elt F) → (⟨S4x512x512, .i1⟩ : BufTy).Contents (Elt F)),
    nullary main_cst_51 (constant S_ .f32 0x447FC000#32),
    unary main_cst_51 main_v157 (broadcastInDim S4x512x512 ![] bcast_S_S4x512x512 : (⟨S_, .f32⟩ : BufTy).Contents (Elt F) → (⟨S4x512x512, .f32⟩ : BufTy).Contents (Elt F)),
    binary main_v146 main_v157 main_v158 (cmpf .ole : (⟨S4x512x512, .f32⟩ : BufTy).Contents (Elt F) → (⟨S4x512x512, .f32⟩ : BufTy).Contents (Elt F) → (⟨S4x512x512, .i1⟩ : BufTy).Contents (Elt F)),
    binary main_v156 main_v158 main_v159 (andi : (⟨S4x512x512, .i1⟩ : BufTy).Contents (Elt F) → (⟨S4x512x512, .i1⟩ : BufTy).Contents (Elt F) → (⟨S4x512x512, .i1⟩ : BufTy).Contents (Elt F)),
    nullary main_c_52 (constantI S_ 32 0#32),
    nullary main_c_53 (constantI S_ 32 1023#32),
    TRef.unary (TRef.of (T := ⟨S_, .i32⟩) main_c_52) (TRef.of (T := ⟨S_, .f32⟩) main_call6_v0) (sitofp .f32),
    TRef.unary (TRef.of (T := ⟨S_, .f32⟩) main_call6_v0) (TRef.of (T := ⟨S4x512x512, .f32⟩) main_call6_v1) (broadcastInDim S4x512x512 ![] bcast_S_S4x512x512),
    TRef.binary (TRef.of (T := ⟨S4x512x512, .f32⟩) main_call6_v1) (TRef.of (T := ⟨S4x512x512, .f32⟩) main_v148) (TRef.of (T := ⟨S4x512x512, .f32⟩) main_call6_v2) maximumf,
    TRef.unary (TRef.of (T := ⟨S_, .i32⟩) main_c_53) (TRef.of (T := ⟨S_, .f32⟩) main_call6_v3) (sitofp .f32),
    TRef.unary (TRef.of (T := ⟨S_, .f32⟩) main_call6_v3) (TRef.of (T := ⟨S4x512x512, .f32⟩) main_call6_v4) (broadcastInDim S4x512x512 ![] bcast_S_S4x512x512),
    TRef.binary (TRef.of (T := ⟨S4x512x512, .f32⟩) main_call6_v4) (TRef.of (T := ⟨S4x512x512, .f32⟩) main_call6_v2) (TRef.of (T := ⟨S4x512x512, .f32⟩) main_v160) minimumf,
    unary main_v160 main_v161 (fptosi 32 : (⟨S4x512x512, .f32⟩ : BufTy).Contents (Elt F) → (⟨S4x512x512, .i32⟩ : BufTy).Contents (Elt F)),
    nullary main_c_54 (constantI S_ 32 0#32),
    nullary main_c_55 (constantI S_ 32 1023#32),
    TRef.unary (TRef.of (T := ⟨S_, .i32⟩) main_c_54) (TRef.of (T := ⟨S_, .f32⟩) main_call7_v0) (sitofp .f32),
    TRef.unary (TRef.of (T := ⟨S_, .f32⟩) main_call7_v0) (TRef.of (T := ⟨S4x512x512, .f32⟩) main_call7_v1) (broadcastInDim S4x512x512 ![] bcast_S_S4x512x512),
    TRef.binary (TRef.of (T := ⟨S4x512x512, .f32⟩) main_call7_v1) (TRef.of (T := ⟨S4x512x512, .f32⟩) main_v146) (TRef.of (T := ⟨S4x512x512, .f32⟩) main_call7_v2) maximumf,
    TRef.unary (TRef.of (T := ⟨S_, .i32⟩) main_c_55) (TRef.of (T := ⟨S_, .f32⟩) main_call7_v3) (sitofp .f32),
    TRef.unary (TRef.of (T := ⟨S_, .f32⟩) main_call7_v3) (TRef.of (T := ⟨S4x512x512, .f32⟩) main_call7_v4) (broadcastInDim S4x512x512 ![] bcast_S_S4x512x512),
    TRef.binary (TRef.of (T := ⟨S4x512x512, .f32⟩) main_call7_v4) (TRef.of (T := ⟨S4x512x512, .f32⟩) main_call7_v2) (TRef.of (T := ⟨S4x512x512, .f32⟩) main_v162) minimumf,
    unary main_v162 main_v163 (fptosi 32 : (⟨S4x512x512, .f32⟩ : BufTy).Contents (Elt F) → (⟨S4x512x512, .i32⟩ : BufTy).Contents (Elt F)),
    nullary main_c_56 (constantI S_ 32 0#32),
    unary main_c_56 main_v164 (broadcastInDim S4x512x512 ![] bcast_S_S4x512x512 : (⟨S_, .i32⟩ : BufTy).Contents (Elt F) → (⟨S4x512x512, .i32⟩ : BufTy).Contents (Elt F)),
    binary main_v163 main_v164 main_v165 (cmpi .slt : (⟨S4x512x512, .i32⟩ : BufTy).Contents (Elt F) → (⟨S4x512x512, .i32⟩ : BufTy).Contents (Elt F) → (⟨S4x512x512, .i1⟩ : BufTy).Contents (Elt F)),
    nullary main_c_57 (constantI S_ 32 1024#32),
    unary main_c_57 main_v166 (broadcastInDim S4x512x512 ![] bcast_S_S4x512x512 : (⟨S_, .i32⟩ : BufTy).Contents (Elt F) → (⟨S4x512x512, .i32⟩ : BufTy).Contents (Elt F)),
    binary main_v163 main_v166 main_v167 (addi : (⟨S4x512x512, .i32⟩ : BufTy).Contents (Elt F) → (⟨S4x512x512, .i32⟩ : BufTy).Contents (Elt F) → (⟨S4x512x512, .i32⟩ : BufTy).Contents (Elt F)),
    ternary main_v165 main_v167 main_v163 main_v168 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_58 (constantI S_ 32 0#32),
    unary main_c_58 main_v169 (broadcastInDim S4x512x512 ![] bcast_S_S4x512x512 : (⟨S_, .i32⟩ : BufTy).Contents (Elt F) → (⟨S4x512x512, .i32⟩ : BufTy).Contents (Elt F)),
    binary main_v161 main_v169 main_v170 (cmpi .slt : (⟨S4x512x512, .i32⟩ : BufTy).Contents (Elt F) → (⟨S4x512x512, .i32⟩ : BufTy).Contents (Elt F) → (⟨S4x512x512, .i1⟩ : BufTy).Contents (Elt F)),
    nullary main_c_59 (constantI S_ 32 1024#32),
    unary main_c_59 main_v171 (broadcastInDim S4x512x512 ![] bcast_S_S4x512x512 : (⟨S_, .i32⟩ : BufTy).Contents (Elt F) → (⟨S4x512x512, .i32⟩ : BufTy).Contents (Elt F)),
    binary main_v161 main_v171 main_v172 (addi : (⟨S4x512x512, .i32⟩ : BufTy).Contents (Elt F) → (⟨S4x512x512, .i32⟩ : BufTy).Contents (Elt F) → (⟨S4x512x512, .i32⟩ : BufTy).Contents (Elt F)),
    ternary main_v170 main_v172 main_v161 main_v173 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v168 main_v174 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v173 main_v175 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v174 main_v175 main_v176 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg2 main_v176 main_v177 ((fun x i => Host.gather gather_S16x1024x1024_S4x512x512x2_S16x4x512x512_0_12_n_n_12_3_1611 x i) : (⟨S16x1024x1024, .f32⟩ : BufTy).Contents (Elt F) → (⟨S4x512x512x2, .i32⟩ : BufTy).Contents (Elt F) → (⟨S16x4x512x512, .f32⟩ : BufTy).Contents (Elt F)) ]

set_option maxRecDepth 16384 in
set_option maxHeartbeats 4000000 in
/-- Part 3 of @main is the line of its operations. -/
theorem part3 (d : Dev nD) : main_part3 (F := F) d = seq ops3 := rfl

set_option maxRecDepth 16384 in
theorem sub3 : (ops3 : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

theorem fresh3 : (ops3 : List (HloOp τ sig (Elt F))).Forall fun op => op.fresh = ∅ := by
  simp only [List.Forall]; repeat' constructor

/-- The operations of part 4, in order. -/
abbrev ops4 : List (HloOp τ sig (Elt F)) :=
  [ unary main_v159 main_v178 (uitofp .f32 : (⟨S4x512x512, .i1⟩ : BufTy).Contents (Elt F) → (⟨S4x512x512, .f32⟩ : BufTy).Contents (Elt F)),
    unary main_v178 main_v179 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v179 main_v180 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v177 main_v180 main_v181 (mulf : (⟨S16x4x512x512, .f32⟩ : BufTy).Contents (Elt F) → (⟨S16x4x512x512, .f32⟩ : BufTy).Contents (Elt F) → (⟨S16x4x512x512, .f32⟩ : BufTy).Contents (Elt F)),
    binary main_v23 main_v22 main_v182 (mulf : (⟨S4x512x512, .f32⟩ : BufTy).Contents (Elt F) → (⟨S4x512x512, .f32⟩ : BufTy).Contents (Elt F) → (⟨S4x512x512, .f32⟩ : BufTy).Contents (Elt F)),
    unary main_v182 main_v183 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v183 main_v184 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v181 main_v184 main_v185 (mulf : (⟨S16x4x512x512, .f32⟩ : BufTy).Contents (Elt F) → (⟨S16x4x512x512, .f32⟩ : BufTy).Contents (Elt F) → (⟨S16x4x512x512, .f32⟩ : BufTy).Contents (Elt F)),
    binary main_v144 main_v185 main_v186 (addf : (⟨S16x4x512x512, .f32⟩ : BufTy).Contents (Elt F) → (⟨S16x4x512x512, .f32⟩ : BufTy).Contents (Elt F) → (⟨S16x4x512x512, .f32⟩ : BufTy).Contents (Elt F)),
    unary main_v186 main_v187 ((transpose S4x16x512x512 [1, 0, 2, 3] · transposes_S16x4x512x512_S4x16x512x512_1_0_2_3) : (⟨S16x4x512x512, .f32⟩ : BufTy).Contents (Elt F) → (⟨S4x16x512x512, .f32⟩ : BufTy).Contents (Elt F)),
    unary main_v3 main_v188 ((extractStridedSlice S4x512x512x1 ![0, 0, 0, 0] · slices_S4x512x512x2_S4x512x512x1_0_0_0_0) : (⟨S4x512x512x2, .f32⟩ : BufTy).Contents (Elt F) → (⟨S4x512x512x1, .f32⟩ : BufTy).Contents (Elt F)),
    reshape main_v188 main_v189 rfl shapeCasts_S4x512x512x1_S4x512x512,
    unary main_v3 main_v190 ((extractStridedSlice S4x512x512x1 ![0, 0, 0, 1] · slices_S4x512x512x2_S4x512x512x1_0_0_0_1) : (⟨S4x512x512x2, .f32⟩ : BufTy).Contents (Elt F) → (⟨S4x512x512x1, .f32⟩ : BufTy).Contents (Elt F)),
    reshape main_v190 main_v191 rfl shapeCasts_S4x512x512x1_S4x512x512,
    nullary main_cst_60 (constant S_ .f32 0x3F800000#32),
    unary main_cst_60 main_v192 (broadcastInDim S4x512x512 ![] bcast_S_S4x512x512 : (⟨S_, .f32⟩ : BufTy).Contents (Elt F) → (⟨S4x512x512, .f32⟩ : BufTy).Contents (Elt F)),
    binary main_v189 main_v192 main_v193 (addf : (⟨S4x512x512, .f32⟩ : BufTy).Contents (Elt F) → (⟨S4x512x512, .f32⟩ : BufTy).Contents (Elt F) → (⟨S4x512x512, .f32⟩ : BufTy).Contents (Elt F)),
    nullary main_cst_61 (constant S_ .f32 0x3F000000#32),
    unary main_cst_61 main_v194 (broadcastInDim S4x512x512 ![] bcast_S_S4x512x512 : (⟨S_, .f32⟩ : BufTy).Contents (Elt F) → (⟨S4x512x512, .f32⟩ : BufTy).Contents (Elt F)),
    binary main_v193 main_v194 main_v195 (mulf : (⟨S4x512x512, .f32⟩ : BufTy).Contents (Elt F) → (⟨S4x512x512, .f32⟩ : BufTy).Contents (Elt F) → (⟨S4x512x512, .f32⟩ : BufTy).Contents (Elt F)),
    nullary main_cst_62 (constant S_ .f32 0x43FF8000#32),
    unary main_cst_62 main_v196 (broadcastInDim S4x512x512 ![] bcast_S_S4x512x512 : (⟨S_, .f32⟩ : BufTy).Contents (Elt F) → (⟨S4x512x512, .f32⟩ : BufTy).Contents (Elt F)),
    binary main_v195 main_v196 main_v197 (mulf : (⟨S4x512x512, .f32⟩ : BufTy).Contents (Elt F) → (⟨S4x512x512, .f32⟩ : BufTy).Contents (Elt F) → (⟨S4x512x512, .f32⟩ : BufTy).Contents (Elt F)),
    nullary main_cst_63 (constant S_ .f32 0x3F800000#32),
    unary main_cst_63 main_v198 (broadcastInDim S4x512x512 ![] bcast_S_S4x512x512 : (⟨S_, .f32⟩ : BufTy).Contents (Elt F) → (⟨S4x512x512, .f32⟩ : BufTy).Contents (Elt F)),
    binary main_v191 main_v198 main_v199 (addf : (⟨S4x512x512, .f32⟩ : BufTy).Contents (Elt F) → (⟨S4x512x512, .f32⟩ : BufTy).Contents (Elt F) → (⟨S4x512x512, .f32⟩ : BufTy).Contents (Elt F)),
    nullary main_cst_64 (constant S_ .f32 0x3F000000#32),
    unary main_cst_64 main_v200 (broadcastInDim S4x512x512 ![] bcast_S_S4x512x512 : (⟨S_, .f32⟩ : BufTy).Contents (Elt F) → (⟨S4x512x512, .f32⟩ : BufTy).Contents (Elt F)),
    binary main_v199 main_v200 main_v201 (mulf : (⟨S4x512x512, .f32⟩ : BufTy).Contents (Elt F) → (⟨S4x512x512, .f32⟩ : BufTy).Contents (Elt F) → (⟨S4x512x512, .f32⟩ : BufTy).Contents (Elt F)),
    nullary main_cst_65 (constant S_ .f32 0x43FF8000#32),
    unary main_cst_65 main_v202 (broadcastInDim S4x512x512 ![] bcast_S_S4x512x512 : (⟨S_, .f32⟩ : BufTy).Contents (Elt F) → (⟨S4x512x512, .f32⟩ : BufTy).Contents (Elt F)),
    binary main_v201 main_v202 main_v203 (mulf : (⟨S4x512x512, .f32⟩ : BufTy).Contents (Elt F) → (⟨S4x512x512, .f32⟩ : BufTy).Contents (Elt F) → (⟨S4x512x512, .f32⟩ : BufTy).Contents (Elt F)),
    unary main_v197 main_v204 (Host.floor : (⟨S4x512x512, .f32⟩ : BufTy).Contents (Elt F) → (⟨S4x512x512, .f32⟩ : BufTy).Contents (Elt F)),
    unary main_v203 main_v205 (Host.floor : (⟨S4x512x512, .f32⟩ : BufTy).Contents (Elt F) → (⟨S4x512x512, .f32⟩ : BufTy).Contents (Elt F)),
    binary main_v197 main_v204 main_v206 (subf : (⟨S4x512x512, .f32⟩ : BufTy).Contents (Elt F) → (⟨S4x512x512, .f32⟩ : BufTy).Contents (Elt F) → (⟨S4x512x512, .f32⟩ : BufTy).Contents (Elt F)),
    binary main_v203 main_v205 main_v207 (subf : (⟨S4x512x512, .f32⟩ : BufTy).Contents (Elt F) → (⟨S4x512x512, .f32⟩ : BufTy).Contents (Elt F) → (⟨S4x512x512, .f32⟩ : BufTy).Contents (Elt F)),
    nullary main_cst_66 (constant S_ .f32 0x3F800000#32),
    unary main_cst_66 main_v208 (broadcastInDim S4x512x512 ![] bcast_S_S4x512x512 : (⟨S_, .f32⟩ : BufTy).Contents (Elt F) → (⟨S4x512x512, .f32⟩ : BufTy).Contents (Elt F)),
    binary main_v208 main_v206 main_v209 (subf : (⟨S4x512x512, .f32⟩ : BufTy).Contents (Elt F) → (⟨S4x512x512, .f32⟩ : BufTy).Contents (Elt F) → (⟨S4x512x512, .f32⟩ : BufTy).Contents (Elt F)),
    nullary main_cst_67 (constant S_ .f32 0x3F800000#32),
    unary main_cst_67 main_v210 (broadcastInDim S4x512x512 ![] bcast_S_S4x512x512 : (⟨S_, .f32⟩ : BufTy).Contents (Elt F) → (⟨S4x512x512, .f32⟩ : BufTy).Contents (Elt F)),
    binary main_v210 main_v207 main_v211 (subf : (⟨S4x512x512, .f32⟩ : BufTy).Contents (Elt F) → (⟨S4x512x512, .f32⟩ : BufTy).Contents (Elt F) → (⟨S4x512x512, .f32⟩ : BufTy).Contents (Elt F)),
    nullary main_cst_68 (constant S_ .f32 0x00000000#32),
    unary main_cst_68 main_v212 (broadcastInDim S4x512x512 ![] bcast_S_S4x512x512 : (⟨S_, .f32⟩ : BufTy).Contents (Elt F) → (⟨S4x512x512, .f32⟩ : BufTy).Contents (Elt F)),
    binary main_v204 main_v212 main_v213 (cmpf .oge : (⟨S4x512x512, .f32⟩ : BufTy).Contents (Elt F) → (⟨S4x512x512, .f32⟩ : BufTy).Contents (Elt F) → (⟨S4x512x512, .i1⟩ : BufTy).Contents (Elt F)),
    nullary main_cst_69 (constant S_ .f32 0x43FF8000#32),
    unary main_cst_69 main_v214 (broadcastInDim S4x512x512 ![] bcast_S_S4x512x512 : (⟨S_, .f32⟩ : BufTy).Contents (Elt F) → (⟨S4x512x512, .f32⟩ : BufTy).Contents (Elt F)),
    binary main_v204 main_v214 main_v215 (cmpf .ole : (⟨S4x512x512, .f32⟩ : BufTy).Contents (Elt F) → (⟨S4x512x512, .f32⟩ : BufTy).Contents (Elt F) → (⟨S4x512x512, .i1⟩ : BufTy).Contents (Elt F)),
    binary main_v213 main_v215 main_v216 (andi : (⟨S4x512x512, .i1⟩ : BufTy).Contents (Elt F) → (⟨S4x512x512, .i1⟩ : BufTy).Contents (Elt F) → (⟨S4x512x512, .i1⟩ : BufTy).Contents (Elt F)),
    nullary main_cst_70 (constant S_ .f32 0x00000000#32),
    unary main_cst_70 main_v217 (broadcastInDim S4x512x512 ![] bcast_S_S4x512x512 : (⟨S_, .f32⟩ : BufTy).Contents (Elt F) → (⟨S4x512x512, .f32⟩ : BufTy).Contents (Elt F)),
    binary main_v205 main_v217 main_v218 (cmpf .oge : (⟨S4x512x512, .f32⟩ : BufTy).Contents (Elt F) → (⟨S4x512x512, .f32⟩ : BufTy).Contents (Elt F) → (⟨S4x512x512, .i1⟩ : BufTy).Contents (Elt F)),
    binary main_v216 main_v218 main_v219 (andi : (⟨S4x512x512, .i1⟩ : BufTy).Contents (Elt F) → (⟨S4x512x512, .i1⟩ : BufTy).Contents (Elt F) → (⟨S4x512x512, .i1⟩ : BufTy).Contents (Elt F)),
    nullary main_cst_71 (constant S_ .f32 0x43FF8000#32),
    unary main_cst_71 main_v220 (broadcastInDim S4x512x512 ![] bcast_S_S4x512x512 : (⟨S_, .f32⟩ : BufTy).Contents (Elt F) → (⟨S4x512x512, .f32⟩ : BufTy).Contents (Elt F)),
    binary main_v205 main_v220 main_v221 (cmpf .ole : (⟨S4x512x512, .f32⟩ : BufTy).Contents (Elt F) → (⟨S4x512x512, .f32⟩ : BufTy).Contents (Elt F) → (⟨S4x512x512, .i1⟩ : BufTy).Contents (Elt F)),
    binary main_v219 main_v221 main_v222 (andi : (⟨S4x512x512, .i1⟩ : BufTy).Contents (Elt F) → (⟨S4x512x512, .i1⟩ : BufTy).Contents (Elt F) → (⟨S4x512x512, .i1⟩ : BufTy).Contents (Elt F)),
    nullary main_c_72 (constantI S_ 32 0#32),
    nullary main_c_73 (constantI S_ 32 511#32),
    TRef.unary (TRef.of (T := ⟨S_, .i32⟩) main_c_72) (TRef.of (T := ⟨S_, .f32⟩) main_call8_v0) (sitofp .f32),
    TRef.unary (TRef.of (T := ⟨S_, .f32⟩) main_call8_v0) (TRef.of (T := ⟨S4x512x512, .f32⟩) main_call8_v1) (broadcastInDim S4x512x512 ![] bcast_S_S4x512x512),
    TRef.binary (TRef.of (T := ⟨S4x512x512, .f32⟩) main_call8_v1) (TRef.of (T := ⟨S4x512x512, .f32⟩) main_v204) (TRef.of (T := ⟨S4x512x512, .f32⟩) main_call8_v2) maximumf,
    TRef.unary (TRef.of (T := ⟨S_, .i32⟩) main_c_73) (TRef.of (T := ⟨S_, .f32⟩) main_call8_v3) (sitofp .f32),
    TRef.unary (TRef.of (T := ⟨S_, .f32⟩) main_call8_v3) (TRef.of (T := ⟨S4x512x512, .f32⟩) main_call8_v4) (broadcastInDim S4x512x512 ![] bcast_S_S4x512x512),
    TRef.binary (TRef.of (T := ⟨S4x512x512, .f32⟩) main_call8_v4) (TRef.of (T := ⟨S4x512x512, .f32⟩) main_call8_v2) (TRef.of (T := ⟨S4x512x512, .f32⟩) main_v223) minimumf ]

set_option maxRecDepth 16384 in
set_option maxHeartbeats 4000000 in
/-- Part 4 of @main is the line of its operations. -/
theorem part4 (d : Dev nD) : main_part4 (F := F) d = seq ops4 := rfl

set_option maxRecDepth 16384 in
theorem sub4 : (ops4 : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., binary_bufs_sub .., binary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

theorem fresh4 : (ops4 : List (HloOp τ sig (Elt F))).Forall fun op => op.fresh = ∅ := by
  simp only [List.Forall]; repeat' constructor

/-- The operations of part 5, in order. -/
abbrev ops5 : List (HloOp τ sig (Elt F)) :=
  [ unary main_v223 main_v224 (fptosi 32 : (⟨S4x512x512, .f32⟩ : BufTy).Contents (Elt F) → (⟨S4x512x512, .i32⟩ : BufTy).Contents (Elt F)),
    nullary main_c_74 (constantI S_ 32 0#32),
    nullary main_c_75 (constantI S_ 32 511#32),
    TRef.unary (TRef.of (T := ⟨S_, .i32⟩) main_c_74) (TRef.of (T := ⟨S_, .f32⟩) main_call9_v0) (sitofp .f32),
    TRef.unary (TRef.of (T := ⟨S_, .f32⟩) main_call9_v0) (TRef.of (T := ⟨S4x512x512, .f32⟩) main_call9_v1) (broadcastInDim S4x512x512 ![] bcast_S_S4x512x512),
    TRef.binary (TRef.of (T := ⟨S4x512x512, .f32⟩) main_call9_v1) (TRef.of (T := ⟨S4x512x512, .f32⟩) main_v205) (TRef.of (T := ⟨S4x512x512, .f32⟩) main_call9_v2) maximumf,
    TRef.unary (TRef.of (T := ⟨S_, .i32⟩) main_c_75) (TRef.of (T := ⟨S_, .f32⟩) main_call9_v3) (sitofp .f32),
    TRef.unary (TRef.of (T := ⟨S_, .f32⟩) main_call9_v3) (TRef.of (T := ⟨S4x512x512, .f32⟩) main_call9_v4) (broadcastInDim S4x512x512 ![] bcast_S_S4x512x512),
    TRef.binary (TRef.of (T := ⟨S4x512x512, .f32⟩) main_call9_v4) (TRef.of (T := ⟨S4x512x512, .f32⟩) main_call9_v2) (TRef.of (T := ⟨S4x512x512, .f32⟩) main_v225) minimumf,
    unary main_v225 main_v226 (fptosi 32 : (⟨S4x512x512, .f32⟩ : BufTy).Contents (Elt F) → (⟨S4x512x512, .i32⟩ : BufTy).Contents (Elt F)),
    nullary main_c_76 (constantI S_ 32 0#32),
    unary main_c_76 main_v227 (broadcastInDim S4x512x512 ![] bcast_S_S4x512x512 : (⟨S_, .i32⟩ : BufTy).Contents (Elt F) → (⟨S4x512x512, .i32⟩ : BufTy).Contents (Elt F)),
    binary main_v226 main_v227 main_v228 (cmpi .slt : (⟨S4x512x512, .i32⟩ : BufTy).Contents (Elt F) → (⟨S4x512x512, .i32⟩ : BufTy).Contents (Elt F) → (⟨S4x512x512, .i1⟩ : BufTy).Contents (Elt F)),
    nullary main_c_77 (constantI S_ 32 512#32),
    unary main_c_77 main_v229 (broadcastInDim S4x512x512 ![] bcast_S_S4x512x512 : (⟨S_, .i32⟩ : BufTy).Contents (Elt F) → (⟨S4x512x512, .i32⟩ : BufTy).Contents (Elt F)),
    binary main_v226 main_v229 main_v230 (addi : (⟨S4x512x512, .i32⟩ : BufTy).Contents (Elt F) → (⟨S4x512x512, .i32⟩ : BufTy).Contents (Elt F) → (⟨S4x512x512, .i32⟩ : BufTy).Contents (Elt F)),
    ternary main_v228 main_v230 main_v226 main_v231 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_78 (constantI S_ 32 0#32),
    unary main_c_78 main_v232 (broadcastInDim S4x512x512 ![] bcast_S_S4x512x512 : (⟨S_, .i32⟩ : BufTy).Contents (Elt F) → (⟨S4x512x512, .i32⟩ : BufTy).Contents (Elt F)),
    binary main_v224 main_v232 main_v233 (cmpi .slt : (⟨S4x512x512, .i32⟩ : BufTy).Contents (Elt F) → (⟨S4x512x512, .i32⟩ : BufTy).Contents (Elt F) → (⟨S4x512x512, .i1⟩ : BufTy).Contents (Elt F)),
    nullary main_c_79 (constantI S_ 32 512#32),
    unary main_c_79 main_v234 (broadcastInDim S4x512x512 ![] bcast_S_S4x512x512 : (⟨S_, .i32⟩ : BufTy).Contents (Elt F) → (⟨S4x512x512, .i32⟩ : BufTy).Contents (Elt F)),
    binary main_v224 main_v234 main_v235 (addi : (⟨S4x512x512, .i32⟩ : BufTy).Contents (Elt F) → (⟨S4x512x512, .i32⟩ : BufTy).Contents (Elt F) → (⟨S4x512x512, .i32⟩ : BufTy).Contents (Elt F)),
    ternary main_v233 main_v235 main_v224 main_v236 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v231 main_v237 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v236 main_v238 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v237 main_v238 main_v239 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg3 main_v239 main_v240 ((fun x i => Host.gather gather_S16x512x512_S4x512x512x2_S16x4x512x512_0_12_n_n_12_3_1611 x i) : (⟨S16x512x512, .f32⟩ : BufTy).Contents (Elt F) → (⟨S4x512x512x2, .i32⟩ : BufTy).Contents (Elt F) → (⟨S16x4x512x512, .f32⟩ : BufTy).Contents (Elt F)),
    unary main_v222 main_v241 (uitofp .f32 : (⟨S4x512x512, .i1⟩ : BufTy).Contents (Elt F) → (⟨S4x512x512, .f32⟩ : BufTy).Contents (Elt F)),
    unary main_v241 main_v242 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v242 main_v243 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v240 main_v243 main_v244 (mulf : (⟨S16x4x512x512, .f32⟩ : BufTy).Contents (Elt F) → (⟨S16x4x512x512, .f32⟩ : BufTy).Contents (Elt F) → (⟨S16x4x512x512, .f32⟩ : BufTy).Contents (Elt F)),
    binary main_v211 main_v209 main_v245 (mulf : (⟨S4x512x512, .f32⟩ : BufTy).Contents (Elt F) → (⟨S4x512x512, .f32⟩ : BufTy).Contents (Elt F) → (⟨S4x512x512, .f32⟩ : BufTy).Contents (Elt F)),
    unary main_v245 main_v246 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v246 main_v247 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v244 main_v247 main_v248 (mulf : (⟨S16x4x512x512, .f32⟩ : BufTy).Contents (Elt F) → (⟨S16x4x512x512, .f32⟩ : BufTy).Contents (Elt F) → (⟨S16x4x512x512, .f32⟩ : BufTy).Contents (Elt F)),
    nullary main_cst_80 (constant S_ .f32 0x3F800000#32),
    unary main_cst_80 main_v249 (broadcastInDim S4x512x512 ![] bcast_S_S4x512x512 : (⟨S_, .f32⟩ : BufTy).Contents (Elt F) → (⟨S4x512x512, .f32⟩ : BufTy).Contents (Elt F)),
    binary main_v204 main_v249 main_v250 (addf : (⟨S4x512x512, .f32⟩ : BufTy).Contents (Elt F) → (⟨S4x512x512, .f32⟩ : BufTy).Contents (Elt F) → (⟨S4x512x512, .f32⟩ : BufTy).Contents (Elt F)),
    nullary main_cst_81 (constant S_ .f32 0x00000000#32),
    unary main_cst_81 main_v251 (broadcastInDim S4x512x512 ![] bcast_S_S4x512x512 : (⟨S_, .f32⟩ : BufTy).Contents (Elt F) → (⟨S4x512x512, .f32⟩ : BufTy).Contents (Elt F)),
    binary main_v250 main_v251 main_v252 (cmpf .oge : (⟨S4x512x512, .f32⟩ : BufTy).Contents (Elt F) → (⟨S4x512x512, .f32⟩ : BufTy).Contents (Elt F) → (⟨S4x512x512, .i1⟩ : BufTy).Contents (Elt F)),
    nullary main_cst_82 (constant S_ .f32 0x43FF8000#32),
    unary main_cst_82 main_v253 (broadcastInDim S4x512x512 ![] bcast_S_S4x512x512 : (⟨S_, .f32⟩ : BufTy).Contents (Elt F) → (⟨S4x512x512, .f32⟩ : BufTy).Contents (Elt F)),
    binary main_v250 main_v253 main_v254 (cmpf .ole : (⟨S4x512x512, .f32⟩ : BufTy).Contents (Elt F) → (⟨S4x512x512, .f32⟩ : BufTy).Contents (Elt F) → (⟨S4x512x512, .i1⟩ : BufTy).Contents (Elt F)),
    binary main_v252 main_v254 main_v255 (andi : (⟨S4x512x512, .i1⟩ : BufTy).Contents (Elt F) → (⟨S4x512x512, .i1⟩ : BufTy).Contents (Elt F) → (⟨S4x512x512, .i1⟩ : BufTy).Contents (Elt F)),
    nullary main_cst_83 (constant S_ .f32 0x00000000#32),
    unary main_cst_83 main_v256 (broadcastInDim S4x512x512 ![] bcast_S_S4x512x512 : (⟨S_, .f32⟩ : BufTy).Contents (Elt F) → (⟨S4x512x512, .f32⟩ : BufTy).Contents (Elt F)),
    binary main_v205 main_v256 main_v257 (cmpf .oge : (⟨S4x512x512, .f32⟩ : BufTy).Contents (Elt F) → (⟨S4x512x512, .f32⟩ : BufTy).Contents (Elt F) → (⟨S4x512x512, .i1⟩ : BufTy).Contents (Elt F)),
    binary main_v255 main_v257 main_v258 (andi : (⟨S4x512x512, .i1⟩ : BufTy).Contents (Elt F) → (⟨S4x512x512, .i1⟩ : BufTy).Contents (Elt F) → (⟨S4x512x512, .i1⟩ : BufTy).Contents (Elt F)),
    nullary main_cst_84 (constant S_ .f32 0x43FF8000#32),
    unary main_cst_84 main_v259 (broadcastInDim S4x512x512 ![] bcast_S_S4x512x512 : (⟨S_, .f32⟩ : BufTy).Contents (Elt F) → (⟨S4x512x512, .f32⟩ : BufTy).Contents (Elt F)),
    binary main_v205 main_v259 main_v260 (cmpf .ole : (⟨S4x512x512, .f32⟩ : BufTy).Contents (Elt F) → (⟨S4x512x512, .f32⟩ : BufTy).Contents (Elt F) → (⟨S4x512x512, .i1⟩ : BufTy).Contents (Elt F)),
    binary main_v258 main_v260 main_v261 (andi : (⟨S4x512x512, .i1⟩ : BufTy).Contents (Elt F) → (⟨S4x512x512, .i1⟩ : BufTy).Contents (Elt F) → (⟨S4x512x512, .i1⟩ : BufTy).Contents (Elt F)),
    nullary main_c_85 (constantI S_ 32 0#32),
    nullary main_c_86 (constantI S_ 32 511#32),
    TRef.unary (TRef.of (T := ⟨S_, .i32⟩) main_c_85) (TRef.of (T := ⟨S_, .f32⟩) main_call10_v0) (sitofp .f32),
    TRef.unary (TRef.of (T := ⟨S_, .f32⟩) main_call10_v0) (TRef.of (T := ⟨S4x512x512, .f32⟩) main_call10_v1) (broadcastInDim S4x512x512 ![] bcast_S_S4x512x512),
    TRef.binary (TRef.of (T := ⟨S4x512x512, .f32⟩) main_call10_v1) (TRef.of (T := ⟨S4x512x512, .f32⟩) main_v250) (TRef.of (T := ⟨S4x512x512, .f32⟩) main_call10_v2) maximumf,
    TRef.unary (TRef.of (T := ⟨S_, .i32⟩) main_c_86) (TRef.of (T := ⟨S_, .f32⟩) main_call10_v3) (sitofp .f32),
    TRef.unary (TRef.of (T := ⟨S_, .f32⟩) main_call10_v3) (TRef.of (T := ⟨S4x512x512, .f32⟩) main_call10_v4) (broadcastInDim S4x512x512 ![] bcast_S_S4x512x512),
    TRef.binary (TRef.of (T := ⟨S4x512x512, .f32⟩) main_call10_v4) (TRef.of (T := ⟨S4x512x512, .f32⟩) main_call10_v2) (TRef.of (T := ⟨S4x512x512, .f32⟩) main_v262) minimumf,
    unary main_v262 main_v263 (fptosi 32 : (⟨S4x512x512, .f32⟩ : BufTy).Contents (Elt F) → (⟨S4x512x512, .i32⟩ : BufTy).Contents (Elt F)),
    nullary main_c_87 (constantI S_ 32 0#32),
    nullary main_c_88 (constantI S_ 32 511#32),
    TRef.unary (TRef.of (T := ⟨S_, .i32⟩) main_c_87) (TRef.of (T := ⟨S_, .f32⟩) main_call11_v0) (sitofp .f32),
    TRef.unary (TRef.of (T := ⟨S_, .f32⟩) main_call11_v0) (TRef.of (T := ⟨S4x512x512, .f32⟩) main_call11_v1) (broadcastInDim S4x512x512 ![] bcast_S_S4x512x512),
    TRef.binary (TRef.of (T := ⟨S4x512x512, .f32⟩) main_call11_v1) (TRef.of (T := ⟨S4x512x512, .f32⟩) main_v205) (TRef.of (T := ⟨S4x512x512, .f32⟩) main_call11_v2) maximumf,
    TRef.unary (TRef.of (T := ⟨S_, .i32⟩) main_c_88) (TRef.of (T := ⟨S_, .f32⟩) main_call11_v3) (sitofp .f32),
    TRef.unary (TRef.of (T := ⟨S_, .f32⟩) main_call11_v3) (TRef.of (T := ⟨S4x512x512, .f32⟩) main_call11_v4) (broadcastInDim S4x512x512 ![] bcast_S_S4x512x512),
    TRef.binary (TRef.of (T := ⟨S4x512x512, .f32⟩) main_call11_v4) (TRef.of (T := ⟨S4x512x512, .f32⟩) main_call11_v2) (TRef.of (T := ⟨S4x512x512, .f32⟩) main_v264) minimumf,
    unary main_v264 main_v265 (fptosi 32 : (⟨S4x512x512, .f32⟩ : BufTy).Contents (Elt F) → (⟨S4x512x512, .i32⟩ : BufTy).Contents (Elt F)),
    nullary main_c_89 (constantI S_ 32 0#32),
    unary main_c_89 main_v266 (broadcastInDim S4x512x512 ![] bcast_S_S4x512x512 : (⟨S_, .i32⟩ : BufTy).Contents (Elt F) → (⟨S4x512x512, .i32⟩ : BufTy).Contents (Elt F)),
    binary main_v265 main_v266 main_v267 (cmpi .slt : (⟨S4x512x512, .i32⟩ : BufTy).Contents (Elt F) → (⟨S4x512x512, .i32⟩ : BufTy).Contents (Elt F) → (⟨S4x512x512, .i1⟩ : BufTy).Contents (Elt F)) ]

set_option maxRecDepth 16384 in
set_option maxHeartbeats 4000000 in
/-- Part 5 of @main is the line of its operations. -/
theorem part5 (d : Dev nD) : main_part5 (F := F) d = seq ops5 := rfl

set_option maxRecDepth 16384 in
theorem sub5 : (ops5 : List (HloOp τ sig (Elt F))).Forall fun op => op.bufs ⊆ tcRefs τ sig :=
  ⟨unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub ..⟩

theorem fresh5 : (ops5 : List (HloOp τ sig (Elt F))).Forall fun op => op.fresh = ∅ := by
  simp only [List.Forall]; repeat' constructor

/-- The operations of part 6, in order. -/
abbrev ops6 : List (HloOp τ sig (Elt F)) :=
  [ nullary main_c_90 (constantI S_ 32 512#32),
    unary main_c_90 main_v268 (broadcastInDim S4x512x512 ![] bcast_S_S4x512x512 : (⟨S_, .i32⟩ : BufTy).Contents (Elt F) → (⟨S4x512x512, .i32⟩ : BufTy).Contents (Elt F)),
    binary main_v265 main_v268 main_v269 (addi : (⟨S4x512x512, .i32⟩ : BufTy).Contents (Elt F) → (⟨S4x512x512, .i32⟩ : BufTy).Contents (Elt F) → (⟨S4x512x512, .i32⟩ : BufTy).Contents (Elt F)),
    ternary main_v267 main_v269 main_v265 main_v270 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_91 (constantI S_ 32 0#32),
    unary main_c_91 main_v271 (broadcastInDim S4x512x512 ![] bcast_S_S4x512x512 : (⟨S_, .i32⟩ : BufTy).Contents (Elt F) → (⟨S4x512x512, .i32⟩ : BufTy).Contents (Elt F)),
    binary main_v263 main_v271 main_v272 (cmpi .slt : (⟨S4x512x512, .i32⟩ : BufTy).Contents (Elt F) → (⟨S4x512x512, .i32⟩ : BufTy).Contents (Elt F) → (⟨S4x512x512, .i1⟩ : BufTy).Contents (Elt F)),
    nullary main_c_92 (constantI S_ 32 512#32),
    unary main_c_92 main_v273 (broadcastInDim S4x512x512 ![] bcast_S_S4x512x512 : (⟨S_, .i32⟩ : BufTy).Contents (Elt F) → (⟨S4x512x512, .i32⟩ : BufTy).Contents (Elt F)),
    binary main_v263 main_v273 main_v274 (addi : (⟨S4x512x512, .i32⟩ : BufTy).Contents (Elt F) → (⟨S4x512x512, .i32⟩ : BufTy).Contents (Elt F) → (⟨S4x512x512, .i32⟩ : BufTy).Contents (Elt F)),
    ternary main_v272 main_v274 main_v263 main_v275 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v270 main_v276 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v275 main_v277 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v276 main_v277 main_v278 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg3 main_v278 main_v279 ((fun x i => Host.gather gather_S16x512x512_S4x512x512x2_S16x4x512x512_0_12_n_n_12_3_1611 x i) : (⟨S16x512x512, .f32⟩ : BufTy).Contents (Elt F) → (⟨S4x512x512x2, .i32⟩ : BufTy).Contents (Elt F) → (⟨S16x4x512x512, .f32⟩ : BufTy).Contents (Elt F)),
    unary main_v261 main_v280 (uitofp .f32 : (⟨S4x512x512, .i1⟩ : BufTy).Contents (Elt F) → (⟨S4x512x512, .f32⟩ : BufTy).Contents (Elt F)),
    unary main_v280 main_v281 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v281 main_v282 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v279 main_v282 main_v283 (mulf : (⟨S16x4x512x512, .f32⟩ : BufTy).Contents (Elt F) → (⟨S16x4x512x512, .f32⟩ : BufTy).Contents (Elt F) → (⟨S16x4x512x512, .f32⟩ : BufTy).Contents (Elt F)),
    binary main_v211 main_v206 main_v284 (mulf : (⟨S4x512x512, .f32⟩ : BufTy).Contents (Elt F) → (⟨S4x512x512, .f32⟩ : BufTy).Contents (Elt F) → (⟨S4x512x512, .f32⟩ : BufTy).Contents (Elt F)),
    unary main_v284 main_v285 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v285 main_v286 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v283 main_v286 main_v287 (mulf : (⟨S16x4x512x512, .f32⟩ : BufTy).Contents (Elt F) → (⟨S16x4x512x512, .f32⟩ : BufTy).Contents (Elt F) → (⟨S16x4x512x512, .f32⟩ : BufTy).Contents (Elt F)),
    binary main_v248 main_v287 main_v288 (addf : (⟨S16x4x512x512, .f32⟩ : BufTy).Contents (Elt F) → (⟨S16x4x512x512, .f32⟩ : BufTy).Contents (Elt F) → (⟨S16x4x512x512, .f32⟩ : BufTy).Contents (Elt F)),
    nullary main_cst_93 (constant S_ .f32 0x3F800000#32),
    unary main_cst_93 main_v289 (broadcastInDim S4x512x512 ![] bcast_S_S4x512x512 : (⟨S_, .f32⟩ : BufTy).Contents (Elt F) → (⟨S4x512x512, .f32⟩ : BufTy).Contents (Elt F)),
    binary main_v205 main_v289 main_v290 (addf : (⟨S4x512x512, .f32⟩ : BufTy).Contents (Elt F) → (⟨S4x512x512, .f32⟩ : BufTy).Contents (Elt F) → (⟨S4x512x512, .f32⟩ : BufTy).Contents (Elt F)),
    nullary main_cst_94 (constant S_ .f32 0x00000000#32),
    unary main_cst_94 main_v291 (broadcastInDim S4x512x512 ![] bcast_S_S4x512x512 : (⟨S_, .f32⟩ : BufTy).Contents (Elt F) → (⟨S4x512x512, .f32⟩ : BufTy).Contents (Elt F)),
    binary main_v204 main_v291 main_v292 (cmpf .oge : (⟨S4x512x512, .f32⟩ : BufTy).Contents (Elt F) → (⟨S4x512x512, .f32⟩ : BufTy).Contents (Elt F) → (⟨S4x512x512, .i1⟩ : BufTy).Contents (Elt F)),
    nullary main_cst_95 (constant S_ .f32 0x43FF8000#32),
    unary main_cst_95 main_v293 (broadcastInDim S4x512x512 ![] bcast_S_S4x512x512 : (⟨S_, .f32⟩ : BufTy).Contents (Elt F) → (⟨S4x512x512, .f32⟩ : BufTy).Contents (Elt F)),
    binary main_v204 main_v293 main_v294 (cmpf .ole : (⟨S4x512x512, .f32⟩ : BufTy).Contents (Elt F) → (⟨S4x512x512, .f32⟩ : BufTy).Contents (Elt F) → (⟨S4x512x512, .i1⟩ : BufTy).Contents (Elt F)),
    binary main_v292 main_v294 main_v295 (andi : (⟨S4x512x512, .i1⟩ : BufTy).Contents (Elt F) → (⟨S4x512x512, .i1⟩ : BufTy).Contents (Elt F) → (⟨S4x512x512, .i1⟩ : BufTy).Contents (Elt F)),
    nullary main_cst_96 (constant S_ .f32 0x00000000#32),
    unary main_cst_96 main_v296 (broadcastInDim S4x512x512 ![] bcast_S_S4x512x512 : (⟨S_, .f32⟩ : BufTy).Contents (Elt F) → (⟨S4x512x512, .f32⟩ : BufTy).Contents (Elt F)),
    binary main_v290 main_v296 main_v297 (cmpf .oge : (⟨S4x512x512, .f32⟩ : BufTy).Contents (Elt F) → (⟨S4x512x512, .f32⟩ : BufTy).Contents (Elt F) → (⟨S4x512x512, .i1⟩ : BufTy).Contents (Elt F)),
    binary main_v295 main_v297 main_v298 (andi : (⟨S4x512x512, .i1⟩ : BufTy).Contents (Elt F) → (⟨S4x512x512, .i1⟩ : BufTy).Contents (Elt F) → (⟨S4x512x512, .i1⟩ : BufTy).Contents (Elt F)),
    nullary main_cst_97 (constant S_ .f32 0x43FF8000#32),
    unary main_cst_97 main_v299 (broadcastInDim S4x512x512 ![] bcast_S_S4x512x512 : (⟨S_, .f32⟩ : BufTy).Contents (Elt F) → (⟨S4x512x512, .f32⟩ : BufTy).Contents (Elt F)),
    binary main_v290 main_v299 main_v300 (cmpf .ole : (⟨S4x512x512, .f32⟩ : BufTy).Contents (Elt F) → (⟨S4x512x512, .f32⟩ : BufTy).Contents (Elt F) → (⟨S4x512x512, .i1⟩ : BufTy).Contents (Elt F)),
    binary main_v298 main_v300 main_v301 (andi : (⟨S4x512x512, .i1⟩ : BufTy).Contents (Elt F) → (⟨S4x512x512, .i1⟩ : BufTy).Contents (Elt F) → (⟨S4x512x512, .i1⟩ : BufTy).Contents (Elt F)),
    nullary main_c_98 (constantI S_ 32 0#32),
    nullary main_c_99 (constantI S_ 32 511#32),
    TRef.unary (TRef.of (T := ⟨S_, .i32⟩) main_c_98) (TRef.of (T := ⟨S_, .f32⟩) main_call12_v0) (sitofp .f32),
    TRef.unary (TRef.of (T := ⟨S_, .f32⟩) main_call12_v0) (TRef.of (T := ⟨S4x512x512, .f32⟩) main_call12_v1) (broadcastInDim S4x512x512 ![] bcast_S_S4x512x512),
    TRef.binary (TRef.of (T := ⟨S4x512x512, .f32⟩) main_call12_v1) (TRef.of (T := ⟨S4x512x512, .f32⟩) main_v204) (TRef.of (T := ⟨S4x512x512, .f32⟩) main_call12_v2) maximumf,
    TRef.unary (TRef.of (T := ⟨S_, .i32⟩) main_c_99) (TRef.of (T := ⟨S_, .f32⟩) main_call12_v3) (sitofp .f32),
    TRef.unary (TRef.of (T := ⟨S_, .f32⟩) main_call12_v3) (TRef.of (T := ⟨S4x512x512, .f32⟩) main_call12_v4) (broadcastInDim S4x512x512 ![] bcast_S_S4x512x512),
    TRef.binary (TRef.of (T := ⟨S4x512x512, .f32⟩) main_call12_v4) (TRef.of (T := ⟨S4x512x512, .f32⟩) main_call12_v2) (TRef.of (T := ⟨S4x512x512, .f32⟩) main_v302) minimumf,
    unary main_v302 main_v303 (fptosi 32 : (⟨S4x512x512, .f32⟩ : BufTy).Contents (Elt F) → (⟨S4x512x512, .i32⟩ : BufTy).Contents (Elt F)),
    nullary main_c_100 (constantI S_ 32 0#32),
    nullary main_c_101 (constantI S_ 32 511#32),
    TRef.unary (TRef.of (T := ⟨S_, .i32⟩) main_c_100) (TRef.of (T := ⟨S_, .f32⟩) main_call13_v0) (sitofp .f32),
    TRef.unary (TRef.of (T := ⟨S_, .f32⟩) main_call13_v0) (TRef.of (T := ⟨S4x512x512, .f32⟩) main_call13_v1) (broadcastInDim S4x512x512 ![] bcast_S_S4x512x512),
    TRef.binary (TRef.of (T := ⟨S4x512x512, .f32⟩) main_call13_v1) (TRef.of (T := ⟨S4x512x512, .f32⟩) main_v290) (TRef.of (T := ⟨S4x512x512, .f32⟩) main_call13_v2) maximumf,
    TRef.unary (TRef.of (T := ⟨S_, .i32⟩) main_c_101) (TRef.of (T := ⟨S_, .f32⟩) main_call13_v3) (sitofp .f32),
    TRef.unary (TRef.of (T := ⟨S_, .f32⟩) main_call13_v3) (TRef.of (T := ⟨S4x512x512, .f32⟩) main_call13_v4) (broadcastInDim S4x512x512 ![] bcast_S_S4x512x512),
    TRef.binary (TRef.of (T := ⟨S4x512x512, .f32⟩) main_call13_v4) (TRef.of (T := ⟨S4x512x512, .f32⟩) main_call13_v2) (TRef.of (T := ⟨S4x512x512, .f32⟩) main_v304) minimumf,
    unary main_v304 main_v305 (fptosi 32 : (⟨S4x512x512, .f32⟩ : BufTy).Contents (Elt F) → (⟨S4x512x512, .i32⟩ : BufTy).Contents (Elt F)),
    nullary main_c_102 (constantI S_ 32 0#32),
    unary main_c_102 main_v306 (broadcastInDim S4x512x512 ![] bcast_S_S4x512x512 : (⟨S_, .i32⟩ : BufTy).Contents (Elt F) → (⟨S4x512x512, .i32⟩ : BufTy).Contents (Elt F)),
    binary main_v305 main_v306 main_v307 (cmpi .slt : (⟨S4x512x512, .i32⟩ : BufTy).Contents (Elt F) → (⟨S4x512x512, .i32⟩ : BufTy).Contents (Elt F) → (⟨S4x512x512, .i1⟩ : BufTy).Contents (Elt F)),
    nullary main_c_103 (constantI S_ 32 512#32),
    unary main_c_103 main_v308 (broadcastInDim S4x512x512 ![] bcast_S_S4x512x512 : (⟨S_, .i32⟩ : BufTy).Contents (Elt F) → (⟨S4x512x512, .i32⟩ : BufTy).Contents (Elt F)),
    binary main_v305 main_v308 main_v309 (addi : (⟨S4x512x512, .i32⟩ : BufTy).Contents (Elt F) → (⟨S4x512x512, .i32⟩ : BufTy).Contents (Elt F) → (⟨S4x512x512, .i32⟩ : BufTy).Contents (Elt F)),
    ternary main_v307 main_v309 main_v305 main_v310 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_104 (constantI S_ 32 0#32),
    unary main_c_104 main_v311 (broadcastInDim S4x512x512 ![] bcast_S_S4x512x512 : (⟨S_, .i32⟩ : BufTy).Contents (Elt F) → (⟨S4x512x512, .i32⟩ : BufTy).Contents (Elt F)),
    binary main_v303 main_v311 main_v312 (cmpi .slt : (⟨S4x512x512, .i32⟩ : BufTy).Contents (Elt F) → (⟨S4x512x512, .i32⟩ : BufTy).Contents (Elt F) → (⟨S4x512x512, .i1⟩ : BufTy).Contents (Elt F)) ]

set_option maxRecDepth 16384 in
set_option maxHeartbeats 4000000 in
/-- Part 6 of @main is the line of its operations. -/
theorem part6 (d : Dev nD) : main_part6 (F := F) d = seq ops6 := rfl

set_option maxRecDepth 16384 in
theorem sub6 : (ops6 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

theorem fresh6 : (ops6 : List (HloOp τ sig (Elt F))).Forall fun op => op.fresh = ∅ := by
  simp only [List.Forall]; repeat' constructor

/-- The operations of part 7, in order. -/
abbrev ops7 : List (HloOp τ sig (Elt F)) :=
  [ nullary main_c_105 (constantI S_ 32 512#32),
    unary main_c_105 main_v313 (broadcastInDim S4x512x512 ![] bcast_S_S4x512x512 : (⟨S_, .i32⟩ : BufTy).Contents (Elt F) → (⟨S4x512x512, .i32⟩ : BufTy).Contents (Elt F)),
    binary main_v303 main_v313 main_v314 (addi : (⟨S4x512x512, .i32⟩ : BufTy).Contents (Elt F) → (⟨S4x512x512, .i32⟩ : BufTy).Contents (Elt F) → (⟨S4x512x512, .i32⟩ : BufTy).Contents (Elt F)),
    ternary main_v312 main_v314 main_v303 main_v315 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v310 main_v316 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v315 main_v317 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v316 main_v317 main_v318 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg3 main_v318 main_v319 ((fun x i => Host.gather gather_S16x512x512_S4x512x512x2_S16x4x512x512_0_12_n_n_12_3_1611 x i) : (⟨S16x512x512, .f32⟩ : BufTy).Contents (Elt F) → (⟨S4x512x512x2, .i32⟩ : BufTy).Contents (Elt F) → (⟨S16x4x512x512, .f32⟩ : BufTy).Contents (Elt F)),
    unary main_v301 main_v320 (uitofp .f32 : (⟨S4x512x512, .i1⟩ : BufTy).Contents (Elt F) → (⟨S4x512x512, .f32⟩ : BufTy).Contents (Elt F)),
    unary main_v320 main_v321 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v321 main_v322 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v319 main_v322 main_v323 (mulf : (⟨S16x4x512x512, .f32⟩ : BufTy).Contents (Elt F) → (⟨S16x4x512x512, .f32⟩ : BufTy).Contents (Elt F) → (⟨S16x4x512x512, .f32⟩ : BufTy).Contents (Elt F)),
    binary main_v207 main_v209 main_v324 (mulf : (⟨S4x512x512, .f32⟩ : BufTy).Contents (Elt F) → (⟨S4x512x512, .f32⟩ : BufTy).Contents (Elt F) → (⟨S4x512x512, .f32⟩ : BufTy).Contents (Elt F)),
    unary main_v324 main_v325 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v325 main_v326 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v323 main_v326 main_v327 (mulf : (⟨S16x4x512x512, .f32⟩ : BufTy).Contents (Elt F) → (⟨S16x4x512x512, .f32⟩ : BufTy).Contents (Elt F) → (⟨S16x4x512x512, .f32⟩ : BufTy).Contents (Elt F)),
    binary main_v288 main_v327 main_v328 (addf : (⟨S16x4x512x512, .f32⟩ : BufTy).Contents (Elt F) → (⟨S16x4x512x512, .f32⟩ : BufTy).Contents (Elt F) → (⟨S16x4x512x512, .f32⟩ : BufTy).Contents (Elt F)),
    nullary main_cst_106 (constant S_ .f32 0x3F800000#32),
    unary main_cst_106 main_v329 (broadcastInDim S4x512x512 ![] bcast_S_S4x512x512 : (⟨S_, .f32⟩ : BufTy).Contents (Elt F) → (⟨S4x512x512, .f32⟩ : BufTy).Contents (Elt F)),
    binary main_v205 main_v329 main_v330 (addf : (⟨S4x512x512, .f32⟩ : BufTy).Contents (Elt F) → (⟨S4x512x512, .f32⟩ : BufTy).Contents (Elt F) → (⟨S4x512x512, .f32⟩ : BufTy).Contents (Elt F)),
    nullary main_cst_107 (constant S_ .f32 0x3F800000#32),
    unary main_cst_107 main_v331 (broadcastInDim S4x512x512 ![] bcast_S_S4x512x512 : (⟨S_, .f32⟩ : BufTy).Contents (Elt F) → (⟨S4x512x512, .f32⟩ : BufTy).Contents (Elt F)),
    binary main_v204 main_v331 main_v332 (addf : (⟨S4x512x512, .f32⟩ : BufTy).Contents (Elt F) → (⟨S4x512x512, .f32⟩ : BufTy).Contents (Elt F) → (⟨S4x512x512, .f32⟩ : BufTy).Contents (Elt F)),
    nullary main_cst_108 (constant S_ .f32 0x00000000#32),
    unary main_cst_108 main_v333 (broadcastInDim S4x512x512 ![] bcast_S_S4x512x512 : (⟨S_, .f32⟩ : BufTy).Contents (Elt F) → (⟨S4x512x512, .f32⟩ : BufTy).Contents (Elt F)),
    binary main_v332 main_v333 main_v334 (cmpf .oge : (⟨S4x512x512, .f32⟩ : BufTy).Contents (Elt F) → (⟨S4x512x512, .f32⟩ : BufTy).Contents (Elt F) → (⟨S4x512x512, .i1⟩ : BufTy).Contents (Elt F)),
    nullary main_cst_109 (constant S_ .f32 0x43FF8000#32),
    unary main_cst_109 main_v335 (broadcastInDim S4x512x512 ![] bcast_S_S4x512x512 : (⟨S_, .f32⟩ : BufTy).Contents (Elt F) → (⟨S4x512x512, .f32⟩ : BufTy).Contents (Elt F)),
    binary main_v332 main_v335 main_v336 (cmpf .ole : (⟨S4x512x512, .f32⟩ : BufTy).Contents (Elt F) → (⟨S4x512x512, .f32⟩ : BufTy).Contents (Elt F) → (⟨S4x512x512, .i1⟩ : BufTy).Contents (Elt F)),
    binary main_v334 main_v336 main_v337 (andi : (⟨S4x512x512, .i1⟩ : BufTy).Contents (Elt F) → (⟨S4x512x512, .i1⟩ : BufTy).Contents (Elt F) → (⟨S4x512x512, .i1⟩ : BufTy).Contents (Elt F)),
    nullary main_cst_110 (constant S_ .f32 0x00000000#32),
    unary main_cst_110 main_v338 (broadcastInDim S4x512x512 ![] bcast_S_S4x512x512 : (⟨S_, .f32⟩ : BufTy).Contents (Elt F) → (⟨S4x512x512, .f32⟩ : BufTy).Contents (Elt F)),
    binary main_v330 main_v338 main_v339 (cmpf .oge : (⟨S4x512x512, .f32⟩ : BufTy).Contents (Elt F) → (⟨S4x512x512, .f32⟩ : BufTy).Contents (Elt F) → (⟨S4x512x512, .i1⟩ : BufTy).Contents (Elt F)),
    binary main_v337 main_v339 main_v340 (andi : (⟨S4x512x512, .i1⟩ : BufTy).Contents (Elt F) → (⟨S4x512x512, .i1⟩ : BufTy).Contents (Elt F) → (⟨S4x512x512, .i1⟩ : BufTy).Contents (Elt F)),
    nullary main_cst_111 (constant S_ .f32 0x43FF8000#32),
    unary main_cst_111 main_v341 (broadcastInDim S4x512x512 ![] bcast_S_S4x512x512 : (⟨S_, .f32⟩ : BufTy).Contents (Elt F) → (⟨S4x512x512, .f32⟩ : BufTy).Contents (Elt F)),
    binary main_v330 main_v341 main_v342 (cmpf .ole : (⟨S4x512x512, .f32⟩ : BufTy).Contents (Elt F) → (⟨S4x512x512, .f32⟩ : BufTy).Contents (Elt F) → (⟨S4x512x512, .i1⟩ : BufTy).Contents (Elt F)),
    binary main_v340 main_v342 main_v343 (andi : (⟨S4x512x512, .i1⟩ : BufTy).Contents (Elt F) → (⟨S4x512x512, .i1⟩ : BufTy).Contents (Elt F) → (⟨S4x512x512, .i1⟩ : BufTy).Contents (Elt F)),
    nullary main_c_112 (constantI S_ 32 0#32),
    nullary main_c_113 (constantI S_ 32 511#32),
    TRef.unary (TRef.of (T := ⟨S_, .i32⟩) main_c_112) (TRef.of (T := ⟨S_, .f32⟩) main_call14_v0) (sitofp .f32),
    TRef.unary (TRef.of (T := ⟨S_, .f32⟩) main_call14_v0) (TRef.of (T := ⟨S4x512x512, .f32⟩) main_call14_v1) (broadcastInDim S4x512x512 ![] bcast_S_S4x512x512),
    TRef.binary (TRef.of (T := ⟨S4x512x512, .f32⟩) main_call14_v1) (TRef.of (T := ⟨S4x512x512, .f32⟩) main_v332) (TRef.of (T := ⟨S4x512x512, .f32⟩) main_call14_v2) maximumf,
    TRef.unary (TRef.of (T := ⟨S_, .i32⟩) main_c_113) (TRef.of (T := ⟨S_, .f32⟩) main_call14_v3) (sitofp .f32),
    TRef.unary (TRef.of (T := ⟨S_, .f32⟩) main_call14_v3) (TRef.of (T := ⟨S4x512x512, .f32⟩) main_call14_v4) (broadcastInDim S4x512x512 ![] bcast_S_S4x512x512),
    TRef.binary (TRef.of (T := ⟨S4x512x512, .f32⟩) main_call14_v4) (TRef.of (T := ⟨S4x512x512, .f32⟩) main_call14_v2) (TRef.of (T := ⟨S4x512x512, .f32⟩) main_v344) minimumf,
    unary main_v344 main_v345 (fptosi 32 : (⟨S4x512x512, .f32⟩ : BufTy).Contents (Elt F) → (⟨S4x512x512, .i32⟩ : BufTy).Contents (Elt F)),
    nullary main_c_114 (constantI S_ 32 0#32),
    nullary main_c_115 (constantI S_ 32 511#32),
    TRef.unary (TRef.of (T := ⟨S_, .i32⟩) main_c_114) (TRef.of (T := ⟨S_, .f32⟩) main_call15_v0) (sitofp .f32),
    TRef.unary (TRef.of (T := ⟨S_, .f32⟩) main_call15_v0) (TRef.of (T := ⟨S4x512x512, .f32⟩) main_call15_v1) (broadcastInDim S4x512x512 ![] bcast_S_S4x512x512),
    TRef.binary (TRef.of (T := ⟨S4x512x512, .f32⟩) main_call15_v1) (TRef.of (T := ⟨S4x512x512, .f32⟩) main_v330) (TRef.of (T := ⟨S4x512x512, .f32⟩) main_call15_v2) maximumf,
    TRef.unary (TRef.of (T := ⟨S_, .i32⟩) main_c_115) (TRef.of (T := ⟨S_, .f32⟩) main_call15_v3) (sitofp .f32),
    TRef.unary (TRef.of (T := ⟨S_, .f32⟩) main_call15_v3) (TRef.of (T := ⟨S4x512x512, .f32⟩) main_call15_v4) (broadcastInDim S4x512x512 ![] bcast_S_S4x512x512),
    TRef.binary (TRef.of (T := ⟨S4x512x512, .f32⟩) main_call15_v4) (TRef.of (T := ⟨S4x512x512, .f32⟩) main_call15_v2) (TRef.of (T := ⟨S4x512x512, .f32⟩) main_v346) minimumf,
    unary main_v346 main_v347 (fptosi 32 : (⟨S4x512x512, .f32⟩ : BufTy).Contents (Elt F) → (⟨S4x512x512, .i32⟩ : BufTy).Contents (Elt F)),
    nullary main_c_116 (constantI S_ 32 0#32),
    unary main_c_116 main_v348 (broadcastInDim S4x512x512 ![] bcast_S_S4x512x512 : (⟨S_, .i32⟩ : BufTy).Contents (Elt F) → (⟨S4x512x512, .i32⟩ : BufTy).Contents (Elt F)),
    binary main_v347 main_v348 main_v349 (cmpi .slt : (⟨S4x512x512, .i32⟩ : BufTy).Contents (Elt F) → (⟨S4x512x512, .i32⟩ : BufTy).Contents (Elt F) → (⟨S4x512x512, .i1⟩ : BufTy).Contents (Elt F)),
    nullary main_c_117 (constantI S_ 32 512#32),
    unary main_c_117 main_v350 (broadcastInDim S4x512x512 ![] bcast_S_S4x512x512 : (⟨S_, .i32⟩ : BufTy).Contents (Elt F) → (⟨S4x512x512, .i32⟩ : BufTy).Contents (Elt F)),
    binary main_v347 main_v350 main_v351 (addi : (⟨S4x512x512, .i32⟩ : BufTy).Contents (Elt F) → (⟨S4x512x512, .i32⟩ : BufTy).Contents (Elt F) → (⟨S4x512x512, .i32⟩ : BufTy).Contents (Elt F)),
    ternary main_v349 main_v351 main_v347 main_v352 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_118 (constantI S_ 32 0#32),
    unary main_c_118 main_v353 (broadcastInDim S4x512x512 ![] bcast_S_S4x512x512 : (⟨S_, .i32⟩ : BufTy).Contents (Elt F) → (⟨S4x512x512, .i32⟩ : BufTy).Contents (Elt F)),
    binary main_v345 main_v353 main_v354 (cmpi .slt : (⟨S4x512x512, .i32⟩ : BufTy).Contents (Elt F) → (⟨S4x512x512, .i32⟩ : BufTy).Contents (Elt F) → (⟨S4x512x512, .i1⟩ : BufTy).Contents (Elt F)),
    nullary main_c_119 (constantI S_ 32 512#32),
    unary main_c_119 main_v355 (broadcastInDim S4x512x512 ![] bcast_S_S4x512x512 : (⟨S_, .i32⟩ : BufTy).Contents (Elt F) → (⟨S4x512x512, .i32⟩ : BufTy).Contents (Elt F)),
    binary main_v345 main_v355 main_v356 (addi : (⟨S4x512x512, .i32⟩ : BufTy).Contents (Elt F) → (⟨S4x512x512, .i32⟩ : BufTy).Contents (Elt F) → (⟨S4x512x512, .i32⟩ : BufTy).Contents (Elt F)),
    ternary main_v354 main_v356 main_v345 main_v357 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)) ]

set_option maxRecDepth 16384 in
set_option maxHeartbeats 4000000 in
/-- Part 7 of @main is the line of its operations. -/
theorem part7 (d : Dev nD) : main_part7 (F := F) d = seq ops7 := rfl

set_option maxRecDepth 16384 in
theorem sub7 : (ops7 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem fresh7 : (ops7 : List (HloOp τ sig (Elt F))).Forall fun op => op.fresh = ∅ := by
  simp only [List.Forall]; repeat' constructor

/-- The operations of part 8, in order. -/
abbrev ops8 : List (HloOp τ sig (Elt F)) :=
  [ unary main_v352 main_v358 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v357 main_v359 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v358 main_v359 main_v360 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg3 main_v360 main_v361 ((fun x i => Host.gather gather_S16x512x512_S4x512x512x2_S16x4x512x512_0_12_n_n_12_3_1611 x i) : (⟨S16x512x512, .f32⟩ : BufTy).Contents (Elt F) → (⟨S4x512x512x2, .i32⟩ : BufTy).Contents (Elt F) → (⟨S16x4x512x512, .f32⟩ : BufTy).Contents (Elt F)),
    unary main_v343 main_v362 (uitofp .f32 : (⟨S4x512x512, .i1⟩ : BufTy).Contents (Elt F) → (⟨S4x512x512, .f32⟩ : BufTy).Contents (Elt F)),
    unary main_v362 main_v363 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v363 main_v364 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v361 main_v364 main_v365 (mulf : (⟨S16x4x512x512, .f32⟩ : BufTy).Contents (Elt F) → (⟨S16x4x512x512, .f32⟩ : BufTy).Contents (Elt F) → (⟨S16x4x512x512, .f32⟩ : BufTy).Contents (Elt F)),
    binary main_v207 main_v206 main_v366 (mulf : (⟨S4x512x512, .f32⟩ : BufTy).Contents (Elt F) → (⟨S4x512x512, .f32⟩ : BufTy).Contents (Elt F) → (⟨S4x512x512, .f32⟩ : BufTy).Contents (Elt F)),
    unary main_v366 main_v367 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v367 main_v368 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v365 main_v368 main_v369 (mulf : (⟨S16x4x512x512, .f32⟩ : BufTy).Contents (Elt F) → (⟨S16x4x512x512, .f32⟩ : BufTy).Contents (Elt F) → (⟨S16x4x512x512, .f32⟩ : BufTy).Contents (Elt F)),
    binary main_v328 main_v369 main_v370 (addf : (⟨S16x4x512x512, .f32⟩ : BufTy).Contents (Elt F) → (⟨S16x4x512x512, .f32⟩ : BufTy).Contents (Elt F) → (⟨S16x4x512x512, .f32⟩ : BufTy).Contents (Elt F)),
    unary main_v370 main_v371 ((transpose S4x16x512x512 [1, 0, 2, 3] · transposes_S16x4x512x512_S4x16x512x512_1_0_2_3) : (⟨S16x4x512x512, .f32⟩ : BufTy).Contents (Elt F) → (⟨S4x16x512x512, .f32⟩ : BufTy).Contents (Elt F)),
    binary main_v187 main_v371 main_v372 (addf : (⟨S4x16x512x512, .f32⟩ : BufTy).Contents (Elt F) → (⟨S4x16x512x512, .f32⟩ : BufTy).Contents (Elt F) → (⟨S4x16x512x512, .f32⟩ : BufTy).Contents (Elt F)),
    unary main_v3 main_v373 ((extractStridedSlice S4x512x512x1 ![0, 0, 0, 0] · slices_S4x512x512x2_S4x512x512x1_0_0_0_0) : (⟨S4x512x512x2, .f32⟩ : BufTy).Contents (Elt F) → (⟨S4x512x512x1, .f32⟩ : BufTy).Contents (Elt F)),
    reshape main_v373 main_v374 rfl shapeCasts_S4x512x512x1_S4x512x512,
    unary main_v3 main_v375 ((extractStridedSlice S4x512x512x1 ![0, 0, 0, 1] · slices_S4x512x512x2_S4x512x512x1_0_0_0_1) : (⟨S4x512x512x2, .f32⟩ : BufTy).Contents (Elt F) → (⟨S4x512x512x1, .f32⟩ : BufTy).Contents (Elt F)),
    reshape main_v375 main_v376 rfl shapeCasts_S4x512x512x1_S4x512x512,
    nullary main_cst_120 (constant S_ .f32 0x3F800000#32),
    unary main_cst_120 main_v377 (broadcastInDim S4x512x512 ![] bcast_S_S4x512x512 : (⟨S_, .f32⟩ : BufTy).Contents (Elt F) → (⟨S4x512x512, .f32⟩ : BufTy).Contents (Elt F)),
    binary main_v374 main_v377 main_v378 (addf : (⟨S4x512x512, .f32⟩ : BufTy).Contents (Elt F) → (⟨S4x512x512, .f32⟩ : BufTy).Contents (Elt F) → (⟨S4x512x512, .f32⟩ : BufTy).Contents (Elt F)),
    nullary main_cst_121 (constant S_ .f32 0x3F000000#32),
    unary main_cst_121 main_v379 (broadcastInDim S4x512x512 ![] bcast_S_S4x512x512 : (⟨S_, .f32⟩ : BufTy).Contents (Elt F) → (⟨S4x512x512, .f32⟩ : BufTy).Contents (Elt F)),
    binary main_v378 main_v379 main_v380 (mulf : (⟨S4x512x512, .f32⟩ : BufTy).Contents (Elt F) → (⟨S4x512x512, .f32⟩ : BufTy).Contents (Elt F) → (⟨S4x512x512, .f32⟩ : BufTy).Contents (Elt F)),
    nullary main_cst_122 (constant S_ .f32 0x437F0000#32),
    unary main_cst_122 main_v381 (broadcastInDim S4x512x512 ![] bcast_S_S4x512x512 : (⟨S_, .f32⟩ : BufTy).Contents (Elt F) → (⟨S4x512x512, .f32⟩ : BufTy).Contents (Elt F)),
    binary main_v380 main_v381 main_v382 (mulf : (⟨S4x512x512, .f32⟩ : BufTy).Contents (Elt F) → (⟨S4x512x512, .f32⟩ : BufTy).Contents (Elt F) → (⟨S4x512x512, .f32⟩ : BufTy).Contents (Elt F)),
    nullary main_cst_123 (constant S_ .f32 0x3F800000#32),
    unary main_cst_123 main_v383 (broadcastInDim S4x512x512 ![] bcast_S_S4x512x512 : (⟨S_, .f32⟩ : BufTy).Contents (Elt F) → (⟨S4x512x512, .f32⟩ : BufTy).Contents (Elt F)),
    binary main_v376 main_v383 main_v384 (addf : (⟨S4x512x512, .f32⟩ : BufTy).Contents (Elt F) → (⟨S4x512x512, .f32⟩ : BufTy).Contents (Elt F) → (⟨S4x512x512, .f32⟩ : BufTy).Contents (Elt F)),
    nullary main_cst_124 (constant S_ .f32 0x3F000000#32),
    unary main_cst_124 main_v385 (broadcastInDim S4x512x512 ![] bcast_S_S4x512x512 : (⟨S_, .f32⟩ : BufTy).Contents (Elt F) → (⟨S4x512x512, .f32⟩ : BufTy).Contents (Elt F)),
    binary main_v384 main_v385 main_v386 (mulf : (⟨S4x512x512, .f32⟩ : BufTy).Contents (Elt F) → (⟨S4x512x512, .f32⟩ : BufTy).Contents (Elt F) → (⟨S4x512x512, .f32⟩ : BufTy).Contents (Elt F)),
    nullary main_cst_125 (constant S_ .f32 0x437F0000#32),
    unary main_cst_125 main_v387 (broadcastInDim S4x512x512 ![] bcast_S_S4x512x512 : (⟨S_, .f32⟩ : BufTy).Contents (Elt F) → (⟨S4x512x512, .f32⟩ : BufTy).Contents (Elt F)),
    binary main_v386 main_v387 main_v388 (mulf : (⟨S4x512x512, .f32⟩ : BufTy).Contents (Elt F) → (⟨S4x512x512, .f32⟩ : BufTy).Contents (Elt F) → (⟨S4x512x512, .f32⟩ : BufTy).Contents (Elt F)),
    unary main_v382 main_v389 (Host.floor : (⟨S4x512x512, .f32⟩ : BufTy).Contents (Elt F) → (⟨S4x512x512, .f32⟩ : BufTy).Contents (Elt F)),
    unary main_v388 main_v390 (Host.floor : (⟨S4x512x512, .f32⟩ : BufTy).Contents (Elt F) → (⟨S4x512x512, .f32⟩ : BufTy).Contents (Elt F)),
    binary main_v382 main_v389 main_v391 (subf : (⟨S4x512x512, .f32⟩ : BufTy).Contents (Elt F) → (⟨S4x512x512, .f32⟩ : BufTy).Contents (Elt F) → (⟨S4x512x512, .f32⟩ : BufTy).Contents (Elt F)),
    binary main_v388 main_v390 main_v392 (subf : (⟨S4x512x512, .f32⟩ : BufTy).Contents (Elt F) → (⟨S4x512x512, .f32⟩ : BufTy).Contents (Elt F) → (⟨S4x512x512, .f32⟩ : BufTy).Contents (Elt F)),
    nullary main_cst_126 (constant S_ .f32 0x3F800000#32),
    unary main_cst_126 main_v393 (broadcastInDim S4x512x512 ![] bcast_S_S4x512x512 : (⟨S_, .f32⟩ : BufTy).Contents (Elt F) → (⟨S4x512x512, .f32⟩ : BufTy).Contents (Elt F)),
    binary main_v393 main_v391 main_v394 (subf : (⟨S4x512x512, .f32⟩ : BufTy).Contents (Elt F) → (⟨S4x512x512, .f32⟩ : BufTy).Contents (Elt F) → (⟨S4x512x512, .f32⟩ : BufTy).Contents (Elt F)),
    nullary main_cst_127 (constant S_ .f32 0x3F800000#32),
    unary main_cst_127 main_v395 (broadcastInDim S4x512x512 ![] bcast_S_S4x512x512 : (⟨S_, .f32⟩ : BufTy).Contents (Elt F) → (⟨S4x512x512, .f32⟩ : BufTy).Contents (Elt F)),
    binary main_v395 main_v392 main_v396 (subf : (⟨S4x512x512, .f32⟩ : BufTy).Contents (Elt F) → (⟨S4x512x512, .f32⟩ : BufTy).Contents (Elt F) → (⟨S4x512x512, .f32⟩ : BufTy).Contents (Elt F)),
    nullary main_cst_128 (constant S_ .f32 0x00000000#32),
    unary main_cst_128 main_v397 (broadcastInDim S4x512x512 ![] bcast_S_S4x512x512 : (⟨S_, .f32⟩ : BufTy).Contents (Elt F) → (⟨S4x512x512, .f32⟩ : BufTy).Contents (Elt F)),
    binary main_v389 main_v397 main_v398 (cmpf .oge : (⟨S4x512x512, .f32⟩ : BufTy).Contents (Elt F) → (⟨S4x512x512, .f32⟩ : BufTy).Contents (Elt F) → (⟨S4x512x512, .i1⟩ : BufTy).Contents (Elt F)),
    nullary main_cst_129 (constant S_ .f32 0x437F0000#32),
    unary main_cst_129 main_v399 (broadcastInDim S4x512x512 ![] bcast_S_S4x512x512 : (⟨S_, .f32⟩ : BufTy).Contents (Elt F) → (⟨S4x512x512, .f32⟩ : BufTy).Contents (Elt F)),
    binary main_v389 main_v399 main_v400 (cmpf .ole : (⟨S4x512x512, .f32⟩ : BufTy).Contents (Elt F) → (⟨S4x512x512, .f32⟩ : BufTy).Contents (Elt F) → (⟨S4x512x512, .i1⟩ : BufTy).Contents (Elt F)),
    binary main_v398 main_v400 main_v401 (andi : (⟨S4x512x512, .i1⟩ : BufTy).Contents (Elt F) → (⟨S4x512x512, .i1⟩ : BufTy).Contents (Elt F) → (⟨S4x512x512, .i1⟩ : BufTy).Contents (Elt F)),
    nullary main_cst_130 (constant S_ .f32 0x00000000#32),
    unary main_cst_130 main_v402 (broadcastInDim S4x512x512 ![] bcast_S_S4x512x512 : (⟨S_, .f32⟩ : BufTy).Contents (Elt F) → (⟨S4x512x512, .f32⟩ : BufTy).Contents (Elt F)),
    binary main_v390 main_v402 main_v403 (cmpf .oge : (⟨S4x512x512, .f32⟩ : BufTy).Contents (Elt F) → (⟨S4x512x512, .f32⟩ : BufTy).Contents (Elt F) → (⟨S4x512x512, .i1⟩ : BufTy).Contents (Elt F)),
    binary main_v401 main_v403 main_v404 (andi : (⟨S4x512x512, .i1⟩ : BufTy).Contents (Elt F) → (⟨S4x512x512, .i1⟩ : BufTy).Contents (Elt F) → (⟨S4x512x512, .i1⟩ : BufTy).Contents (Elt F)),
    nullary main_cst_131 (constant S_ .f32 0x437F0000#32),
    unary main_cst_131 main_v405 (broadcastInDim S4x512x512 ![] bcast_S_S4x512x512 : (⟨S_, .f32⟩ : BufTy).Contents (Elt F) → (⟨S4x512x512, .f32⟩ : BufTy).Contents (Elt F)) ]

set_option maxRecDepth 16384 in
set_option maxHeartbeats 4000000 in
/-- Part 8 of @main is the line of its operations. -/
theorem part8 (d : Dev nD) : main_part8 (F := F) d = seq ops8 := rfl

set_option maxRecDepth 16384 in
theorem sub8 : (ops8 : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

theorem fresh8 : (ops8 : List (HloOp τ sig (Elt F))).Forall fun op => op.fresh = ∅ := by
  simp only [List.Forall]; repeat' constructor

/-- The operations of part 9, in order. -/
abbrev ops9 : List (HloOp τ sig (Elt F)) :=
  [ binary main_v390 main_v405 main_v406 (cmpf .ole : (⟨S4x512x512, .f32⟩ : BufTy).Contents (Elt F) → (⟨S4x512x512, .f32⟩ : BufTy).Contents (Elt F) → (⟨S4x512x512, .i1⟩ : BufTy).Contents (Elt F)),
    binary main_v404 main_v406 main_v407 (andi : (⟨S4x512x512, .i1⟩ : BufTy).Contents (Elt F) → (⟨S4x512x512, .i1⟩ : BufTy).Contents (Elt F) → (⟨S4x512x512, .i1⟩ : BufTy).Contents (Elt F)),
    nullary main_c_132 (constantI S_ 32 0#32),
    nullary main_c_133 (constantI S_ 32 255#32),
    TRef.unary (TRef.of (T := ⟨S_, .i32⟩) main_c_132) (TRef.of (T := ⟨S_, .f32⟩) main_call16_v0) (sitofp .f32),
    TRef.unary (TRef.of (T := ⟨S_, .f32⟩) main_call16_v0) (TRef.of (T := ⟨S4x512x512, .f32⟩) main_call16_v1) (broadcastInDim S4x512x512 ![] bcast_S_S4x512x512),
    TRef.binary (TRef.of (T := ⟨S4x512x512, .f32⟩) main_call16_v1) (TRef.of (T := ⟨S4x512x512, .f32⟩) main_v389) (TRef.of (T := ⟨S4x512x512, .f32⟩) main_call16_v2) maximumf,
    TRef.unary (TRef.of (T := ⟨S_, .i32⟩) main_c_133) (TRef.of (T := ⟨S_, .f32⟩) main_call16_v3) (sitofp .f32),
    TRef.unary (TRef.of (T := ⟨S_, .f32⟩) main_call16_v3) (TRef.of (T := ⟨S4x512x512, .f32⟩) main_call16_v4) (broadcastInDim S4x512x512 ![] bcast_S_S4x512x512),
    TRef.binary (TRef.of (T := ⟨S4x512x512, .f32⟩) main_call16_v4) (TRef.of (T := ⟨S4x512x512, .f32⟩) main_call16_v2) (TRef.of (T := ⟨S4x512x512, .f32⟩) main_v408) minimumf,
    unary main_v408 main_v409 (fptosi 32 : (⟨S4x512x512, .f32⟩ : BufTy).Contents (Elt F) → (⟨S4x512x512, .i32⟩ : BufTy).Contents (Elt F)),
    nullary main_c_134 (constantI S_ 32 0#32),
    nullary main_c_135 (constantI S_ 32 255#32),
    TRef.unary (TRef.of (T := ⟨S_, .i32⟩) main_c_134) (TRef.of (T := ⟨S_, .f32⟩) main_call17_v0) (sitofp .f32),
    TRef.unary (TRef.of (T := ⟨S_, .f32⟩) main_call17_v0) (TRef.of (T := ⟨S4x512x512, .f32⟩) main_call17_v1) (broadcastInDim S4x512x512 ![] bcast_S_S4x512x512),
    TRef.binary (TRef.of (T := ⟨S4x512x512, .f32⟩) main_call17_v1) (TRef.of (T := ⟨S4x512x512, .f32⟩) main_v390) (TRef.of (T := ⟨S4x512x512, .f32⟩) main_call17_v2) maximumf,
    TRef.unary (TRef.of (T := ⟨S_, .i32⟩) main_c_135) (TRef.of (T := ⟨S_, .f32⟩) main_call17_v3) (sitofp .f32),
    TRef.unary (TRef.of (T := ⟨S_, .f32⟩) main_call17_v3) (TRef.of (T := ⟨S4x512x512, .f32⟩) main_call17_v4) (broadcastInDim S4x512x512 ![] bcast_S_S4x512x512),
    TRef.binary (TRef.of (T := ⟨S4x512x512, .f32⟩) main_call17_v4) (TRef.of (T := ⟨S4x512x512, .f32⟩) main_call17_v2) (TRef.of (T := ⟨S4x512x512, .f32⟩) main_v410) minimumf,
    unary main_v410 main_v411 (fptosi 32 : (⟨S4x512x512, .f32⟩ : BufTy).Contents (Elt F) → (⟨S4x512x512, .i32⟩ : BufTy).Contents (Elt F)),
    nullary main_c_136 (constantI S_ 32 0#32),
    unary main_c_136 main_v412 (broadcastInDim S4x512x512 ![] bcast_S_S4x512x512 : (⟨S_, .i32⟩ : BufTy).Contents (Elt F) → (⟨S4x512x512, .i32⟩ : BufTy).Contents (Elt F)),
    binary main_v411 main_v412 main_v413 (cmpi .slt : (⟨S4x512x512, .i32⟩ : BufTy).Contents (Elt F) → (⟨S4x512x512, .i32⟩ : BufTy).Contents (Elt F) → (⟨S4x512x512, .i1⟩ : BufTy).Contents (Elt F)),
    nullary main_c_137 (constantI S_ 32 256#32),
    unary main_c_137 main_v414 (broadcastInDim S4x512x512 ![] bcast_S_S4x512x512 : (⟨S_, .i32⟩ : BufTy).Contents (Elt F) → (⟨S4x512x512, .i32⟩ : BufTy).Contents (Elt F)),
    binary main_v411 main_v414 main_v415 (addi : (⟨S4x512x512, .i32⟩ : BufTy).Contents (Elt F) → (⟨S4x512x512, .i32⟩ : BufTy).Contents (Elt F) → (⟨S4x512x512, .i32⟩ : BufTy).Contents (Elt F)),
    ternary main_v413 main_v415 main_v411 main_v416 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_138 (constantI S_ 32 0#32),
    unary main_c_138 main_v417 (broadcastInDim S4x512x512 ![] bcast_S_S4x512x512 : (⟨S_, .i32⟩ : BufTy).Contents (Elt F) → (⟨S4x512x512, .i32⟩ : BufTy).Contents (Elt F)),
    binary main_v409 main_v417 main_v418 (cmpi .slt : (⟨S4x512x512, .i32⟩ : BufTy).Contents (Elt F) → (⟨S4x512x512, .i32⟩ : BufTy).Contents (Elt F) → (⟨S4x512x512, .i1⟩ : BufTy).Contents (Elt F)),
    nullary main_c_139 (constantI S_ 32 256#32),
    unary main_c_139 main_v419 (broadcastInDim S4x512x512 ![] bcast_S_S4x512x512 : (⟨S_, .i32⟩ : BufTy).Contents (Elt F) → (⟨S4x512x512, .i32⟩ : BufTy).Contents (Elt F)),
    binary main_v409 main_v419 main_v420 (addi : (⟨S4x512x512, .i32⟩ : BufTy).Contents (Elt F) → (⟨S4x512x512, .i32⟩ : BufTy).Contents (Elt F) → (⟨S4x512x512, .i32⟩ : BufTy).Contents (Elt F)),
    ternary main_v418 main_v420 main_v409 main_v421 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v416 main_v422 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v421 main_v423 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v422 main_v423 main_v424 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg4 main_v424 main_v425 ((fun x i => Host.gather gather_S16x256x256_S4x512x512x2_S16x4x512x512_0_12_n_n_12_3_1611 x i) : (⟨S16x256x256, .f32⟩ : BufTy).Contents (Elt F) → (⟨S4x512x512x2, .i32⟩ : BufTy).Contents (Elt F) → (⟨S16x4x512x512, .f32⟩ : BufTy).Contents (Elt F)),
    unary main_v407 main_v426 (uitofp .f32 : (⟨S4x512x512, .i1⟩ : BufTy).Contents (Elt F) → (⟨S4x512x512, .f32⟩ : BufTy).Contents (Elt F)),
    unary main_v426 main_v427 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v427 main_v428 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v425 main_v428 main_v429 (mulf : (⟨S16x4x512x512, .f32⟩ : BufTy).Contents (Elt F) → (⟨S16x4x512x512, .f32⟩ : BufTy).Contents (Elt F) → (⟨S16x4x512x512, .f32⟩ : BufTy).Contents (Elt F)),
    binary main_v396 main_v394 main_v430 (mulf : (⟨S4x512x512, .f32⟩ : BufTy).Contents (Elt F) → (⟨S4x512x512, .f32⟩ : BufTy).Contents (Elt F) → (⟨S4x512x512, .f32⟩ : BufTy).Contents (Elt F)),
    unary main_v430 main_v431 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v431 main_v432 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v429 main_v432 main_v433 (mulf : (⟨S16x4x512x512, .f32⟩ : BufTy).Contents (Elt F) → (⟨S16x4x512x512, .f32⟩ : BufTy).Contents (Elt F) → (⟨S16x4x512x512, .f32⟩ : BufTy).Contents (Elt F)),
    nullary main_cst_140 (constant S_ .f32 0x3F800000#32),
    unary main_cst_140 main_v434 (broadcastInDim S4x512x512 ![] bcast_S_S4x512x512 : (⟨S_, .f32⟩ : BufTy).Contents (Elt F) → (⟨S4x512x512, .f32⟩ : BufTy).Contents (Elt F)),
    binary main_v389 main_v434 main_v435 (addf : (⟨S4x512x512, .f32⟩ : BufTy).Contents (Elt F) → (⟨S4x512x512, .f32⟩ : BufTy).Contents (Elt F) → (⟨S4x512x512, .f32⟩ : BufTy).Contents (Elt F)),
    nullary main_cst_141 (constant S_ .f32 0x00000000#32),
    unary main_cst_141 main_v436 (broadcastInDim S4x512x512 ![] bcast_S_S4x512x512 : (⟨S_, .f32⟩ : BufTy).Contents (Elt F) → (⟨S4x512x512, .f32⟩ : BufTy).Contents (Elt F)),
    binary main_v435 main_v436 main_v437 (cmpf .oge : (⟨S4x512x512, .f32⟩ : BufTy).Contents (Elt F) → (⟨S4x512x512, .f32⟩ : BufTy).Contents (Elt F) → (⟨S4x512x512, .i1⟩ : BufTy).Contents (Elt F)),
    nullary main_cst_142 (constant S_ .f32 0x437F0000#32),
    unary main_cst_142 main_v438 (broadcastInDim S4x512x512 ![] bcast_S_S4x512x512 : (⟨S_, .f32⟩ : BufTy).Contents (Elt F) → (⟨S4x512x512, .f32⟩ : BufTy).Contents (Elt F)),
    binary main_v435 main_v438 main_v439 (cmpf .ole : (⟨S4x512x512, .f32⟩ : BufTy).Contents (Elt F) → (⟨S4x512x512, .f32⟩ : BufTy).Contents (Elt F) → (⟨S4x512x512, .i1⟩ : BufTy).Contents (Elt F)),
    binary main_v437 main_v439 main_v440 (andi : (⟨S4x512x512, .i1⟩ : BufTy).Contents (Elt F) → (⟨S4x512x512, .i1⟩ : BufTy).Contents (Elt F) → (⟨S4x512x512, .i1⟩ : BufTy).Contents (Elt F)),
    nullary main_cst_143 (constant S_ .f32 0x00000000#32),
    unary main_cst_143 main_v441 (broadcastInDim S4x512x512 ![] bcast_S_S4x512x512 : (⟨S_, .f32⟩ : BufTy).Contents (Elt F) → (⟨S4x512x512, .f32⟩ : BufTy).Contents (Elt F)),
    binary main_v390 main_v441 main_v442 (cmpf .oge : (⟨S4x512x512, .f32⟩ : BufTy).Contents (Elt F) → (⟨S4x512x512, .f32⟩ : BufTy).Contents (Elt F) → (⟨S4x512x512, .i1⟩ : BufTy).Contents (Elt F)),
    binary main_v440 main_v442 main_v443 (andi : (⟨S4x512x512, .i1⟩ : BufTy).Contents (Elt F) → (⟨S4x512x512, .i1⟩ : BufTy).Contents (Elt F) → (⟨S4x512x512, .i1⟩ : BufTy).Contents (Elt F)),
    nullary main_cst_144 (constant S_ .f32 0x437F0000#32),
    unary main_cst_144 main_v444 (broadcastInDim S4x512x512 ![] bcast_S_S4x512x512 : (⟨S_, .f32⟩ : BufTy).Contents (Elt F) → (⟨S4x512x512, .f32⟩ : BufTy).Contents (Elt F)),
    binary main_v390 main_v444 main_v445 (cmpf .ole : (⟨S4x512x512, .f32⟩ : BufTy).Contents (Elt F) → (⟨S4x512x512, .f32⟩ : BufTy).Contents (Elt F) → (⟨S4x512x512, .i1⟩ : BufTy).Contents (Elt F)),
    binary main_v443 main_v445 main_v446 (andi : (⟨S4x512x512, .i1⟩ : BufTy).Contents (Elt F) → (⟨S4x512x512, .i1⟩ : BufTy).Contents (Elt F) → (⟨S4x512x512, .i1⟩ : BufTy).Contents (Elt F)),
    nullary main_c_145 (constantI S_ 32 0#32),
    nullary main_c_146 (constantI S_ 32 255#32),
    TRef.unary (TRef.of (T := ⟨S_, .i32⟩) main_c_145) (TRef.of (T := ⟨S_, .f32⟩) main_call18_v0) (sitofp .f32),
    TRef.unary (TRef.of (T := ⟨S_, .f32⟩) main_call18_v0) (TRef.of (T := ⟨S4x512x512, .f32⟩) main_call18_v1) (broadcastInDim S4x512x512 ![] bcast_S_S4x512x512),
    TRef.binary (TRef.of (T := ⟨S4x512x512, .f32⟩) main_call18_v1) (TRef.of (T := ⟨S4x512x512, .f32⟩) main_v435) (TRef.of (T := ⟨S4x512x512, .f32⟩) main_call18_v2) maximumf,
    TRef.unary (TRef.of (T := ⟨S_, .i32⟩) main_c_146) (TRef.of (T := ⟨S_, .f32⟩) main_call18_v3) (sitofp .f32),
    TRef.unary (TRef.of (T := ⟨S_, .f32⟩) main_call18_v3) (TRef.of (T := ⟨S4x512x512, .f32⟩) main_call18_v4) (broadcastInDim S4x512x512 ![] bcast_S_S4x512x512),
    TRef.binary (TRef.of (T := ⟨S4x512x512, .f32⟩) main_call18_v4) (TRef.of (T := ⟨S4x512x512, .f32⟩) main_call18_v2) (TRef.of (T := ⟨S4x512x512, .f32⟩) main_v447) minimumf,
    unary main_v447 main_v448 (fptosi 32 : (⟨S4x512x512, .f32⟩ : BufTy).Contents (Elt F) → (⟨S4x512x512, .i32⟩ : BufTy).Contents (Elt F)),
    nullary main_c_147 (constantI S_ 32 0#32),
    nullary main_c_148 (constantI S_ 32 255#32) ]

set_option maxRecDepth 16384 in
set_option maxHeartbeats 4000000 in
/-- Part 9 of @main is the line of its operations. -/
theorem part9 (d : Dev nD) : main_part9 (F := F) d = seq ops9 := rfl

set_option maxRecDepth 16384 in
theorem sub9 : (ops9 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub ..⟩

theorem fresh9 : (ops9 : List (HloOp τ sig (Elt F))).Forall fun op => op.fresh = ∅ := by
  simp only [List.Forall]; repeat' constructor

/-- The operations of part 10, in order. -/
abbrev ops10 : List (HloOp τ sig (Elt F)) :=
  [ TRef.unary (TRef.of (T := ⟨S_, .i32⟩) main_c_147) (TRef.of (T := ⟨S_, .f32⟩) main_call19_v0) (sitofp .f32),
    TRef.unary (TRef.of (T := ⟨S_, .f32⟩) main_call19_v0) (TRef.of (T := ⟨S4x512x512, .f32⟩) main_call19_v1) (broadcastInDim S4x512x512 ![] bcast_S_S4x512x512),
    TRef.binary (TRef.of (T := ⟨S4x512x512, .f32⟩) main_call19_v1) (TRef.of (T := ⟨S4x512x512, .f32⟩) main_v390) (TRef.of (T := ⟨S4x512x512, .f32⟩) main_call19_v2) maximumf,
    TRef.unary (TRef.of (T := ⟨S_, .i32⟩) main_c_148) (TRef.of (T := ⟨S_, .f32⟩) main_call19_v3) (sitofp .f32),
    TRef.unary (TRef.of (T := ⟨S_, .f32⟩) main_call19_v3) (TRef.of (T := ⟨S4x512x512, .f32⟩) main_call19_v4) (broadcastInDim S4x512x512 ![] bcast_S_S4x512x512),
    TRef.binary (TRef.of (T := ⟨S4x512x512, .f32⟩) main_call19_v4) (TRef.of (T := ⟨S4x512x512, .f32⟩) main_call19_v2) (TRef.of (T := ⟨S4x512x512, .f32⟩) main_v449) minimumf,
    unary main_v449 main_v450 (fptosi 32 : (⟨S4x512x512, .f32⟩ : BufTy).Contents (Elt F) → (⟨S4x512x512, .i32⟩ : BufTy).Contents (Elt F)),
    nullary main_c_149 (constantI S_ 32 0#32),
    unary main_c_149 main_v451 (broadcastInDim S4x512x512 ![] bcast_S_S4x512x512 : (⟨S_, .i32⟩ : BufTy).Contents (Elt F) → (⟨S4x512x512, .i32⟩ : BufTy).Contents (Elt F)),
    binary main_v450 main_v451 main_v452 (cmpi .slt : (⟨S4x512x512, .i32⟩ : BufTy).Contents (Elt F) → (⟨S4x512x512, .i32⟩ : BufTy).Contents (Elt F) → (⟨S4x512x512, .i1⟩ : BufTy).Contents (Elt F)),
    nullary main_c_150 (constantI S_ 32 256#32),
    unary main_c_150 main_v453 (broadcastInDim S4x512x512 ![] bcast_S_S4x512x512 : (⟨S_, .i32⟩ : BufTy).Contents (Elt F) → (⟨S4x512x512, .i32⟩ : BufTy).Contents (Elt F)),
    binary main_v450 main_v453 main_v454 (addi : (⟨S4x512x512, .i32⟩ : BufTy).Contents (Elt F) → (⟨S4x512x512, .i32⟩ : BufTy).Contents (Elt F) → (⟨S4x512x512, .i32⟩ : BufTy).Contents (Elt F)),
    ternary main_v452 main_v454 main_v450 main_v455 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_151 (constantI S_ 32 0#32),
    unary main_c_151 main_v456 (broadcastInDim S4x512x512 ![] bcast_S_S4x512x512 : (⟨S_, .i32⟩ : BufTy).Contents (Elt F) → (⟨S4x512x512, .i32⟩ : BufTy).Contents (Elt F)),
    binary main_v448 main_v456 main_v457 (cmpi .slt : (⟨S4x512x512, .i32⟩ : BufTy).Contents (Elt F) → (⟨S4x512x512, .i32⟩ : BufTy).Contents (Elt F) → (⟨S4x512x512, .i1⟩ : BufTy).Contents (Elt F)),
    nullary main_c_152 (constantI S_ 32 256#32),
    unary main_c_152 main_v458 (broadcastInDim S4x512x512 ![] bcast_S_S4x512x512 : (⟨S_, .i32⟩ : BufTy).Contents (Elt F) → (⟨S4x512x512, .i32⟩ : BufTy).Contents (Elt F)),
    binary main_v448 main_v458 main_v459 (addi : (⟨S4x512x512, .i32⟩ : BufTy).Contents (Elt F) → (⟨S4x512x512, .i32⟩ : BufTy).Contents (Elt F) → (⟨S4x512x512, .i32⟩ : BufTy).Contents (Elt F)),
    ternary main_v457 main_v459 main_v448 main_v460 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v455 main_v461 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v460 main_v462 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v461 main_v462 main_v463 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg4 main_v463 main_v464 ((fun x i => Host.gather gather_S16x256x256_S4x512x512x2_S16x4x512x512_0_12_n_n_12_3_1611 x i) : (⟨S16x256x256, .f32⟩ : BufTy).Contents (Elt F) → (⟨S4x512x512x2, .i32⟩ : BufTy).Contents (Elt F) → (⟨S16x4x512x512, .f32⟩ : BufTy).Contents (Elt F)),
    unary main_v446 main_v465 (uitofp .f32 : (⟨S4x512x512, .i1⟩ : BufTy).Contents (Elt F) → (⟨S4x512x512, .f32⟩ : BufTy).Contents (Elt F)),
    unary main_v465 main_v466 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v466 main_v467 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v464 main_v467 main_v468 (mulf : (⟨S16x4x512x512, .f32⟩ : BufTy).Contents (Elt F) → (⟨S16x4x512x512, .f32⟩ : BufTy).Contents (Elt F) → (⟨S16x4x512x512, .f32⟩ : BufTy).Contents (Elt F)),
    binary main_v396 main_v391 main_v469 (mulf : (⟨S4x512x512, .f32⟩ : BufTy).Contents (Elt F) → (⟨S4x512x512, .f32⟩ : BufTy).Contents (Elt F) → (⟨S4x512x512, .f32⟩ : BufTy).Contents (Elt F)),
    unary main_v469 main_v470 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v470 main_v471 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v468 main_v471 main_v472 (mulf : (⟨S16x4x512x512, .f32⟩ : BufTy).Contents (Elt F) → (⟨S16x4x512x512, .f32⟩ : BufTy).Contents (Elt F) → (⟨S16x4x512x512, .f32⟩ : BufTy).Contents (Elt F)),
    binary main_v433 main_v472 main_v473 (addf : (⟨S16x4x512x512, .f32⟩ : BufTy).Contents (Elt F) → (⟨S16x4x512x512, .f32⟩ : BufTy).Contents (Elt F) → (⟨S16x4x512x512, .f32⟩ : BufTy).Contents (Elt F)),
    nullary main_cst_153 (constant S_ .f32 0x3F800000#32),
    unary main_cst_153 main_v474 (broadcastInDim S4x512x512 ![] bcast_S_S4x512x512 : (⟨S_, .f32⟩ : BufTy).Contents (Elt F) → (⟨S4x512x512, .f32⟩ : BufTy).Contents (Elt F)),
    binary main_v390 main_v474 main_v475 (addf : (⟨S4x512x512, .f32⟩ : BufTy).Contents (Elt F) → (⟨S4x512x512, .f32⟩ : BufTy).Contents (Elt F) → (⟨S4x512x512, .f32⟩ : BufTy).Contents (Elt F)),
    nullary main_cst_154 (constant S_ .f32 0x00000000#32),
    unary main_cst_154 main_v476 (broadcastInDim S4x512x512 ![] bcast_S_S4x512x512 : (⟨S_, .f32⟩ : BufTy).Contents (Elt F) → (⟨S4x512x512, .f32⟩ : BufTy).Contents (Elt F)),
    binary main_v389 main_v476 main_v477 (cmpf .oge : (⟨S4x512x512, .f32⟩ : BufTy).Contents (Elt F) → (⟨S4x512x512, .f32⟩ : BufTy).Contents (Elt F) → (⟨S4x512x512, .i1⟩ : BufTy).Contents (Elt F)),
    nullary main_cst_155 (constant S_ .f32 0x437F0000#32),
    unary main_cst_155 main_v478 (broadcastInDim S4x512x512 ![] bcast_S_S4x512x512 : (⟨S_, .f32⟩ : BufTy).Contents (Elt F) → (⟨S4x512x512, .f32⟩ : BufTy).Contents (Elt F)),
    binary main_v389 main_v478 main_v479 (cmpf .ole : (⟨S4x512x512, .f32⟩ : BufTy).Contents (Elt F) → (⟨S4x512x512, .f32⟩ : BufTy).Contents (Elt F) → (⟨S4x512x512, .i1⟩ : BufTy).Contents (Elt F)),
    binary main_v477 main_v479 main_v480 (andi : (⟨S4x512x512, .i1⟩ : BufTy).Contents (Elt F) → (⟨S4x512x512, .i1⟩ : BufTy).Contents (Elt F) → (⟨S4x512x512, .i1⟩ : BufTy).Contents (Elt F)),
    nullary main_cst_156 (constant S_ .f32 0x00000000#32),
    unary main_cst_156 main_v481 (broadcastInDim S4x512x512 ![] bcast_S_S4x512x512 : (⟨S_, .f32⟩ : BufTy).Contents (Elt F) → (⟨S4x512x512, .f32⟩ : BufTy).Contents (Elt F)),
    binary main_v475 main_v481 main_v482 (cmpf .oge : (⟨S4x512x512, .f32⟩ : BufTy).Contents (Elt F) → (⟨S4x512x512, .f32⟩ : BufTy).Contents (Elt F) → (⟨S4x512x512, .i1⟩ : BufTy).Contents (Elt F)),
    binary main_v480 main_v482 main_v483 (andi : (⟨S4x512x512, .i1⟩ : BufTy).Contents (Elt F) → (⟨S4x512x512, .i1⟩ : BufTy).Contents (Elt F) → (⟨S4x512x512, .i1⟩ : BufTy).Contents (Elt F)),
    nullary main_cst_157 (constant S_ .f32 0x437F0000#32),
    unary main_cst_157 main_v484 (broadcastInDim S4x512x512 ![] bcast_S_S4x512x512 : (⟨S_, .f32⟩ : BufTy).Contents (Elt F) → (⟨S4x512x512, .f32⟩ : BufTy).Contents (Elt F)),
    binary main_v475 main_v484 main_v485 (cmpf .ole : (⟨S4x512x512, .f32⟩ : BufTy).Contents (Elt F) → (⟨S4x512x512, .f32⟩ : BufTy).Contents (Elt F) → (⟨S4x512x512, .i1⟩ : BufTy).Contents (Elt F)),
    binary main_v483 main_v485 main_v486 (andi : (⟨S4x512x512, .i1⟩ : BufTy).Contents (Elt F) → (⟨S4x512x512, .i1⟩ : BufTy).Contents (Elt F) → (⟨S4x512x512, .i1⟩ : BufTy).Contents (Elt F)),
    nullary main_c_158 (constantI S_ 32 0#32),
    nullary main_c_159 (constantI S_ 32 255#32),
    TRef.unary (TRef.of (T := ⟨S_, .i32⟩) main_c_158) (TRef.of (T := ⟨S_, .f32⟩) main_call20_v0) (sitofp .f32),
    TRef.unary (TRef.of (T := ⟨S_, .f32⟩) main_call20_v0) (TRef.of (T := ⟨S4x512x512, .f32⟩) main_call20_v1) (broadcastInDim S4x512x512 ![] bcast_S_S4x512x512),
    TRef.binary (TRef.of (T := ⟨S4x512x512, .f32⟩) main_call20_v1) (TRef.of (T := ⟨S4x512x512, .f32⟩) main_v389) (TRef.of (T := ⟨S4x512x512, .f32⟩) main_call20_v2) maximumf,
    TRef.unary (TRef.of (T := ⟨S_, .i32⟩) main_c_159) (TRef.of (T := ⟨S_, .f32⟩) main_call20_v3) (sitofp .f32),
    TRef.unary (TRef.of (T := ⟨S_, .f32⟩) main_call20_v3) (TRef.of (T := ⟨S4x512x512, .f32⟩) main_call20_v4) (broadcastInDim S4x512x512 ![] bcast_S_S4x512x512),
    TRef.binary (TRef.of (T := ⟨S4x512x512, .f32⟩) main_call20_v4) (TRef.of (T := ⟨S4x512x512, .f32⟩) main_call20_v2) (TRef.of (T := ⟨S4x512x512, .f32⟩) main_v487) minimumf,
    unary main_v487 main_v488 (fptosi 32 : (⟨S4x512x512, .f32⟩ : BufTy).Contents (Elt F) → (⟨S4x512x512, .i32⟩ : BufTy).Contents (Elt F)),
    nullary main_c_160 (constantI S_ 32 0#32),
    nullary main_c_161 (constantI S_ 32 255#32),
    TRef.unary (TRef.of (T := ⟨S_, .i32⟩) main_c_160) (TRef.of (T := ⟨S_, .f32⟩) main_call21_v0) (sitofp .f32),
    TRef.unary (TRef.of (T := ⟨S_, .f32⟩) main_call21_v0) (TRef.of (T := ⟨S4x512x512, .f32⟩) main_call21_v1) (broadcastInDim S4x512x512 ![] bcast_S_S4x512x512),
    TRef.binary (TRef.of (T := ⟨S4x512x512, .f32⟩) main_call21_v1) (TRef.of (T := ⟨S4x512x512, .f32⟩) main_v475) (TRef.of (T := ⟨S4x512x512, .f32⟩) main_call21_v2) maximumf,
    TRef.unary (TRef.of (T := ⟨S_, .i32⟩) main_c_161) (TRef.of (T := ⟨S_, .f32⟩) main_call21_v3) (sitofp .f32),
    TRef.unary (TRef.of (T := ⟨S_, .f32⟩) main_call21_v3) (TRef.of (T := ⟨S4x512x512, .f32⟩) main_call21_v4) (broadcastInDim S4x512x512 ![] bcast_S_S4x512x512),
    TRef.binary (TRef.of (T := ⟨S4x512x512, .f32⟩) main_call21_v4) (TRef.of (T := ⟨S4x512x512, .f32⟩) main_call21_v2) (TRef.of (T := ⟨S4x512x512, .f32⟩) main_v489) minimumf,
    unary main_v489 main_v490 (fptosi 32 : (⟨S4x512x512, .f32⟩ : BufTy).Contents (Elt F) → (⟨S4x512x512, .i32⟩ : BufTy).Contents (Elt F)),
    nullary main_c_162 (constantI S_ 32 0#32),
    unary main_c_162 main_v491 (broadcastInDim S4x512x512 ![] bcast_S_S4x512x512 : (⟨S_, .i32⟩ : BufTy).Contents (Elt F) → (⟨S4x512x512, .i32⟩ : BufTy).Contents (Elt F)),
    binary main_v490 main_v491 main_v492 (cmpi .slt : (⟨S4x512x512, .i32⟩ : BufTy).Contents (Elt F) → (⟨S4x512x512, .i32⟩ : BufTy).Contents (Elt F) → (⟨S4x512x512, .i1⟩ : BufTy).Contents (Elt F)),
    nullary main_c_163 (constantI S_ 32 256#32),
    unary main_c_163 main_v493 (broadcastInDim S4x512x512 ![] bcast_S_S4x512x512 : (⟨S_, .i32⟩ : BufTy).Contents (Elt F) → (⟨S4x512x512, .i32⟩ : BufTy).Contents (Elt F)) ]

set_option maxRecDepth 16384 in
set_option maxHeartbeats 4000000 in
/-- Part 10 of @main is the line of its operations. -/
theorem part10 (d : Dev nD) : main_part10 (F := F) d = seq ops10 := rfl

set_option maxRecDepth 16384 in
theorem sub10 : (ops10 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub ..⟩

theorem fresh10 : (ops10 : List (HloOp τ sig (Elt F))).Forall fun op => op.fresh = ∅ := by
  simp only [List.Forall]; repeat' constructor

/-- The operations of part 11, in order. -/
abbrev ops11 : List (HloOp τ sig (Elt F)) :=
  [ binary main_v490 main_v493 main_v494 (addi : (⟨S4x512x512, .i32⟩ : BufTy).Contents (Elt F) → (⟨S4x512x512, .i32⟩ : BufTy).Contents (Elt F) → (⟨S4x512x512, .i32⟩ : BufTy).Contents (Elt F)),
    ternary main_v492 main_v494 main_v490 main_v495 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_164 (constantI S_ 32 0#32),
    unary main_c_164 main_v496 (broadcastInDim S4x512x512 ![] bcast_S_S4x512x512 : (⟨S_, .i32⟩ : BufTy).Contents (Elt F) → (⟨S4x512x512, .i32⟩ : BufTy).Contents (Elt F)),
    binary main_v488 main_v496 main_v497 (cmpi .slt : (⟨S4x512x512, .i32⟩ : BufTy).Contents (Elt F) → (⟨S4x512x512, .i32⟩ : BufTy).Contents (Elt F) → (⟨S4x512x512, .i1⟩ : BufTy).Contents (Elt F)),
    nullary main_c_165 (constantI S_ 32 256#32),
    unary main_c_165 main_v498 (broadcastInDim S4x512x512 ![] bcast_S_S4x512x512 : (⟨S_, .i32⟩ : BufTy).Contents (Elt F) → (⟨S4x512x512, .i32⟩ : BufTy).Contents (Elt F)),
    binary main_v488 main_v498 main_v499 (addi : (⟨S4x512x512, .i32⟩ : BufTy).Contents (Elt F) → (⟨S4x512x512, .i32⟩ : BufTy).Contents (Elt F) → (⟨S4x512x512, .i32⟩ : BufTy).Contents (Elt F)),
    ternary main_v497 main_v499 main_v488 main_v500 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v495 main_v501 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v500 main_v502 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v501 main_v502 main_v503 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg4 main_v503 main_v504 ((fun x i => Host.gather gather_S16x256x256_S4x512x512x2_S16x4x512x512_0_12_n_n_12_3_1611 x i) : (⟨S16x256x256, .f32⟩ : BufTy).Contents (Elt F) → (⟨S4x512x512x2, .i32⟩ : BufTy).Contents (Elt F) → (⟨S16x4x512x512, .f32⟩ : BufTy).Contents (Elt F)),
    unary main_v486 main_v505 (uitofp .f32 : (⟨S4x512x512, .i1⟩ : BufTy).Contents (Elt F) → (⟨S4x512x512, .f32⟩ : BufTy).Contents (Elt F)),
    unary main_v505 main_v506 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v506 main_v507 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v504 main_v507 main_v508 (mulf : (⟨S16x4x512x512, .f32⟩ : BufTy).Contents (Elt F) → (⟨S16x4x512x512, .f32⟩ : BufTy).Contents (Elt F) → (⟨S16x4x512x512, .f32⟩ : BufTy).Contents (Elt F)),
    binary main_v392 main_v394 main_v509 (mulf : (⟨S4x512x512, .f32⟩ : BufTy).Contents (Elt F) → (⟨S4x512x512, .f32⟩ : BufTy).Contents (Elt F) → (⟨S4x512x512, .f32⟩ : BufTy).Contents (Elt F)),
    unary main_v509 main_v510 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v510 main_v511 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v508 main_v511 main_v512 (mulf : (⟨S16x4x512x512, .f32⟩ : BufTy).Contents (Elt F) → (⟨S16x4x512x512, .f32⟩ : BufTy).Contents (Elt F) → (⟨S16x4x512x512, .f32⟩ : BufTy).Contents (Elt F)),
    binary main_v473 main_v512 main_v513 (addf : (⟨S16x4x512x512, .f32⟩ : BufTy).Contents (Elt F) → (⟨S16x4x512x512, .f32⟩ : BufTy).Contents (Elt F) → (⟨S16x4x512x512, .f32⟩ : BufTy).Contents (Elt F)),
    nullary main_cst_166 (constant S_ .f32 0x3F800000#32),
    unary main_cst_166 main_v514 (broadcastInDim S4x512x512 ![] bcast_S_S4x512x512 : (⟨S_, .f32⟩ : BufTy).Contents (Elt F) → (⟨S4x512x512, .f32⟩ : BufTy).Contents (Elt F)),
    binary main_v390 main_v514 main_v515 (addf : (⟨S4x512x512, .f32⟩ : BufTy).Contents (Elt F) → (⟨S4x512x512, .f32⟩ : BufTy).Contents (Elt F) → (⟨S4x512x512, .f32⟩ : BufTy).Contents (Elt F)),
    nullary main_cst_167 (constant S_ .f32 0x3F800000#32),
    unary main_cst_167 main_v516 (broadcastInDim S4x512x512 ![] bcast_S_S4x512x512 : (⟨S_, .f32⟩ : BufTy).Contents (Elt F) → (⟨S4x512x512, .f32⟩ : BufTy).Contents (Elt F)),
    binary main_v389 main_v516 main_v517 (addf : (⟨S4x512x512, .f32⟩ : BufTy).Contents (Elt F) → (⟨S4x512x512, .f32⟩ : BufTy).Contents (Elt F) → (⟨S4x512x512, .f32⟩ : BufTy).Contents (Elt F)),
    nullary main_cst_168 (constant S_ .f32 0x00000000#32),
    unary main_cst_168 main_v518 (broadcastInDim S4x512x512 ![] bcast_S_S4x512x512 : (⟨S_, .f32⟩ : BufTy).Contents (Elt F) → (⟨S4x512x512, .f32⟩ : BufTy).Contents (Elt F)),
    binary main_v517 main_v518 main_v519 (cmpf .oge : (⟨S4x512x512, .f32⟩ : BufTy).Contents (Elt F) → (⟨S4x512x512, .f32⟩ : BufTy).Contents (Elt F) → (⟨S4x512x512, .i1⟩ : BufTy).Contents (Elt F)),
    nullary main_cst_169 (constant S_ .f32 0x437F0000#32),
    unary main_cst_169 main_v520 (broadcastInDim S4x512x512 ![] bcast_S_S4x512x512 : (⟨S_, .f32⟩ : BufTy).Contents (Elt F) → (⟨S4x512x512, .f32⟩ : BufTy).Contents (Elt F)),
    binary main_v517 main_v520 main_v521 (cmpf .ole : (⟨S4x512x512, .f32⟩ : BufTy).Contents (Elt F) → (⟨S4x512x512, .f32⟩ : BufTy).Contents (Elt F) → (⟨S4x512x512, .i1⟩ : BufTy).Contents (Elt F)),
    binary main_v519 main_v521 main_v522 (andi : (⟨S4x512x512, .i1⟩ : BufTy).Contents (Elt F) → (⟨S4x512x512, .i1⟩ : BufTy).Contents (Elt F) → (⟨S4x512x512, .i1⟩ : BufTy).Contents (Elt F)),
    nullary main_cst_170 (constant S_ .f32 0x00000000#32),
    unary main_cst_170 main_v523 (broadcastInDim S4x512x512 ![] bcast_S_S4x512x512 : (⟨S_, .f32⟩ : BufTy).Contents (Elt F) → (⟨S4x512x512, .f32⟩ : BufTy).Contents (Elt F)),
    binary main_v515 main_v523 main_v524 (cmpf .oge : (⟨S4x512x512, .f32⟩ : BufTy).Contents (Elt F) → (⟨S4x512x512, .f32⟩ : BufTy).Contents (Elt F) → (⟨S4x512x512, .i1⟩ : BufTy).Contents (Elt F)),
    binary main_v522 main_v524 main_v525 (andi : (⟨S4x512x512, .i1⟩ : BufTy).Contents (Elt F) → (⟨S4x512x512, .i1⟩ : BufTy).Contents (Elt F) → (⟨S4x512x512, .i1⟩ : BufTy).Contents (Elt F)),
    nullary main_cst_171 (constant S_ .f32 0x437F0000#32),
    unary main_cst_171 main_v526 (broadcastInDim S4x512x512 ![] bcast_S_S4x512x512 : (⟨S_, .f32⟩ : BufTy).Contents (Elt F) → (⟨S4x512x512, .f32⟩ : BufTy).Contents (Elt F)),
    binary main_v515 main_v526 main_v527 (cmpf .ole : (⟨S4x512x512, .f32⟩ : BufTy).Contents (Elt F) → (⟨S4x512x512, .f32⟩ : BufTy).Contents (Elt F) → (⟨S4x512x512, .i1⟩ : BufTy).Contents (Elt F)),
    binary main_v525 main_v527 main_v528 (andi : (⟨S4x512x512, .i1⟩ : BufTy).Contents (Elt F) → (⟨S4x512x512, .i1⟩ : BufTy).Contents (Elt F) → (⟨S4x512x512, .i1⟩ : BufTy).Contents (Elt F)),
    nullary main_c_172 (constantI S_ 32 0#32),
    nullary main_c_173 (constantI S_ 32 255#32),
    TRef.unary (TRef.of (T := ⟨S_, .i32⟩) main_c_172) (TRef.of (T := ⟨S_, .f32⟩) main_call22_v0) (sitofp .f32),
    TRef.unary (TRef.of (T := ⟨S_, .f32⟩) main_call22_v0) (TRef.of (T := ⟨S4x512x512, .f32⟩) main_call22_v1) (broadcastInDim S4x512x512 ![] bcast_S_S4x512x512),
    TRef.binary (TRef.of (T := ⟨S4x512x512, .f32⟩) main_call22_v1) (TRef.of (T := ⟨S4x512x512, .f32⟩) main_v517) (TRef.of (T := ⟨S4x512x512, .f32⟩) main_call22_v2) maximumf,
    TRef.unary (TRef.of (T := ⟨S_, .i32⟩) main_c_173) (TRef.of (T := ⟨S_, .f32⟩) main_call22_v3) (sitofp .f32),
    TRef.unary (TRef.of (T := ⟨S_, .f32⟩) main_call22_v3) (TRef.of (T := ⟨S4x512x512, .f32⟩) main_call22_v4) (broadcastInDim S4x512x512 ![] bcast_S_S4x512x512),
    TRef.binary (TRef.of (T := ⟨S4x512x512, .f32⟩) main_call22_v4) (TRef.of (T := ⟨S4x512x512, .f32⟩) main_call22_v2) (TRef.of (T := ⟨S4x512x512, .f32⟩) main_v529) minimumf,
    unary main_v529 main_v530 (fptosi 32 : (⟨S4x512x512, .f32⟩ : BufTy).Contents (Elt F) → (⟨S4x512x512, .i32⟩ : BufTy).Contents (Elt F)),
    nullary main_c_174 (constantI S_ 32 0#32),
    nullary main_c_175 (constantI S_ 32 255#32),
    TRef.unary (TRef.of (T := ⟨S_, .i32⟩) main_c_174) (TRef.of (T := ⟨S_, .f32⟩) main_call23_v0) (sitofp .f32),
    TRef.unary (TRef.of (T := ⟨S_, .f32⟩) main_call23_v0) (TRef.of (T := ⟨S4x512x512, .f32⟩) main_call23_v1) (broadcastInDim S4x512x512 ![] bcast_S_S4x512x512),
    TRef.binary (TRef.of (T := ⟨S4x512x512, .f32⟩) main_call23_v1) (TRef.of (T := ⟨S4x512x512, .f32⟩) main_v515) (TRef.of (T := ⟨S4x512x512, .f32⟩) main_call23_v2) maximumf,
    TRef.unary (TRef.of (T := ⟨S_, .i32⟩) main_c_175) (TRef.of (T := ⟨S_, .f32⟩) main_call23_v3) (sitofp .f32),
    TRef.unary (TRef.of (T := ⟨S_, .f32⟩) main_call23_v3) (TRef.of (T := ⟨S4x512x512, .f32⟩) main_call23_v4) (broadcastInDim S4x512x512 ![] bcast_S_S4x512x512),
    TRef.binary (TRef.of (T := ⟨S4x512x512, .f32⟩) main_call23_v4) (TRef.of (T := ⟨S4x512x512, .f32⟩) main_call23_v2) (TRef.of (T := ⟨S4x512x512, .f32⟩) main_v531) minimumf,
    unary main_v531 main_v532 (fptosi 32 : (⟨S4x512x512, .f32⟩ : BufTy).Contents (Elt F) → (⟨S4x512x512, .i32⟩ : BufTy).Contents (Elt F)),
    nullary main_c_176 (constantI S_ 32 0#32),
    unary main_c_176 main_v533 (broadcastInDim S4x512x512 ![] bcast_S_S4x512x512 : (⟨S_, .i32⟩ : BufTy).Contents (Elt F) → (⟨S4x512x512, .i32⟩ : BufTy).Contents (Elt F)),
    binary main_v532 main_v533 main_v534 (cmpi .slt : (⟨S4x512x512, .i32⟩ : BufTy).Contents (Elt F) → (⟨S4x512x512, .i32⟩ : BufTy).Contents (Elt F) → (⟨S4x512x512, .i1⟩ : BufTy).Contents (Elt F)),
    nullary main_c_177 (constantI S_ 32 256#32),
    unary main_c_177 main_v535 (broadcastInDim S4x512x512 ![] bcast_S_S4x512x512 : (⟨S_, .i32⟩ : BufTy).Contents (Elt F) → (⟨S4x512x512, .i32⟩ : BufTy).Contents (Elt F)),
    binary main_v532 main_v535 main_v536 (addi : (⟨S4x512x512, .i32⟩ : BufTy).Contents (Elt F) → (⟨S4x512x512, .i32⟩ : BufTy).Contents (Elt F) → (⟨S4x512x512, .i32⟩ : BufTy).Contents (Elt F)),
    ternary main_v534 main_v536 main_v532 main_v537 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_178 (constantI S_ 32 0#32),
    unary main_c_178 main_v538 (broadcastInDim S4x512x512 ![] bcast_S_S4x512x512 : (⟨S_, .i32⟩ : BufTy).Contents (Elt F) → (⟨S4x512x512, .i32⟩ : BufTy).Contents (Elt F)) ]

set_option maxRecDepth 16384 in
set_option maxHeartbeats 4000000 in
/-- Part 11 of @main is the line of its operations. -/
theorem part11 (d : Dev nD) : main_part11 (F := F) d = seq ops11 := rfl

set_option maxRecDepth 16384 in
theorem sub11 : (ops11 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub ..⟩

theorem fresh11 : (ops11 : List (HloOp τ sig (Elt F))).Forall fun op => op.fresh = ∅ := by
  simp only [List.Forall]; repeat' constructor

/-- The operations of part 12, in order. -/
abbrev ops12 : List (HloOp τ sig (Elt F)) :=
  [ binary main_v530 main_v538 main_v539 (cmpi .slt : (⟨S4x512x512, .i32⟩ : BufTy).Contents (Elt F) → (⟨S4x512x512, .i32⟩ : BufTy).Contents (Elt F) → (⟨S4x512x512, .i1⟩ : BufTy).Contents (Elt F)),
    nullary main_c_179 (constantI S_ 32 256#32),
    unary main_c_179 main_v540 (broadcastInDim S4x512x512 ![] bcast_S_S4x512x512 : (⟨S_, .i32⟩ : BufTy).Contents (Elt F) → (⟨S4x512x512, .i32⟩ : BufTy).Contents (Elt F)),
    binary main_v530 main_v540 main_v541 (addi : (⟨S4x512x512, .i32⟩ : BufTy).Contents (Elt F) → (⟨S4x512x512, .i32⟩ : BufTy).Contents (Elt F) → (⟨S4x512x512, .i32⟩ : BufTy).Contents (Elt F)),
    ternary main_v539 main_v541 main_v530 main_v542 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v537 main_v543 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v542 main_v544 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v543 main_v544 main_v545 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg4 main_v545 main_v546 ((fun x i => Host.gather gather_S16x256x256_S4x512x512x2_S16x4x512x512_0_12_n_n_12_3_1611 x i) : (⟨S16x256x256, .f32⟩ : BufTy).Contents (Elt F) → (⟨S4x512x512x2, .i32⟩ : BufTy).Contents (Elt F) → (⟨S16x4x512x512, .f32⟩ : BufTy).Contents (Elt F)),
    unary main_v528 main_v547 (uitofp .f32 : (⟨S4x512x512, .i1⟩ : BufTy).Contents (Elt F) → (⟨S4x512x512, .f32⟩ : BufTy).Contents (Elt F)),
    unary main_v547 main_v548 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v548 main_v549 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v546 main_v549 main_v550 (mulf : (⟨S16x4x512x512, .f32⟩ : BufTy).Contents (Elt F) → (⟨S16x4x512x512, .f32⟩ : BufTy).Contents (Elt F) → (⟨S16x4x512x512, .f32⟩ : BufTy).Contents (Elt F)),
    binary main_v392 main_v391 main_v551 (mulf : (⟨S4x512x512, .f32⟩ : BufTy).Contents (Elt F) → (⟨S4x512x512, .f32⟩ : BufTy).Contents (Elt F) → (⟨S4x512x512, .f32⟩ : BufTy).Contents (Elt F)),
    unary main_v551 main_v552 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v552 main_v553 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v550 main_v553 main_v554 (mulf : (⟨S16x4x512x512, .f32⟩ : BufTy).Contents (Elt F) → (⟨S16x4x512x512, .f32⟩ : BufTy).Contents (Elt F) → (⟨S16x4x512x512, .f32⟩ : BufTy).Contents (Elt F)),
    binary main_v513 main_v554 main_v555 (addf : (⟨S16x4x512x512, .f32⟩ : BufTy).Contents (Elt F) → (⟨S16x4x512x512, .f32⟩ : BufTy).Contents (Elt F) → (⟨S16x4x512x512, .f32⟩ : BufTy).Contents (Elt F)),
    unary main_v555 main_v556 ((transpose S4x16x512x512 [1, 0, 2, 3] · transposes_S16x4x512x512_S4x16x512x512_1_0_2_3) : (⟨S16x4x512x512, .f32⟩ : BufTy).Contents (Elt F) → (⟨S4x16x512x512, .f32⟩ : BufTy).Contents (Elt F)),
    binary main_v372 main_v556 main_v557 (addf : (⟨S4x16x512x512, .f32⟩ : BufTy).Contents (Elt F) → (⟨S4x16x512x512, .f32⟩ : BufTy).Contents (Elt F) → (⟨S4x16x512x512, .f32⟩ : BufTy).Contents (Elt F)),
    unary main_v3 main_v558 ((extractStridedSlice S4x512x512x1 ![0, 0, 0, 0] · slices_S4x512x512x2_S4x512x512x1_0_0_0_0) : (⟨S4x512x512x2, .f32⟩ : BufTy).Contents (Elt F) → (⟨S4x512x512x1, .f32⟩ : BufTy).Contents (Elt F)),
    reshape main_v558 main_v559 rfl shapeCasts_S4x512x512x1_S4x512x512,
    unary main_v3 main_v560 ((extractStridedSlice S4x512x512x1 ![0, 0, 0, 1] · slices_S4x512x512x2_S4x512x512x1_0_0_0_1) : (⟨S4x512x512x2, .f32⟩ : BufTy).Contents (Elt F) → (⟨S4x512x512x1, .f32⟩ : BufTy).Contents (Elt F)),
    reshape main_v560 main_v561 rfl shapeCasts_S4x512x512x1_S4x512x512,
    nullary main_cst_180 (constant S_ .f32 0x3F800000#32),
    unary main_cst_180 main_v562 (broadcastInDim S4x512x512 ![] bcast_S_S4x512x512 : (⟨S_, .f32⟩ : BufTy).Contents (Elt F) → (⟨S4x512x512, .f32⟩ : BufTy).Contents (Elt F)),
    binary main_v559 main_v562 main_v563 (addf : (⟨S4x512x512, .f32⟩ : BufTy).Contents (Elt F) → (⟨S4x512x512, .f32⟩ : BufTy).Contents (Elt F) → (⟨S4x512x512, .f32⟩ : BufTy).Contents (Elt F)),
    nullary main_cst_181 (constant S_ .f32 0x3F000000#32),
    unary main_cst_181 main_v564 (broadcastInDim S4x512x512 ![] bcast_S_S4x512x512 : (⟨S_, .f32⟩ : BufTy).Contents (Elt F) → (⟨S4x512x512, .f32⟩ : BufTy).Contents (Elt F)),
    binary main_v563 main_v564 main_v565 (mulf : (⟨S4x512x512, .f32⟩ : BufTy).Contents (Elt F) → (⟨S4x512x512, .f32⟩ : BufTy).Contents (Elt F) → (⟨S4x512x512, .f32⟩ : BufTy).Contents (Elt F)),
    nullary main_cst_182 (constant S_ .f32 0x42FE0000#32),
    unary main_cst_182 main_v566 (broadcastInDim S4x512x512 ![] bcast_S_S4x512x512 : (⟨S_, .f32⟩ : BufTy).Contents (Elt F) → (⟨S4x512x512, .f32⟩ : BufTy).Contents (Elt F)),
    binary main_v565 main_v566 main_v567 (mulf : (⟨S4x512x512, .f32⟩ : BufTy).Contents (Elt F) → (⟨S4x512x512, .f32⟩ : BufTy).Contents (Elt F) → (⟨S4x512x512, .f32⟩ : BufTy).Contents (Elt F)),
    nullary main_cst_183 (constant S_ .f32 0x3F800000#32),
    unary main_cst_183 main_v568 (broadcastInDim S4x512x512 ![] bcast_S_S4x512x512 : (⟨S_, .f32⟩ : BufTy).Contents (Elt F) → (⟨S4x512x512, .f32⟩ : BufTy).Contents (Elt F)),
    binary main_v561 main_v568 main_v569 (addf : (⟨S4x512x512, .f32⟩ : BufTy).Contents (Elt F) → (⟨S4x512x512, .f32⟩ : BufTy).Contents (Elt F) → (⟨S4x512x512, .f32⟩ : BufTy).Contents (Elt F)),
    nullary main_cst_184 (constant S_ .f32 0x3F000000#32),
    unary main_cst_184 main_v570 (broadcastInDim S4x512x512 ![] bcast_S_S4x512x512 : (⟨S_, .f32⟩ : BufTy).Contents (Elt F) → (⟨S4x512x512, .f32⟩ : BufTy).Contents (Elt F)),
    binary main_v569 main_v570 main_v571 (mulf : (⟨S4x512x512, .f32⟩ : BufTy).Contents (Elt F) → (⟨S4x512x512, .f32⟩ : BufTy).Contents (Elt F) → (⟨S4x512x512, .f32⟩ : BufTy).Contents (Elt F)),
    nullary main_cst_185 (constant S_ .f32 0x42FE0000#32),
    unary main_cst_185 main_v572 (broadcastInDim S4x512x512 ![] bcast_S_S4x512x512 : (⟨S_, .f32⟩ : BufTy).Contents (Elt F) → (⟨S4x512x512, .f32⟩ : BufTy).Contents (Elt F)),
    binary main_v571 main_v572 main_v573 (mulf : (⟨S4x512x512, .f32⟩ : BufTy).Contents (Elt F) → (⟨S4x512x512, .f32⟩ : BufTy).Contents (Elt F) → (⟨S4x512x512, .f32⟩ : BufTy).Contents (Elt F)),
    unary main_v567 main_v574 (Host.floor : (⟨S4x512x512, .f32⟩ : BufTy).Contents (Elt F) → (⟨S4x512x512, .f32⟩ : BufTy).Contents (Elt F)),
    unary main_v573 main_v575 (Host.floor : (⟨S4x512x512, .f32⟩ : BufTy).Contents (Elt F) → (⟨S4x512x512, .f32⟩ : BufTy).Contents (Elt F)),
    binary main_v567 main_v574 main_v576 (subf : (⟨S4x512x512, .f32⟩ : BufTy).Contents (Elt F) → (⟨S4x512x512, .f32⟩ : BufTy).Contents (Elt F) → (⟨S4x512x512, .f32⟩ : BufTy).Contents (Elt F)),
    binary main_v573 main_v575 main_v577 (subf : (⟨S4x512x512, .f32⟩ : BufTy).Contents (Elt F) → (⟨S4x512x512, .f32⟩ : BufTy).Contents (Elt F) → (⟨S4x512x512, .f32⟩ : BufTy).Contents (Elt F)),
    nullary main_cst_186 (constant S_ .f32 0x3F800000#32),
    unary main_cst_186 main_v578 (broadcastInDim S4x512x512 ![] bcast_S_S4x512x512 : (⟨S_, .f32⟩ : BufTy).Contents (Elt F) → (⟨S4x512x512, .f32⟩ : BufTy).Contents (Elt F)),
    binary main_v578 main_v576 main_v579 (subf : (⟨S4x512x512, .f32⟩ : BufTy).Contents (Elt F) → (⟨S4x512x512, .f32⟩ : BufTy).Contents (Elt F) → (⟨S4x512x512, .f32⟩ : BufTy).Contents (Elt F)),
    nullary main_cst_187 (constant S_ .f32 0x3F800000#32),
    unary main_cst_187 main_v580 (broadcastInDim S4x512x512 ![] bcast_S_S4x512x512 : (⟨S_, .f32⟩ : BufTy).Contents (Elt F) → (⟨S4x512x512, .f32⟩ : BufTy).Contents (Elt F)),
    binary main_v580 main_v577 main_v581 (subf : (⟨S4x512x512, .f32⟩ : BufTy).Contents (Elt F) → (⟨S4x512x512, .f32⟩ : BufTy).Contents (Elt F) → (⟨S4x512x512, .f32⟩ : BufTy).Contents (Elt F)),
    nullary main_cst_188 (constant S_ .f32 0x00000000#32),
    unary main_cst_188 main_v582 (broadcastInDim S4x512x512 ![] bcast_S_S4x512x512 : (⟨S_, .f32⟩ : BufTy).Contents (Elt F) → (⟨S4x512x512, .f32⟩ : BufTy).Contents (Elt F)),
    binary main_v574 main_v582 main_v583 (cmpf .oge : (⟨S4x512x512, .f32⟩ : BufTy).Contents (Elt F) → (⟨S4x512x512, .f32⟩ : BufTy).Contents (Elt F) → (⟨S4x512x512, .i1⟩ : BufTy).Contents (Elt F)),
    nullary main_cst_189 (constant S_ .f32 0x42FE0000#32),
    unary main_cst_189 main_v584 (broadcastInDim S4x512x512 ![] bcast_S_S4x512x512 : (⟨S_, .f32⟩ : BufTy).Contents (Elt F) → (⟨S4x512x512, .f32⟩ : BufTy).Contents (Elt F)),
    binary main_v574 main_v584 main_v585 (cmpf .ole : (⟨S4x512x512, .f32⟩ : BufTy).Contents (Elt F) → (⟨S4x512x512, .f32⟩ : BufTy).Contents (Elt F) → (⟨S4x512x512, .i1⟩ : BufTy).Contents (Elt F)),
    binary main_v583 main_v585 main_v586 (andi : (⟨S4x512x512, .i1⟩ : BufTy).Contents (Elt F) → (⟨S4x512x512, .i1⟩ : BufTy).Contents (Elt F) → (⟨S4x512x512, .i1⟩ : BufTy).Contents (Elt F)),
    nullary main_cst_190 (constant S_ .f32 0x00000000#32) ]

set_option maxRecDepth 16384 in
set_option maxHeartbeats 4000000 in
/-- Part 12 of @main is the line of its operations. -/
theorem part12 (d : Dev nD) : main_part12 (F := F) d = seq ops12 := rfl

set_option maxRecDepth 16384 in
theorem sub12 : (ops12 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩

theorem fresh12 : (ops12 : List (HloOp τ sig (Elt F))).Forall fun op => op.fresh = ∅ := by
  simp only [List.Forall]; repeat' constructor

/-- The operations of part 13, in order. -/
abbrev ops13 : List (HloOp τ sig (Elt F)) :=
  [ unary main_cst_190 main_v587 (broadcastInDim S4x512x512 ![] bcast_S_S4x512x512 : (⟨S_, .f32⟩ : BufTy).Contents (Elt F) → (⟨S4x512x512, .f32⟩ : BufTy).Contents (Elt F)),
    binary main_v575 main_v587 main_v588 (cmpf .oge : (⟨S4x512x512, .f32⟩ : BufTy).Contents (Elt F) → (⟨S4x512x512, .f32⟩ : BufTy).Contents (Elt F) → (⟨S4x512x512, .i1⟩ : BufTy).Contents (Elt F)),
    binary main_v586 main_v588 main_v589 (andi : (⟨S4x512x512, .i1⟩ : BufTy).Contents (Elt F) → (⟨S4x512x512, .i1⟩ : BufTy).Contents (Elt F) → (⟨S4x512x512, .i1⟩ : BufTy).Contents (Elt F)),
    nullary main_cst_191 (constant S_ .f32 0x42FE0000#32),
    unary main_cst_191 main_v590 (broadcastInDim S4x512x512 ![] bcast_S_S4x512x512 : (⟨S_, .f32⟩ : BufTy).Contents (Elt F) → (⟨S4x512x512, .f32⟩ : BufTy).Contents (Elt F)),
    binary main_v575 main_v590 main_v591 (cmpf .ole : (⟨S4x512x512, .f32⟩ : BufTy).Contents (Elt F) → (⟨S4x512x512, .f32⟩ : BufTy).Contents (Elt F) → (⟨S4x512x512, .i1⟩ : BufTy).Contents (Elt F)),
    binary main_v589 main_v591 main_v592 (andi : (⟨S4x512x512, .i1⟩ : BufTy).Contents (Elt F) → (⟨S4x512x512, .i1⟩ : BufTy).Contents (Elt F) → (⟨S4x512x512, .i1⟩ : BufTy).Contents (Elt F)),
    nullary main_c_192 (constantI S_ 32 0#32),
    nullary main_c_193 (constantI S_ 32 127#32),
    TRef.unary (TRef.of (T := ⟨S_, .i32⟩) main_c_192) (TRef.of (T := ⟨S_, .f32⟩) main_call24_v0) (sitofp .f32),
    TRef.unary (TRef.of (T := ⟨S_, .f32⟩) main_call24_v0) (TRef.of (T := ⟨S4x512x512, .f32⟩) main_call24_v1) (broadcastInDim S4x512x512 ![] bcast_S_S4x512x512),
    TRef.binary (TRef.of (T := ⟨S4x512x512, .f32⟩) main_call24_v1) (TRef.of (T := ⟨S4x512x512, .f32⟩) main_v574) (TRef.of (T := ⟨S4x512x512, .f32⟩) main_call24_v2) maximumf,
    TRef.unary (TRef.of (T := ⟨S_, .i32⟩) main_c_193) (TRef.of (T := ⟨S_, .f32⟩) main_call24_v3) (sitofp .f32),
    TRef.unary (TRef.of (T := ⟨S_, .f32⟩) main_call24_v3) (TRef.of (T := ⟨S4x512x512, .f32⟩) main_call24_v4) (broadcastInDim S4x512x512 ![] bcast_S_S4x512x512),
    TRef.binary (TRef.of (T := ⟨S4x512x512, .f32⟩) main_call24_v4) (TRef.of (T := ⟨S4x512x512, .f32⟩) main_call24_v2) (TRef.of (T := ⟨S4x512x512, .f32⟩) main_v593) minimumf,
    unary main_v593 main_v594 (fptosi 32 : (⟨S4x512x512, .f32⟩ : BufTy).Contents (Elt F) → (⟨S4x512x512, .i32⟩ : BufTy).Contents (Elt F)),
    nullary main_c_194 (constantI S_ 32 0#32),
    nullary main_c_195 (constantI S_ 32 127#32),
    TRef.unary (TRef.of (T := ⟨S_, .i32⟩) main_c_194) (TRef.of (T := ⟨S_, .f32⟩) main_call25_v0) (sitofp .f32),
    TRef.unary (TRef.of (T := ⟨S_, .f32⟩) main_call25_v0) (TRef.of (T := ⟨S4x512x512, .f32⟩) main_call25_v1) (broadcastInDim S4x512x512 ![] bcast_S_S4x512x512),
    TRef.binary (TRef.of (T := ⟨S4x512x512, .f32⟩) main_call25_v1) (TRef.of (T := ⟨S4x512x512, .f32⟩) main_v575) (TRef.of (T := ⟨S4x512x512, .f32⟩) main_call25_v2) maximumf,
    TRef.unary (TRef.of (T := ⟨S_, .i32⟩) main_c_195) (TRef.of (T := ⟨S_, .f32⟩) main_call25_v3) (sitofp .f32),
    TRef.unary (TRef.of (T := ⟨S_, .f32⟩) main_call25_v3) (TRef.of (T := ⟨S4x512x512, .f32⟩) main_call25_v4) (broadcastInDim S4x512x512 ![] bcast_S_S4x512x512),
    TRef.binary (TRef.of (T := ⟨S4x512x512, .f32⟩) main_call25_v4) (TRef.of (T := ⟨S4x512x512, .f32⟩) main_call25_v2) (TRef.of (T := ⟨S4x512x512, .f32⟩) main_v595) minimumf,
    unary main_v595 main_v596 (fptosi 32 : (⟨S4x512x512, .f32⟩ : BufTy).Contents (Elt F) → (⟨S4x512x512, .i32⟩ : BufTy).Contents (Elt F)),
    nullary main_c_196 (constantI S_ 32 0#32),
    unary main_c_196 main_v597 (broadcastInDim S4x512x512 ![] bcast_S_S4x512x512 : (⟨S_, .i32⟩ : BufTy).Contents (Elt F) → (⟨S4x512x512, .i32⟩ : BufTy).Contents (Elt F)),
    binary main_v596 main_v597 main_v598 (cmpi .slt : (⟨S4x512x512, .i32⟩ : BufTy).Contents (Elt F) → (⟨S4x512x512, .i32⟩ : BufTy).Contents (Elt F) → (⟨S4x512x512, .i1⟩ : BufTy).Contents (Elt F)),
    nullary main_c_197 (constantI S_ 32 128#32),
    unary main_c_197 main_v599 (broadcastInDim S4x512x512 ![] bcast_S_S4x512x512 : (⟨S_, .i32⟩ : BufTy).Contents (Elt F) → (⟨S4x512x512, .i32⟩ : BufTy).Contents (Elt F)),
    binary main_v596 main_v599 main_v600 (addi : (⟨S4x512x512, .i32⟩ : BufTy).Contents (Elt F) → (⟨S4x512x512, .i32⟩ : BufTy).Contents (Elt F) → (⟨S4x512x512, .i32⟩ : BufTy).Contents (Elt F)),
    ternary main_v598 main_v600 main_v596 main_v601 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_198 (constantI S_ 32 0#32),
    unary main_c_198 main_v602 (broadcastInDim S4x512x512 ![] bcast_S_S4x512x512 : (⟨S_, .i32⟩ : BufTy).Contents (Elt F) → (⟨S4x512x512, .i32⟩ : BufTy).Contents (Elt F)),
    binary main_v594 main_v602 main_v603 (cmpi .slt : (⟨S4x512x512, .i32⟩ : BufTy).Contents (Elt F) → (⟨S4x512x512, .i32⟩ : BufTy).Contents (Elt F) → (⟨S4x512x512, .i1⟩ : BufTy).Contents (Elt F)),
    nullary main_c_199 (constantI S_ 32 128#32),
    unary main_c_199 main_v604 (broadcastInDim S4x512x512 ![] bcast_S_S4x512x512 : (⟨S_, .i32⟩ : BufTy).Contents (Elt F) → (⟨S4x512x512, .i32⟩ : BufTy).Contents (Elt F)),
    binary main_v594 main_v604 main_v605 (addi : (⟨S4x512x512, .i32⟩ : BufTy).Contents (Elt F) → (⟨S4x512x512, .i32⟩ : BufTy).Contents (Elt F) → (⟨S4x512x512, .i32⟩ : BufTy).Contents (Elt F)),
    ternary main_v603 main_v605 main_v594 main_v606 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v601 main_v607 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v606 main_v608 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v607 main_v608 main_v609 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg5 main_v609 main_v610 ((fun x i => Host.gather gather_S16x128x128_S4x512x512x2_S16x4x512x512_0_12_n_n_12_3_1611 x i) : (⟨S16x128x128, .f32⟩ : BufTy).Contents (Elt F) → (⟨S4x512x512x2, .i32⟩ : BufTy).Contents (Elt F) → (⟨S16x4x512x512, .f32⟩ : BufTy).Contents (Elt F)),
    unary main_v592 main_v611 (uitofp .f32 : (⟨S4x512x512, .i1⟩ : BufTy).Contents (Elt F) → (⟨S4x512x512, .f32⟩ : BufTy).Contents (Elt F)),
    unary main_v611 main_v612 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v612 main_v613 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v610 main_v613 main_v614 (mulf : (⟨S16x4x512x512, .f32⟩ : BufTy).Contents (Elt F) → (⟨S16x4x512x512, .f32⟩ : BufTy).Contents (Elt F) → (⟨S16x4x512x512, .f32⟩ : BufTy).Contents (Elt F)),
    binary main_v581 main_v579 main_v615 (mulf : (⟨S4x512x512, .f32⟩ : BufTy).Contents (Elt F) → (⟨S4x512x512, .f32⟩ : BufTy).Contents (Elt F) → (⟨S4x512x512, .f32⟩ : BufTy).Contents (Elt F)),
    unary main_v615 main_v616 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v616 main_v617 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v614 main_v617 main_v618 (mulf : (⟨S16x4x512x512, .f32⟩ : BufTy).Contents (Elt F) → (⟨S16x4x512x512, .f32⟩ : BufTy).Contents (Elt F) → (⟨S16x4x512x512, .f32⟩ : BufTy).Contents (Elt F)),
    nullary main_cst_200 (constant S_ .f32 0x3F800000#32),
    unary main_cst_200 main_v619 (broadcastInDim S4x512x512 ![] bcast_S_S4x512x512 : (⟨S_, .f32⟩ : BufTy).Contents (Elt F) → (⟨S4x512x512, .f32⟩ : BufTy).Contents (Elt F)),
    binary main_v574 main_v619 main_v620 (addf : (⟨S4x512x512, .f32⟩ : BufTy).Contents (Elt F) → (⟨S4x512x512, .f32⟩ : BufTy).Contents (Elt F) → (⟨S4x512x512, .f32⟩ : BufTy).Contents (Elt F)),
    nullary main_cst_201 (constant S_ .f32 0x00000000#32),
    unary main_cst_201 main_v621 (broadcastInDim S4x512x512 ![] bcast_S_S4x512x512 : (⟨S_, .f32⟩ : BufTy).Contents (Elt F) → (⟨S4x512x512, .f32⟩ : BufTy).Contents (Elt F)),
    binary main_v620 main_v621 main_v622 (cmpf .oge : (⟨S4x512x512, .f32⟩ : BufTy).Contents (Elt F) → (⟨S4x512x512, .f32⟩ : BufTy).Contents (Elt F) → (⟨S4x512x512, .i1⟩ : BufTy).Contents (Elt F)),
    nullary main_cst_202 (constant S_ .f32 0x42FE0000#32),
    unary main_cst_202 main_v623 (broadcastInDim S4x512x512 ![] bcast_S_S4x512x512 : (⟨S_, .f32⟩ : BufTy).Contents (Elt F) → (⟨S4x512x512, .f32⟩ : BufTy).Contents (Elt F)),
    binary main_v620 main_v623 main_v624 (cmpf .ole : (⟨S4x512x512, .f32⟩ : BufTy).Contents (Elt F) → (⟨S4x512x512, .f32⟩ : BufTy).Contents (Elt F) → (⟨S4x512x512, .i1⟩ : BufTy).Contents (Elt F)),
    binary main_v622 main_v624 main_v625 (andi : (⟨S4x512x512, .i1⟩ : BufTy).Contents (Elt F) → (⟨S4x512x512, .i1⟩ : BufTy).Contents (Elt F) → (⟨S4x512x512, .i1⟩ : BufTy).Contents (Elt F)),
    nullary main_cst_203 (constant S_ .f32 0x00000000#32),
    unary main_cst_203 main_v626 (broadcastInDim S4x512x512 ![] bcast_S_S4x512x512 : (⟨S_, .f32⟩ : BufTy).Contents (Elt F) → (⟨S4x512x512, .f32⟩ : BufTy).Contents (Elt F)),
    binary main_v575 main_v626 main_v627 (cmpf .oge : (⟨S4x512x512, .f32⟩ : BufTy).Contents (Elt F) → (⟨S4x512x512, .f32⟩ : BufTy).Contents (Elt F) → (⟨S4x512x512, .i1⟩ : BufTy).Contents (Elt F)),
    binary main_v625 main_v627 main_v628 (andi : (⟨S4x512x512, .i1⟩ : BufTy).Contents (Elt F) → (⟨S4x512x512, .i1⟩ : BufTy).Contents (Elt F) → (⟨S4x512x512, .i1⟩ : BufTy).Contents (Elt F)),
    nullary main_cst_204 (constant S_ .f32 0x42FE0000#32),
    unary main_cst_204 main_v629 (broadcastInDim S4x512x512 ![] bcast_S_S4x512x512 : (⟨S_, .f32⟩ : BufTy).Contents (Elt F) → (⟨S4x512x512, .f32⟩ : BufTy).Contents (Elt F)),
    binary main_v575 main_v629 main_v630 (cmpf .ole : (⟨S4x512x512, .f32⟩ : BufTy).Contents (Elt F) → (⟨S4x512x512, .f32⟩ : BufTy).Contents (Elt F) → (⟨S4x512x512, .i1⟩ : BufTy).Contents (Elt F)),
    binary main_v628 main_v630 main_v631 (andi : (⟨S4x512x512, .i1⟩ : BufTy).Contents (Elt F) → (⟨S4x512x512, .i1⟩ : BufTy).Contents (Elt F) → (⟨S4x512x512, .i1⟩ : BufTy).Contents (Elt F)),
    nullary main_c_205 (constantI S_ 32 0#32) ]

set_option maxRecDepth 16384 in
set_option maxHeartbeats 4000000 in
/-- Part 13 of @main is the line of its operations. -/
theorem part13 (d : Dev nD) : main_part13 (F := F) d = seq ops13 := rfl

set_option maxRecDepth 16384 in
theorem sub13 : (ops13 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩

theorem fresh13 : (ops13 : List (HloOp τ sig (Elt F))).Forall fun op => op.fresh = ∅ := by
  simp only [List.Forall]; repeat' constructor

/-- The operations of part 14, in order. -/
abbrev ops14 : List (HloOp τ sig (Elt F)) :=
  [ nullary main_c_206 (constantI S_ 32 127#32),
    TRef.unary (TRef.of (T := ⟨S_, .i32⟩) main_c_205) (TRef.of (T := ⟨S_, .f32⟩) main_call26_v0) (sitofp .f32),
    TRef.unary (TRef.of (T := ⟨S_, .f32⟩) main_call26_v0) (TRef.of (T := ⟨S4x512x512, .f32⟩) main_call26_v1) (broadcastInDim S4x512x512 ![] bcast_S_S4x512x512),
    TRef.binary (TRef.of (T := ⟨S4x512x512, .f32⟩) main_call26_v1) (TRef.of (T := ⟨S4x512x512, .f32⟩) main_v620) (TRef.of (T := ⟨S4x512x512, .f32⟩) main_call26_v2) maximumf,
    TRef.unary (TRef.of (T := ⟨S_, .i32⟩) main_c_206) (TRef.of (T := ⟨S_, .f32⟩) main_call26_v3) (sitofp .f32),
    TRef.unary (TRef.of (T := ⟨S_, .f32⟩) main_call26_v3) (TRef.of (T := ⟨S4x512x512, .f32⟩) main_call26_v4) (broadcastInDim S4x512x512 ![] bcast_S_S4x512x512),
    TRef.binary (TRef.of (T := ⟨S4x512x512, .f32⟩) main_call26_v4) (TRef.of (T := ⟨S4x512x512, .f32⟩) main_call26_v2) (TRef.of (T := ⟨S4x512x512, .f32⟩) main_v632) minimumf,
    unary main_v632 main_v633 (fptosi 32 : (⟨S4x512x512, .f32⟩ : BufTy).Contents (Elt F) → (⟨S4x512x512, .i32⟩ : BufTy).Contents (Elt F)),
    nullary main_c_207 (constantI S_ 32 0#32),
    nullary main_c_208 (constantI S_ 32 127#32),
    TRef.unary (TRef.of (T := ⟨S_, .i32⟩) main_c_207) (TRef.of (T := ⟨S_, .f32⟩) main_call27_v0) (sitofp .f32),
    TRef.unary (TRef.of (T := ⟨S_, .f32⟩) main_call27_v0) (TRef.of (T := ⟨S4x512x512, .f32⟩) main_call27_v1) (broadcastInDim S4x512x512 ![] bcast_S_S4x512x512),
    TRef.binary (TRef.of (T := ⟨S4x512x512, .f32⟩) main_call27_v1) (TRef.of (T := ⟨S4x512x512, .f32⟩) main_v575) (TRef.of (T := ⟨S4x512x512, .f32⟩) main_call27_v2) maximumf,
    TRef.unary (TRef.of (T := ⟨S_, .i32⟩) main_c_208) (TRef.of (T := ⟨S_, .f32⟩) main_call27_v3) (sitofp .f32),
    TRef.unary (TRef.of (T := ⟨S_, .f32⟩) main_call27_v3) (TRef.of (T := ⟨S4x512x512, .f32⟩) main_call27_v4) (broadcastInDim S4x512x512 ![] bcast_S_S4x512x512),
    TRef.binary (TRef.of (T := ⟨S4x512x512, .f32⟩) main_call27_v4) (TRef.of (T := ⟨S4x512x512, .f32⟩) main_call27_v2) (TRef.of (T := ⟨S4x512x512, .f32⟩) main_v634) minimumf,
    unary main_v634 main_v635 (fptosi 32 : (⟨S4x512x512, .f32⟩ : BufTy).Contents (Elt F) → (⟨S4x512x512, .i32⟩ : BufTy).Contents (Elt F)),
    nullary main_c_209 (constantI S_ 32 0#32),
    unary main_c_209 main_v636 (broadcastInDim S4x512x512 ![] bcast_S_S4x512x512 : (⟨S_, .i32⟩ : BufTy).Contents (Elt F) → (⟨S4x512x512, .i32⟩ : BufTy).Contents (Elt F)),
    binary main_v635 main_v636 main_v637 (cmpi .slt : (⟨S4x512x512, .i32⟩ : BufTy).Contents (Elt F) → (⟨S4x512x512, .i32⟩ : BufTy).Contents (Elt F) → (⟨S4x512x512, .i1⟩ : BufTy).Contents (Elt F)),
    nullary main_c_210 (constantI S_ 32 128#32),
    unary main_c_210 main_v638 (broadcastInDim S4x512x512 ![] bcast_S_S4x512x512 : (⟨S_, .i32⟩ : BufTy).Contents (Elt F) → (⟨S4x512x512, .i32⟩ : BufTy).Contents (Elt F)),
    binary main_v635 main_v638 main_v639 (addi : (⟨S4x512x512, .i32⟩ : BufTy).Contents (Elt F) → (⟨S4x512x512, .i32⟩ : BufTy).Contents (Elt F) → (⟨S4x512x512, .i32⟩ : BufTy).Contents (Elt F)),
    ternary main_v637 main_v639 main_v635 main_v640 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_211 (constantI S_ 32 0#32),
    unary main_c_211 main_v641 (broadcastInDim S4x512x512 ![] bcast_S_S4x512x512 : (⟨S_, .i32⟩ : BufTy).Contents (Elt F) → (⟨S4x512x512, .i32⟩ : BufTy).Contents (Elt F)),
    binary main_v633 main_v641 main_v642 (cmpi .slt : (⟨S4x512x512, .i32⟩ : BufTy).Contents (Elt F) → (⟨S4x512x512, .i32⟩ : BufTy).Contents (Elt F) → (⟨S4x512x512, .i1⟩ : BufTy).Contents (Elt F)),
    nullary main_c_212 (constantI S_ 32 128#32),
    unary main_c_212 main_v643 (broadcastInDim S4x512x512 ![] bcast_S_S4x512x512 : (⟨S_, .i32⟩ : BufTy).Contents (Elt F) → (⟨S4x512x512, .i32⟩ : BufTy).Contents (Elt F)),
    binary main_v633 main_v643 main_v644 (addi : (⟨S4x512x512, .i32⟩ : BufTy).Contents (Elt F) → (⟨S4x512x512, .i32⟩ : BufTy).Contents (Elt F) → (⟨S4x512x512, .i32⟩ : BufTy).Contents (Elt F)),
    ternary main_v642 main_v644 main_v633 main_v645 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v640 main_v646 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v645 main_v647 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v646 main_v647 main_v648 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg5 main_v648 main_v649 ((fun x i => Host.gather gather_S16x128x128_S4x512x512x2_S16x4x512x512_0_12_n_n_12_3_1611 x i) : (⟨S16x128x128, .f32⟩ : BufTy).Contents (Elt F) → (⟨S4x512x512x2, .i32⟩ : BufTy).Contents (Elt F) → (⟨S16x4x512x512, .f32⟩ : BufTy).Contents (Elt F)),
    unary main_v631 main_v650 (uitofp .f32 : (⟨S4x512x512, .i1⟩ : BufTy).Contents (Elt F) → (⟨S4x512x512, .f32⟩ : BufTy).Contents (Elt F)),
    unary main_v650 main_v651 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v651 main_v652 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v649 main_v652 main_v653 (mulf : (⟨S16x4x512x512, .f32⟩ : BufTy).Contents (Elt F) → (⟨S16x4x512x512, .f32⟩ : BufTy).Contents (Elt F) → (⟨S16x4x512x512, .f32⟩ : BufTy).Contents (Elt F)),
    binary main_v581 main_v576 main_v654 (mulf : (⟨S4x512x512, .f32⟩ : BufTy).Contents (Elt F) → (⟨S4x512x512, .f32⟩ : BufTy).Contents (Elt F) → (⟨S4x512x512, .f32⟩ : BufTy).Contents (Elt F)),
    unary main_v654 main_v655 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v655 main_v656 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v653 main_v656 main_v657 (mulf : (⟨S16x4x512x512, .f32⟩ : BufTy).Contents (Elt F) → (⟨S16x4x512x512, .f32⟩ : BufTy).Contents (Elt F) → (⟨S16x4x512x512, .f32⟩ : BufTy).Contents (Elt F)),
    binary main_v618 main_v657 main_v658 (addf : (⟨S16x4x512x512, .f32⟩ : BufTy).Contents (Elt F) → (⟨S16x4x512x512, .f32⟩ : BufTy).Contents (Elt F) → (⟨S16x4x512x512, .f32⟩ : BufTy).Contents (Elt F)),
    nullary main_cst_213 (constant S_ .f32 0x3F800000#32),
    unary main_cst_213 main_v659 (broadcastInDim S4x512x512 ![] bcast_S_S4x512x512 : (⟨S_, .f32⟩ : BufTy).Contents (Elt F) → (⟨S4x512x512, .f32⟩ : BufTy).Contents (Elt F)),
    binary main_v575 main_v659 main_v660 (addf : (⟨S4x512x512, .f32⟩ : BufTy).Contents (Elt F) → (⟨S4x512x512, .f32⟩ : BufTy).Contents (Elt F) → (⟨S4x512x512, .f32⟩ : BufTy).Contents (Elt F)),
    nullary main_cst_214 (constant S_ .f32 0x00000000#32),
    unary main_cst_214 main_v661 (broadcastInDim S4x512x512 ![] bcast_S_S4x512x512 : (⟨S_, .f32⟩ : BufTy).Contents (Elt F) → (⟨S4x512x512, .f32⟩ : BufTy).Contents (Elt F)),
    binary main_v574 main_v661 main_v662 (cmpf .oge : (⟨S4x512x512, .f32⟩ : BufTy).Contents (Elt F) → (⟨S4x512x512, .f32⟩ : BufTy).Contents (Elt F) → (⟨S4x512x512, .i1⟩ : BufTy).Contents (Elt F)),
    nullary main_cst_215 (constant S_ .f32 0x42FE0000#32),
    unary main_cst_215 main_v663 (broadcastInDim S4x512x512 ![] bcast_S_S4x512x512 : (⟨S_, .f32⟩ : BufTy).Contents (Elt F) → (⟨S4x512x512, .f32⟩ : BufTy).Contents (Elt F)),
    binary main_v574 main_v663 main_v664 (cmpf .ole : (⟨S4x512x512, .f32⟩ : BufTy).Contents (Elt F) → (⟨S4x512x512, .f32⟩ : BufTy).Contents (Elt F) → (⟨S4x512x512, .i1⟩ : BufTy).Contents (Elt F)),
    binary main_v662 main_v664 main_v665 (andi : (⟨S4x512x512, .i1⟩ : BufTy).Contents (Elt F) → (⟨S4x512x512, .i1⟩ : BufTy).Contents (Elt F) → (⟨S4x512x512, .i1⟩ : BufTy).Contents (Elt F)),
    nullary main_cst_216 (constant S_ .f32 0x00000000#32),
    unary main_cst_216 main_v666 (broadcastInDim S4x512x512 ![] bcast_S_S4x512x512 : (⟨S_, .f32⟩ : BufTy).Contents (Elt F) → (⟨S4x512x512, .f32⟩ : BufTy).Contents (Elt F)),
    binary main_v660 main_v666 main_v667 (cmpf .oge : (⟨S4x512x512, .f32⟩ : BufTy).Contents (Elt F) → (⟨S4x512x512, .f32⟩ : BufTy).Contents (Elt F) → (⟨S4x512x512, .i1⟩ : BufTy).Contents (Elt F)),
    binary main_v665 main_v667 main_v668 (andi : (⟨S4x512x512, .i1⟩ : BufTy).Contents (Elt F) → (⟨S4x512x512, .i1⟩ : BufTy).Contents (Elt F) → (⟨S4x512x512, .i1⟩ : BufTy).Contents (Elt F)),
    nullary main_cst_217 (constant S_ .f32 0x42FE0000#32),
    unary main_cst_217 main_v669 (broadcastInDim S4x512x512 ![] bcast_S_S4x512x512 : (⟨S_, .f32⟩ : BufTy).Contents (Elt F) → (⟨S4x512x512, .f32⟩ : BufTy).Contents (Elt F)),
    binary main_v660 main_v669 main_v670 (cmpf .ole : (⟨S4x512x512, .f32⟩ : BufTy).Contents (Elt F) → (⟨S4x512x512, .f32⟩ : BufTy).Contents (Elt F) → (⟨S4x512x512, .i1⟩ : BufTy).Contents (Elt F)),
    binary main_v668 main_v670 main_v671 (andi : (⟨S4x512x512, .i1⟩ : BufTy).Contents (Elt F) → (⟨S4x512x512, .i1⟩ : BufTy).Contents (Elt F) → (⟨S4x512x512, .i1⟩ : BufTy).Contents (Elt F)),
    nullary main_c_218 (constantI S_ 32 0#32),
    nullary main_c_219 (constantI S_ 32 127#32),
    TRef.unary (TRef.of (T := ⟨S_, .i32⟩) main_c_218) (TRef.of (T := ⟨S_, .f32⟩) main_call28_v0) (sitofp .f32),
    TRef.unary (TRef.of (T := ⟨S_, .f32⟩) main_call28_v0) (TRef.of (T := ⟨S4x512x512, .f32⟩) main_call28_v1) (broadcastInDim S4x512x512 ![] bcast_S_S4x512x512),
    TRef.binary (TRef.of (T := ⟨S4x512x512, .f32⟩) main_call28_v1) (TRef.of (T := ⟨S4x512x512, .f32⟩) main_v574) (TRef.of (T := ⟨S4x512x512, .f32⟩) main_call28_v2) maximumf,
    TRef.unary (TRef.of (T := ⟨S_, .i32⟩) main_c_219) (TRef.of (T := ⟨S_, .f32⟩) main_call28_v3) (sitofp .f32),
    TRef.unary (TRef.of (T := ⟨S_, .f32⟩) main_call28_v3) (TRef.of (T := ⟨S4x512x512, .f32⟩) main_call28_v4) (broadcastInDim S4x512x512 ![] bcast_S_S4x512x512),
    TRef.binary (TRef.of (T := ⟨S4x512x512, .f32⟩) main_call28_v4) (TRef.of (T := ⟨S4x512x512, .f32⟩) main_call28_v2) (TRef.of (T := ⟨S4x512x512, .f32⟩) main_v672) minimumf,
    unary main_v672 main_v673 (fptosi 32 : (⟨S4x512x512, .f32⟩ : BufTy).Contents (Elt F) → (⟨S4x512x512, .i32⟩ : BufTy).Contents (Elt F)),
    nullary main_c_220 (constantI S_ 32 0#32),
    nullary main_c_221 (constantI S_ 32 127#32),
    TRef.unary (TRef.of (T := ⟨S_, .i32⟩) main_c_220) (TRef.of (T := ⟨S_, .f32⟩) main_call29_v0) (sitofp .f32),
    TRef.unary (TRef.of (T := ⟨S_, .f32⟩) main_call29_v0) (TRef.of (T := ⟨S4x512x512, .f32⟩) main_call29_v1) (broadcastInDim S4x512x512 ![] bcast_S_S4x512x512),
    TRef.binary (TRef.of (T := ⟨S4x512x512, .f32⟩) main_call29_v1) (TRef.of (T := ⟨S4x512x512, .f32⟩) main_v660) (TRef.of (T := ⟨S4x512x512, .f32⟩) main_call29_v2) maximumf,
    TRef.unary (TRef.of (T := ⟨S_, .i32⟩) main_c_221) (TRef.of (T := ⟨S_, .f32⟩) main_call29_v3) (sitofp .f32),
    TRef.unary (TRef.of (T := ⟨S_, .f32⟩) main_call29_v3) (TRef.of (T := ⟨S4x512x512, .f32⟩) main_call29_v4) (broadcastInDim S4x512x512 ![] bcast_S_S4x512x512),
    TRef.binary (TRef.of (T := ⟨S4x512x512, .f32⟩) main_call29_v4) (TRef.of (T := ⟨S4x512x512, .f32⟩) main_call29_v2) (TRef.of (T := ⟨S4x512x512, .f32⟩) main_v674) minimumf,
    unary main_v674 main_v675 (fptosi 32 : (⟨S4x512x512, .f32⟩ : BufTy).Contents (Elt F) → (⟨S4x512x512, .i32⟩ : BufTy).Contents (Elt F)) ]

set_option maxRecDepth 16384 in
set_option maxHeartbeats 4000000 in
/-- Part 14 of @main is the line of its operations. -/
theorem part14 (d : Dev nD) : main_part14 (F := F) d = seq ops14 := rfl

set_option maxRecDepth 16384 in
theorem sub14 : (ops14 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩

theorem fresh14 : (ops14 : List (HloOp τ sig (Elt F))).Forall fun op => op.fresh = ∅ := by
  simp only [List.Forall]; repeat' constructor

/-- The operations of part 15, in order. -/
abbrev ops15 : List (HloOp τ sig (Elt F)) :=
  [ nullary main_c_222 (constantI S_ 32 0#32),
    unary main_c_222 main_v676 (broadcastInDim S4x512x512 ![] bcast_S_S4x512x512 : (⟨S_, .i32⟩ : BufTy).Contents (Elt F) → (⟨S4x512x512, .i32⟩ : BufTy).Contents (Elt F)),
    binary main_v675 main_v676 main_v677 (cmpi .slt : (⟨S4x512x512, .i32⟩ : BufTy).Contents (Elt F) → (⟨S4x512x512, .i32⟩ : BufTy).Contents (Elt F) → (⟨S4x512x512, .i1⟩ : BufTy).Contents (Elt F)),
    nullary main_c_223 (constantI S_ 32 128#32),
    unary main_c_223 main_v678 (broadcastInDim S4x512x512 ![] bcast_S_S4x512x512 : (⟨S_, .i32⟩ : BufTy).Contents (Elt F) → (⟨S4x512x512, .i32⟩ : BufTy).Contents (Elt F)),
    binary main_v675 main_v678 main_v679 (addi : (⟨S4x512x512, .i32⟩ : BufTy).Contents (Elt F) → (⟨S4x512x512, .i32⟩ : BufTy).Contents (Elt F) → (⟨S4x512x512, .i32⟩ : BufTy).Contents (Elt F)),
    ternary main_v677 main_v679 main_v675 main_v680 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_224 (constantI S_ 32 0#32),
    unary main_c_224 main_v681 (broadcastInDim S4x512x512 ![] bcast_S_S4x512x512 : (⟨S_, .i32⟩ : BufTy).Contents (Elt F) → (⟨S4x512x512, .i32⟩ : BufTy).Contents (Elt F)),
    binary main_v673 main_v681 main_v682 (cmpi .slt : (⟨S4x512x512, .i32⟩ : BufTy).Contents (Elt F) → (⟨S4x512x512, .i32⟩ : BufTy).Contents (Elt F) → (⟨S4x512x512, .i1⟩ : BufTy).Contents (Elt F)),
    nullary main_c_225 (constantI S_ 32 128#32),
    unary main_c_225 main_v683 (broadcastInDim S4x512x512 ![] bcast_S_S4x512x512 : (⟨S_, .i32⟩ : BufTy).Contents (Elt F) → (⟨S4x512x512, .i32⟩ : BufTy).Contents (Elt F)),
    binary main_v673 main_v683 main_v684 (addi : (⟨S4x512x512, .i32⟩ : BufTy).Contents (Elt F) → (⟨S4x512x512, .i32⟩ : BufTy).Contents (Elt F) → (⟨S4x512x512, .i32⟩ : BufTy).Contents (Elt F)),
    ternary main_v682 main_v684 main_v673 main_v685 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v680 main_v686 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v685 main_v687 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v686 main_v687 main_v688 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg5 main_v688 main_v689 ((fun x i => Host.gather gather_S16x128x128_S4x512x512x2_S16x4x512x512_0_12_n_n_12_3_1611 x i) : (⟨S16x128x128, .f32⟩ : BufTy).Contents (Elt F) → (⟨S4x512x512x2, .i32⟩ : BufTy).Contents (Elt F) → (⟨S16x4x512x512, .f32⟩ : BufTy).Contents (Elt F)),
    unary main_v671 main_v690 (uitofp .f32 : (⟨S4x512x512, .i1⟩ : BufTy).Contents (Elt F) → (⟨S4x512x512, .f32⟩ : BufTy).Contents (Elt F)),
    unary main_v690 main_v691 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v691 main_v692 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v689 main_v692 main_v693 (mulf : (⟨S16x4x512x512, .f32⟩ : BufTy).Contents (Elt F) → (⟨S16x4x512x512, .f32⟩ : BufTy).Contents (Elt F) → (⟨S16x4x512x512, .f32⟩ : BufTy).Contents (Elt F)),
    binary main_v577 main_v579 main_v694 (mulf : (⟨S4x512x512, .f32⟩ : BufTy).Contents (Elt F) → (⟨S4x512x512, .f32⟩ : BufTy).Contents (Elt F) → (⟨S4x512x512, .f32⟩ : BufTy).Contents (Elt F)),
    unary main_v694 main_v695 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v695 main_v696 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v693 main_v696 main_v697 (mulf : (⟨S16x4x512x512, .f32⟩ : BufTy).Contents (Elt F) → (⟨S16x4x512x512, .f32⟩ : BufTy).Contents (Elt F) → (⟨S16x4x512x512, .f32⟩ : BufTy).Contents (Elt F)),
    binary main_v658 main_v697 main_v698 (addf : (⟨S16x4x512x512, .f32⟩ : BufTy).Contents (Elt F) → (⟨S16x4x512x512, .f32⟩ : BufTy).Contents (Elt F) → (⟨S16x4x512x512, .f32⟩ : BufTy).Contents (Elt F)),
    nullary main_cst_226 (constant S_ .f32 0x3F800000#32),
    unary main_cst_226 main_v699 (broadcastInDim S4x512x512 ![] bcast_S_S4x512x512 : (⟨S_, .f32⟩ : BufTy).Contents (Elt F) → (⟨S4x512x512, .f32⟩ : BufTy).Contents (Elt F)),
    binary main_v575 main_v699 main_v700 (addf : (⟨S4x512x512, .f32⟩ : BufTy).Contents (Elt F) → (⟨S4x512x512, .f32⟩ : BufTy).Contents (Elt F) → (⟨S4x512x512, .f32⟩ : BufTy).Contents (Elt F)),
    nullary main_cst_227 (constant S_ .f32 0x3F800000#32),
    unary main_cst_227 main_v701 (broadcastInDim S4x512x512 ![] bcast_S_S4x512x512 : (⟨S_, .f32⟩ : BufTy).Contents (Elt F) → (⟨S4x512x512, .f32⟩ : BufTy).Contents (Elt F)),
    binary main_v574 main_v701 main_v702 (addf : (⟨S4x512x512, .f32⟩ : BufTy).Contents (Elt F) → (⟨S4x512x512, .f32⟩ : BufTy).Contents (Elt F) → (⟨S4x512x512, .f32⟩ : BufTy).Contents (Elt F)),
    nullary main_cst_228 (constant S_ .f32 0x00000000#32),
    unary main_cst_228 main_v703 (broadcastInDim S4x512x512 ![] bcast_S_S4x512x512 : (⟨S_, .f32⟩ : BufTy).Contents (Elt F) → (⟨S4x512x512, .f32⟩ : BufTy).Contents (Elt F)),
    binary main_v702 main_v703 main_v704 (cmpf .oge : (⟨S4x512x512, .f32⟩ : BufTy).Contents (Elt F) → (⟨S4x512x512, .f32⟩ : BufTy).Contents (Elt F) → (⟨S4x512x512, .i1⟩ : BufTy).Contents (Elt F)),
    nullary main_cst_229 (constant S_ .f32 0x42FE0000#32),
    unary main_cst_229 main_v705 (broadcastInDim S4x512x512 ![] bcast_S_S4x512x512 : (⟨S_, .f32⟩ : BufTy).Contents (Elt F) → (⟨S4x512x512, .f32⟩ : BufTy).Contents (Elt F)),
    binary main_v702 main_v705 main_v706 (cmpf .ole : (⟨S4x512x512, .f32⟩ : BufTy).Contents (Elt F) → (⟨S4x512x512, .f32⟩ : BufTy).Contents (Elt F) → (⟨S4x512x512, .i1⟩ : BufTy).Contents (Elt F)),
    binary main_v704 main_v706 main_v707 (andi : (⟨S4x512x512, .i1⟩ : BufTy).Contents (Elt F) → (⟨S4x512x512, .i1⟩ : BufTy).Contents (Elt F) → (⟨S4x512x512, .i1⟩ : BufTy).Contents (Elt F)),
    nullary main_cst_230 (constant S_ .f32 0x00000000#32),
    unary main_cst_230 main_v708 (broadcastInDim S4x512x512 ![] bcast_S_S4x512x512 : (⟨S_, .f32⟩ : BufTy).Contents (Elt F) → (⟨S4x512x512, .f32⟩ : BufTy).Contents (Elt F)),
    binary main_v700 main_v708 main_v709 (cmpf .oge : (⟨S4x512x512, .f32⟩ : BufTy).Contents (Elt F) → (⟨S4x512x512, .f32⟩ : BufTy).Contents (Elt F) → (⟨S4x512x512, .i1⟩ : BufTy).Contents (Elt F)),
    binary main_v707 main_v709 main_v710 (andi : (⟨S4x512x512, .i1⟩ : BufTy).Contents (Elt F) → (⟨S4x512x512, .i1⟩ : BufTy).Contents (Elt F) → (⟨S4x512x512, .i1⟩ : BufTy).Contents (Elt F)),
    nullary main_cst_231 (constant S_ .f32 0x42FE0000#32),
    unary main_cst_231 main_v711 (broadcastInDim S4x512x512 ![] bcast_S_S4x512x512 : (⟨S_, .f32⟩ : BufTy).Contents (Elt F) → (⟨S4x512x512, .f32⟩ : BufTy).Contents (Elt F)),
    binary main_v700 main_v711 main_v712 (cmpf .ole : (⟨S4x512x512, .f32⟩ : BufTy).Contents (Elt F) → (⟨S4x512x512, .f32⟩ : BufTy).Contents (Elt F) → (⟨S4x512x512, .i1⟩ : BufTy).Contents (Elt F)),
    binary main_v710 main_v712 main_v713 (andi : (⟨S4x512x512, .i1⟩ : BufTy).Contents (Elt F) → (⟨S4x512x512, .i1⟩ : BufTy).Contents (Elt F) → (⟨S4x512x512, .i1⟩ : BufTy).Contents (Elt F)),
    nullary main_c_232 (constantI S_ 32 0#32),
    nullary main_c_233 (constantI S_ 32 127#32),
    TRef.unary (TRef.of (T := ⟨S_, .i32⟩) main_c_232) (TRef.of (T := ⟨S_, .f32⟩) main_call30_v0) (sitofp .f32),
    TRef.unary (TRef.of (T := ⟨S_, .f32⟩) main_call30_v0) (TRef.of (T := ⟨S4x512x512, .f32⟩) main_call30_v1) (broadcastInDim S4x512x512 ![] bcast_S_S4x512x512),
    TRef.binary (TRef.of (T := ⟨S4x512x512, .f32⟩) main_call30_v1) (TRef.of (T := ⟨S4x512x512, .f32⟩) main_v702) (TRef.of (T := ⟨S4x512x512, .f32⟩) main_call30_v2) maximumf,
    TRef.unary (TRef.of (T := ⟨S_, .i32⟩) main_c_233) (TRef.of (T := ⟨S_, .f32⟩) main_call30_v3) (sitofp .f32),
    TRef.unary (TRef.of (T := ⟨S_, .f32⟩) main_call30_v3) (TRef.of (T := ⟨S4x512x512, .f32⟩) main_call30_v4) (broadcastInDim S4x512x512 ![] bcast_S_S4x512x512),
    TRef.binary (TRef.of (T := ⟨S4x512x512, .f32⟩) main_call30_v4) (TRef.of (T := ⟨S4x512x512, .f32⟩) main_call30_v2) (TRef.of (T := ⟨S4x512x512, .f32⟩) main_v714) minimumf,
    unary main_v714 main_v715 (fptosi 32 : (⟨S4x512x512, .f32⟩ : BufTy).Contents (Elt F) → (⟨S4x512x512, .i32⟩ : BufTy).Contents (Elt F)),
    nullary main_c_234 (constantI S_ 32 0#32),
    nullary main_c_235 (constantI S_ 32 127#32),
    TRef.unary (TRef.of (T := ⟨S_, .i32⟩) main_c_234) (TRef.of (T := ⟨S_, .f32⟩) main_call31_v0) (sitofp .f32),
    TRef.unary (TRef.of (T := ⟨S_, .f32⟩) main_call31_v0) (TRef.of (T := ⟨S4x512x512, .f32⟩) main_call31_v1) (broadcastInDim S4x512x512 ![] bcast_S_S4x512x512),
    TRef.binary (TRef.of (T := ⟨S4x512x512, .f32⟩) main_call31_v1) (TRef.of (T := ⟨S4x512x512, .f32⟩) main_v700) (TRef.of (T := ⟨S4x512x512, .f32⟩) main_call31_v2) maximumf,
    TRef.unary (TRef.of (T := ⟨S_, .i32⟩) main_c_235) (TRef.of (T := ⟨S_, .f32⟩) main_call31_v3) (sitofp .f32),
    TRef.unary (TRef.of (T := ⟨S_, .f32⟩) main_call31_v3) (TRef.of (T := ⟨S4x512x512, .f32⟩) main_call31_v4) (broadcastInDim S4x512x512 ![] bcast_S_S4x512x512),
    TRef.binary (TRef.of (T := ⟨S4x512x512, .f32⟩) main_call31_v4) (TRef.of (T := ⟨S4x512x512, .f32⟩) main_call31_v2) (TRef.of (T := ⟨S4x512x512, .f32⟩) main_v716) minimumf,
    unary main_v716 main_v717 (fptosi 32 : (⟨S4x512x512, .f32⟩ : BufTy).Contents (Elt F) → (⟨S4x512x512, .i32⟩ : BufTy).Contents (Elt F)),
    nullary main_c_236 (constantI S_ 32 0#32),
    unary main_c_236 main_v718 (broadcastInDim S4x512x512 ![] bcast_S_S4x512x512 : (⟨S_, .i32⟩ : BufTy).Contents (Elt F) → (⟨S4x512x512, .i32⟩ : BufTy).Contents (Elt F)),
    binary main_v717 main_v718 main_v719 (cmpi .slt : (⟨S4x512x512, .i32⟩ : BufTy).Contents (Elt F) → (⟨S4x512x512, .i32⟩ : BufTy).Contents (Elt F) → (⟨S4x512x512, .i1⟩ : BufTy).Contents (Elt F)),
    nullary main_c_237 (constantI S_ 32 128#32) ]

set_option maxRecDepth 16384 in
set_option maxHeartbeats 4000000 in
/-- Part 15 of @main is the line of its operations. -/
theorem part15 (d : Dev nD) : main_part15 (F := F) d = seq ops15 := rfl

set_option maxRecDepth 16384 in
theorem sub15 : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub ..⟩

theorem fresh15 : (ops15 : List (HloOp τ sig (Elt F))).Forall fun op => op.fresh = ∅ := by
  simp only [List.Forall]; repeat' constructor

/-- The operations of part 16, in order. -/
abbrev ops16 : List (HloOp τ sig (Elt F)) :=
  [ unary main_c_237 main_v720 (broadcastInDim S4x512x512 ![] bcast_S_S4x512x512 : (⟨S_, .i32⟩ : BufTy).Contents (Elt F) → (⟨S4x512x512, .i32⟩ : BufTy).Contents (Elt F)),
    binary main_v717 main_v720 main_v721 (addi : (⟨S4x512x512, .i32⟩ : BufTy).Contents (Elt F) → (⟨S4x512x512, .i32⟩ : BufTy).Contents (Elt F) → (⟨S4x512x512, .i32⟩ : BufTy).Contents (Elt F)),
    ternary main_v719 main_v721 main_v717 main_v722 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    nullary main_c_238 (constantI S_ 32 0#32),
    unary main_c_238 main_v723 (broadcastInDim S4x512x512 ![] bcast_S_S4x512x512 : (⟨S_, .i32⟩ : BufTy).Contents (Elt F) → (⟨S4x512x512, .i32⟩ : BufTy).Contents (Elt F)),
    binary main_v715 main_v723 main_v724 (cmpi .slt : (⟨S4x512x512, .i32⟩ : BufTy).Contents (Elt F) → (⟨S4x512x512, .i32⟩ : BufTy).Contents (Elt F) → (⟨S4x512x512, .i1⟩ : BufTy).Contents (Elt F)),
    nullary main_c_239 (constantI S_ 32 128#32),
    unary main_c_239 main_v725 (broadcastInDim S4x512x512 ![] bcast_S_S4x512x512 : (⟨S_, .i32⟩ : BufTy).Contents (Elt F) → (⟨S4x512x512, .i32⟩ : BufTy).Contents (Elt F)),
    binary main_v715 main_v725 main_v726 (addi : (⟨S4x512x512, .i32⟩ : BufTy).Contents (Elt F) → (⟨S4x512x512, .i32⟩ : BufTy).Contents (Elt F) → (⟨S4x512x512, .i32⟩ : BufTy).Contents (Elt F)),
    ternary main_v724 main_v726 main_v715 main_v727 (select : (⟨S4x512x512, .i1⟩ : BufTy).Contents (Elt F) → (⟨S4x512x512, .i32⟩ : BufTy).Contents (Elt F) → (⟨S4x512x512, .i32⟩ : BufTy).Contents (Elt F) → (⟨S4x512x512, .i32⟩ : BufTy).Contents (Elt F)),
    unary main_v722 main_v728 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    unary main_v727 main_v729 (broadcastInDim S4x512x512x1 ![0, 1, 2] bcast_S4x512x512_S4x512x512x1_0_1_2 : (⟨S4x512x512, .i32⟩ : BufTy).Contents (Elt F) → (⟨S4x512x512x1, .i32⟩ : BufTy).Contents (Elt F)),
    binary main_v728 main_v729 main_v730 ((fun a b => concatenate S4x512x512x2 3 [⟨S4x512x512x1, a⟩, ⟨S4x512x512x1, b⟩] concatenates_S4x512x512x1_S4x512x512x1_S4x512x512x2_d3) : (⟨S4x512x512x1, .i32⟩ : BufTy).Contents (Elt F) → (⟨S4x512x512x1, .i32⟩ : BufTy).Contents (Elt F) → (⟨S4x512x512x2, .i32⟩ : BufTy).Contents (Elt F)),
    binary main_arg5 main_v730 main_v731 ((fun x i => Host.gather gather_S16x128x128_S4x512x512x2_S16x4x512x512_0_12_n_n_12_3_1611 x i) : (⟨S16x128x128, .f32⟩ : BufTy).Contents (Elt F) → (⟨S4x512x512x2, .i32⟩ : BufTy).Contents (Elt F) → (⟨S16x4x512x512, .f32⟩ : BufTy).Contents (Elt F)),
    unary main_v713 main_v732 (uitofp .f32 : (⟨S4x512x512, .i1⟩ : BufTy).Contents (Elt F) → (⟨S4x512x512, .f32⟩ : BufTy).Contents (Elt F)),
    unary main_v732 main_v733 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v733 main_v734 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v731 main_v734 main_v735 (mulf : (⟨S16x4x512x512, .f32⟩ : BufTy).Contents (Elt F) → (⟨S16x4x512x512, .f32⟩ : BufTy).Contents (Elt F) → (⟨S16x4x512x512, .f32⟩ : BufTy).Contents (Elt F)),
    binary main_v577 main_v576 main_v736 (mulf : (⟨S4x512x512, .f32⟩ : BufTy).Contents (Elt F) → (⟨S4x512x512, .f32⟩ : BufTy).Contents (Elt F) → (⟨S4x512x512, .f32⟩ : BufTy).Contents (Elt F)),
    unary main_v736 main_v737 (broadcastInDim S1x4x512x512 ![1, 2, 3] bcast_S4x512x512_S1x4x512x512_1_2_3 : (⟨S4x512x512, .f32⟩ : BufTy).Contents (Elt F) → (⟨S1x4x512x512, .f32⟩ : BufTy).Contents (Elt F)),
    unary main_v737 main_v738 (broadcastInDim S16x4x512x512 ![0, 1, 2, 3] bcast_S1x4x512x512_S16x4x512x512_0_1_2_3 : (⟨S1x4x512x512, .f32⟩ : BufTy).Contents (Elt F) → (⟨S16x4x512x512, .f32⟩ : BufTy).Contents (Elt F)),
    binary main_v735 main_v738 main_v739 (mulf : (⟨S16x4x512x512, .f32⟩ : BufTy).Contents (Elt F) → (⟨S16x4x512x512, .f32⟩ : BufTy).Contents (Elt F) → (⟨S16x4x512x512, .f32⟩ : BufTy).Contents (Elt F)),
    binary main_v698 main_v739 main_v740 (addf : (⟨S16x4x512x512, .f32⟩ : BufTy).Contents (Elt F) → (⟨S16x4x512x512, .f32⟩ : BufTy).Contents (Elt F) → (⟨S16x4x512x512, .f32⟩ : BufTy).Contents (Elt F)),
    unary main_v740 main_v741 ((transpose S4x16x512x512 [1, 0, 2, 3] · transposes_S16x4x512x512_S4x16x512x512_1_0_2_3) : (⟨S16x4x512x512, .f32⟩ : BufTy).Contents (Elt F) → (⟨S4x16x512x512, .f32⟩ : BufTy).Contents (Elt F)),
    binary main_v557 main_v741 main_v742 (addf : (⟨S4x16x512x512, .f32⟩ : BufTy).Contents (Elt F) → (⟨S4x16x512x512, .f32⟩ : BufTy).Contents (Elt F) → (⟨S4x16x512x512, .f32⟩ : BufTy).Contents (Elt F)),
    unary main_arg1 main_v743 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v743 main_v744 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v742 main_v744 main_v745 (mulf : (⟨S4x16x512x512, .f32⟩ : BufTy).Contents (Elt F) → (⟨S4x16x512x512, .f32⟩ : BufTy).Contents (Elt F) → (⟨S4x16x512x512, .f32⟩ : BufTy).Contents (Elt F)) ]

set_option maxRecDepth 16384 in
set_option maxHeartbeats 4000000 in
/-- Part 16 of @main is the line of its operations. -/
theorem part16 (d : Dev nD) : main_part16 (F := F) d = seq ops16 := rfl

set_option maxRecDepth 16384 in
theorem sub16 : (ops16 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., binary_bufs_sub .., unary_bufs_sub .., unary_bufs_sub .., binary_bufs_sub ..⟩

theorem fresh16 : (ops16 : List (HloOp τ sig (Elt F))).Forall fun op => op.fresh = ∅ := by
  simp only [List.Forall]; repeat' constructor

/-- All the operations of @main: the 17 stretches one after the other. -/
abbrev allOps : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16))))))))))))))))

/-- @main is the line of all its operations. -/
theorem main_eq (c : Dev nD) : main (F := F) c = seq allOps := by
  unfold main
  simp only [allOps, seq_append, part0, part1, part2, part3, part4, part5, part6, part7, part8, part9, part10, part11, part12, part13, part14, part15, part16]

/-- Every operation touches TensorCore buffers only. -/
theorem all_sub : (allOps : List (HloOp τ sig (Elt F))).Forall fun op => op.bufs ⊆ tcRefs τ sig :=
  Stretches.forall_append _ _ sub0 (Stretches.forall_append _ _ sub1 (Stretches.forall_append _ _ sub2 (Stretches.forall_append _ _ sub3 (Stretches.forall_append _ _ sub4 (Stretches.forall_append _ _ sub5 (Stretches.forall_append _ _ sub6 (Stretches.forall_append _ _ sub7 (Stretches.forall_append _ _ sub8 (Stretches.forall_append _ _ sub9 (Stretches.forall_append _ _ sub10 (Stretches.forall_append _ _ sub11 (Stretches.forall_append _ _ sub12 (Stretches.forall_append _ _ sub13 (Stretches.forall_append _ _ sub14 (Stretches.forall_append _ _ sub15 (sub16))))))))))))))))

/-- Every operation determines its results. -/
theorem all_fresh : (allOps : List (HloOp τ sig (Elt F))).Forall fun op => op.fresh = ∅ :=
  Stretches.forall_append _ _ fresh0 (Stretches.forall_append _ _ fresh1 (Stretches.forall_append _ _ fresh2 (Stretches.forall_append _ _ fresh3 (Stretches.forall_append _ _ fresh4 (Stretches.forall_append _ _ fresh5 (Stretches.forall_append _ _ fresh6 (Stretches.forall_append _ _ fresh7 (Stretches.forall_append _ _ fresh8 (Stretches.forall_append _ _ fresh9 (Stretches.forall_append _ _ fresh10 (Stretches.forall_append _ _ fresh11 (Stretches.forall_append _ _ fresh12 (Stretches.forall_append _ _ fresh13 (Stretches.forall_append _ _ fresh14 (Stretches.forall_append _ _ fresh15 (fresh16))))))))))))))))

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefOps

end
-- ==== Proof.RefRun.lean ====
/-
  The reference's run, read for what the comparison needs. The reference is one straight line of 1148 host operations;
  every weakly fair execution of it ends with each buffer at the fold of the operations over the launch contents. Read
  at the result buffer the fold is the masked sum of the four tables sampled channels-first at the queries (the
  operations evaluated stretch by stretch, every value that several later operations read evaluated once), and read at
  an argument buffer it is the argument, since no operation writes an argument.
-/
import proofs.«142769_j46222438040249_2_alg».proof.Proof.RefOps
import proofs.«142769_j46222438040249_2_alg».proof.Proof.Sampling

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

variable (m : (ℓ : Loc nD τ sig) → Buf (Elt Ideal) ℓ) (ρ : Dev nD → PrngReg)

/-- The masked sum of the four sampled layers of the arguments as launched. -/
abbrev spec (c : Dev nD) : FVec Ideal S4x16x512x512 .f32 :=
  Cert.Sampling.combined
      (Cert.Sampling.layerFirst (F := Ideal) (m := 1024) gather_S16x1024x1024_S4x512x512x2_S16x4x512x512_0_12_n_n_12_3_1611_wf 0x447FC000#32 1023#32 1024#32
        (m ((c.tc : Thread nD τ).loc main_arg2)) (m ((c.tc : Thread nD τ).loc main_arg0)))
      (Cert.Sampling.layerFirst (F := Ideal) (m := 512) gather_S16x512x512_S4x512x512x2_S16x4x512x512_0_12_n_n_12_3_1611_wf 0x43FF8000#32 511#32 512#32
        (m ((c.tc : Thread nD τ).loc main_arg3)) (m ((c.tc : Thread nD τ).loc main_arg0)))
      (Cert.Sampling.layerFirst (F := Ideal) (m := 256) gather_S16x256x256_S4x512x512x2_S16x4x512x512_0_12_n_n_12_3_1611_wf 0x437F0000#32 255#32 256#32
        (m ((c.tc : Thread nD τ).loc main_arg4)) (m ((c.tc : Thread nD τ).loc main_arg0)))
      (Cert.Sampling.layerFirst (F := Ideal) (m := 128) gather_S16x128x128_S4x512x512x2_S16x4x512x512_0_12_n_n_12_3_1611_wf 0x42FE0000#32 127#32 128#32
        (m ((c.tc : Thread nD τ).loc main_arg5)) (m ((c.tc : Thread nD τ).loc main_arg0)))
      (m ((c.tc : Thread nD τ).loc main_arg1))

set_option maxRecDepth 65536 in
set_option maxHeartbeats 0 in
/-- The fold of the operations, read at the result buffer, is the masked sum. -/
theorem value (c : Dev nD) :
    (after (allOps (F := Ideal)) (launchContents m c) (Proc.devRef .tc main_v745) : FVec Ideal S4x16x512x512 .f32) = spec m c := by
  simp only [allOps, Stretches.after_append]
  after_results_simp
  rfl

set_option maxRecDepth 65536 in
set_option maxHeartbeats 0 in
/-- No operation writes `main_arg0`. -/
theorem kept0 (c : Dev nD) :
    after (allOps (F := Ideal)) (launchContents m c) (Proc.devRef .tc main_arg0) = m ((c.tc : Thread nD τ).loc main_arg0) :=
  after_of_forall_not_mem (b := Proc.devRef .tc main_arg0) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

set_option maxRecDepth 65536 in
set_option maxHeartbeats 0 in
/-- No operation writes `main_arg1`. -/
theorem kept1 (c : Dev nD) :
    after (allOps (F := Ideal)) (launchContents m c) (Proc.devRef .tc main_arg1) = m ((c.tc : Thread nD τ).loc main_arg1) :=
  after_of_forall_not_mem (b := Proc.devRef .tc main_arg1) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

set_option maxRecDepth 65536 in
set_option maxHeartbeats 0 in
/-- No operation writes `main_arg2`. -/
theorem kept2 (c : Dev nD) :
    after (allOps (F := Ideal)) (launchContents m c) (Proc.devRef .tc main_arg2) = m ((c.tc : Thread nD τ).loc main_arg2) :=
  after_of_forall_not_mem (b := Proc.devRef .tc main_arg2) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

set_option maxRecDepth 65536 in
set_option maxHeartbeats 0 in
/-- No operation writes `main_arg3`. -/
theorem kept3 (c : Dev nD) :
    after (allOps (F := Ideal)) (launchContents m c) (Proc.devRef .tc main_arg3) = m ((c.tc : Thread nD τ).loc main_arg3) :=
  after_of_forall_not_mem (b := Proc.devRef .tc main_arg3) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

set_option maxRecDepth 65536 in
set_option maxHeartbeats 0 in
/-- No operation writes `main_arg4`. -/
theorem kept4 (c : Dev nD) :
    after (allOps (F := Ideal)) (launchContents m c) (Proc.devRef .tc main_arg4) = m ((c.tc : Thread nD τ).loc main_arg4) :=
  after_of_forall_not_mem (b := Proc.devRef .tc main_arg4) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

set_option maxRecDepth 65536 in
set_option maxHeartbeats 0 in
/-- No operation writes `main_arg5`. -/
theorem kept5 (c : Dev nD) :
    after (allOps (F := Ideal)) (launchContents m c) (Proc.devRef .tc main_arg5) = m ((c.tc : Thread nD τ).loc main_arg5) :=
  after_of_forall_not_mem (b := Proc.devRef .tc main_arg5) _ _ (List.forall_iff_forall_mem.mp (by
    simp only [allOps, ops0, ops1, ops2, ops3, ops4, ops5, ops6, ops7, ops8, ops9, ops10, ops11, ops12, ops13, ops14, ops15, ops16, List.cons_append, List.nil_append,
      List.Forall, nullary_writes, unary_writes, binary_writes, ternary_writes, quaternary_writes, reshape_writes,
      binaryIndexed_writes, Finset.mem_singleton]
    repeat' apply And.intro
    all_goals exact devRef_ne_of_ne (by decide)))

/-- THE RUN: every weakly fair execution of the reference terminates with the result at the masked sum of the four
    sampled layers and the arguments unchanged. -/
theorem run : θ_run defs (onTc (τ := τ) (main (F := Ideal))) ⟨m, fun _ => 0, ρ⟩ fun r => ∀ c : Dev nD,
      r.2.mem ((c.tc : Thread nD τ).loc main_v745) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v745).trans (value m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c)⟩)
    (run_seq scopedRefs_eq scopedSems_eq defs main (fun _ => allOps) main_eq (fun _ => all_sub) m ρ
      (fun _ op hop => List.forall_iff_forall_mem.mp all_fresh op hop))

end Cert.ReferenceIdeal.RefRun

end
-- ==== Proof.lean ====
/-
  Four square tables of 16 channels (sides 1024, 512, 256, 128) are sampled bilinearly at 4 × 512 × 512 query points,
  the four sampled layers are added and the sum is multiplied by a per-query mask.

  The reference gathers from each table channels-first and multiplies a corner's fetched entry first by the 0 / 1
  indicator that the corner lies in the table and then by its bilinear weight. The kernel's program transposes each
  table to channels-last, gathers, and multiplies the fetched entry by the product weight · indicator; the four
  layer arrays then go through a combining kernel that, block of 16 rows by block, adds them and multiplies by the
  mask. Everything else — the pixel positions, the floors, the weights, the indicators, the clipped integer indices —
  is the same chain of array operations in both programs, named once (Proof/Sampling.lean) and never opened.

  Over the extended reals the two results agree entry by entry: both gathers read the table at the same clamped
  (channel, row, column) (Proof/LibGatherPlanes.lean), and  a · (w · v) = (a · v) · w  by commutativity and associativity of
  the product, which hold for all extended reals, so the finiteness of the inputs is not used (Proof/SamplingLaw.lean).
  The kernel side reads the combining kernel's output array off its frame run (Proof/KernelFinal.lean) and the four
  arrays it stages off the host operations in front of it (Proof/KernelLayer1 … 4.lean); the reference side evaluates its
  straight line of host operations (Proof/RefRun.lean). The ideal pass rewrote nothing, so `preserves` has nothing to show.
-/
import proofs.«142769_j46222438040249_2_alg».proof.Defs
import proofs.«142769_j46222438040249_2_alg».proof.Proof.Gen.Kernel
import proofs.«142769_j46222438040249_2_alg».proof.Proof.Gen.KernelIdeal
import proofs.«142769_j46222438040249_2_alg».proof.Proof.Gen.ReferenceIdeal
import proofs.«142769_j46222438040249_2_alg».proof.Proof.Gen.Pre_finite_inputs
import proofs.«142769_j46222438040249_2_alg».proof.Proof.KernelFrame
import proofs.«142769_j46222438040249_2_alg».proof.Proof.KernelFinal
import proofs.«142769_j46222438040249_2_alg».proof.Proof.KernelLayer1
import proofs.«142769_j46222438040249_2_alg».proof.Proof.KernelLayer2
import proofs.«142769_j46222438040249_2_alg».proof.Proof.KernelLayer3
import proofs.«142769_j46222438040249_2_alg».proof.Proof.KernelLayer4
import proofs.«142769_j46222438040249_2_alg».proof.Proof.RefRun
import proofs.«142769_j46222438040249_2_alg».proof.Proof.SamplingLaw
import Idealize.ShloMosaic.Adequacy
import Idealize.ShloMosaic.Init

noncomputable section

namespace Cert.Proof

open Idealize.ShloMosaic Idealize.ShloMosaic.TcCoe Idealize.SL.Sem Idealize.ShloMosaic.ValueIdx

/-- From memories that agree on the arguments, the reference's result is the array the kernel's program ends
    with: both are the masked sum of the four sampled layers, spelt channels-first on one side and channels-last on
    the other, and the two spellings of a layer agree at every entry. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.RefRun.spec m' c : FVec Ideal Cert.Sampling.Out .f32) = Cert.KernelIdeal.Final.G m c := by
  unfold Cert.ReferenceIdeal.RefRun.spec
  rw [h0, h1, h2, h3, h4, h5]
  show _ = Cert.Sampling.combined (F := Ideal) (Cert.KernelIdeal.GenP.V m c Cert.KernelIdeal.main_v180)
    (Cert.KernelIdeal.GenP.V m c Cert.KernelIdeal.main_v353) (Cert.KernelIdeal.GenP.V m c Cert.KernelIdeal.main_v526)
    (Cert.KernelIdeal.GenP.V m c Cert.KernelIdeal.main_v699) (Cert.KernelIdeal.GenP.V m c Cert.KernelIdeal.main_arg1)
  rw [Cert.KernelIdeal.Layers.layer1 m c, Cert.KernelIdeal.Layers.layer2 m c, Cert.KernelIdeal.Layers.layer3 m c,
    Cert.KernelIdeal.Layers.layer4 m c, Cert.KernelIdeal.GenP.V_main_arg1 m c]
  funext i
  obtain ⟨b, ch, h, q, rfl⟩ : ∃ (b : Fin 4) (ch : Fin 16) (h q : Fin 512), i = ix4 b ch h q :=
    ⟨i 0, i 1, i 2, i 3, eq_ix4 i⟩
  rw [Cert.Sampling.combined_apply, Cert.Sampling.combined_apply,
    Cert.Sampling.layer_eq (by decide : 0 < 1024), Cert.Sampling.layer_eq (by decide : 0 < 512),
    Cert.Sampling.layer_eq (by decide : 0 < 256), Cert.Sampling.layer_eq (by decide : 0 < 128)]

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs run and end with the masked sum of the four sampled layers, the arguments unchanged. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5⟩ := hagree c
  exact results_agree m m' c h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
